-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x80x128x128 : Shape := ⟨4, ![16, 80, 128, 128]⟩
abbrev S_ : Shape := ⟨0, ![]⟩

class Facts : Prop where
  bcast_S_S16x80x128x128 : S_.BroadcastsInDim S16x80x128x128 (![] : Fin 0 → Fin S16x80x128x128.rank)
  reducesTo_S16x80x128x128_S_d0_1_2_3 : S16x80x128x128.ReducesTo [0, 1, 2, 3] S_
  h_S_ : 0 < S_.numel

variable [Facts]

def fn {F : FTy → Type} [FloatOps F] (main_arg0 : FVec F S16x80x128x128 .f32) : IVec S_ 1 :=
  let main_v0 : FVec F S16x80x128x128 .f32 := Host.absf main_arg0
  let main_cst : FVec F S_ .f32 := constant S_ .f32 0x7F800000#32
  let main_v1 : FVec F S16x80x128x128 .f32 := broadcastInDim S16x80x128x128 ![] bcast_S_S16x80x128x128 main_cst
  let main_v2 : IVec S16x80x128x128 1 := cmpf .olt main_v0 main_v1
  let main_c : IVec S_ 1 := constantI S_ 1 1#1
  let main_v3 : IVec S_ 1 := (fun x v => Host.reduce IntOp.andi x v reducesTo_S16x80x128x128_S_d0_1_2_3 h_S_) main_v2 main_c
  main_v3
-- ==== Kernel.lean ====
abbrev S16x80x128x128 : Shape := ⟨4, ![16, 80, 128, 128]⟩
abbrev S1280x128x128 : Shape := ⟨3, ![1280, 128, 128]⟩
abbrev S32x128x128 : Shape := ⟨3, ![32, 128, 128]⟩
abbrev S_ : Shape := ⟨0, ![]⟩
abbrev S20971520 : Shape := ⟨1, ![20971520]⟩
abbrev S16384 : Shape := ⟨1, ![16384]⟩
abbrev S20971520x1 : Shape := ⟨2, ![20971520, 1]⟩
abbrev S16384x1 : Shape := ⟨2, ![16384, 1]⟩
abbrev S16384x4 : Shape := ⟨2, ![16384, 4]⟩

abbrev nBuf : Space → Nat
  | .hbm => 215
  | .vmem => 4
  | .smem => 0
  | _ => 0

abbrev hbmTy0_0 (i : Nat) : BufTy := match i % 128 with
  | 0 => ⟨S16x80x128x128, .f32⟩
  | 1 => ⟨S1280x128x128, .f32⟩
  | 2 => ⟨S1280x128x128, .i32⟩
  | 3 => ⟨S16x80x128x128, .i32⟩
  | 4 => ⟨S_, .i32⟩
  | 5 => ⟨S16x80x128x128, .i32⟩
  | 6 => ⟨S16x80x128x128, .i1⟩
  | 7 => ⟨S20971520, .i1⟩
  | 8 => ⟨S20971520, .i32⟩
  | 9 => ⟨S_, .i32⟩
  | 10 => ⟨S_, .i32⟩
  | 11 => ⟨S20971520, .i32⟩
  | 12 => ⟨S_, .i32⟩
  | 13 => ⟨S16384, .i32⟩
  | 14 => ⟨S_, .i32⟩
  | 15 => ⟨S_, .i32⟩
  | 16 => ⟨S20971520, .i32⟩
  | 17 => ⟨S20971520, .i32⟩
  | 18 => ⟨S_, .i32⟩
  | 19 => ⟨S20971520, .i32⟩
  | 20 => ⟨S20971520, .i1⟩
  | 21 => ⟨S_, .i32⟩
  | 22 => ⟨S20971520, .i32⟩
  | 23 => ⟨S20971520, .i32⟩
  | 24 => ⟨S20971520, .i32⟩
  | 25 => ⟨S20971520x1, .i32⟩
  | 26 => ⟨S_, .i32⟩
  | 27 => ⟨S20971520, .i32⟩
  | 28 => ⟨S16384, .i32⟩
  | 29 => ⟨S_, .i32⟩
  | 30 => ⟨S_, .i32⟩
  | 31 => ⟨S16384, .i32⟩
  | 32 => ⟨S_, .i32⟩
  | 33 => ⟨S16384, .i32⟩
  | 34 => ⟨S16384, .i32⟩
  | 35 => ⟨S16384, .i32⟩
  | 36 => ⟨S_, .i32⟩
  | 37 => ⟨S16384, .i32⟩
  | 38 => ⟨S16384, .i1⟩
  | 39 => ⟨S16384, .i32⟩
  | 40 => ⟨S16384, .i32⟩
  | 41 => ⟨S_, .i32⟩
  | 42 => ⟨S16384, .i32⟩
  | 43 => ⟨S16384, .i1⟩
  | 44 => ⟨S16384, .i1⟩
  | 45 => ⟨S_, .i32⟩
  | 46 => ⟨S16384, .i32⟩
  | 47 => ⟨S16384, .i32⟩
  | 48 => ⟨S16384, .i32⟩
  | 49 => ⟨S_, .i32⟩
  | 50 => ⟨S_, .i32⟩
  | 51 => ⟨S_, .i32⟩
  | 52 => ⟨S_, .i1⟩
  | 53 => ⟨S_, .i32⟩
  | 54 => ⟨S_, .i32⟩
  | 55 => ⟨S16384, .i32⟩
  | 56 => ⟨S16384, .i32⟩
  | 57 => ⟨S_, .i32⟩
  | 58 => ⟨S16384, .i32⟩
  | 59 => ⟨S16384, .i1⟩
  | 60 => ⟨S_, .i32⟩
  | 61 => ⟨S16384, .i32⟩
  | 62 => ⟨S16384, .i1⟩
  | 63 => ⟨S_, .i32⟩
  | 64 => ⟨S_, .i1⟩
  | 65 => ⟨S16384, .i1⟩
  | 66 => ⟨S16384, .i1⟩
  | 67 => ⟨S16384, .i1⟩
  | 68 => ⟨S16384, .i32⟩
  | 69 => ⟨S16384, .i32⟩
  | 70 => ⟨S16384, .i32⟩
  | 71 => ⟨S_, .i32⟩
  | 72 => ⟨S16384, .i32⟩
  | 73 => ⟨S16384, .i32⟩
  | 74 => ⟨S16384, .i32⟩
  | 75 => ⟨S_, .i32⟩
  | 76 => ⟨S16384, .i32⟩
  | 77 => ⟨S16384, .i1⟩
  | 78 => ⟨S16384, .i32⟩
  | 79 => ⟨S16384, .i32⟩
  | 80 => ⟨S_, .i32⟩
  | 81 => ⟨S16384, .i32⟩
  | 82 => ⟨S16384, .i1⟩
  | 83 => ⟨S16384, .i1⟩
  | 84 => ⟨S_, .i32⟩
  | 85 => ⟨S16384, .i32⟩
  | 86 => ⟨S16384, .i32⟩
  | 87 => ⟨S16384, .i32⟩
  | 88 => ⟨S_, .i32⟩
  | 89 => ⟨S_, .i32⟩
  | 90 => ⟨S_, .i32⟩
  | 91 => ⟨S_, .i1⟩
  | 92 => ⟨S_, .i32⟩
  | 93 => ⟨S_, .i32⟩
  | 94 => ⟨S16384, .i32⟩
  | 95 => ⟨S16384, .i32⟩
  | 96 => ⟨S_, .i32⟩
  | 97 => ⟨S16384, .i32⟩
  | 98 => ⟨S16384, .i1⟩
  | 99 => ⟨S_, .i32⟩
  | 100 => ⟨S16384, .i32⟩
  | 101 => ⟨S16384, .i1⟩
  | 102 => ⟨S_, .i32⟩
  | 103 => ⟨S_, .i1⟩
  | 104 => ⟨S16384, .i1⟩
  | 105 => ⟨S16384, .i1⟩
  | 106 => ⟨S16384, .i1⟩
  | 107 => ⟨S16384, .i32⟩
  | 108 => ⟨S16384, .i32⟩
  | 109 => ⟨S16384, .i32⟩
  | 110 => ⟨S_, .i32⟩
  | 111 => ⟨S16384, .i32⟩
  | 112 => ⟨S16384, .i32⟩
  | 113 => ⟨S16384, .i32⟩
  | 114 => ⟨S_, .i32⟩
  | 115 => ⟨S16384, .i32⟩
  | 116 => ⟨S16384, .i1⟩
  | 117 => ⟨S16384, .i32⟩
  | 118 => ⟨S16384, .i32⟩
  | 119 => ⟨S_, .i32⟩
  | 120 => ⟨S16384, .i32⟩
  | 121 => ⟨S16384, .i1⟩
  | 122 => ⟨S16384, .i1⟩
  | 123 => ⟨S_, .i32⟩
  | 124 => ⟨S16384, .i32⟩
  | 125 => ⟨S16384, .i32⟩
  | 126 => ⟨S16384, .i32⟩
  | 127 => ⟨S_, .i32⟩
  | _ => ⟨S16x80x128x128, .f32⟩

abbrev hbmTy0_1 (i : Nat) : BufTy := match i % 128 with
  | 0 => ⟨S_, .i32⟩
  | 1 => ⟨S_, .i32⟩
  | 2 => ⟨S_, .i1⟩
  | 3 => ⟨S_, .i32⟩
  | 4 => ⟨S_, .i32⟩
  | 5 => ⟨S16384, .i32⟩
  | 6 => ⟨S16384, .i32⟩
  | 7 => ⟨S_, .i32⟩
  | 8 => ⟨S16384, .i32⟩
  | 9 => ⟨S16384, .i1⟩
  | 10 => ⟨S_, .i32⟩
  | 11 => ⟨S16384, .i32⟩
  | 12 => ⟨S16384, .i1⟩
  | 13 => ⟨S_, .i32⟩
  | 14 => ⟨S_, .i1⟩
  | 15 => ⟨S16384, .i1⟩
  | 16 => ⟨S16384, .i1⟩
  | 17 => ⟨S16384, .i1⟩
  | 18 => ⟨S16384, .i32⟩
  | 19 => ⟨S16384, .i32⟩
  | 20 => ⟨S16384, .i32⟩
  | 21 => ⟨S_, .i32⟩
  | 22 => ⟨S16384, .i32⟩
  | 23 => ⟨S16384, .i32⟩
  | 24 => ⟨S16384, .i32⟩
  | 25 => ⟨S_, .i32⟩
  | 26 => ⟨S16384, .i32⟩
  | 27 => ⟨S16384, .i1⟩
  | 28 => ⟨S16384, .i32⟩
  | 29 => ⟨S16384, .i32⟩
  | 30 => ⟨S_, .i32⟩
  | 31 => ⟨S16384, .i32⟩
  | 32 => ⟨S16384, .i1⟩
  | 33 => ⟨S16384, .i1⟩
  | 34 => ⟨S_, .i32⟩
  | 35 => ⟨S16384, .i32⟩
  | 36 => ⟨S16384, .i32⟩
  | 37 => ⟨S16384, .i32⟩
  | 38 => ⟨S_, .i32⟩
  | 39 => ⟨S_, .i32⟩
  | 40 => ⟨S_, .i32⟩
  | 41 => ⟨S_, .i1⟩
  | 42 => ⟨S_, .i32⟩
  | 43 => ⟨S_, .i32⟩
  | 44 => ⟨S16384, .i32⟩
  | 45 => ⟨S16384, .i32⟩
  | 46 => ⟨S_, .i32⟩
  | 47 => ⟨S16384, .i32⟩
  | 48 => ⟨S16384, .i1⟩
  | 49 => ⟨S_, .i32⟩
  | 50 => ⟨S16384, .i32⟩
  | 51 => ⟨S16384, .i1⟩
  | 52 => ⟨S_, .i32⟩
  | 53 => ⟨S_, .i1⟩
  | 54 => ⟨S16384, .i1⟩
  | 55 => ⟨S16384, .i1⟩
  | 56 => ⟨S16384, .i1⟩
  | 57 => ⟨S16384, .i32⟩
  | 58 => ⟨S16384, .i32⟩
  | 59 => ⟨S16384, .i32⟩
  | 60 => ⟨S16384, .i32⟩
  | 61 => ⟨S16x80x128x128, .i32⟩
  | 62 => ⟨S_, .i32⟩
  | 63 => ⟨S_, .i32⟩
  | 64 => ⟨S16384, .i32⟩
  | 65 => ⟨S16384, .i1⟩
  | 66 => ⟨S_, .i32⟩
  | 67 => ⟨S_, .i32⟩
  | 68 => ⟨S16384, .i32⟩
  | 69 => ⟨S16384, .i32⟩
  | 70 => ⟨S_, .i32⟩
  | 71 => ⟨S_, .i32⟩
  | 72 => ⟨S16384, .i32⟩
  | 73 => ⟨S16384, .i32⟩
  | 74 => ⟨S_, .i32⟩
  | 75 => ⟨S_, .i32⟩
  | 76 => ⟨S16384, .i32⟩
  | 77 => ⟨S16384, .i32⟩
  | 78 => ⟨S_, .i32⟩
  | 79 => ⟨S_, .i32⟩
  | 80 => ⟨S16384, .i32⟩
  | 81 => ⟨S16384, .i32⟩
  | 82 => ⟨S16384x1, .i32⟩
  | 83 => ⟨S16384x1, .i32⟩
  | 84 => ⟨S16384x1, .i32⟩
  | 85 => ⟨S16384x1, .i32⟩
  | 86 => ⟨S16384x4, .i32⟩
  | _ => ⟨S16x80x128x128, .f32⟩

abbrev hbmTy (i : Nat) : BufTy := match i / 128 with
  | 0 => hbmTy0_0 i
  | 1 => hbmTy0_1 i
  | _ => ⟨S16x80x128x128, .f32⟩

abbrev bufTy : (tb : Table) → Fin (tcTables nBuf tb) → BufTy
  | .hbm, ⟨i, _⟩ => hbmTy i
  | .local _ .vmem, ⟨0, _⟩ => ⟨S32x128x128, .f32⟩
  | .local _ .vmem, ⟨1, _⟩ => ⟨S32x128x128, .f32⟩
  | .local _ .vmem, ⟨2, _⟩ => ⟨S32x128x128, .i32⟩
  | .local _ .vmem, ⟨3, _⟩ => ⟨S32x128x128, .i32⟩
  | _, _ => ⟨S16x80x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_c : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_v1 : Ref sig .tc := ⟨.hbm, 8, rfl⟩
abbrev main_call0_call0_c : Ref sig .tc := ⟨.hbm, 9, rfl⟩
abbrev main_call0_call0_v0 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_c_1 : Ref sig .tc := ⟨.hbm, 14, rfl⟩
abbrev main_call1_v0 : Ref sig .tc := ⟨.hbm, 15, rfl⟩
abbrev main_call1_v1 : Ref sig .tc := ⟨.hbm, 16, rfl⟩
abbrev main_v7 : Ref sig .tc := ⟨.hbm, 17, rfl⟩
abbrev main_c_2 : Ref sig .tc := ⟨.hbm, 18, rfl⟩
abbrev main_v8 : Ref sig .tc := ⟨.hbm, 19, rfl⟩
abbrev main_v9 : Ref sig .tc := ⟨.hbm, 20, rfl⟩
abbrev main_c_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_4 : Ref sig .tc := ⟨.hbm, 26, rfl⟩
abbrev main_v14 : Ref sig .tc := ⟨.hbm, 27, rfl⟩
abbrev main_v15 : Ref sig .tc := ⟨.hbm, 28, rfl⟩
abbrev main_call2_call0_c : Ref sig .tc := ⟨.hbm, 29, rfl⟩
abbrev main_call2_call0_v0 : Ref sig .tc := ⟨.hbm, 30, rfl⟩
abbrev main_v16 : Ref sig .tc := ⟨.hbm, 31, rfl⟩
abbrev main_c_5 : Ref sig .tc := ⟨.hbm, 32, rfl⟩
abbrev main_call3_v0 : Ref sig .tc := ⟨.hbm, 33, rfl⟩
abbrev main_call3_v1 : Ref sig .tc := ⟨.hbm, 34, rfl⟩
abbrev main_call3_v2 : Ref sig .tc := ⟨.hbm, 35, rfl⟩
abbrev main_call3_v3 : Ref sig .tc := ⟨.hbm, 36, rfl⟩
abbrev main_call3_v4 : Ref sig .tc := ⟨.hbm, 37, rfl⟩
abbrev main_call3_v5 : Ref sig .tc := ⟨.hbm, 38, rfl⟩
abbrev main_call3_v6 : Ref sig .tc := ⟨.hbm, 39, rfl⟩
abbrev main_call3_v7 : Ref sig .tc := ⟨.hbm, 40, rfl⟩
abbrev main_call3_c : Ref sig .tc := ⟨.hbm, 41, rfl⟩
abbrev main_call3_v8 : Ref sig .tc := ⟨.hbm, 42, rfl⟩
abbrev main_call3_v9 : Ref sig .tc := ⟨.hbm, 43, rfl⟩
abbrev main_call3_v10 : Ref sig .tc := ⟨.hbm, 44, rfl⟩
abbrev main_call3_c_0 : Ref sig .tc := ⟨.hbm, 45, rfl⟩
abbrev main_call3_v11 : Ref sig .tc := ⟨.hbm, 46, rfl⟩
abbrev main_call3_v12 : Ref sig .tc := ⟨.hbm, 47, rfl⟩
abbrev main_v17 : Ref sig .tc := ⟨.hbm, 48, rfl⟩
abbrev main_c_6 : Ref sig .tc := ⟨.hbm, 49, rfl⟩
abbrev main_call4_v0 : Ref sig .tc := ⟨.hbm, 50, rfl⟩
abbrev main_call4_c : Ref sig .tc := ⟨.hbm, 51, rfl⟩
abbrev main_call4_v1 : Ref sig .tc := ⟨.hbm, 52, rfl⟩
abbrev main_call4_c_0 : Ref sig .tc := ⟨.hbm, 53, rfl⟩
abbrev main_call4_v2 : Ref sig .tc := ⟨.hbm, 54, rfl⟩
abbrev main_call4_v3 : Ref sig .tc := ⟨.hbm, 55, rfl⟩
abbrev main_call4_v4 : Ref sig .tc := ⟨.hbm, 56, rfl⟩
abbrev main_call4_c_1 : Ref sig .tc := ⟨.hbm, 57, rfl⟩
abbrev main_call4_v5 : Ref sig .tc := ⟨.hbm, 58, rfl⟩
abbrev main_call4_v6 : Ref sig .tc := ⟨.hbm, 59, rfl⟩
abbrev main_call4_c_2 : Ref sig .tc := ⟨.hbm, 60, rfl⟩
abbrev main_call4_v7 : Ref sig .tc := ⟨.hbm, 61, rfl⟩
abbrev main_call4_v8 : Ref sig .tc := ⟨.hbm, 62, rfl⟩
abbrev main_call4_c_3 : Ref sig .tc := ⟨.hbm, 63, rfl⟩
abbrev main_call4_v9 : Ref sig .tc := ⟨.hbm, 64, rfl⟩
abbrev main_call4_v10 : Ref sig .tc := ⟨.hbm, 65, rfl⟩
abbrev main_call4_v11 : Ref sig .tc := ⟨.hbm, 66, rfl⟩
abbrev main_call4_v12 : Ref sig .tc := ⟨.hbm, 67, rfl⟩
abbrev main_call4_v13 : Ref sig .tc := ⟨.hbm, 68, rfl⟩
abbrev main_call4_v14 : Ref sig .tc := ⟨.hbm, 69, rfl⟩
abbrev main_v18 : Ref sig .tc := ⟨.hbm, 70, rfl⟩
abbrev main_c_7 : Ref sig .tc := ⟨.hbm, 71, rfl⟩
abbrev main_call5_v0 : Ref sig .tc := ⟨.hbm, 72, rfl⟩
abbrev main_call5_v1 : Ref sig .tc := ⟨.hbm, 73, rfl⟩
abbrev main_call5_v2 : Ref sig .tc := ⟨.hbm, 74, rfl⟩
abbrev main_call5_v3 : Ref sig .tc := ⟨.hbm, 75, rfl⟩
abbrev main_call5_v4 : Ref sig .tc := ⟨.hbm, 76, rfl⟩
abbrev main_call5_v5 : Ref sig .tc := ⟨.hbm, 77, rfl⟩
abbrev main_call5_v6 : Ref sig .tc := ⟨.hbm, 78, rfl⟩
abbrev main_call5_v7 : Ref sig .tc := ⟨.hbm, 79, rfl⟩
abbrev main_call5_c : Ref sig .tc := ⟨.hbm, 80, rfl⟩
abbrev main_call5_v8 : Ref sig .tc := ⟨.hbm, 81, rfl⟩
abbrev main_call5_v9 : Ref sig .tc := ⟨.hbm, 82, rfl⟩
abbrev main_call5_v10 : Ref sig .tc := ⟨.hbm, 83, rfl⟩
abbrev main_call5_c_0 : Ref sig .tc := ⟨.hbm, 84, rfl⟩
abbrev main_call5_v11 : Ref sig .tc := ⟨.hbm, 85, rfl⟩
abbrev main_call5_v12 : Ref sig .tc := ⟨.hbm, 86, rfl⟩
abbrev main_v19 : Ref sig .tc := ⟨.hbm, 87, rfl⟩
abbrev main_c_8 : Ref sig .tc := ⟨.hbm, 88, rfl⟩
abbrev main_call6_v0 : Ref sig .tc := ⟨.hbm, 89, rfl⟩
abbrev main_call6_c : Ref sig .tc := ⟨.hbm, 90, rfl⟩
abbrev main_call6_v1 : Ref sig .tc := ⟨.hbm, 91, rfl⟩
abbrev main_call6_c_0 : Ref sig .tc := ⟨.hbm, 92, rfl⟩
abbrev main_call6_v2 : Ref sig .tc := ⟨.hbm, 93, rfl⟩
abbrev main_call6_v3 : Ref sig .tc := ⟨.hbm, 94, rfl⟩
abbrev main_call6_v4 : Ref sig .tc := ⟨.hbm, 95, rfl⟩
abbrev main_call6_c_1 : Ref sig .tc := ⟨.hbm, 96, rfl⟩
abbrev main_call6_v5 : Ref sig .tc := ⟨.hbm, 97, rfl⟩
abbrev main_call6_v6 : Ref sig .tc := ⟨.hbm, 98, rfl⟩
abbrev main_call6_c_2 : Ref sig .tc := ⟨.hbm, 99, rfl⟩
abbrev main_call6_v7 : Ref sig .tc := ⟨.hbm, 100, rfl⟩
abbrev main_call6_v8 : Ref sig .tc := ⟨.hbm, 101, rfl⟩
abbrev main_call6_c_3 : Ref sig .tc := ⟨.hbm, 102, rfl⟩
abbrev main_call6_v9 : Ref sig .tc := ⟨.hbm, 103, rfl⟩
abbrev main_call6_v10 : Ref sig .tc := ⟨.hbm, 104, rfl⟩
abbrev main_call6_v11 : Ref sig .tc := ⟨.hbm, 105, rfl⟩
abbrev main_call6_v12 : Ref sig .tc := ⟨.hbm, 106, rfl⟩
abbrev main_call6_v13 : Ref sig .tc := ⟨.hbm, 107, rfl⟩
abbrev main_call6_v14 : Ref sig .tc := ⟨.hbm, 108, rfl⟩
abbrev main_v20 : Ref sig .tc := ⟨.hbm, 109, rfl⟩
abbrev main_c_9 : Ref sig .tc := ⟨.hbm, 110, rfl⟩
abbrev main_call7_v0 : Ref sig .tc := ⟨.hbm, 111, rfl⟩
abbrev main_call7_v1 : Ref sig .tc := ⟨.hbm, 112, rfl⟩
abbrev main_call7_v2 : Ref sig .tc := ⟨.hbm, 113, rfl⟩
abbrev main_call7_v3 : Ref sig .tc := ⟨.hbm, 114, rfl⟩
abbrev main_call7_v4 : Ref sig .tc := ⟨.hbm, 115, rfl⟩
abbrev main_call7_v5 : Ref sig .tc := ⟨.hbm, 116, rfl⟩
abbrev main_call7_v6 : Ref sig .tc := ⟨.hbm, 117, rfl⟩
abbrev main_call7_v7 : Ref sig .tc := ⟨.hbm, 118, rfl⟩
abbrev main_call7_c : Ref sig .tc := ⟨.hbm, 119, rfl⟩
abbrev main_call7_v8 : Ref sig .tc := ⟨.hbm, 120, rfl⟩
abbrev main_call7_v9 : Ref sig .tc := ⟨.hbm, 121, rfl⟩
abbrev main_call7_v10 : Ref sig .tc := ⟨.hbm, 122, rfl⟩
abbrev main_call7_c_0 : Ref sig .tc := ⟨.hbm, 123, rfl⟩
abbrev main_call7_v11 : Ref sig .tc := ⟨.hbm, 124, rfl⟩
abbrev main_call7_v12 : Ref sig .tc := ⟨.hbm, 125, rfl⟩
abbrev main_v21 : Ref sig .tc := ⟨.hbm, 126, rfl⟩
abbrev main_c_10 : Ref sig .tc := ⟨.hbm, 127, rfl⟩
abbrev main_call8_v0 : Ref sig .tc := ⟨.hbm, 128, rfl⟩
abbrev main_call8_c : Ref sig .tc := ⟨.hbm, 129, rfl⟩
abbrev main_call8_v1 : Ref sig .tc := ⟨.hbm, 130, rfl⟩
abbrev main_call8_c_0 : Ref sig .tc := ⟨.hbm, 131, rfl⟩
abbrev main_call8_v2 : Ref sig .tc := ⟨.hbm, 132, rfl⟩
abbrev main_call8_v3 : Ref sig .tc := ⟨.hbm, 133, rfl⟩
abbrev main_call8_v4 : Ref sig .tc := ⟨.hbm, 134, rfl⟩
abbrev main_call8_c_1 : Ref sig .tc := ⟨.hbm, 135, rfl⟩
abbrev main_call8_v5 : Ref sig .tc := ⟨.hbm, 136, rfl⟩
abbrev main_call8_v6 : Ref sig .tc := ⟨.hbm, 137, rfl⟩
abbrev main_call8_c_2 : Ref sig .tc := ⟨.hbm, 138, rfl⟩
abbrev main_call8_v7 : Ref sig .tc := ⟨.hbm, 139, rfl⟩
abbrev main_call8_v8 : Ref sig .tc := ⟨.hbm, 140, rfl⟩
abbrev main_call8_c_3 : Ref sig .tc := ⟨.hbm, 141, rfl⟩
abbrev main_call8_v9 : Ref sig .tc := ⟨.hbm, 142, rfl⟩
abbrev main_call8_v10 : Ref sig .tc := ⟨.hbm, 143, rfl⟩
abbrev main_call8_v11 : Ref sig .tc := ⟨.hbm, 144, rfl⟩
abbrev main_call8_v12 : Ref sig .tc := ⟨.hbm, 145, rfl⟩
abbrev main_call8_v13 : Ref sig .tc := ⟨.hbm, 146, rfl⟩
abbrev main_call8_v14 : Ref sig .tc := ⟨.hbm, 147, rfl⟩
abbrev main_v22 : Ref sig .tc := ⟨.hbm, 148, rfl⟩
abbrev main_c_11 : Ref sig .tc := ⟨.hbm, 149, rfl⟩
abbrev main_call9_v0 : Ref sig .tc := ⟨.hbm, 150, rfl⟩
abbrev main_call9_v1 : Ref sig .tc := ⟨.hbm, 151, rfl⟩
abbrev main_call9_v2 : Ref sig .tc := ⟨.hbm, 152, rfl⟩
abbrev main_call9_v3 : Ref sig .tc := ⟨.hbm, 153, rfl⟩
abbrev main_call9_v4 : Ref sig .tc := ⟨.hbm, 154, rfl⟩
abbrev main_call9_v5 : Ref sig .tc := ⟨.hbm, 155, rfl⟩
abbrev main_call9_v6 : Ref sig .tc := ⟨.hbm, 156, rfl⟩
abbrev main_call9_v7 : Ref sig .tc := ⟨.hbm, 157, rfl⟩
abbrev main_call9_c : Ref sig .tc := ⟨.hbm, 158, rfl⟩
abbrev main_call9_v8 : Ref sig .tc := ⟨.hbm, 159, rfl⟩
abbrev main_call9_v9 : Ref sig .tc := ⟨.hbm, 160, rfl⟩
abbrev main_call9_v10 : Ref sig .tc := ⟨.hbm, 161, rfl⟩
abbrev main_call9_c_0 : Ref sig .tc := ⟨.hbm, 162, rfl⟩
abbrev main_call9_v11 : Ref sig .tc := ⟨.hbm, 163, rfl⟩
abbrev main_call9_v12 : Ref sig .tc := ⟨.hbm, 164, rfl⟩
abbrev main_v23 : Ref sig .tc := ⟨.hbm, 165, rfl⟩
abbrev main_c_12 : Ref sig .tc := ⟨.hbm, 166, rfl⟩
abbrev main_call10_v0 : Ref sig .tc := ⟨.hbm, 167, rfl⟩
abbrev main_call10_c : Ref sig .tc := ⟨.hbm, 168, rfl⟩
abbrev main_call10_v1 : Ref sig .tc := ⟨.hbm, 169, rfl⟩
abbrev main_call10_c_0 : Ref sig .tc := ⟨.hbm, 170, rfl⟩
abbrev main_call10_v2 : Ref sig .tc := ⟨.hbm, 171, rfl⟩
abbrev main_call10_v3 : Ref sig .tc := ⟨.hbm, 172, rfl⟩
abbrev main_call10_v4 : Ref sig .tc := ⟨.hbm, 173, rfl⟩
abbrev main_call10_c_1 : Ref sig .tc := ⟨.hbm, 174, rfl⟩
abbrev main_call10_v5 : Ref sig .tc := ⟨.hbm, 175, rfl⟩
abbrev main_call10_v6 : Ref sig .tc := ⟨.hbm, 176, rfl⟩
abbrev main_call10_c_2 : Ref sig .tc := ⟨.hbm, 177, rfl⟩
abbrev main_call10_v7 : Ref sig .tc := ⟨.hbm, 178, rfl⟩
abbrev main_call10_v8 : Ref sig .tc := ⟨.hbm, 179, rfl⟩
abbrev main_call10_c_3 : Ref sig .tc := ⟨.hbm, 180, rfl⟩
abbrev main_call10_v9 : Ref sig .tc := ⟨.hbm, 181, rfl⟩
abbrev main_call10_v10 : Ref sig .tc := ⟨.hbm, 182, rfl⟩
abbrev main_call10_v11 : Ref sig .tc := ⟨.hbm, 183, rfl⟩
abbrev main_call10_v12 : Ref sig .tc := ⟨.hbm, 184, rfl⟩
abbrev main_call10_v13 : Ref sig .tc := ⟨.hbm, 185, rfl⟩
abbrev main_call10_v14 : Ref sig .tc := ⟨.hbm, 186, rfl⟩
abbrev main_v24 : Ref sig .tc := ⟨.hbm, 187, rfl⟩
abbrev main_v25 : Ref sig .tc := ⟨.hbm, 188, rfl⟩
abbrev main_v26 : Ref sig .tc := ⟨.hbm, 189, rfl⟩
abbrev main_c_13 : Ref sig .tc := ⟨.hbm, 190, rfl⟩
abbrev main_v27 : Ref sig .tc := ⟨.hbm, 191, rfl⟩
abbrev main_v28 : Ref sig .tc := ⟨.hbm, 192, rfl⟩
abbrev main_v29 : Ref sig .tc := ⟨.hbm, 193, rfl⟩
abbrev main_c_14 : Ref sig .tc := ⟨.hbm, 194, rfl⟩
abbrev main_call11_v0 : Ref sig .tc := ⟨.hbm, 195, rfl⟩
abbrev main_call11_v1 : Ref sig .tc := ⟨.hbm, 196, rfl⟩
abbrev main_v30 : Ref sig .tc := ⟨.hbm, 197, rfl⟩
abbrev main_c_15 : Ref sig .tc := ⟨.hbm, 198, rfl⟩
abbrev main_call12_v0 : Ref sig .tc := ⟨.hbm, 199, rfl⟩
abbrev main_call12_v1 : Ref sig .tc := ⟨.hbm, 200, rfl⟩
abbrev main_v31 : Ref sig .tc := ⟨.hbm, 201, rfl⟩
abbrev main_c_16 : Ref sig .tc := ⟨.hbm, 202, rfl⟩
abbrev main_call13_v0 : Ref sig .tc := ⟨.hbm, 203, rfl⟩
abbrev main_call13_v1 : Ref sig .tc := ⟨.hbm, 204, rfl⟩
abbrev main_v32 : Ref sig .tc := ⟨.hbm, 205, rfl⟩
abbrev main_c_17 : Ref sig .tc := ⟨.hbm, 206, rfl⟩
abbrev main_call14_v0 : Ref sig .tc := ⟨.hbm, 207, rfl⟩
abbrev main_call14_v1 : Ref sig .tc := ⟨.hbm, 208, rfl⟩
abbrev main_v33 : Ref sig .tc := ⟨.hbm, 209, rfl⟩
abbrev main_v34 : Ref sig .tc := ⟨.hbm, 210, rfl⟩
abbrev main_v35 : Ref sig .tc := ⟨.hbm, 211, rfl⟩
abbrev main_v36 : Ref sig .tc := ⟨.hbm, 212, rfl⟩
abbrev main_v37 : Ref sig .tc := ⟨.hbm, 213, rfl⟩
abbrev main_v38 : Ref sig .tc := ⟨.hbm, 214, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![40], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x128x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S16x80x128x128_S1280x128x128 : S16x80x128x128.ShapeCasts S1280x128x128
  inb_S32x128x128_S32x128x128_0_0_0 : ∀ a, (![0, 0, 0] : Fin 3 → Nat) a + S32x128x128.size a ≤ S32x128x128.size a
  h_S32x128x128 : 0 < S32x128x128.numel
  shapeCasts_S32x128x128_S32x128x128 : S32x128x128.ShapeCasts S32x128x128
  iota_S32x128x128_d1_w32 : S32x128x128.Iotas .tc 32 [1]
  rotates_S32x128x128_d1 : S32x128x128.Rotates 1 none
  iota_S32x128x128_d2_w32 : S32x128x128.Iotas .tc 32 [2]
  rotates_S32x128x128_d2 : S32x128x128.Rotates 2 none
  natLt_1_32 : 1 < 32
  shapeCasts_S1280x128x128_S16x80x128x128 : S1280x128x128.ShapeCasts S16x80x128x128
  bcast_S_S16x80x128x128 : S_.BroadcastsInDim S16x80x128x128 (![] : Fin 0 → Fin S16x80x128x128.rank)
  shapeCasts_S16x80x128x128_S20971520 : S16x80x128x128.ShapeCasts S20971520
  bcast_S_S_ : S_.BroadcastsInDim S_ (![] : Fin 0 → Fin S_.rank)
  reduceWindows_S20971520_S20971520_w20971520s1p20971519_0 : S20971520.ReduceWindows (![20971520] : Fin 1 → Nat) ![1] ![20971519] ![0] S20971520
  h_S_ : 0 < S_.numel
  bcast_S_S16384 : S_.BroadcastsInDim S16384 (![] : Fin 0 → Fin S16384.rank)
  bcast_S_S20971520 : S_.BroadcastsInDim S20971520 (![] : Fin 0 → Fin S20971520.rank)
  bcast_S20971520_S20971520x1_0 : S20971520.BroadcastsInDim S20971520x1 (![0] : Fin 1 → Fin S20971520x1.rank)
  reduceWindows_S16384_S16384_w16384s1p16383_0 : S16384.ReduceWindows (![16384] : Fin 1 → Nat) ![1] ![16383] ![0] S16384
  reducesTo_S16x80x128x128_S_d0_1_2_3 : S16x80x128x128.ReducesTo [0, 1, 2, 3] S_
  bcast_S16384_S16384x1_0 : S16384.BroadcastsInDim S16384x1 (![0] : Fin 1 → Fin S16384x1.rank)
  concatenates_S16384x1_S16384x1_S16384x1_S16384x1_S16384x4_d1 : Shape.Concatenates [S16384x1, S16384x1, S16384x1, S16384x1] S16384x4 1
  scatter_S16384_S20971520x1_S20971520_n_0_0_1_wf : ScatterDims.WF S16384 S20971520x1 S20971520 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x128x128.size a ≤ S1280x128x128.size a
  hwx0_0 : ∀ i : grid0.Coords, EltTy.bits .f32 = 32 ∨ (Rect.block (s := S1280x128x128) S32x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x128x128.size a ≤ S1280x128x128.size a
  hwx0_1 : ∀ i : grid0.Coords, EltTy.bits .i32 = 32 ∨ (Rect.block (s := S1280x128x128) S32x128x128.size (cc0_transform_1 i) (hinb0_1 i)).WholeWords (EltTy.packing .i32)

variable [Facts₀]

def scatter_S16384_S20971520x1_S20971520_n_0_0_1 : ScatterDims S16384 S20971520x1 S20971520 where
  updateWindowDims := []
  insertedWindowDims := [0]
  scatterDimsToOperandDims := [0]
  indexVectorDim := 1
  wf := scatter_S16384_S20971520x1_S20971520_n_0_0_1_wf

abbrev win0_0 : Pipeline.Window sig grid0 :=
  Pipeline.Window.ofSpec (Memref.whole main_v0) S32x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S32x128x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x80x128x128 : Shape := ⟨4, ![16, 80, 128, 128]⟩
abbrev S_ : Shape := ⟨0, ![]⟩
abbrev S20971520 : Shape := ⟨1, ![20971520]⟩
abbrev S16384 : Shape := ⟨1, ![16384]⟩
abbrev S20971520x1 : Shape := ⟨2, ![20971520, 1]⟩
abbrev S16384x1 : Shape := ⟨2, ![16384, 1]⟩
abbrev S16384x4 : Shape := ⟨2, ![16384, 4]⟩

abbrev nBuf : Space → Nat
  | .hbm => 220
  | .vmem => 0
  | .smem => 0
  | _ => 0

abbrev hbmTy0_0 (i : Nat) : BufTy := match i % 128 with
  | 0 => ⟨S16x80x128x128, .f32⟩
  | 1 => ⟨S_, .f32⟩
  | 2 => ⟨S_, .f32⟩
  | 3 => ⟨S16x80x128x128, .f32⟩
  | 4 => ⟨S_, .f32⟩
  | 5 => ⟨S_, .f32⟩
  | 6 => ⟨S16x80x128x128, .f32⟩
  | 7 => ⟨S16x80x128x128, .i1⟩
  | 8 => ⟨S_, .f32⟩
  | 9 => ⟨S16x80x128x128, .f32⟩
  | 10 => ⟨S16x80x128x128, .i1⟩
  | 11 => ⟨S16x80x128x128, .i1⟩
  | 12 => ⟨S20971520, .i1⟩
  | 13 => ⟨S20971520, .i32⟩
  | 14 => ⟨S_, .i32⟩
  | 15 => ⟨S_, .i32⟩
  | 16 => ⟨S20971520, .i32⟩
  | 17 => ⟨S_, .i32⟩
  | 18 => ⟨S16384, .i32⟩
  | 19 => ⟨S_, .i32⟩
  | 20 => ⟨S_, .i32⟩
  | 21 => ⟨S20971520, .i32⟩
  | 22 => ⟨S20971520, .i32⟩
  | 23 => ⟨S_, .i32⟩
  | 24 => ⟨S20971520, .i32⟩
  | 25 => ⟨S20971520, .i1⟩
  | 26 => ⟨S_, .i32⟩
  | 27 => ⟨S20971520, .i32⟩
  | 28 => ⟨S20971520, .i32⟩
  | 29 => ⟨S20971520, .i32⟩
  | 30 => ⟨S20971520x1, .i32⟩
  | 31 => ⟨S_, .i32⟩
  | 32 => ⟨S20971520, .i32⟩
  | 33 => ⟨S16384, .i32⟩
  | 34 => ⟨S_, .i32⟩
  | 35 => ⟨S_, .i32⟩
  | 36 => ⟨S16384, .i32⟩
  | 37 => ⟨S_, .i32⟩
  | 38 => ⟨S16384, .i32⟩
  | 39 => ⟨S16384, .i32⟩
  | 40 => ⟨S16384, .i32⟩
  | 41 => ⟨S_, .i32⟩
  | 42 => ⟨S16384, .i32⟩
  | 43 => ⟨S16384, .i1⟩
  | 44 => ⟨S16384, .i32⟩
  | 45 => ⟨S16384, .i32⟩
  | 46 => ⟨S_, .i32⟩
  | 47 => ⟨S16384, .i32⟩
  | 48 => ⟨S16384, .i1⟩
  | 49 => ⟨S16384, .i1⟩
  | 50 => ⟨S_, .i32⟩
  | 51 => ⟨S16384, .i32⟩
  | 52 => ⟨S16384, .i32⟩
  | 53 => ⟨S16384, .i32⟩
  | 54 => ⟨S_, .i32⟩
  | 55 => ⟨S_, .i32⟩
  | 56 => ⟨S_, .i32⟩
  | 57 => ⟨S_, .i1⟩
  | 58 => ⟨S_, .i32⟩
  | 59 => ⟨S_, .i32⟩
  | 60 => ⟨S16384, .i32⟩
  | 61 => ⟨S16384, .i32⟩
  | 62 => ⟨S_, .i32⟩
  | 63 => ⟨S16384, .i32⟩
  | 64 => ⟨S16384, .i1⟩
  | 65 => ⟨S_, .i32⟩
  | 66 => ⟨S16384, .i32⟩
  | 67 => ⟨S16384, .i1⟩
  | 68 => ⟨S_, .i32⟩
  | 69 => ⟨S_, .i1⟩
  | 70 => ⟨S16384, .i1⟩
  | 71 => ⟨S16384, .i1⟩
  | 72 => ⟨S16384, .i1⟩
  | 73 => ⟨S16384, .i32⟩
  | 74 => ⟨S16384, .i32⟩
  | 75 => ⟨S16384, .i32⟩
  | 76 => ⟨S_, .i32⟩
  | 77 => ⟨S16384, .i32⟩
  | 78 => ⟨S16384, .i32⟩
  | 79 => ⟨S16384, .i32⟩
  | 80 => ⟨S_, .i32⟩
  | 81 => ⟨S16384, .i32⟩
  | 82 => ⟨S16384, .i1⟩
  | 83 => ⟨S16384, .i32⟩
  | 84 => ⟨S16384, .i32⟩
  | 85 => ⟨S_, .i32⟩
  | 86 => ⟨S16384, .i32⟩
  | 87 => ⟨S16384, .i1⟩
  | 88 => ⟨S16384, .i1⟩
  | 89 => ⟨S_, .i32⟩
  | 90 => ⟨S16384, .i32⟩
  | 91 => ⟨S16384, .i32⟩
  | 92 => ⟨S16384, .i32⟩
  | 93 => ⟨S_, .i32⟩
  | 94 => ⟨S_, .i32⟩
  | 95 => ⟨S_, .i32⟩
  | 96 => ⟨S_, .i1⟩
  | 97 => ⟨S_, .i32⟩
  | 98 => ⟨S_, .i32⟩
  | 99 => ⟨S16384, .i32⟩
  | 100 => ⟨S16384, .i32⟩
  | 101 => ⟨S_, .i32⟩
  | 102 => ⟨S16384, .i32⟩
  | 103 => ⟨S16384, .i1⟩
  | 104 => ⟨S_, .i32⟩
  | 105 => ⟨S16384, .i32⟩
  | 106 => ⟨S16384, .i1⟩
  | 107 => ⟨S_, .i32⟩
  | 108 => ⟨S_, .i1⟩
  | 109 => ⟨S16384, .i1⟩
  | 110 => ⟨S16384, .i1⟩
  | 111 => ⟨S16384, .i1⟩
  | 112 => ⟨S16384, .i32⟩
  | 113 => ⟨S16384, .i32⟩
  | 114 => ⟨S16384, .i32⟩
  | 115 => ⟨S_, .i32⟩
  | 116 => ⟨S16384, .i32⟩
  | 117 => ⟨S16384, .i32⟩
  | 118 => ⟨S16384, .i32⟩
  | 119 => ⟨S_, .i32⟩
  | 120 => ⟨S16384, .i32⟩
  | 121 => ⟨S16384, .i1⟩
  | 122 => ⟨S16384, .i32⟩
  | 123 => ⟨S16384, .i32⟩
  | 124 => ⟨S_, .i32⟩
  | 125 => ⟨S16384, .i32⟩
  | 126 => ⟨S16384, .i1⟩
  | 127 => ⟨S16384, .i1⟩
  | _ => ⟨S16x80x128x128, .f32⟩

abbrev hbmTy0_1 (i : Nat) : BufTy := match i % 128 with
  | 0 => ⟨S_, .i32⟩
  | 1 => ⟨S16384, .i32⟩
  | 2 => ⟨S16384, .i32⟩
  | 3 => ⟨S16384, .i32⟩
  | 4 => ⟨S_, .i32⟩
  | 5 => ⟨S_, .i32⟩
  | 6 => ⟨S_, .i32⟩
  | 7 => ⟨S_, .i1⟩
  | 8 => ⟨S_, .i32⟩
  | 9 => ⟨S_, .i32⟩
  | 10 => ⟨S16384, .i32⟩
  | 11 => ⟨S16384, .i32⟩
  | 12 => ⟨S_, .i32⟩
  | 13 => ⟨S16384, .i32⟩
  | 14 => ⟨S16384, .i1⟩
  | 15 => ⟨S_, .i32⟩
  | 16 => ⟨S16384, .i32⟩
  | 17 => ⟨S16384, .i1⟩
  | 18 => ⟨S_, .i32⟩
  | 19 => ⟨S_, .i1⟩
  | 20 => ⟨S16384, .i1⟩
  | 21 => ⟨S16384, .i1⟩
  | 22 => ⟨S16384, .i1⟩
  | 23 => ⟨S16384, .i32⟩
  | 24 => ⟨S16384, .i32⟩
  | 25 => ⟨S16384, .i32⟩
  | 26 => ⟨S_, .i32⟩
  | 27 => ⟨S16384, .i32⟩
  | 28 => ⟨S16384, .i32⟩
  | 29 => ⟨S16384, .i32⟩
  | 30 => ⟨S_, .i32⟩
  | 31 => ⟨S16384, .i32⟩
  | 32 => ⟨S16384, .i1⟩
  | 33 => ⟨S16384, .i32⟩
  | 34 => ⟨S16384, .i32⟩
  | 35 => ⟨S_, .i32⟩
  | 36 => ⟨S16384, .i32⟩
  | 37 => ⟨S16384, .i1⟩
  | 38 => ⟨S16384, .i1⟩
  | 39 => ⟨S_, .i32⟩
  | 40 => ⟨S16384, .i32⟩
  | 41 => ⟨S16384, .i32⟩
  | 42 => ⟨S16384, .i32⟩
  | 43 => ⟨S_, .i32⟩
  | 44 => ⟨S_, .i32⟩
  | 45 => ⟨S_, .i32⟩
  | 46 => ⟨S_, .i1⟩
  | 47 => ⟨S_, .i32⟩
  | 48 => ⟨S_, .i32⟩
  | 49 => ⟨S16384, .i32⟩
  | 50 => ⟨S16384, .i32⟩
  | 51 => ⟨S_, .i32⟩
  | 52 => ⟨S16384, .i32⟩
  | 53 => ⟨S16384, .i1⟩
  | 54 => ⟨S_, .i32⟩
  | 55 => ⟨S16384, .i32⟩
  | 56 => ⟨S16384, .i1⟩
  | 57 => ⟨S_, .i32⟩
  | 58 => ⟨S_, .i1⟩
  | 59 => ⟨S16384, .i1⟩
  | 60 => ⟨S16384, .i1⟩
  | 61 => ⟨S16384, .i1⟩
  | 62 => ⟨S16384, .i32⟩
  | 63 => ⟨S16384, .i32⟩
  | 64 => ⟨S16384, .i32⟩
  | 65 => ⟨S16384, .i32⟩
  | 66 => ⟨S16x80x128x128, .i32⟩
  | 67 => ⟨S_, .i32⟩
  | 68 => ⟨S_, .i32⟩
  | 69 => ⟨S16384, .i32⟩
  | 70 => ⟨S16384, .i1⟩
  | 71 => ⟨S_, .i32⟩
  | 72 => ⟨S_, .i32⟩
  | 73 => ⟨S16384, .i32⟩
  | 74 => ⟨S16384, .i32⟩
  | 75 => ⟨S_, .i32⟩
  | 76 => ⟨S_, .i32⟩
  | 77 => ⟨S16384, .i32⟩
  | 78 => ⟨S16384, .i32⟩
  | 79 => ⟨S_, .i32⟩
  | 80 => ⟨S_, .i32⟩
  | 81 => ⟨S16384, .i32⟩
  | 82 => ⟨S16384, .i32⟩
  | 83 => ⟨S_, .i32⟩
  | 84 => ⟨S_, .i32⟩
  | 85 => ⟨S16384, .i32⟩
  | 86 => ⟨S16384, .i32⟩
  | 87 => ⟨S16384x1, .i32⟩
  | 88 => ⟨S16384x1, .i32⟩
  | 89 => ⟨S16384x1, .i32⟩
  | 90 => ⟨S16384x1, .i32⟩
  | 91 => ⟨S16384x4, .i32⟩
  | _ => ⟨S16x80x128x128, .f32⟩

abbrev hbmTy (i : Nat) : BufTy := match i / 128 with
  | 0 => hbmTy0_0 i
  | 1 => hbmTy0_1 i
  | _ => ⟨S16x80x128x128, .f32⟩

abbrev bufTy : (tb : Table) → Fin (tcTables nBuf tb) → BufTy
  | .hbm, ⟨i, _⟩ => hbmTy i
  | _, _ => ⟨S16x80x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_v0 : Ref sig .tc := ⟨.hbm, 12, rfl⟩
abbrev main_call0_v1 : Ref sig .tc := ⟨.hbm, 13, rfl⟩
abbrev main_call0_call0_c : Ref sig .tc := ⟨.hbm, 14, rfl⟩
abbrev main_call0_call0_v0 : Ref sig .tc := ⟨.hbm, 15, rfl⟩
abbrev main_v8 : Ref sig .tc := ⟨.hbm, 16, rfl⟩
abbrev main_c : Ref sig .tc := ⟨.hbm, 17, rfl⟩
abbrev main_v9 : Ref sig .tc := ⟨.hbm, 18, rfl⟩
abbrev main_c_2 : Ref sig .tc := ⟨.hbm, 19, rfl⟩
abbrev main_call1_v0 : Ref sig .tc := ⟨.hbm, 20, rfl⟩
abbrev main_call1_v1 : Ref sig .tc := ⟨.hbm, 21, rfl⟩
abbrev main_v10 : Ref sig .tc := ⟨.hbm, 22, rfl⟩
abbrev main_c_3 : Ref sig .tc := ⟨.hbm, 23, rfl⟩
abbrev main_v11 : Ref sig .tc := ⟨.hbm, 24, rfl⟩
abbrev main_v12 : Ref sig .tc := ⟨.hbm, 25, rfl⟩
abbrev main_c_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c_5 : Ref sig .tc := ⟨.hbm, 31, rfl⟩
abbrev main_v17 : Ref sig .tc := ⟨.hbm, 32, rfl⟩
abbrev main_v18 : Ref sig .tc := ⟨.hbm, 33, rfl⟩
abbrev main_call2_call0_c : Ref sig .tc := ⟨.hbm, 34, rfl⟩
abbrev main_call2_call0_v0 : Ref sig .tc := ⟨.hbm, 35, rfl⟩
abbrev main_v19 : Ref sig .tc := ⟨.hbm, 36, rfl⟩
abbrev main_c_6 : Ref sig .tc := ⟨.hbm, 37, rfl⟩
abbrev main_call3_v0 : Ref sig .tc := ⟨.hbm, 38, rfl⟩
abbrev main_call3_v1 : Ref sig .tc := ⟨.hbm, 39, rfl⟩
abbrev main_call3_v2 : Ref sig .tc := ⟨.hbm, 40, rfl⟩
abbrev main_call3_v3 : Ref sig .tc := ⟨.hbm, 41, rfl⟩
abbrev main_call3_v4 : Ref sig .tc := ⟨.hbm, 42, rfl⟩
abbrev main_call3_v5 : Ref sig .tc := ⟨.hbm, 43, rfl⟩
abbrev main_call3_v6 : Ref sig .tc := ⟨.hbm, 44, rfl⟩
abbrev main_call3_v7 : Ref sig .tc := ⟨.hbm, 45, rfl⟩
abbrev main_call3_c : Ref sig .tc := ⟨.hbm, 46, rfl⟩
abbrev main_call3_v8 : Ref sig .tc := ⟨.hbm, 47, rfl⟩
abbrev main_call3_v9 : Ref sig .tc := ⟨.hbm, 48, rfl⟩
abbrev main_call3_v10 : Ref sig .tc := ⟨.hbm, 49, rfl⟩
abbrev main_call3_c_0 : Ref sig .tc := ⟨.hbm, 50, rfl⟩
abbrev main_call3_v11 : Ref sig .tc := ⟨.hbm, 51, rfl⟩
abbrev main_call3_v12 : Ref sig .tc := ⟨.hbm, 52, rfl⟩
abbrev main_v20 : Ref sig .tc := ⟨.hbm, 53, rfl⟩
abbrev main_c_7 : Ref sig .tc := ⟨.hbm, 54, rfl⟩
abbrev main_call4_v0 : Ref sig .tc := ⟨.hbm, 55, rfl⟩
abbrev main_call4_c : Ref sig .tc := ⟨.hbm, 56, rfl⟩
abbrev main_call4_v1 : Ref sig .tc := ⟨.hbm, 57, rfl⟩
abbrev main_call4_c_0 : Ref sig .tc := ⟨.hbm, 58, rfl⟩
abbrev main_call4_v2 : Ref sig .tc := ⟨.hbm, 59, rfl⟩
abbrev main_call4_v3 : Ref sig .tc := ⟨.hbm, 60, rfl⟩
abbrev main_call4_v4 : Ref sig .tc := ⟨.hbm, 61, rfl⟩
abbrev main_call4_c_1 : Ref sig .tc := ⟨.hbm, 62, rfl⟩
abbrev main_call4_v5 : Ref sig .tc := ⟨.hbm, 63, rfl⟩
abbrev main_call4_v6 : Ref sig .tc := ⟨.hbm, 64, rfl⟩
abbrev main_call4_c_2 : Ref sig .tc := ⟨.hbm, 65, rfl⟩
abbrev main_call4_v7 : Ref sig .tc := ⟨.hbm, 66, rfl⟩
abbrev main_call4_v8 : Ref sig .tc := ⟨.hbm, 67, rfl⟩
abbrev main_call4_c_3 : Ref sig .tc := ⟨.hbm, 68, rfl⟩
abbrev main_call4_v9 : Ref sig .tc := ⟨.hbm, 69, rfl⟩
abbrev main_call4_v10 : Ref sig .tc := ⟨.hbm, 70, rfl⟩
abbrev main_call4_v11 : Ref sig .tc := ⟨.hbm, 71, rfl⟩
abbrev main_call4_v12 : Ref sig .tc := ⟨.hbm, 72, rfl⟩
abbrev main_call4_v13 : Ref sig .tc := ⟨.hbm, 73, rfl⟩
abbrev main_call4_v14 : Ref sig .tc := ⟨.hbm, 74, rfl⟩
abbrev main_v21 : Ref sig .tc := ⟨.hbm, 75, rfl⟩
abbrev main_c_8 : Ref sig .tc := ⟨.hbm, 76, rfl⟩
abbrev main_call5_v0 : Ref sig .tc := ⟨.hbm, 77, rfl⟩
abbrev main_call5_v1 : Ref sig .tc := ⟨.hbm, 78, rfl⟩
abbrev main_call5_v2 : Ref sig .tc := ⟨.hbm, 79, rfl⟩
abbrev main_call5_v3 : Ref sig .tc := ⟨.hbm, 80, rfl⟩
abbrev main_call5_v4 : Ref sig .tc := ⟨.hbm, 81, rfl⟩
abbrev main_call5_v5 : Ref sig .tc := ⟨.hbm, 82, rfl⟩
abbrev main_call5_v6 : Ref sig .tc := ⟨.hbm, 83, rfl⟩
abbrev main_call5_v7 : Ref sig .tc := ⟨.hbm, 84, rfl⟩
abbrev main_call5_c : Ref sig .tc := ⟨.hbm, 85, rfl⟩
abbrev main_call5_v8 : Ref sig .tc := ⟨.hbm, 86, rfl⟩
abbrev main_call5_v9 : Ref sig .tc := ⟨.hbm, 87, rfl⟩
abbrev main_call5_v10 : Ref sig .tc := ⟨.hbm, 88, rfl⟩
abbrev main_call5_c_0 : Ref sig .tc := ⟨.hbm, 89, rfl⟩
abbrev main_call5_v11 : Ref sig .tc := ⟨.hbm, 90, rfl⟩
abbrev main_call5_v12 : Ref sig .tc := ⟨.hbm, 91, rfl⟩
abbrev main_v22 : Ref sig .tc := ⟨.hbm, 92, rfl⟩
abbrev main_c_9 : Ref sig .tc := ⟨.hbm, 93, rfl⟩
abbrev main_call6_v0 : Ref sig .tc := ⟨.hbm, 94, rfl⟩
abbrev main_call6_c : Ref sig .tc := ⟨.hbm, 95, rfl⟩
abbrev main_call6_v1 : Ref sig .tc := ⟨.hbm, 96, rfl⟩
abbrev main_call6_c_0 : Ref sig .tc := ⟨.hbm, 97, rfl⟩
abbrev main_call6_v2 : Ref sig .tc := ⟨.hbm, 98, rfl⟩
abbrev main_call6_v3 : Ref sig .tc := ⟨.hbm, 99, rfl⟩
abbrev main_call6_v4 : Ref sig .tc := ⟨.hbm, 100, rfl⟩
abbrev main_call6_c_1 : Ref sig .tc := ⟨.hbm, 101, rfl⟩
abbrev main_call6_v5 : Ref sig .tc := ⟨.hbm, 102, rfl⟩
abbrev main_call6_v6 : Ref sig .tc := ⟨.hbm, 103, rfl⟩
abbrev main_call6_c_2 : Ref sig .tc := ⟨.hbm, 104, rfl⟩
abbrev main_call6_v7 : Ref sig .tc := ⟨.hbm, 105, rfl⟩
abbrev main_call6_v8 : Ref sig .tc := ⟨.hbm, 106, rfl⟩
abbrev main_call6_c_3 : Ref sig .tc := ⟨.hbm, 107, rfl⟩
abbrev main_call6_v9 : Ref sig .tc := ⟨.hbm, 108, rfl⟩
abbrev main_call6_v10 : Ref sig .tc := ⟨.hbm, 109, rfl⟩
abbrev main_call6_v11 : Ref sig .tc := ⟨.hbm, 110, rfl⟩
abbrev main_call6_v12 : Ref sig .tc := ⟨.hbm, 111, rfl⟩
abbrev main_call6_v13 : Ref sig .tc := ⟨.hbm, 112, rfl⟩
abbrev main_call6_v14 : Ref sig .tc := ⟨.hbm, 113, rfl⟩
abbrev main_v23 : Ref sig .tc := ⟨.hbm, 114, rfl⟩
abbrev main_c_10 : Ref sig .tc := ⟨.hbm, 115, rfl⟩
abbrev main_call7_v0 : Ref sig .tc := ⟨.hbm, 116, rfl⟩
abbrev main_call7_v1 : Ref sig .tc := ⟨.hbm, 117, rfl⟩
abbrev main_call7_v2 : Ref sig .tc := ⟨.hbm, 118, rfl⟩
abbrev main_call7_v3 : Ref sig .tc := ⟨.hbm, 119, rfl⟩
abbrev main_call7_v4 : Ref sig .tc := ⟨.hbm, 120, rfl⟩
abbrev main_call7_v5 : Ref sig .tc := ⟨.hbm, 121, rfl⟩
abbrev main_call7_v6 : Ref sig .tc := ⟨.hbm, 122, rfl⟩
abbrev main_call7_v7 : Ref sig .tc := ⟨.hbm, 123, rfl⟩
abbrev main_call7_c : Ref sig .tc := ⟨.hbm, 124, rfl⟩
abbrev main_call7_v8 : Ref sig .tc := ⟨.hbm, 125, rfl⟩
abbrev main_call7_v9 : Ref sig .tc := ⟨.hbm, 126, rfl⟩
abbrev main_call7_v10 : Ref sig .tc := ⟨.hbm, 127, rfl⟩
abbrev main_call7_c_0 : Ref sig .tc := ⟨.hbm, 128, rfl⟩
abbrev main_call7_v11 : Ref sig .tc := ⟨.hbm, 129, rfl⟩
abbrev main_call7_v12 : Ref sig .tc := ⟨.hbm, 130, rfl⟩
abbrev main_v24 : Ref sig .tc := ⟨.hbm, 131, rfl⟩
abbrev main_c_11 : Ref sig .tc := ⟨.hbm, 132, rfl⟩
abbrev main_call8_v0 : Ref sig .tc := ⟨.hbm, 133, rfl⟩
abbrev main_call8_c : Ref sig .tc := ⟨.hbm, 134, rfl⟩
abbrev main_call8_v1 : Ref sig .tc := ⟨.hbm, 135, rfl⟩
abbrev main_call8_c_0 : Ref sig .tc := ⟨.hbm, 136, rfl⟩
abbrev main_call8_v2 : Ref sig .tc := ⟨.hbm, 137, rfl⟩
abbrev main_call8_v3 : Ref sig .tc := ⟨.hbm, 138, rfl⟩
abbrev main_call8_v4 : Ref sig .tc := ⟨.hbm, 139, rfl⟩
abbrev main_call8_c_1 : Ref sig .tc := ⟨.hbm, 140, rfl⟩
abbrev main_call8_v5 : Ref sig .tc := ⟨.hbm, 141, rfl⟩
abbrev main_call8_v6 : Ref sig .tc := ⟨.hbm, 142, rfl⟩
abbrev main_call8_c_2 : Ref sig .tc := ⟨.hbm, 143, rfl⟩
abbrev main_call8_v7 : Ref sig .tc := ⟨.hbm, 144, rfl⟩
abbrev main_call8_v8 : Ref sig .tc := ⟨.hbm, 145, rfl⟩
abbrev main_call8_c_3 : Ref sig .tc := ⟨.hbm, 146, rfl⟩
abbrev main_call8_v9 : Ref sig .tc := ⟨.hbm, 147, rfl⟩
abbrev main_call8_v10 : Ref sig .tc := ⟨.hbm, 148, rfl⟩
abbrev main_call8_v11 : Ref sig .tc := ⟨.hbm, 149, rfl⟩
abbrev main_call8_v12 : Ref sig .tc := ⟨.hbm, 150, rfl⟩
abbrev main_call8_v13 : Ref sig .tc := ⟨.hbm, 151, rfl⟩
abbrev main_call8_v14 : Ref sig .tc := ⟨.hbm, 152, rfl⟩
abbrev main_v25 : Ref sig .tc := ⟨.hbm, 153, rfl⟩
abbrev main_c_12 : Ref sig .tc := ⟨.hbm, 154, rfl⟩
abbrev main_call9_v0 : Ref sig .tc := ⟨.hbm, 155, rfl⟩
abbrev main_call9_v1 : Ref sig .tc := ⟨.hbm, 156, rfl⟩
abbrev main_call9_v2 : Ref sig .tc := ⟨.hbm, 157, rfl⟩
abbrev main_call9_v3 : Ref sig .tc := ⟨.hbm, 158, rfl⟩
abbrev main_call9_v4 : Ref sig .tc := ⟨.hbm, 159, rfl⟩
abbrev main_call9_v5 : Ref sig .tc := ⟨.hbm, 160, rfl⟩
abbrev main_call9_v6 : Ref sig .tc := ⟨.hbm, 161, rfl⟩
abbrev main_call9_v7 : Ref sig .tc := ⟨.hbm, 162, rfl⟩
abbrev main_call9_c : Ref sig .tc := ⟨.hbm, 163, rfl⟩
abbrev main_call9_v8 : Ref sig .tc := ⟨.hbm, 164, rfl⟩
abbrev main_call9_v9 : Ref sig .tc := ⟨.hbm, 165, rfl⟩
abbrev main_call9_v10 : Ref sig .tc := ⟨.hbm, 166, rfl⟩
abbrev main_call9_c_0 : Ref sig .tc := ⟨.hbm, 167, rfl⟩
abbrev main_call9_v11 : Ref sig .tc := ⟨.hbm, 168, rfl⟩
abbrev main_call9_v12 : Ref sig .tc := ⟨.hbm, 169, rfl⟩
abbrev main_v26 : Ref sig .tc := ⟨.hbm, 170, rfl⟩
abbrev main_c_13 : Ref sig .tc := ⟨.hbm, 171, rfl⟩
abbrev main_call10_v0 : Ref sig .tc := ⟨.hbm, 172, rfl⟩
abbrev main_call10_c : Ref sig .tc := ⟨.hbm, 173, rfl⟩
abbrev main_call10_v1 : Ref sig .tc := ⟨.hbm, 174, rfl⟩
abbrev main_call10_c_0 : Ref sig .tc := ⟨.hbm, 175, rfl⟩
abbrev main_call10_v2 : Ref sig .tc := ⟨.hbm, 176, rfl⟩
abbrev main_call10_v3 : Ref sig .tc := ⟨.hbm, 177, rfl⟩
abbrev main_call10_v4 : Ref sig .tc := ⟨.hbm, 178, rfl⟩
abbrev main_call10_c_1 : Ref sig .tc := ⟨.hbm, 179, rfl⟩
abbrev main_call10_v5 : Ref sig .tc := ⟨.hbm, 180, rfl⟩
abbrev main_call10_v6 : Ref sig .tc := ⟨.hbm, 181, rfl⟩
abbrev main_call10_c_2 : Ref sig .tc := ⟨.hbm, 182, rfl⟩
abbrev main_call10_v7 : Ref sig .tc := ⟨.hbm, 183, rfl⟩
abbrev main_call10_v8 : Ref sig .tc := ⟨.hbm, 184, rfl⟩
abbrev main_call10_c_3 : Ref sig .tc := ⟨.hbm, 185, rfl⟩
abbrev main_call10_v9 : Ref sig .tc := ⟨.hbm, 186, rfl⟩
abbrev main_call10_v10 : Ref sig .tc := ⟨.hbm, 187, rfl⟩
abbrev main_call10_v11 : Ref sig .tc := ⟨.hbm, 188, rfl⟩
abbrev main_call10_v12 : Ref sig .tc := ⟨.hbm, 189, rfl⟩
abbrev main_call10_v13 : Ref sig .tc := ⟨.hbm, 190, rfl⟩
abbrev main_call10_v14 : Ref sig .tc := ⟨.hbm, 191, rfl⟩
abbrev main_v27 : Ref sig .tc := ⟨.hbm, 192, rfl⟩
abbrev main_v28 : Ref sig .tc := ⟨.hbm, 193, rfl⟩
abbrev main_v29 : Ref sig .tc := ⟨.hbm, 194, rfl⟩
abbrev main_c_14 : Ref sig .tc := ⟨.hbm, 195, rfl⟩
abbrev main_v30 : Ref sig .tc := ⟨.hbm, 196, rfl⟩
abbrev main_v31 : Ref sig .tc := ⟨.hbm, 197, rfl⟩
abbrev main_v32 : Ref sig .tc := ⟨.hbm, 198, rfl⟩
abbrev main_c_15 : Ref sig .tc := ⟨.hbm, 199, rfl⟩
abbrev main_call11_v0 : Ref sig .tc := ⟨.hbm, 200, rfl⟩
abbrev main_call11_v1 : Ref sig .tc := ⟨.hbm, 201, rfl⟩
abbrev main_v33 : Ref sig .tc := ⟨.hbm, 202, rfl⟩
abbrev main_c_16 : Ref sig .tc := ⟨.hbm, 203, rfl⟩
abbrev main_call12_v0 : Ref sig .tc := ⟨.hbm, 204, rfl⟩
abbrev main_call12_v1 : Ref sig .tc := ⟨.hbm, 205, rfl⟩
abbrev main_v34 : Ref sig .tc := ⟨.hbm, 206, rfl⟩
abbrev main_c_17 : Ref sig .tc := ⟨.hbm, 207, rfl⟩
abbrev main_call13_v0 : Ref sig .tc := ⟨.hbm, 208, rfl⟩
abbrev main_call13_v1 : Ref sig .tc := ⟨.hbm, 209, rfl⟩
abbrev main_v35 : Ref sig .tc := ⟨.hbm, 210, rfl⟩
abbrev main_c_18 : Ref sig .tc := ⟨.hbm, 211, rfl⟩
abbrev main_call14_v0 : Ref sig .tc := ⟨.hbm, 212, rfl⟩
abbrev main_call14_v1 : Ref sig .tc := ⟨.hbm, 213, rfl⟩
abbrev main_v36 : Ref sig .tc := ⟨.hbm, 214, rfl⟩
abbrev main_v37 : Ref sig .tc := ⟨.hbm, 215, rfl⟩
abbrev main_v38 : Ref sig .tc := ⟨.hbm, 216, rfl⟩
abbrev main_v39 : Ref sig .tc := ⟨.hbm, 217, rfl⟩
abbrev main_v40 : Ref sig .tc := ⟨.hbm, 218, rfl⟩
abbrev main_v41 : Ref sig .tc := ⟨.hbm, 219, rfl⟩

abbrev nD : Nat := 1
abbrev τ : Topo := Topo.v7x

variable {F : FTy → Type} [FloatOps F]

class Facts₀ : Prop where
  bcast_S_S_ : S_.BroadcastsInDim S_ (![] : Fin 0 → Fin S_.rank)
  reduceWindows_S16x80x128x128_S16x80x128x128_w1s1p0_0_w1s1p0_0_w51s1p25_25_w1s1p0_0 : S16x80x128x128.ReduceWindows (![1, 1, 51, 1] : Fin 4 → Nat) ![1, 1, 1, 1] ![0, 0, 25, 0] ![0, 0, 25, 0] S16x80x128x128
  h_S_ : 0 < S_.numel
  reduceWindows_S16x80x128x128_S16x80x128x128_w1s1p0_0_w1s1p0_0_w1s1p0_0_w51s1p25_25 : S16x80x128x128.ReduceWindows (![1, 1, 1, 51] : Fin 4 → Nat) ![1, 1, 1, 1] ![0, 0, 0, 25] ![0, 0, 0, 25] S16x80x128x128
  bcast_S_S16x80x128x128 : S_.BroadcastsInDim S16x80x128x128 (![] : Fin 0 → Fin S16x80x128x128.rank)
  shapeCasts_S16x80x128x128_S20971520 : S16x80x128x128.ShapeCasts S20971520
  natLt_1_32 : 1 < 32
  reduceWindows_S20971520_S20971520_w20971520s1p20971519_0 : S20971520.ReduceWindows (![20971520] : Fin 1 → Nat) ![1] ![20971519] ![0] S20971520
  bcast_S_S16384 : S_.BroadcastsInDim S16384 (![] : Fin 0 → Fin S16384.rank)
  bcast_S_S20971520 : S_.BroadcastsInDim S20971520 (![] : Fin 0 → Fin S20971520.rank)
  bcast_S20971520_S20971520x1_0 : S20971520.BroadcastsInDim S20971520x1 (![0] : Fin 1 → Fin S20971520x1.rank)
  reduceWindows_S16384_S16384_w16384s1p16383_0 : S16384.ReduceWindows (![16384] : Fin 1 → Nat) ![1] ![16383] ![0] S16384
  reducesTo_S16x80x128x128_S_d0_1_2_3 : S16x80x128x128.ReducesTo [0, 1, 2, 3] S_
  bcast_S16384_S16384x1_0 : S16384.BroadcastsInDim S16384x1 (![0] : Fin 1 → Fin S16384x1.rank)
  concatenates_S16384x1_S16384x1_S16384x1_S16384x1_S16384x4_d1 : Shape.Concatenates [S16384x1, S16384x1, S16384x1, S16384x1] S16384x4 1
  scatter_S16384_S20971520x1_S20971520_n_0_0_1_wf : ScatterDims.WF S16384 S20971520x1 S20971520 [] [0] [0] 1

variable [Facts₀]

def scatter_S16384_S20971520x1_S20971520_n_0_0_1 : ScatterDims S16384 S20971520x1 S20971520 where
  updateWindowDims := []
  insertedWindowDims := [0]
  scatterDimsToOperandDims := [0]
  indexVectorDim := 1
  wf := scatter_S16384_S20971520x1_S20971520_n_0_0_1_wf

class Facts : Prop extends Facts₀ where

variable [Facts]
-- ==== Proof.KBase.lean ====
/-
  The kernel's program around its one region: the names the frame proof and the value proof share.

  The program reshapes its argument, runs the region over forty grid points, and continues with thirty-one
  stretches of host operations (the comparison of the region's result with zero, then the compaction of the mask
  into rows of indices). `V0` is a core's buffer contents when the region is entered, `iblk` a window's block at a
  grid point read off its array there, and `tailStretches` the operations after the region, stretch by stretch.
-/
import proofs.«157353_j50216757624982_1_alg».proof.Proof.Gen.Kernel.Launch
import proofs.«157353_j50216757624982_1_alg».proof.Proof.Gen.Kernel.Points
import Idealize.ShloMosaic.Lib.Pipeline.FrameBody
import Idealize.ShloMosaic.Lib.Pipeline.FrameSuffix

noncomputable section

namespace Cert.Kernel.Hand

open Idealize.ShloMosaic Idealize.ShloMosaic.TcCoe
open Idealize.SL Idealize.SL.Sem
open Cert.Kernel Cert.Kernel.Gen

variable {F : FTy → Type} [FloatOps F]

variable (m : (ℓ : Loc nD τ sig) → Buf (Elt F) ℓ)

/-- The host operations after the region, stretch by stretch, in program order. -/
abbrev tailStretches : List (List (HloOp τ sig (Elt F))) :=
  [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22, hostOps1_23, hostOps1_24, hostOps1_25, hostOps1_26, hostOps1_27, hostOps1_28, hostOps1_29, hostOps1_30]

/-- Core `c`'s buffer contents when the region is entered: the launch contents after the one reshape before it. -/
abbrev V0 (c : Dev nD) : Valuation τ sig (Elt F) := StableHlo.after (List.flatten [hostOps0]) (fun b => m (c, b))

/-- The same, read at a reference. -/
abbrev V (c : Dev nD) (b : Ref sig .tc) : Buf (Elt F) ((c : Thread nD τ).loc b) := V0 m c (Proc.devRef .tc b)

/-- Window `w`'s block at grid point `t`, read off the window's array as the region finds it. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

end Cert.Kernel.Hand

end
-- ==== Proof.KHost.lean ====
/-
  The host side of the program's frame: the program is one reshape, the region, and thirty-one stretches of host
  operations after it.

  Three facts about every operation after the region carry the frame: it touches TensorCore references only, it
  allocates nothing, and it writes exactly one buffer, which is neither the program's argument nor one of the
  region's two arrays. From them: the program reduces to the region continued by the later stretches (`hmain`), the
  later stretches stay within what a line after the region may touch and leave the arrays alone (`sfx_sub`,
  `sfx_fresh`, `sfx_keeps`), the argument buffer is as launched when the region is entered and when the program
  ends (`V_main_arg0`, `W_main_arg0`), and a run to the library's frame post is a run to the frame claim's post
  (`frame_of`) and to the result buffer's contents after the later stretches (`post_result`).
-/
import proofs.«157353_j50216757624982_1_alg».proof.Proof.KBase

noncomputable section

namespace Cert.Kernel.Hand

open Idealize.ShloMosaic Idealize.ShloMosaic.TcCoe
open Idealize.SL Idealize.SL.Sem
open Idealize.ShloMosaic.Pipeline (Dat)
open Cert.Kernel Cert.Kernel.Gen

variable {F : FTy → Type} [FloatOps F]

variable (m : (ℓ : Loc nD τ sig) → Buf (Elt F) ℓ) (ρ : Dev nD → PrngReg)

/-! ## Operation by operation -/

/-- A property of every operation of every list of a list of lists, from its nested `List.Forall` form. -/
theorem forall_mem₂ {α : Type} {p : α → Prop} {L : List (List α)} (h : L.Forall fun l => l.Forall p) :
    ∀ l ∈ L, ∀ a ∈ l, p a :=
  fun l hl a ha => List.forall_iff_forall_mem.mp (List.forall_iff_forall_mem.mp h l hl) a ha

/-- The operation writes exactly one buffer, and that buffer is neither the program's argument nor an array of
    the region. -/
def Spares (op : HloOp τ sig (Elt F)) : Prop :=
  ∃ y : Ref sig .tc, op.writes = {Proc.devRef .tc y} ∧ y ≠ main_arg0 ∧ ∀ w, Pipeline.arrRef spec0 w ≠ y

theorem Spares.not_arg0 {op : HloOp τ sig (Elt F)} (h : Spares op) : Proc.devRef .tc main_arg0 ∉ op.writes := by
  obtain ⟨y, hw, hy, -⟩ := h
  rw [hw, Finset.mem_singleton]
  exact StableHlo.devRef_ne_of_ne (Ne.symm hy)

theorem Spares.not_arr {op : HloOp τ sig (Elt F)} (h : Spares op) (w) :
    Proc.devRef .tc (Pipeline.arrRef spec0 w) ∉ op.writes := by
  obtain ⟨y, hw, -, hy⟩ := h
  rw [hw, Finset.mem_singleton]
  exact StableHlo.devRef_ne_of_ne (hy w)

/-! ## Stretch by stretch: nothing is allocated, and each operation writes one buffer of its own -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_spares : (hostOps1 : List (HloOp τ sig (Elt F))).Forall Spares := by
  simp only [List.Forall]; repeat' apply And.intro
  all_goals exact ⟨_, rfl, by decide, by decide⟩
theorem hostOps1_1_fresh : (hostOps1_1 : List (HloOp τ sig (Elt F))).Forall fun op => op.fresh = ∅ := by
  simp only [List.Forall]; repeat' constructor
theorem hostOps1_1_spares : (hostOps1_1 : List (HloOp τ sig (Elt F))).Forall Spares := by
  simp only [List.Forall]; repeat' apply And.intro
  all_goals exact ⟨_, rfl, by decide, by decide⟩
theorem hostOps1_2_fresh : (hostOps1_2 : List (HloOp τ sig (Elt F))).Forall fun op => op.fresh = ∅ := by
  simp only [List.Forall]; repeat' constructor
theorem hostOps1_2_spares : (hostOps1_2 : List (HloOp τ sig (Elt F))).Forall Spares := by
  simp only [List.Forall]; repeat' apply And.intro
  all_goals exact ⟨_, rfl, by decide, by decide⟩
theorem hostOps1_3_fresh : (hostOps1_3 : List (HloOp τ sig (Elt F))).Forall fun op => op.fresh = ∅ := by
  simp only [List.Forall]; repeat' constructor
theorem hostOps1_3_spares : (hostOps1_3 : List (HloOp τ sig (Elt F))).Forall Spares := by
  simp only [List.Forall]; repeat' apply And.intro
  all_goals exact ⟨_, rfl, by decide, by decide⟩
theorem hostOps1_4_fresh : (hostOps1_4 : List (HloOp τ sig (Elt F))).Forall fun op => op.fresh = ∅ := by
  simp only [List.Forall]; repeat' constructor
theorem hostOps1_4_spares : (hostOps1_4 : List (HloOp τ sig (Elt F))).Forall Spares := by
  simp only [List.Forall]; repeat' apply And.intro
  all_goals exact ⟨_, rfl, by decide, by decide⟩
theorem hostOps1_5_fresh : (hostOps1_5 : List (HloOp τ sig (Elt F))).Forall fun op => op.fresh = ∅ := by
  simp only [List.Forall]; repeat' constructor
theorem hostOps1_5_spares : (hostOps1_5 : List (HloOp τ sig (Elt F))).Forall Spares := by
  simp only [List.Forall]; repeat' apply And.intro
  all_goals exact ⟨_, rfl, by decide, by decide⟩
theorem hostOps1_6_fresh : (hostOps1_6 : List (HloOp τ sig (Elt F))).Forall fun op => op.fresh = ∅ := by
  simp only [List.Forall]; repeat' constructor
theorem hostOps1_6_spares : (hostOps1_6 : List (HloOp τ sig (Elt F))).Forall Spares := by
  simp only [List.Forall]; repeat' apply And.intro
  all_goals exact ⟨_, rfl, by decide, by decide⟩
theorem hostOps1_7_fresh : (hostOps1_7 : List (HloOp τ sig (Elt F))).Forall fun op => op.fresh = ∅ := by
  simp only [List.Forall]; repeat' constructor
theorem hostOps1_7_spares : (hostOps1_7 : List (HloOp τ sig (Elt F))).Forall Spares := by
  simp only [List.Forall]; repeat' apply And.intro
  all_goals exact ⟨_, rfl, by decide, by decide⟩
theorem hostOps1_8_fresh : (hostOps1_8 : List (HloOp τ sig (Elt F))).Forall fun op => op.fresh = ∅ := by
  simp only [List.Forall]; repeat' constructor
theorem hostOps1_8_spares : (hostOps1_8 : List (HloOp τ sig (Elt F))).Forall Spares := by
  simp only [List.Forall]; repeat' apply And.intro
  all_goals exact ⟨_, rfl, by decide, by decide⟩
theorem hostOps1_9_fresh : (hostOps1_9 : List (HloOp τ sig (Elt F))).Forall fun op => op.fresh = ∅ := by
  simp only [List.Forall]; repeat' constructor
theorem hostOps1_9_spares : (hostOps1_9 : List (HloOp τ sig (Elt F))).Forall Spares := by
  simp only [List.Forall]; repeat' apply And.intro
  all_goals exact ⟨_, rfl, by decide, by decide⟩
theorem hostOps1_10_fresh : (hostOps1_10 : List (HloOp τ sig (Elt F))).Forall fun op => op.fresh = ∅ := by
  simp only [List.Forall]; repeat' constructor
theorem hostOps1_10_spares : (hostOps1_10 : List (HloOp τ sig (Elt F))).Forall Spares := by
  simp only [List.Forall]; repeat' apply And.intro
  all_goals exact ⟨_, rfl, by decide, by decide⟩
theorem hostOps1_11_fresh : (hostOps1_11 : List (HloOp τ sig (Elt F))).Forall fun op => op.fresh = ∅ := by
  simp only [List.Forall]; repeat' constructor
theorem hostOps1_11_spares : (hostOps1_11 : List (HloOp τ sig (Elt F))).Forall Spares := by
  simp only [List.Forall]; repeat' apply And.intro
  all_goals exact ⟨_, rfl, by decide, by decide⟩
theorem hostOps1_12_fresh : (hostOps1_12 : List (HloOp τ sig (Elt F))).Forall fun op => op.fresh = ∅ := by
  simp only [List.Forall]; repeat' constructor
theorem hostOps1_12_spares : (hostOps1_12 : List (HloOp τ sig (Elt F))).Forall Spares := by
  simp only [List.Forall]; repeat' apply And.intro
  all_goals exact ⟨_, rfl, by decide, by decide⟩
theorem hostOps1_13_fresh : (hostOps1_13 : List (HloOp τ sig (Elt F))).Forall fun op => op.fresh = ∅ := by
  simp only [List.Forall]; repeat' constructor
theorem hostOps1_13_spares : (hostOps1_13 : List (HloOp τ sig (Elt F))).Forall Spares := by
  simp only [List.Forall]; repeat' apply And.intro
  all_goals exact ⟨_, rfl, by decide, by decide⟩
theorem hostOps1_14_fresh : (hostOps1_14 : List (HloOp τ sig (Elt F))).Forall fun op => op.fresh = ∅ := by
  simp only [List.Forall]; repeat' constructor
theorem hostOps1_14_spares : (hostOps1_14 : List (HloOp τ sig (Elt F))).Forall Spares := by
  simp only [List.Forall]; repeat' apply And.intro
  all_goals exact ⟨_, rfl, by decide, by decide⟩
theorem hostOps1_15_fresh : (hostOps1_15 : List (HloOp τ sig (Elt F))).Forall fun op => op.fresh = ∅ := by
  simp only [List.Forall]; repeat' constructor
theorem hostOps1_15_spares : (hostOps1_15 : List (HloOp τ sig (Elt F))).Forall Spares := by
  simp only [List.Forall]; repeat' apply And.intro
  all_goals exact ⟨_, rfl, by decide, by decide⟩
theorem hostOps1_16_fresh : (hostOps1_16 : List (HloOp τ sig (Elt F))).Forall fun op => op.fresh = ∅ := by
  simp only [List.Forall]; repeat' constructor
theorem hostOps1_16_spares : (hostOps1_16 : List (HloOp τ sig (Elt F))).Forall Spares := by
  simp only [List.Forall]; repeat' apply And.intro
  all_goals exact ⟨_, rfl, by decide, by decide⟩
theorem hostOps1_17_fresh : (hostOps1_17 : List (HloOp τ sig (Elt F))).Forall fun op => op.fresh = ∅ := by
  simp only [List.Forall]; repeat' constructor
theorem hostOps1_17_spares : (hostOps1_17 : List (HloOp τ sig (Elt F))).Forall Spares := by
  simp only [List.Forall]; repeat' apply And.intro
  all_goals exact ⟨_, rfl, by decide, by decide⟩
theorem hostOps1_18_fresh : (hostOps1_18 : List (HloOp τ sig (Elt F))).Forall fun op => op.fresh = ∅ := by
  simp only [List.Forall]; repeat' constructor
theorem hostOps1_18_spares : (hostOps1_18 : List (HloOp τ sig (Elt F))).Forall Spares := by
  simp only [List.Forall]; repeat' apply And.intro
  all_goals exact ⟨_, rfl, by decide, by decide⟩
theorem hostOps1_19_fresh : (hostOps1_19 : List (HloOp τ sig (Elt F))).Forall fun op => op.fresh = ∅ := by
  simp only [List.Forall]; repeat' constructor
theorem hostOps1_19_spares : (hostOps1_19 : List (HloOp τ sig (Elt F))).Forall Spares := by
  simp only [List.Forall]; repeat' apply And.intro
  all_goals exact ⟨_, rfl, by decide, by decide⟩
theorem hostOps1_20_fresh : (hostOps1_20 : List (HloOp τ sig (Elt F))).Forall fun op => op.fresh = ∅ := by
  simp only [List.Forall]; repeat' constructor
theorem hostOps1_20_spares : (hostOps1_20 : List (HloOp τ sig (Elt F))).Forall Spares := by
  simp only [List.Forall]; repeat' apply And.intro
  all_goals exact ⟨_, rfl, by decide, by decide⟩
theorem hostOps1_21_fresh : (hostOps1_21 : List (HloOp τ sig (Elt F))).Forall fun op => op.fresh = ∅ := by
  simp only [List.Forall]; repeat' constructor
theorem hostOps1_21_spares : (hostOps1_21 : List (HloOp τ sig (Elt F))).Forall Spares := by
  simp only [List.Forall]; repeat' apply And.intro
  all_goals exact ⟨_, rfl, by decide, by decide⟩
theorem hostOps1_22_fresh : (hostOps1_22 : List (HloOp τ sig (Elt F))).Forall fun op => op.fresh = ∅ := by
  simp only [List.Forall]; repeat' constructor
theorem hostOps1_22_spares : (hostOps1_22 : List (HloOp τ sig (Elt F))).Forall Spares := by
  simp only [List.Forall]; repeat' apply And.intro
  all_goals exact ⟨_, rfl, by decide, by decide⟩
theorem hostOps1_23_fresh : (hostOps1_23 : List (HloOp τ sig (Elt F))).Forall fun op => op.fresh = ∅ := by
  simp only [List.Forall]; repeat' constructor
theorem hostOps1_23_spares : (hostOps1_23 : List (HloOp τ sig (Elt F))).Forall Spares := by
  simp only [List.Forall]; repeat' apply And.intro
  all_goals exact ⟨_, rfl, by decide, by decide⟩
theorem hostOps1_24_fresh : (hostOps1_24 : List (HloOp τ sig (Elt F))).Forall fun op => op.fresh = ∅ := by
  simp only [List.Forall]; repeat' constructor
theorem hostOps1_24_spares : (hostOps1_24 : List (HloOp τ sig (Elt F))).Forall Spares := by
  simp only [List.Forall]; repeat' apply And.intro
  all_goals exact ⟨_, rfl, by decide, by decide⟩
theorem hostOps1_25_fresh : (hostOps1_25 : List (HloOp τ sig (Elt F))).Forall fun op => op.fresh = ∅ := by
  simp only [List.Forall]; repeat' constructor
theorem hostOps1_25_spares : (hostOps1_25 : List (HloOp τ sig (Elt F))).Forall Spares := by
  simp only [List.Forall]; repeat' apply And.intro
  all_goals exact ⟨_, rfl, by decide, by decide⟩
theorem hostOps1_26_fresh : (hostOps1_26 : List (HloOp τ sig (Elt F))).Forall fun op => op.fresh = ∅ := by
  simp only [List.Forall]; repeat' constructor
theorem hostOps1_26_spares : (hostOps1_26 : List (HloOp τ sig (Elt F))).Forall Spares := by
  simp only [List.Forall]; repeat' apply And.intro
  all_goals exact ⟨_, rfl, by decide, by decide⟩
theorem hostOps1_27_fresh : (hostOps1_27 : List (HloOp τ sig (Elt F))).Forall fun op => op.fresh = ∅ := by
  simp only [List.Forall]; repeat' constructor
theorem hostOps1_27_spares : (hostOps1_27 : List (HloOp τ sig (Elt F))).Forall Spares := by
  simp only [List.Forall]; repeat' apply And.intro
  all_goals exact ⟨_, rfl, by decide, by decide⟩
theorem hostOps1_28_fresh : (hostOps1_28 : List (HloOp τ sig (Elt F))).Forall fun op => op.fresh = ∅ := by
  simp only [List.Forall]; repeat' constructor
theorem hostOps1_28_spares : (hostOps1_28 : List (HloOp τ sig (Elt F))).Forall Spares := by
  simp only [List.Forall]; repeat' apply And.intro
  all_goals exact ⟨_, rfl, by decide, by decide⟩
theorem hostOps1_29_fresh : (hostOps1_29 : List (HloOp τ sig (Elt F))).Forall fun op => op.fresh = ∅ := by
  simp only [List.Forall]; repeat' constructor
theorem hostOps1_29_spares : (hostOps1_29 : List (HloOp τ sig (Elt F))).Forall Spares := by
  simp only [List.Forall]; repeat' apply And.intro
  all_goals exact ⟨_, rfl, by decide, by decide⟩
theorem hostOps1_30_fresh : (hostOps1_30 : List (HloOp τ sig (Elt F))).Forall fun op => op.fresh = ∅ := by
  simp only [List.Forall]; repeat' constructor
theorem hostOps1_30_spares : (hostOps1_30 : List (HloOp τ sig (Elt F))).Forall Spares := by
  simp only [List.Forall]; repeat' apply And.intro
  all_goals exact ⟨_, rfl, by decide, by decide⟩

/-! ## The stretches together -/

theorem tail_sub : (tailStretches : List (List (HloOp τ sig (Elt F)))).Forall fun ops =>
    ops.Forall fun op => op.bufs ⊆ StableHlo.tcRefs τ sig :=
  ⟨hostOps1_sub, hostOps1_1_sub, hostOps1_2_sub, hostOps1_3_sub, hostOps1_4_sub, hostOps1_5_sub, hostOps1_6_sub, hostOps1_7_sub, hostOps1_8_sub, hostOps1_9_sub, hostOps1_10_sub, hostOps1_11_sub, hostOps1_12_sub, hostOps1_13_sub, hostOps1_14_sub, hostOps1_15_sub, hostOps1_16_sub, hostOps1_17_sub, hostOps1_18_sub, hostOps1_19_sub, hostOps1_20_sub, hostOps1_21_sub, hostOps1_22_sub, hostOps1_23_sub, hostOps1_24_sub, hostOps1_25_sub, hostOps1_26_sub, hostOps1_27_sub, hostOps1_28_sub, hostOps1_29_sub, hostOps1_30_sub⟩

theorem tail_fresh : (tailStretches : List (List (HloOp τ sig (Elt F)))).Forall fun ops =>
    ops.Forall fun op => op.fresh = ∅ :=
  ⟨hostOps1_fresh, hostOps1_1_fresh, hostOps1_2_fresh, hostOps1_3_fresh, hostOps1_4_fresh, hostOps1_5_fresh, hostOps1_6_fresh, hostOps1_7_fresh, hostOps1_8_fresh, hostOps1_9_fresh, hostOps1_10_fresh, hostOps1_11_fresh, hostOps1_12_fresh, hostOps1_13_fresh, hostOps1_14_fresh, hostOps1_15_fresh, hostOps1_16_fresh, hostOps1_17_fresh, hostOps1_18_fresh, hostOps1_19_fresh, hostOps1_20_fresh, hostOps1_21_fresh, hostOps1_22_fresh, hostOps1_23_fresh, hostOps1_24_fresh, hostOps1_25_fresh, hostOps1_26_fresh, hostOps1_27_fresh, hostOps1_28_fresh, hostOps1_29_fresh, hostOps1_30_fresh⟩

theorem tail_spares : (tailStretches : List (List (HloOp τ sig (Elt F)))).Forall fun ops => ops.Forall Spares :=
  ⟨hostOps1_spares, hostOps1_1_spares, hostOps1_2_spares, hostOps1_3_spares, hostOps1_4_spares, hostOps1_5_spares, hostOps1_6_spares, hostOps1_7_spares, hostOps1_8_spares, hostOps1_9_spares, hostOps1_10_spares, hostOps1_11_spares, hostOps1_12_spares, hostOps1_13_spares, hostOps1_14_spares, hostOps1_15_spares, hostOps1_16_spares, hostOps1_17_spares, hostOps1_18_spares, hostOps1_19_spares, hostOps1_20_spares, hostOps1_21_spares, hostOps1_22_spares, hostOps1_23_spares, hostOps1_24_spares, hostOps1_25_spares, hostOps1_26_spares, hostOps1_27_spares, hostOps1_28_spares, hostOps1_29_spares, hostOps1_30_spares⟩

/-! ## The program around the region -/

/-- The program is the reshape before the region, the region, and the later stretches: it reduces to the region
    continued by the later stretches, entered at the contents after the reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailStretches (F := F)).map StableHlo.seq)) :=
  Pipeline.hmain_around cfgs 0 defs₀ 𝒱₀ m main [hostOps0] tailStretches (by simp only [List.Forall]; exact hostOps0_sub)
    (by simp only [List.Forall]; exact hostOps0_fresh) main_chain

/-- The later stretches touch the region's arrays and the buffers that bypass it only: every buffer of every
    operation is an unscoped TensorCore reference, and with nothing prefetched each such reference is one or the other. -/
theorem sfx_sub : ∀ ops ∈ (tailStretches : List (List (HloOp τ sig (Elt F)))), ∀ op ∈ ops,
    op.bufs ⊆ Pipeline.tailRefs sig Pipeline.Prefetch.none spec0 := by
  rw [Pipeline.tailRefs_none spec0 launch0.win.arr_unscoped]
  exact fun ops hops op hop => Pipeline.sub_ucRefs op (forall_mem₂ tail_sub ops hops op hop)

/-- They allocate nothing. -/
theorem sfx_fresh : ∀ ops ∈ (tailStretches : List (List (HloOp τ sig (Elt F)))), ∀ op ∈ ops, op.fresh = ∅ :=
  forall_mem₂ tail_fresh

/-- They write no array of the region: each writes its own result buffer only. -/
theorem sfx_keeps : ∀ ops ∈ (tailStretches : List (List (HloOp τ sig (Elt F)))), ∀ op ∈ ops,
    ∀ w, Proc.devRef .tc (Pipeline.arrRef spec0 w) ∉ op.writes :=
  fun ops hops op hop w => (forall_mem₂ tail_spares ops hops op hop).not_arr w

/-! ## The argument buffer -/

/-- The reshape before the region writes its own result, not the argument: the region finds the argument as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.reshape_writes, Finset.mem_singleton]
    exact StableHlo.devRef_ne_of_ne (by decide)))

/-- No operation after the region writes the argument, and it is no array of the region: it ends as launched. -/
theorem W_main_arg0 (dats : (p : Fin 1) → (c : Dev nD) → Dat τ (Elt F) Unit ℕ (UR sig nD τ) ℕ (cfgs p) c) (c : Dev nD) :
    Pipeline.afterTail₀ cfgs dats 0 (V0 m) tailStretches c main_arg0 = m ((c : Thread nD τ).loc main_arg0) := by
  unfold Pipeline.afterTail₀
  rw [StableHlo.after_of_forall_not_mem (b := Proc.devRef .tc main_arg0) _ _ (fun op hop => by
      obtain ⟨ops, hops, hop'⟩ := List.mem_flatten.mp hop
      exact (forall_mem₂ tail_spares ops hops op hop').not_arg0),
    Pipeline.withArrays_of_ne _ c (V0 m c) _ main_arg0 (by exact (by decide : ∀ w, Pipeline.arrRef spec0 w ≠ main_arg0))]
  exact V_main_arg0 m c

/-! ## From the library's frame post -/

/-- A run to the library's frame post, read at the argument buffer (a buffer no window stages), is a run to the
    frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailStretches))) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (((h c).2 main_arg0 (Pipeline.mem_restRefs_of main_arg0 (by decide) (by decide))).trans (W_main_arg0 m dats c))) h

/-- The same run read at the result buffer as well: it holds what the later stretches compute from the region's
    exit contents, and the argument is as launched. -/
theorem post_result (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) tailStretches))) :
    θ_run defs (onTc (τ := τ) (main (F := F))) ⟨m, fun _ => 0, ρ⟩ (fun r => ∀ c : Dev nD,
      r.2.mem ((c.tc : Thread nD τ).loc main_v38) = Pipeline.afterTail₀ cfgs dats 0 (V0 m) tailStretches c main_v38
        ∧ r.2.mem ((c.tc : Thread nD τ).loc main_arg0) = m ((c.tc : Thread nD τ).loc main_arg0)) :=
  (θ_run defs _ _).mono (fun _ h c =>
    ⟨(h c).2 main_v38 (Pipeline.mem_restRefs_of main_v38 (by decide) (by decide)),
      ((h c).2 main_arg0 (Pipeline.mem_restRefs_of main_arg0 (by decide) (by decide))).trans (W_main_arg0 m dats c)⟩) h

end Cert.Kernel.Hand

end
-- ==== Proof.KBodyVal.lean ====
/-
  What the kernel body stores, as one function of the block it loads.

  The body loads its 32 × 128 × 128 input block once, computes with vector operations only, and stores one
  32 × 128 × 128 block of 32-bit words. The printed body is cut into parts, and each value a later part or the store
  reads is named as a function of the values read before it; composing those named functions in the order the parts
  pass their results along gives the stored block as a function of the loaded one.
-/
import proofs.«157353_j50216757624982_1_alg».proof.Proof.Gen.Kernel.Skeleton

noncomputable section

namespace Cert.Kernel.Hand

open Idealize.ShloMosaic Idealize.SL.Sem Cert.Kernel Cert.Kernel.Gen

variable {F : FTy → Type} [FloatOps F]

/-- The block of words the body stores, from the block `v0` it loaded: the parts' named values composed in order
    (fifty masked rotations folded by maximum along the second axis, fifty along the third, the two comparisons,
    their conjunction widened to 32 bits). -/
noncomputable def nmsVal (v0 : Vec F S32x128x128 .f32) : IVec S32x128x128 32 :=
  let v1 : FVec F S32x128x128 .f32 := k0_pay2 v0
  let v2 : IVec S32x128x128 32 := iota .tc S32x128x128 32 [1] iota_S32x128x128_d1_w32
  let v32 : FVec F S32x128x128 .f32 := k0_pay3 v0
  let v37 : FVec F S32x128x128 .f32 := k0_pay4 v0
  let v74 : FVec F S32x128x128 .f32 := k0_pay5 v1 v2 v32 v37
  let v75 : FVec F S32x128x128 .f32 := k0_pay6 v1
  let v77 : IVec S32x128x128 1 := k0_pay7 v2
  let v116 : FVec F S32x128x128 .f32 := k0_pay8 v1 v2 v74 v75 v77
  let v117 : FVec F S32x128x128 .f32 := k0_pay9 v1
  let v152 : FVec F S32x128x128 .f32 := k0_pay10 v1 v2 v116 v117
  let v157 : FVec F S32x128x128 .f32 := k0_pay11 v1 v2
  let v194 : FVec F S32x128x128 .f32 := k0_pay12 v1 v2 v152 v157
  let v195 : FVec F S32x128x128 .f32 := k0_pay13 v1
  let v197 : IVec S32x128x128 1 := k0_pay14 v2
  let v236 : FVec F S32x128x128 .f32 := k0_pay15 v1 v2 v194 v195 v197
  let v237 : FVec F S32x128x128 .f32 := k0_pay16 v1
  let v272 : FVec F S32x128x128 .f32 := k0_pay17 v1 v2 v236 v237
  let v277 : FVec F S32x128x128 .f32 := k0_pay18 v1 v2
  let v302 : FVec F S32x128x128 .f32 := k0_pay19 v1 v2 v272 v277
  let v303 : IVec S32x128x128 32 := iota .tc S32x128x128 32 [2] iota_S32x128x128_d2_w32
  let v315 : FVec F S32x128x128 .f32 := k0_pay20 v1 v2 v272 v277
  let v316 : FVec F S32x128x128 .f32 := k0_pay21 v1 v2 v272 v277
  let v317 : IVec S32x128x128 32 := k0_pay22
  let v357 : FVec F S32x128x128 .f32 := k0_pay23 v302 v303 v315 v316 v317
  let v393 : FVec F S32x128x128 .f32 := k0_pay24 v302 v303 v357 16#32
  let v394 : FVec F S32x128x128 .f32 := k0_pay25 v302
  let v396 : IVec S32x128x128 1 := k0_pay26 v303
  let v397 : FVec F S32x128x128 .f32 := k0_pay27 (F := F)
  let v435 : FVec F S32x128x128 .f32 := k0_pay28 v302 v303 v393 v394 v396 v397
  let v436 : FVec F S32x128x128 .f32 := k0_pay29 v302
  let v437 : IVec S32x128x128 32 := k0_pay30
  let v477 : FVec F S32x128x128 .f32 := k0_pay31 v302 v303 v435 v436 v437
  let v513 : FVec F S32x128x128 .f32 := k0_pay32 v302 v303 v477 123#32
  let v514 : FVec F S32x128x128 .f32 := k0_pay33 v302
  let v516 : IVec S32x128x128 1 := k0_pay34 v303
  let v517 : FVec F S32x128x128 .f32 := k0_pay35 (F := F)
  let v555 : FVec F S32x128x128 .f32 := k0_pay36 v302 v303 v513 v514 v516 v517
  let v556 : FVec F S32x128x128 .f32 := k0_pay37 v302
  let v557 : IVec S32x128x128 32 := k0_pay38
  let v597 : FVec F S32x128x128 .f32 := k0_pay39 v302 v303 v555 v556 v557
  k0_pay1 v1 v302 v303 v597 103#32

end Cert.Kernel.Hand

end
-- ==== Proof.KBody.lean ====
/-
  The kernel body's triple and the pipeline's proof data.

  The body loads its whole 32 × 128 × 128 input block, computes with vector operations only, reads the output
  buffer once without using the value, and stores one whole block of words. So after the body the output buffer
  holds, whatever it held before, the one stored block: the named value of the loaded block. The proof data of the
  pipeline say that at every grid point the input buffer still holds its block of the input array and the output
  buffer holds that value of it, and the body obligation is the triple at every point.
-/
import proofs.«157353_j50216757624982_1_alg».proof.Proof.KBase
import proofs.«157353_j50216757624982_1_alg».proof.Proof.KBodyVal
import Idealize.ShloMosaic.Lib.Ring
import Idealize.ShloMosaic.Lib.Tactic

-- membership in a rectangle of these extents recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The body's one rectangle -/

/-- The whole block, as the rectangle of unit strides at zero offsets the body loads and stores through. -/
abbrev r0 : Rect S32x128x128 := Rect.unit (s := S32x128x128) ![0, 0, 0] S32x128x128.size inb_S32x128x128_S32x128x128_0_0_0

/-! ## What the body leaves in the output buffer -/

/-- The output buffer after the body, from the input block: its one store as a list of pieces. -/
def out0_1 (x0 : Vec F S32x128x128 .f32) : Vec F S32x128x128 .i32 :=
  View.canon [⟨r0, nmsVal (View.ld x0 r0)⟩]

/-- The one store covers the buffer: every index lies in the whole-block rectangle. -/
theorem cover0_1 (p0 : Vec F S32x128x128 .i32) (y : S32x128x128.Idx) :
    ∃ pc ∈ ([⟨r0, p0⟩] : List (View.Piece (Elt F) S32x128x128 .i32)), y ∈ pc.1.set :=
  View.cover_of_tiled [⟨r0, p0⟩] S32x128x128.size (by rfl) y

/-! ## The body's triple -/

set_option maxHeartbeats 1000000 in
/-- The kernel body on whole staging buffers, the input's at contents `x0` and the output's at anything, runs to the
    continuation holding the input's as it was and the output's at `out0_1 x0`. -/
theorem sound_kernel (c : Dev nD) (E : Set ℕ) (i : grid0.Coords) (arg1 : Memref sig .tc .vmem S32x128x128 .f32) (harg1 : arg1.IsWhole) (arg2 : Memref sig .tc .vmem S32x128x128 .i32) (harg2 : arg2.IsWhole)
    (x0 : Vec F S32x128x128 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__nms_kernel i arg1 harg1 arg2 harg2) K := by
  simp only [cc0__nms_kernel_eq_skeleton]; unfold cc0__nms_kernel_skel
  unfold owns
  iintro ⟨⟨%f0, %hf0, H0⟩, ⟨%d1, %f1, %hf1, H1⟩, Hk⟩
  subst hf0
  sl_exec
  sl_step
  iapply Hk
  isplitl [H0]
  · iexists f0; isplitr; · ipureintro; rfl
    iexact H0
  iexists _; isplitr
  swap; · iexact H1
  ipureintro
  rw [View.read_writes_eq_canon _ _ _ (cover0_1 _)]
  unfold out0_1
  rfl

/-! ## The input window's buffer before the body -/

/-- The input window's current staging buffer holds its block of the array at every point, fetched there or not,
    for any proof data whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The pipeline's proof data -/

/-- The proof data of the one pipeline on core `c`: the arrays as the region finds them; after the body at point `t`
    the input's buffer at its block and the output's at the stored value of that block; the invariant the scoped
    rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => out0_1 (iblk m c 0 t)
  Φ _ := Pipeline.ΦA spec0 c
  q _ := fullShare
  owed _ := 0

/-- The proof data's arrays are the region-entry contents (the definition projected, the contents never unfolded). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = out0_1 (iblk m c 0 t) := by dsimp only [dats]

/-- The input's current staging buffer holds its block at every point. -/
theorem before0_0 (c : Dev nD) (t : Fin cfg0.N) (d) : (dats m 0 c).before 0 t d = iblk m c 0 t :=
  before0_0_of m (dats m 0 c) (A_eq m c 0) (after0_0 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The body at any point: the input's buffer holds its block, so the triple applies; the invariant and the core's
    debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  iintro ⟨HΦ, Ho, ⟨%d0, H0⟩, ⟨%d1, H1⟩⟩
  iapply (sound_kernel c Set.univ (grid0.coords t) _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KFrame.lean ====
/-
  The run of the program around its region, and the frame.

  The program is one reshape, the region over its forty grid points, and the later stretches of host operations.
  With the body obligation at every point, the library's launch theorem for a region followed by host operations
  gives: every weakly fair execution terminates, each array of the region ends at what the proof data compute and
  every other unscoped buffer as the later stretches leave it. Read at the argument buffer, which nothing writes,
  that run is the frame: the argument ends as it was launched.
-/
import proofs.«157353_j50216757624982_1_alg».proof.Proof.KHost
import proofs.«157353_j50216757624982_1_alg».proof.Proof.KBody

noncomputable section

namespace Cert.Kernel.Hand

open Idealize.ShloMosaic Idealize.ShloMosaic.TcCoe
open Idealize.SL Idealize.SL.Sem
open Idealize.ShloMosaic.Pipeline (Dat)
open Cert.Kernel Cert.Kernel.Gen

variable {F : FTy → Type} [FloatOps F]

variable (m : (ℓ : Loc nD τ sig) → Buf (Elt F) ℓ) (ρ : Dev nD → PrngReg)

-- the launch theorem's implicit arguments are found by unifying its conclusion with this statement, which takes
-- unfolding plain definitions in the type of an unknown
set_option backward.isDefEq.respectTransparency.types false in
/-- At the compiled mesh, for any values, from any memory with zero counters: every weakly fair execution of the
    program on the TensorCores terminates, and every final state has every array of the region at what the library
    computes from the proof data and every other unscoped buffer as the stretches after the region leave it. -/
theorem run_main : θ_run defs (onTc (τ := τ) (main (F := F))) (s₀ m ρ)
    (Pipeline.FramePost cfgs (dats m) 0 (Pipeline.afterTail₀ cfgs (dats m) 0 (V0 m) tailStretches)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailStretches) (hsub := sfx_sub) (hfresh := sfx_fresh) (hkeep := sfx_keeps)
    (hmain := hmain m Variants.none) (hA := A_eq m) (hΦ := fun _ _ => rfl)

/-- The frame: the argument buffer ends as it was launched, on every core. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.Kernel.Hand

end
-- ==== Proof.KIBase.lean ====
/-
  The kernel's program around its one region: the names the frame proof and the value proof share.

  The program reshapes its argument, runs the region over forty grid points, and continues with thirty-one
  stretches of host operations (the comparison of the region's result with zero, then the compaction of the mask
  into rows of indices). `V0` is a core's buffer contents when the region is entered, `iblk` a window's block at a
  grid point read off its array there, and `tailStretches` the operations after the region, stretch by stretch.
-/
import proofs.«157353_j50216757624982_1_alg».proof.Proof.Gen.KernelIdeal.Launch
import proofs.«157353_j50216757624982_1_alg».proof.Proof.Gen.KernelIdeal.Points
import Idealize.ShloMosaic.Lib.Pipeline.FrameBody
import Idealize.ShloMosaic.Lib.Pipeline.FrameSuffix

noncomputable section

namespace Cert.KernelIdeal.Hand

open Idealize.ShloMosaic Idealize.ShloMosaic.TcCoe
open Idealize.SL Idealize.SL.Sem
open Cert.KernelIdeal Cert.KernelIdeal.Gen

variable {F : FTy → Type} [FloatOps F]

variable (m : (ℓ : Loc nD τ sig) → Buf (Elt F) ℓ)

/-- The host operations after the region, stretch by stretch, in program order. -/
abbrev tailStretches : List (List (HloOp τ sig (Elt F))) :=
  [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22, hostOps1_23, hostOps1_24, hostOps1_25, hostOps1_26, hostOps1_27, hostOps1_28, hostOps1_29, hostOps1_30]

/-- Core `c`'s buffer contents when the region is entered: the launch contents after the one reshape before it. -/
abbrev V0 (c : Dev nD) : Valuation τ sig (Elt F) := StableHlo.after (List.flatten [hostOps0]) (fun b => m (c, b))

/-- The same, read at a reference. -/
abbrev V (c : Dev nD) (b : Ref sig .tc) : Buf (Elt F) ((c : Thread nD τ).loc b) := V0 m c (Proc.devRef .tc b)

/-- Window `w`'s block at grid point `t`, read off the window's array as the region finds it. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

end Cert.KernelIdeal.Hand

end
-- ==== Proof.KIHost.lean ====
/-
  The host side of the program's frame: the program is one reshape, the region, and thirty-one stretches of host
  operations after it.

  Three facts about every operation after the region carry the frame: it touches TensorCore references only, it
  allocates nothing, and it writes exactly one buffer, which is neither the program's argument nor one of the
  region's two arrays. From them: the program reduces to the region continued by the later stretches (`hmain`), the
  later stretches stay within what a line after the region may touch and leave the arrays alone (`sfx_sub`,
  `sfx_fresh`, `sfx_keeps`), the argument buffer is as launched when the region is entered and when the program
  ends (`V_main_arg0`, `W_main_arg0`), and a run to the library's frame post is a run to the frame claim's post
  (`frame_of`) and to the result buffer's contents after the later stretches (`post_result`).
-/
import proofs.«157353_j50216757624982_1_alg».proof.Proof.KIBase

noncomputable section

namespace Cert.KernelIdeal.Hand

open Idealize.ShloMosaic Idealize.ShloMosaic.TcCoe
open Idealize.SL Idealize.SL.Sem
open Idealize.ShloMosaic.Pipeline (Dat)
open Cert.KernelIdeal Cert.KernelIdeal.Gen

variable {F : FTy → Type} [FloatOps F]

variable (m : (ℓ : Loc nD τ sig) → Buf (Elt F) ℓ) (ρ : Dev nD → PrngReg)

/-! ## Operation by operation -/

/-- A property of every operation of every list of a list of lists, from its nested `List.Forall` form. -/
theorem forall_mem₂ {α : Type} {p : α → Prop} {L : List (List α)} (h : L.Forall fun l => l.Forall p) :
    ∀ l ∈ L, ∀ a ∈ l, p a :=
  fun l hl a ha => List.forall_iff_forall_mem.mp (List.forall_iff_forall_mem.mp h l hl) a ha

/-- The operation writes exactly one buffer, and that buffer is neither the program's argument nor an array of
    the region. -/
def Spares (op : HloOp τ sig (Elt F)) : Prop :=
  ∃ y : Ref sig .tc, op.writes = {Proc.devRef .tc y} ∧ y ≠ main_arg0 ∧ ∀ w, Pipeline.arrRef spec0 w ≠ y

theorem Spares.not_arg0 {op : HloOp τ sig (Elt F)} (h : Spares op) : Proc.devRef .tc main_arg0 ∉ op.writes := by
  obtain ⟨y, hw, hy, -⟩ := h
  rw [hw, Finset.mem_singleton]
  exact StableHlo.devRef_ne_of_ne (Ne.symm hy)

theorem Spares.not_arr {op : HloOp τ sig (Elt F)} (h : Spares op) (w) :
    Proc.devRef .tc (Pipeline.arrRef spec0 w) ∉ op.writes := by
  obtain ⟨y, hw, -, hy⟩ := h
  rw [hw, Finset.mem_singleton]
  exact StableHlo.devRef_ne_of_ne (hy w)

/-! ## Stretch by stretch: nothing is allocated, and each operation writes one buffer of its own -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_spares : (hostOps1 : List (HloOp τ sig (Elt F))).Forall Spares := by
  simp only [List.Forall]; repeat' apply And.intro
  all_goals exact ⟨_, rfl, by decide, by decide⟩
theorem hostOps1_1_fresh : (hostOps1_1 : List (HloOp τ sig (Elt F))).Forall fun op => op.fresh = ∅ := by
  simp only [List.Forall]; repeat' constructor
theorem hostOps1_1_spares : (hostOps1_1 : List (HloOp τ sig (Elt F))).Forall Spares := by
  simp only [List.Forall]; repeat' apply And.intro
  all_goals exact ⟨_, rfl, by decide, by decide⟩
theorem hostOps1_2_fresh : (hostOps1_2 : List (HloOp τ sig (Elt F))).Forall fun op => op.fresh = ∅ := by
  simp only [List.Forall]; repeat' constructor
theorem hostOps1_2_spares : (hostOps1_2 : List (HloOp τ sig (Elt F))).Forall Spares := by
  simp only [List.Forall]; repeat' apply And.intro
  all_goals exact ⟨_, rfl, by decide, by decide⟩
theorem hostOps1_3_fresh : (hostOps1_3 : List (HloOp τ sig (Elt F))).Forall fun op => op.fresh = ∅ := by
  simp only [List.Forall]; repeat' constructor
theorem hostOps1_3_spares : (hostOps1_3 : List (HloOp τ sig (Elt F))).Forall Spares := by
  simp only [List.Forall]; repeat' apply And.intro
  all_goals exact ⟨_, rfl, by decide, by decide⟩
theorem hostOps1_4_fresh : (hostOps1_4 : List (HloOp τ sig (Elt F))).Forall fun op => op.fresh = ∅ := by
  simp only [List.Forall]; repeat' constructor
theorem hostOps1_4_spares : (hostOps1_4 : List (HloOp τ sig (Elt F))).Forall Spares := by
  simp only [List.Forall]; repeat' apply And.intro
  all_goals exact ⟨_, rfl, by decide, by decide⟩
theorem hostOps1_5_fresh : (hostOps1_5 : List (HloOp τ sig (Elt F))).Forall fun op => op.fresh = ∅ := by
  simp only [List.Forall]; repeat' constructor
theorem hostOps1_5_spares : (hostOps1_5 : List (HloOp τ sig (Elt F))).Forall Spares := by
  simp only [List.Forall]; repeat' apply And.intro
  all_goals exact ⟨_, rfl, by decide, by decide⟩
theorem hostOps1_6_fresh : (hostOps1_6 : List (HloOp τ sig (Elt F))).Forall fun op => op.fresh = ∅ := by
  simp only [List.Forall]; repeat' constructor
theorem hostOps1_6_spares : (hostOps1_6 : List (HloOp τ sig (Elt F))).Forall Spares := by
  simp only [List.Forall]; repeat' apply And.intro
  all_goals exact ⟨_, rfl, by decide, by decide⟩
theorem hostOps1_7_fresh : (hostOps1_7 : List (HloOp τ sig (Elt F))).Forall fun op => op.fresh = ∅ := by
  simp only [List.Forall]; repeat' constructor
theorem hostOps1_7_spares : (hostOps1_7 : List (HloOp τ sig (Elt F))).Forall Spares := by
  simp only [List.Forall]; repeat' apply And.intro
  all_goals exact ⟨_, rfl, by decide, by decide⟩
theorem hostOps1_8_fresh : (hostOps1_8 : List (HloOp τ sig (Elt F))).Forall fun op => op.fresh = ∅ := by
  simp only [List.Forall]; repeat' constructor
theorem hostOps1_8_spares : (hostOps1_8 : List (HloOp τ sig (Elt F))).Forall Spares := by
  simp only [List.Forall]; repeat' apply And.intro
  all_goals exact ⟨_, rfl, by decide, by decide⟩
theorem hostOps1_9_fresh : (hostOps1_9 : List (HloOp τ sig (Elt F))).Forall fun op => op.fresh = ∅ := by
  simp only [List.Forall]; repeat' constructor
theorem hostOps1_9_spares : (hostOps1_9 : List (HloOp τ sig (Elt F))).Forall Spares := by
  simp only [List.Forall]; repeat' apply And.intro
  all_goals exact ⟨_, rfl, by decide, by decide⟩
theorem hostOps1_10_fresh : (hostOps1_10 : List (HloOp τ sig (Elt F))).Forall fun op => op.fresh = ∅ := by
  simp only [List.Forall]; repeat' constructor
theorem hostOps1_10_spares : (hostOps1_10 : List (HloOp τ sig (Elt F))).Forall Spares := by
  simp only [List.Forall]; repeat' apply And.intro
  all_goals exact ⟨_, rfl, by decide, by decide⟩
theorem hostOps1_11_fresh : (hostOps1_11 : List (HloOp τ sig (Elt F))).Forall fun op => op.fresh = ∅ := by
  simp only [List.Forall]; repeat' constructor
theorem hostOps1_11_spares : (hostOps1_11 : List (HloOp τ sig (Elt F))).Forall Spares := by
  simp only [List.Forall]; repeat' apply And.intro
  all_goals exact ⟨_, rfl, by decide, by decide⟩
theorem hostOps1_12_fresh : (hostOps1_12 : List (HloOp τ sig (Elt F))).Forall fun op => op.fresh = ∅ := by
  simp only [List.Forall]; repeat' constructor
theorem hostOps1_12_spares : (hostOps1_12 : List (HloOp τ sig (Elt F))).Forall Spares := by
  simp only [List.Forall]; repeat' apply And.intro
  all_goals exact ⟨_, rfl, by decide, by decide⟩
theorem hostOps1_13_fresh : (hostOps1_13 : List (HloOp τ sig (Elt F))).Forall fun op => op.fresh = ∅ := by
  simp only [List.Forall]; repeat' constructor
theorem hostOps1_13_spares : (hostOps1_13 : List (HloOp τ sig (Elt F))).Forall Spares := by
  simp only [List.Forall]; repeat' apply And.intro
  all_goals exact ⟨_, rfl, by decide, by decide⟩
theorem hostOps1_14_fresh : (hostOps1_14 : List (HloOp τ sig (Elt F))).Forall fun op => op.fresh = ∅ := by
  simp only [List.Forall]; repeat' constructor
theorem hostOps1_14_spares : (hostOps1_14 : List (HloOp τ sig (Elt F))).Forall Spares := by
  simp only [List.Forall]; repeat' apply And.intro
  all_goals exact ⟨_, rfl, by decide, by decide⟩
theorem hostOps1_15_fresh : (hostOps1_15 : List (HloOp τ sig (Elt F))).Forall fun op => op.fresh = ∅ := by
  simp only [List.Forall]; repeat' constructor
theorem hostOps1_15_spares : (hostOps1_15 : List (HloOp τ sig (Elt F))).Forall Spares := by
  simp only [List.Forall]; repeat' apply And.intro
  all_goals exact ⟨_, rfl, by decide, by decide⟩
theorem hostOps1_16_fresh : (hostOps1_16 : List (HloOp τ sig (Elt F))).Forall fun op => op.fresh = ∅ := by
  simp only [List.Forall]; repeat' constructor
theorem hostOps1_16_spares : (hostOps1_16 : List (HloOp τ sig (Elt F))).Forall Spares := by
  simp only [List.Forall]; repeat' apply And.intro
  all_goals exact ⟨_, rfl, by decide, by decide⟩
theorem hostOps1_17_fresh : (hostOps1_17 : List (HloOp τ sig (Elt F))).Forall fun op => op.fresh = ∅ := by
  simp only [List.Forall]; repeat' constructor
theorem hostOps1_17_spares : (hostOps1_17 : List (HloOp τ sig (Elt F))).Forall Spares := by
  simp only [List.Forall]; repeat' apply And.intro
  all_goals exact ⟨_, rfl, by decide, by decide⟩
theorem hostOps1_18_fresh : (hostOps1_18 : List (HloOp τ sig (Elt F))).Forall fun op => op.fresh = ∅ := by
  simp only [List.Forall]; repeat' constructor
theorem hostOps1_18_spares : (hostOps1_18 : List (HloOp τ sig (Elt F))).Forall Spares := by
  simp only [List.Forall]; repeat' apply And.intro
  all_goals exact ⟨_, rfl, by decide, by decide⟩
theorem hostOps1_19_fresh : (hostOps1_19 : List (HloOp τ sig (Elt F))).Forall fun op => op.fresh = ∅ := by
  simp only [List.Forall]; repeat' constructor
theorem hostOps1_19_spares : (hostOps1_19 : List (HloOp τ sig (Elt F))).Forall Spares := by
  simp only [List.Forall]; repeat' apply And.intro
  all_goals exact ⟨_, rfl, by decide, by decide⟩
theorem hostOps1_20_fresh : (hostOps1_20 : List (HloOp τ sig (Elt F))).Forall fun op => op.fresh = ∅ := by
  simp only [List.Forall]; repeat' constructor
theorem hostOps1_20_spares : (hostOps1_20 : List (HloOp τ sig (Elt F))).Forall Spares := by
  simp only [List.Forall]; repeat' apply And.intro
  all_goals exact ⟨_, rfl, by decide, by decide⟩
theorem hostOps1_21_fresh : (hostOps1_21 : List (HloOp τ sig (Elt F))).Forall fun op => op.fresh = ∅ := by
  simp only [List.Forall]; repeat' constructor
theorem hostOps1_21_spares : (hostOps1_21 : List (HloOp τ sig (Elt F))).Forall Spares := by
  simp only [List.Forall]; repeat' apply And.intro
  all_goals exact ⟨_, rfl, by decide, by decide⟩
theorem hostOps1_22_fresh : (hostOps1_22 : List (HloOp τ sig (Elt F))).Forall fun op => op.fresh = ∅ := by
  simp only [List.Forall]; repeat' constructor
theorem hostOps1_22_spares : (hostOps1_22 : List (HloOp τ sig (Elt F))).Forall Spares := by
  simp only [List.Forall]; repeat' apply And.intro
  all_goals exact ⟨_, rfl, by decide, by decide⟩
theorem hostOps1_23_fresh : (hostOps1_23 : List (HloOp τ sig (Elt F))).Forall fun op => op.fresh = ∅ := by
  simp only [List.Forall]; repeat' constructor
theorem hostOps1_23_spares : (hostOps1_23 : List (HloOp τ sig (Elt F))).Forall Spares := by
  simp only [List.Forall]; repeat' apply And.intro
  all_goals exact ⟨_, rfl, by decide, by decide⟩
theorem hostOps1_24_fresh : (hostOps1_24 : List (HloOp τ sig (Elt F))).Forall fun op => op.fresh = ∅ := by
  simp only [List.Forall]; repeat' constructor
theorem hostOps1_24_spares : (hostOps1_24 : List (HloOp τ sig (Elt F))).Forall Spares := by
  simp only [List.Forall]; repeat' apply And.intro
  all_goals exact ⟨_, rfl, by decide, by decide⟩
theorem hostOps1_25_fresh : (hostOps1_25 : List (HloOp τ sig (Elt F))).Forall fun op => op.fresh = ∅ := by
  simp only [List.Forall]; repeat' constructor
theorem hostOps1_25_spares : (hostOps1_25 : List (HloOp τ sig (Elt F))).Forall Spares := by
  simp only [List.Forall]; repeat' apply And.intro
  all_goals exact ⟨_, rfl, by decide, by decide⟩
theorem hostOps1_26_fresh : (hostOps1_26 : List (HloOp τ sig (Elt F))).Forall fun op => op.fresh = ∅ := by
  simp only [List.Forall]; repeat' constructor
theorem hostOps1_26_spares : (hostOps1_26 : List (HloOp τ sig (Elt F))).Forall Spares := by
  simp only [List.Forall]; repeat' apply And.intro
  all_goals exact ⟨_, rfl, by decide, by decide⟩
theorem hostOps1_27_fresh : (hostOps1_27 : List (HloOp τ sig (Elt F))).Forall fun op => op.fresh = ∅ := by
  simp only [List.Forall]; repeat' constructor
theorem hostOps1_27_spares : (hostOps1_27 : List (HloOp τ sig (Elt F))).Forall Spares := by
  simp only [List.Forall]; repeat' apply And.intro
  all_goals exact ⟨_, rfl, by decide, by decide⟩
theorem hostOps1_28_fresh : (hostOps1_28 : List (HloOp τ sig (Elt F))).Forall fun op => op.fresh = ∅ := by
  simp only [List.Forall]; repeat' constructor
theorem hostOps1_28_spares : (hostOps1_28 : List (HloOp τ sig (Elt F))).Forall Spares := by
  simp only [List.Forall]; repeat' apply And.intro
  all_goals exact ⟨_, rfl, by decide, by decide⟩
theorem hostOps1_29_fresh : (hostOps1_29 : List (HloOp τ sig (Elt F))).Forall fun op => op.fresh = ∅ := by
  simp only [List.Forall]; repeat' constructor
theorem hostOps1_29_spares : (hostOps1_29 : List (HloOp τ sig (Elt F))).Forall Spares := by
  simp only [List.Forall]; repeat' apply And.intro
  all_goals exact ⟨_, rfl, by decide, by decide⟩
theorem hostOps1_30_fresh : (hostOps1_30 : List (HloOp τ sig (Elt F))).Forall fun op => op.fresh = ∅ := by
  simp only [List.Forall]; repeat' constructor
theorem hostOps1_30_spares : (hostOps1_30 : List (HloOp τ sig (Elt F))).Forall Spares := by
  simp only [List.Forall]; repeat' apply And.intro
  all_goals exact ⟨_, rfl, by decide, by decide⟩

/-! ## The stretches together -/

theorem tail_sub : (tailStretches : List (List (HloOp τ sig (Elt F)))).Forall fun ops =>
    ops.Forall fun op => op.bufs ⊆ StableHlo.tcRefs τ sig :=
  ⟨hostOps1_sub, hostOps1_1_sub, hostOps1_2_sub, hostOps1_3_sub, hostOps1_4_sub, hostOps1_5_sub, hostOps1_6_sub, hostOps1_7_sub, hostOps1_8_sub, hostOps1_9_sub, hostOps1_10_sub, hostOps1_11_sub, hostOps1_12_sub, hostOps1_13_sub, hostOps1_14_sub, hostOps1_15_sub, hostOps1_16_sub, hostOps1_17_sub, hostOps1_18_sub, hostOps1_19_sub, hostOps1_20_sub, hostOps1_21_sub, hostOps1_22_sub, hostOps1_23_sub, hostOps1_24_sub, hostOps1_25_sub, hostOps1_26_sub, hostOps1_27_sub, hostOps1_28_sub, hostOps1_29_sub, hostOps1_30_sub⟩

theorem tail_fresh : (tailStretches : List (List (HloOp τ sig (Elt F)))).Forall fun ops =>
    ops.Forall fun op => op.fresh = ∅ :=
  ⟨hostOps1_fresh, hostOps1_1_fresh, hostOps1_2_fresh, hostOps1_3_fresh, hostOps1_4_fresh, hostOps1_5_fresh, hostOps1_6_fresh, hostOps1_7_fresh, hostOps1_8_fresh, hostOps1_9_fresh, hostOps1_10_fresh, hostOps1_11_fresh, hostOps1_12_fresh, hostOps1_13_fresh, hostOps1_14_fresh, hostOps1_15_fresh, hostOps1_16_fresh, hostOps1_17_fresh, hostOps1_18_fresh, hostOps1_19_fresh, hostOps1_20_fresh, hostOps1_21_fresh, hostOps1_22_fresh, hostOps1_23_fresh, hostOps1_24_fresh, hostOps1_25_fresh, hostOps1_26_fresh, hostOps1_27_fresh, hostOps1_28_fresh, hostOps1_29_fresh, hostOps1_30_fresh⟩

theorem tail_spares : (tailStretches : List (List (HloOp τ sig (Elt F)))).Forall fun ops => ops.Forall Spares :=
  ⟨hostOps1_spares, hostOps1_1_spares, hostOps1_2_spares, hostOps1_3_spares, hostOps1_4_spares, hostOps1_5_spares, hostOps1_6_spares, hostOps1_7_spares, hostOps1_8_spares, hostOps1_9_spares, hostOps1_10_spares, hostOps1_11_spares, hostOps1_12_spares, hostOps1_13_spares, hostOps1_14_spares, hostOps1_15_spares, hostOps1_16_spares, hostOps1_17_spares, hostOps1_18_spares, hostOps1_19_spares, hostOps1_20_spares, hostOps1_21_spares, hostOps1_22_spares, hostOps1_23_spares, hostOps1_24_spares, hostOps1_25_spares, hostOps1_26_spares, hostOps1_27_spares, hostOps1_28_spares, hostOps1_29_spares, hostOps1_30_spares⟩

/-! ## The program around the region -/

/-- The program is the reshape before the region, the region, and the later stretches: it reduces to the region
    continued by the later stretches, entered at the contents after the reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailStretches (F := F)).map StableHlo.seq)) :=
  Pipeline.hmain_around cfgs 0 defs₀ 𝒱₀ m main [hostOps0] tailStretches (by simp only [List.Forall]; exact hostOps0_sub)
    (by simp only [List.Forall]; exact hostOps0_fresh) main_chain

/-- The later stretches touch the region's arrays and the buffers that bypass it only: every buffer of every
    operation is an unscoped TensorCore reference, and with nothing prefetched each such reference is one or the other. -/
theorem sfx_sub : ∀ ops ∈ (tailStretches : List (List (HloOp τ sig (Elt F)))), ∀ op ∈ ops,
    op.bufs ⊆ Pipeline.tailRefs sig Pipeline.Prefetch.none spec0 := by
  rw [Pipeline.tailRefs_none spec0 launch0.win.arr_unscoped]
  exact fun ops hops op hop => Pipeline.sub_ucRefs op (forall_mem₂ tail_sub ops hops op hop)

/-- They allocate nothing. -/
theorem sfx_fresh : ∀ ops ∈ (tailStretches : List (List (HloOp τ sig (Elt F)))), ∀ op ∈ ops, op.fresh = ∅ :=
  forall_mem₂ tail_fresh

/-- They write no array of the region: each writes its own result buffer only. -/
theorem sfx_keeps : ∀ ops ∈ (tailStretches : List (List (HloOp τ sig (Elt F)))), ∀ op ∈ ops,
    ∀ w, Proc.devRef .tc (Pipeline.arrRef spec0 w) ∉ op.writes :=
  fun ops hops op hop w => (forall_mem₂ tail_spares ops hops op hop).not_arr w

/-! ## The argument buffer -/

/-- The reshape before the region writes its own result, not the argument: the region finds the argument as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.reshape_writes, Finset.mem_singleton]
    exact StableHlo.devRef_ne_of_ne (by decide)))

/-- No operation after the region writes the argument, and it is no array of the region: it ends as launched. -/
theorem W_main_arg0 (dats : (p : Fin 1) → (c : Dev nD) → Dat τ (Elt F) Unit ℕ (UR sig nD τ) ℕ (cfgs p) c) (c : Dev nD) :
    Pipeline.afterTail₀ cfgs dats 0 (V0 m) tailStretches c main_arg0 = m ((c : Thread nD τ).loc main_arg0) := by
  unfold Pipeline.afterTail₀
  rw [StableHlo.after_of_forall_not_mem (b := Proc.devRef .tc main_arg0) _ _ (fun op hop => by
      obtain ⟨ops, hops, hop'⟩ := List.mem_flatten.mp hop
      exact (forall_mem₂ tail_spares ops hops op hop').not_arg0),
    Pipeline.withArrays_of_ne _ c (V0 m c) _ main_arg0 (by exact (by decide : ∀ w, Pipeline.arrRef spec0 w ≠ main_arg0))]
  exact V_main_arg0 m c

/-! ## From the library's frame post -/

/-- A run to the library's frame post, read at the argument buffer (a buffer no window stages), is a run to the
    frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailStretches))) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (((h c).2 main_arg0 (Pipeline.mem_restRefs_of main_arg0 (by decide) (by decide))).trans (W_main_arg0 m dats c))) h

/-- The same run read at the result buffer as well: it holds what the later stretches compute from the region's
    exit contents, and the argument is as launched. -/
theorem post_result (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) tailStretches))) :
    θ_run defs (onTc (τ := τ) (main (F := F))) ⟨m, fun _ => 0, ρ⟩ (fun r => ∀ c : Dev nD,
      r.2.mem ((c.tc : Thread nD τ).loc main_v38) = Pipeline.afterTail₀ cfgs dats 0 (V0 m) tailStretches c main_v38
        ∧ r.2.mem ((c.tc : Thread nD τ).loc main_arg0) = m ((c.tc : Thread nD τ).loc main_arg0)) :=
  (θ_run defs _ _).mono (fun _ h c =>
    ⟨(h c).2 main_v38 (Pipeline.mem_restRefs_of main_v38 (by decide) (by decide)),
      ((h c).2 main_arg0 (Pipeline.mem_restRefs_of main_arg0 (by decide) (by decide))).trans (W_main_arg0 m dats c)⟩) h

end Cert.KernelIdeal.Hand

end
-- ==== Proof.KIBodyVal.lean ====
/-
  What the kernel body stores, as one function of the block it loads.

  The body loads its 32 × 128 × 128 input block once, computes with vector operations only, and stores one
  32 × 128 × 128 block of 32-bit words. The printed body is cut into parts, and each value a later part or the store
  reads is named as a function of the values read before it; composing those named functions in the order the parts
  pass their results along gives the stored block as a function of the loaded one.
-/
import proofs.«157353_j50216757624982_1_alg».proof.Proof.Gen.KernelIdeal.Skeleton

noncomputable section

namespace Cert.KernelIdeal.Hand

open Idealize.ShloMosaic Idealize.SL.Sem Cert.KernelIdeal Cert.KernelIdeal.Gen

variable {F : FTy → Type} [FloatOps F]

/-- The block of words the body stores, from the block `v0` it loaded: the parts' named values composed in order
    (fifty masked rotations folded by maximum along the second axis, fifty along the third, the two comparisons,
    their conjunction widened to 32 bits). -/
noncomputable def nmsVal (v0 : Vec F S32x128x128 .f32) : IVec S32x128x128 32 :=
  let v1 : FVec F S32x128x128 .f32 := k0_pay2 v0
  let v2 : IVec S32x128x128 32 := iota .tc S32x128x128 32 [1] iota_S32x128x128_d1_w32
  let v32 : FVec F S32x128x128 .f32 := k0_pay3 v0
  let v37 : FVec F S32x128x128 .f32 := k0_pay4 v0
  let v74 : FVec F S32x128x128 .f32 := k0_pay5 v1 v2 v32 v37
  let v75 : FVec F S32x128x128 .f32 := k0_pay6 v1
  let v77 : IVec S32x128x128 1 := k0_pay7 v2
  let v116 : FVec F S32x128x128 .f32 := k0_pay8 v1 v2 v74 v75 v77
  let v117 : FVec F S32x128x128 .f32 := k0_pay9 v1
  let v152 : FVec F S32x128x128 .f32 := k0_pay10 v1 v2 v116 v117
  let v157 : FVec F S32x128x128 .f32 := k0_pay11 v1 v2
  let v194 : FVec F S32x128x128 .f32 := k0_pay12 v1 v2 v152 v157
  let v195 : FVec F S32x128x128 .f32 := k0_pay13 v1
  let v197 : IVec S32x128x128 1 := k0_pay14 v2
  let v236 : FVec F S32x128x128 .f32 := k0_pay15 v1 v2 v194 v195 v197
  let v237 : FVec F S32x128x128 .f32 := k0_pay16 v1
  let v272 : FVec F S32x128x128 .f32 := k0_pay17 v1 v2 v236 v237
  let v277 : FVec F S32x128x128 .f32 := k0_pay18 v1 v2
  let v302 : FVec F S32x128x128 .f32 := k0_pay19 v1 v2 v272 v277
  let v303 : IVec S32x128x128 32 := iota .tc S32x128x128 32 [2] iota_S32x128x128_d2_w32
  let v315 : FVec F S32x128x128 .f32 := k0_pay20 v1 v2 v272 v277
  let v316 : FVec F S32x128x128 .f32 := k0_pay21 v1 v2 v272 v277
  let v317 : IVec S32x128x128 32 := k0_pay22
  let v357 : FVec F S32x128x128 .f32 := k0_pay23 v302 v303 v315 v316 v317
  let v393 : FVec F S32x128x128 .f32 := k0_pay24 v302 v303 v357 16#32
  let v394 : FVec F S32x128x128 .f32 := k0_pay25 v302
  let v396 : IVec S32x128x128 1 := k0_pay26 v303
  let v397 : FVec F S32x128x128 .f32 := k0_pay27 (F := F)
  let v435 : FVec F S32x128x128 .f32 := k0_pay28 v302 v303 v393 v394 v396 v397
  let v436 : FVec F S32x128x128 .f32 := k0_pay29 v302
  let v437 : IVec S32x128x128 32 := k0_pay30
  let v477 : FVec F S32x128x128 .f32 := k0_pay31 v302 v303 v435 v436 v437
  let v513 : FVec F S32x128x128 .f32 := k0_pay32 v302 v303 v477 123#32
  let v514 : FVec F S32x128x128 .f32 := k0_pay33 v302
  let v516 : IVec S32x128x128 1 := k0_pay34 v303
  let v517 : FVec F S32x128x128 .f32 := k0_pay35 (F := F)
  let v555 : FVec F S32x128x128 .f32 := k0_pay36 v302 v303 v513 v514 v516 v517
  let v556 : FVec F S32x128x128 .f32 := k0_pay37 v302
  let v557 : IVec S32x128x128 32 := k0_pay38
  let v597 : FVec F S32x128x128 .f32 := k0_pay39 v302 v303 v555 v556 v557
  k0_pay1 v1 v302 v303 v597 103#32

end Cert.KernelIdeal.Hand

end
-- ==== Proof.KIBody.lean ====
/-
  The kernel body's triple and the pipeline's proof data.

  The body loads its whole 32 × 128 × 128 input block, computes with vector operations only, reads the output
  buffer once without using the value, and stores one whole block of words. So after the body the output buffer
  holds, whatever it held before, the one stored block: the named value of the loaded block. The proof data of the
  pipeline say that at every grid point the input buffer still holds its block of the input array and the output
  buffer holds that value of it, and the body obligation is the triple at every point.
-/
import proofs.«157353_j50216757624982_1_alg».proof.Proof.KIBase
import proofs.«157353_j50216757624982_1_alg».proof.Proof.KIBodyVal
import Idealize.ShloMosaic.Lib.Ring
import Idealize.ShloMosaic.Lib.Tactic

-- membership in a rectangle of these extents recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The body's one rectangle -/

/-- The whole block, as the rectangle of unit strides at zero offsets the body loads and stores through. -/
abbrev r0 : Rect S32x128x128 := Rect.unit (s := S32x128x128) ![0, 0, 0] S32x128x128.size inb_S32x128x128_S32x128x128_0_0_0

/-! ## What the body leaves in the output buffer -/

/-- The output buffer after the body, from the input block: its one store as a list of pieces. -/
def out0_1 (x0 : Vec F S32x128x128 .f32) : Vec F S32x128x128 .i32 :=
  View.canon [⟨r0, nmsVal (View.ld x0 r0)⟩]

/-- The one store covers the buffer: every index lies in the whole-block rectangle. -/
theorem cover0_1 (p0 : Vec F S32x128x128 .i32) (y : S32x128x128.Idx) :
    ∃ pc ∈ ([⟨r0, p0⟩] : List (View.Piece (Elt F) S32x128x128 .i32)), y ∈ pc.1.set :=
  View.cover_of_tiled [⟨r0, p0⟩] S32x128x128.size (by rfl) y

/-! ## The body's triple -/

set_option maxHeartbeats 1000000 in
/-- The kernel body on whole staging buffers, the input's at contents `x0` and the output's at anything, runs to the
    continuation holding the input's as it was and the output's at `out0_1 x0`. -/
theorem sound_kernel (c : Dev nD) (E : Set ℕ) (i : grid0.Coords) (arg1 : Memref sig .tc .vmem S32x128x128 .f32) (harg1 : arg1.IsWhole) (arg2 : Memref sig .tc .vmem S32x128x128 .i32) (harg2 : arg2.IsWhole)
    (x0 : Vec F S32x128x128 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__nms_kernel i arg1 harg1 arg2 harg2) K := by
  simp only [cc0__nms_kernel_eq_skeleton]; unfold cc0__nms_kernel_skel
  unfold owns
  iintro ⟨⟨%f0, %hf0, H0⟩, ⟨%d1, %f1, %hf1, H1⟩, Hk⟩
  subst hf0
  sl_exec
  sl_step
  iapply Hk
  isplitl [H0]
  · iexists f0; isplitr; · ipureintro; rfl
    iexact H0
  iexists _; isplitr
  swap; · iexact H1
  ipureintro
  rw [View.read_writes_eq_canon _ _ _ (cover0_1 _)]
  unfold out0_1
  rfl

/-! ## The input window's buffer before the body -/

/-- The input window's current staging buffer holds its block of the array at every point, fetched there or not,
    for any proof data whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The pipeline's proof data -/

/-- The proof data of the one pipeline on core `c`: the arrays as the region finds them; after the body at point `t`
    the input's buffer at its block and the output's at the stored value of that block; the invariant the scoped
    rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => out0_1 (iblk m c 0 t)
  Φ _ := Pipeline.ΦA spec0 c
  q _ := fullShare
  owed _ := 0

/-- The proof data's arrays are the region-entry contents (the definition projected, the contents never unfolded). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = out0_1 (iblk m c 0 t) := by dsimp only [dats]

/-- The input's current staging buffer holds its block at every point. -/
theorem before0_0 (c : Dev nD) (t : Fin cfg0.N) (d) : (dats m 0 c).before 0 t d = iblk m c 0 t :=
  before0_0_of m (dats m 0 c) (A_eq m c 0) (after0_0 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The body at any point: the input's buffer holds its block, so the triple applies; the invariant and the core's
    debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  iintro ⟨HΦ, Ho, ⟨%d0, H0⟩, ⟨%d1, H1⟩⟩
  iapply (sound_kernel c Set.univ (grid0.coords t) _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KIFrame.lean ====
/-
  The run of the program around its region, and the frame.

  The program is one reshape, the region over its forty grid points, and the later stretches of host operations.
  With the body obligation at every point, the library's launch theorem for a region followed by host operations
  gives: every weakly fair execution terminates, each array of the region ends at what the proof data compute and
  every other unscoped buffer as the later stretches leave it. Read at the argument buffer, which nothing writes,
  that run is the frame: the argument ends as it was launched.
-/
import proofs.«157353_j50216757624982_1_alg».proof.Proof.KIHost
import proofs.«157353_j50216757624982_1_alg».proof.Proof.KIBody

noncomputable section

namespace Cert.KernelIdeal.Hand

open Idealize.ShloMosaic Idealize.ShloMosaic.TcCoe
open Idealize.SL Idealize.SL.Sem
open Idealize.ShloMosaic.Pipeline (Dat)
open Cert.KernelIdeal Cert.KernelIdeal.Gen

variable {F : FTy → Type} [FloatOps F]

variable (m : (ℓ : Loc nD τ sig) → Buf (Elt F) ℓ) (ρ : Dev nD → PrngReg)

-- the launch theorem's implicit arguments are found by unifying its conclusion with this statement, which takes
-- unfolding plain definitions in the type of an unknown
set_option backward.isDefEq.respectTransparency.types false in
/-- At the compiled mesh, for any values, from any memory with zero counters: every weakly fair execution of the
    program on the TensorCores terminates, and every final state has every array of the region at what the library
    computes from the proof data and every other unscoped buffer as the stretches after the region leave it. -/
theorem run_main : θ_run defs (onTc (τ := τ) (main (F := F))) (s₀ m ρ)
    (Pipeline.FramePost cfgs (dats m) 0 (Pipeline.afterTail₀ cfgs (dats m) 0 (V0 m) tailStretches)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailStretches) (hsub := sfx_sub) (hfresh := sfx_fresh) (hkeep := sfx_keeps)
    (hmain := hmain m Variants.none) (hA := A_eq m) (hΦ := fun _ _ => rfl)

/-- The frame: the argument buffer ends as it was launched, on every core. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.KernelIdeal.Hand

end
-- ==== Proof.NmsSpec.lean ====
/-
  The non-maximum-suppression mask as one function of an image, over the extended reals.

  An image is a 128 × 128 array of extended reals. Its sliding maximum along one axis takes, at position i, the
  maximum of the 51 entries i − 25, …, i + 25, an entry beyond either end of the axis counting as −inf (the value the
  f32 word 0xFF800000 denotes). The pooled image applies the sliding maximum first down the rows' axis (for every
  column) and then along the columns' axis (for every row): the maximum of the 51 × 51 box around (h, w). A pixel is
  KEPT when it equals its pooled value and that value exceeds one half (the value the f32 word 0x3F000000 denotes).

  The sliding maximum is written as the left fold of `max` from −inf over the 51 window positions n = 0, …, 50,
  position n reading entry i + n − 25 when it lies on the axis: the window read in order, padding included.
-/
import Idealize.ShloMosaic.PureOps.Ideal
import Idealize.ShloMosaic.Lib.ValueIdx

noncomputable section

namespace Cert.Nms

open Idealize.ShloMosaic

/-- The value −inf, as the f32 word that denotes it. -/
abbrev ninf : Ideal .f32 := Ideal.ofBits .f32 0xFF800000#32

/-- The threshold one half, as the f32 word that denotes it. -/
abbrev half : Ideal .f32 := Ideal.ofBits .f32 0x3F000000#32

/-- Entry `p − 25` of a row of 128 entries, −inf when `p − 25` falls off either end: the row padded by 25 on both
    sides, read at padded position `p`. -/
def padAt (f : Fin 128 → Ideal .f32) (p : Nat) : Ideal .f32 :=
  if h : 25 ≤ p ∧ p - 25 < 128 then f ⟨p - 25, h.2⟩ else ninf

/-- The sliding maximum of radius 25 at position `i`: the window's 51 padded positions `i + n`, folded in order. -/
def slide (f : Fin 128 → Ideal .f32) (i : Fin 128) : Ideal .f32 :=
  (List.finRange 51).foldl (fun r n => max r (padAt f (i.val + n.val))) ninf

/-- The 51 × 51 pooled image: down the first axis, then along the second. -/
def pooled (x : Fin 128 → Fin 128 → Ideal .f32) (h w : Fin 128) : Ideal .f32 :=
  slide (fun w' => slide (fun h' => x h' w') h) w

/-- The mask bit of pixel `(h, w)`: it equals its pooled value, and that value exceeds one half. -/
def keepBit (x : Fin 128 → Fin 128 → Ideal .f32) (h w : Fin 128) : BitVec 1 :=
  IntOp.andi (FloatOps.cmpf (F := Ideal) .oeq (x h w) (pooled x h w)) (FloatOps.cmpf (F := Ideal) .ogt (pooled x h w) half)

end Cert.Nms

end
-- ==== Proof.KIArray.lean ====
/-
  From blocks to the array: what the region's output array holds after the run.

  The region visits forty grid points; point t stages rows 32·t … 32·t + 31 of the flat [1280, 128, 128] input,
  and writes back the same rows of the output. Each row of the flat input is one 128 × 128 image, and the body's
  stored block holds, for every image of its block, the mask of that image widened to 32-bit words. The forty
  blocks tile the output array, so after the last write-back the array is the mask of every image, row by row:
  `maskWords` of the flat input.
-/
import proofs.«157353_j50216757624982_1_alg».proof.Proof.KIBase
import proofs.«157353_j50216757624982_1_alg».proof.Proof.KIBodyVal
import proofs.«157353_j50216757624982_1_alg».proof.Proof.NmsSpec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat)
open Cert.KernelIdeal Cert.KernelIdeal.Gen

variable (m : (ℓ : Loc nD τ sig) → Buf (Elt Ideal) ℓ)

/-- The mask of every image of a flat [1280, 128, 128] array, as 32-bit words: entry (r, h, w) is the mask bit of
    pixel (h, w) of image r. -/
def maskWords (xf : S1280x128x128.Idx → Ideal .f32) : S1280x128x128.Idx → Elt Ideal .i32 := fun i =>
  (Cert.Nms.keepBit (fun h' w' => xf (ix3 (n0 := 1280) (n1 := 128) (n2 := 128) ⟨(i 0).val, (i 0).isLt⟩ h' w'))
    ⟨(i 1).val, (i 1).isLt⟩ ⟨(i 2).val, (i 2).isLt⟩).setWidth 32

theorem maskWords_ix3 (xf : S1280x128x128.Idx → Ideal .f32) (r : Fin 1280) (h w : Fin 128) :
    maskWords xf (ix3 r h w) = (Cert.Nms.keepBit (fun h' w' => xf (ix3 r h' w')) h w).setWidth 32 := rfl

theorem hz3 : (![0, 0, 0] : Fin 3 → Nat) = fun _ => 0 := funext fun a => by fin_cases a <;> rfl

/-- Both windows' block index at point t is (t, 0, 0): the blocks move along the first axis only. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0 :=
  (by decide +kernel : ∀ t : Fin grid0.N, _)

/-- Window 0's block at point `t`, read at block coordinates `(b, h, w)`, is the flat input at row `32·t + b`. -/
theorem iblk0_apply (c : Dev nD) (t : Fin cfg0.N) (b : Fin 32) (h w : Fin 128) (r : Fin 1280)
    (hr : r.val = 32 * t.val + b.val) :
    iblk m c 0 t (ix3 b h w) = V m c main_v0 (ix3 r h w) := by
  unfold iblk
  show V m c main_v0 (((cfg0.win 0).blk t).view.emb (ix3 b h w)) = V m c main_v0 (ix3 r h w)
  refine congrArg (V m c main_v0) ?_
  obtain ⟨e0, e1, e2, -, -, -⟩ := idx_facts t
  funext a; apply Fin.ext
  match a with
  | ⟨0, _⟩ => show win0_0.index t (0 : Fin 3) * 32 + 1 * b.val = r.val; omega
  | ⟨1, _⟩ => show win0_0.index t (1 : Fin 3) * 128 + 1 * h.val = h.val; omega
  | ⟨2, _⟩ => show win0_0.index t (2 : Fin 3) * 128 + 1 * w.val = w.val; omega

/-- WHAT POINT `t` WRITES BACK is block `t` of the mask of the flat input, for any proof datum whose output
    buffer after the body holds the body's stored value of the input block (`hafter`), given the stored value read
    at an index (`hval`). -/
theorem flushed1_eq {c : Dev nD} (dat : Dat τ (Elt Ideal) Unit ℕ (UR sig nD τ) ℕ cfg0 c)
    (hafter : ∀ t, dat.after 1 t = View.canon [⟨Rect.unit (s := S32x128x128) ![0, 0, 0] S32x128x128.size inb_S32x128x128_S32x128x128_0_0_0,
      nmsVal (View.ld (iblk m c 0 t) (Rect.unit (s := S32x128x128) ![0, 0, 0] S32x128x128.size inb_S32x128x128_S32x128x128_0_0_0))⟩])
    (hval : ∀ (x0 : Vec Ideal S32x128x128 .f32) (b : Fin 32) (h w : Fin 128),
      nmsVal (F := Ideal) x0 (ix3 b h w) = (Cert.Nms.keepBit (fun h' w' => x0 (ix3 b h' w')) h w).setWidth 32)
    (t : Fin cfg0.N) :
    dat.flushed 1 t = ((cfg0.win 1).blk t).view.read (Elt Ideal) (maskWords (V m c main_v0)) := by
  show (cfg0.win 1).cut (grid0.coords t) (dat.after 1 t) = _
  rw [hafter, View.canon_unit_zero hz3]
  simp only [View.ld_unit_zero (S := S32x128x128) hz3]
  funext (j : S32x128x128.Idx)
  obtain ⟨b, h, w, rfl⟩ : ∃ (b : Fin 32) (h w : Fin 128), j = ix3 b h w := ⟨j 0, j 1, j 2, eq_ix3 j⟩
  have ht : t.val < 40 := Nat.lt_of_lt_of_eq t.isLt N_0
  obtain ⟨-, -, -, e0, e1, e2⟩ := idx_facts t
  show nmsVal (F := Ideal) (iblk m c 0 t) (ix3 b h w) = maskWords (V m c main_v0) (((cfg0.win 1).blk t).view.emb (ix3 b h w))
  rw [hval]
  have hemb : ((cfg0.win 1).blk t).view.emb (ix3 b h w) = ix3 (n0 := 1280) (n1 := 128) (n2 := 128) ⟨32 * t.val + b.val, by omega⟩ h w := by
    funext a; apply Fin.ext
    match a with
    | ⟨0, _⟩ => show win0_1.index t (0 : Fin 3) * 32 + 1 * b.val = 32 * t.val + b.val; omega
    | ⟨1, _⟩ => show win0_1.index t (1 : Fin 3) * 128 + 1 * h.val = h.val; omega
    | ⟨2, _⟩ => show win0_1.index t (2 : Fin 3) * 128 + 1 * w.val = w.val; omega
  rw [hemb, maskWords_ix3]
  refine congrArg (fun f => (Cert.Nms.keepBit f h w).setWidth 32) ?_
  funext h' w'
  exact iblk0_apply m c t b h' w' ⟨32 * t.val + b.val, by omega⟩ rfl

/-- An index of the output array is in point `t`'s block iff each coordinate is in the block's range on its axis. -/
theorem mem_blk1 (t : Fin cfg0.N) (i : S1280x128x128.Idx) :
    i ∈ ((cfg0.win 1).blk t).view.set ↔ ∀ a : Fin 3, win0_1.index t a * S32x128x128.size a ≤ (i a).val
      ∧ (i a).val < win0_1.index t a * S32x128x128.size a + S32x128x128.size a := by
  show i ∈ ((View.whole main_v1).slice (win0_1.rect t)).set ↔ _
  rw [View.set_slice_whole, Rect.mem_set_unit]
  exact Iff.rfl

/-- The forty blocks tile the output array: row `r` lies in the block of point `r / 32`. -/
theorem cover1 (i : S1280x128x128.Idx) :
    ∃ t : Fin cfg0.N, (cfg0.win 1).flush t = true ∧ i ∈ ((cfg0.win 1).blk t).view.set := by
  have hi0 : (i 0).val < 1280 := (i 0).isLt
  have hi1 : (i 1).val < 128 := (i 1).isLt
  have hi2 : (i 2).val < 128 := (i 2).isLt
  have ht : (i 0).val / 32 < cfg0.N := Nat.lt_of_lt_of_eq (by omega : (i 0).val / 32 < 40) N_0.symm
  refine ⟨⟨(i 0).val / 32, ht⟩, flush0_1 _, ?_⟩
  rw [mem_blk1]
  obtain ⟨-, -, -, e0, e1, e2⟩ := idx_facts ⟨(i 0).val / 32, ht⟩
  have e0' : win0_1.index ⟨(i 0).val / 32, ht⟩ (0 : Fin 3) = (i 0).val / 32 := e0
  intro a
  match a with
  | ⟨0, _⟩ =>
    show win0_1.index ⟨(i 0).val / 32, ht⟩ (0 : Fin 3) * 32 ≤ (i 0).val
      ∧ (i 0).val < win0_1.index ⟨(i 0).val / 32, ht⟩ (0 : Fin 3) * 32 + 32
    omega
  | ⟨1, _⟩ =>
    show win0_1.index ⟨(i 0).val / 32, ht⟩ (1 : Fin 3) * 128 ≤ (i 1).val
      ∧ (i 1).val < win0_1.index ⟨(i 0).val / 32, ht⟩ (1 : Fin 3) * 128 + 128
    omega
  | ⟨2, _⟩ =>
    show win0_1.index ⟨(i 0).val / 32, ht⟩ (2 : Fin 3) * 128 ≤ (i 2).val
      ∧ (i 2).val < win0_1.index ⟨(i 0).val / 32, ht⟩ (2 : Fin 3) * 128 + 128
    omega

/-- THE OUTPUT ARRAY after the last write-back is the mask of the flat input, image by image. -/
theorem arr1_eq {c : Dev nD} (dat : Dat τ (Elt Ideal) Unit ℕ (UR sig nD τ) ℕ cfg0 c)
    (hafter : ∀ t, dat.after 1 t = View.canon [⟨Rect.unit (s := S32x128x128) ![0, 0, 0] S32x128x128.size inb_S32x128x128_S32x128x128_0_0_0,
      nmsVal (View.ld (iblk m c 0 t) (Rect.unit (s := S32x128x128) ![0, 0, 0] S32x128x128.size inb_S32x128x128_S32x128x128_0_0_0))⟩])
    (hval : ∀ (x0 : Vec Ideal S32x128x128 .f32) (b : Fin 32) (h w : Fin 128),
      nmsVal (F := Ideal) x0 (ix3 b h w) = (Cert.Nms.keepBit (fun h' w' => x0 (ix3 b h' w')) h w).setWidth 32) :
    dat.arrAt 1 cfg0.N = maskWords (V m c main_v0) :=
  dat.arrAt_eq_of_cover 1 (maskWords (V m c main_v0)) (fun t _ => flushed1_eq m dat hafter hval t) cover1

end Cert.KernelIdeal.Hand

end
-- ==== Proof.LibFlatImages.lean ====
/-
  The two leading axes of a rank-four array merged into one, read at an index written by coordinates.

  An [a, b, c, d] array reshaped to [n, c, d] with n = a · b keeps its elements in row-major order, so entry
  (r, i, j) of the flat array with r = p · b + q is entry (p, q, i, j) of the original, and the other way round
  (what `x.reshape(a * b, c, d)` and `y.reshape(a, b, c, d)` lower to).
-/
import Idealize.ShloMosaic.Lib.ValueLayout
import Idealize.ShloMosaic.Lib.Pipeline.Value

namespace Cert.LibFlatImages

open Idealize.ShloMosaic Idealize.ShloMosaic.ValueIdx

variable {α : Type}

/-- An `[a, b, c, d]` array cast to `[n, c, d]` reads, at `(r, i, j)` with `r = p · b + q`, the operand at
    `(p, q, i, j)`. -/
theorem shapeCast_merge_apply {a b c d n : ℕ} (x : (⟨4, ![a, b, c, d]⟩ : Shape).Idx → α)
    (h : (⟨4, ![a, b, c, d]⟩ : Shape).ShapeCasts ⟨3, ![n, c, d]⟩) (p : Fin a) (q : Fin b) (i : Fin c) (j : Fin d)
    (r : Fin n) (hr : r.val = p.val * b + q.val) :
    shapeCast ⟨3, ![n, c, d]⟩ x h (ix3 r i j) = x (ix4 p q i j) :=
  shapeCast_apply x h _ _ (by
    rw [Shape.rowMajor_val_four, Shape.rowMajor_val_three]
    show ((p.val * b + q.val) * c + i.val) * d + j.val = (r.val * c + i.val) * d + j.val
    rw [hr])

/-- An `[n, c, d]` array cast to `[a, b, c, d]` reads, at `(p, q, i, j)`, the operand at `(r, i, j)` with
    `r = p · b + q`. -/
theorem shapeCast_split_apply {a b c d n : ℕ} (y : (⟨3, ![n, c, d]⟩ : Shape).Idx → α)
    (h : (⟨3, ![n, c, d]⟩ : Shape).ShapeCasts ⟨4, ![a, b, c, d]⟩) (p : Fin a) (q : Fin b) (i : Fin c) (j : Fin d)
    (r : Fin n) (hr : r.val = p.val * b + q.val) :
    shapeCast ⟨4, ![a, b, c, d]⟩ y h (ix4 p q i j) = y (ix3 r i j) :=
  shapeCast_apply y h _ _ (by
    rw [Shape.rowMajor_val_four, Shape.rowMajor_val_three]
    show (r.val * c + i.val) * d + j.val = ((p.val * b + q.val) * c + i.val) * d + j.val
    rw [hr])

end Cert.LibFlatImages
-- ==== Proof.RefKeep.lean ====
/-
  The reference's mask as one function of its argument.

  The reference pools its [16, 80, 128, 128] argument with two windowed maxima from −inf — a window of 51 along the
  third axis padded by 25 on each side, then the same along the fourth axis — and keeps the entries that equal their
  pooled value where that value exceeds one half. This module names that composition of the reference's first eleven
  host operations, in their order and with their own literals, so that the reference's run and the index-by-index
  reading of the mask can be proved apart.
-/
import proofs.«157353_j50216757624982_1_alg».proof.Proof.Gen.ReferenceIdeal

noncomputable section

namespace Cert.ReferenceIdeal.Hand

open Idealize.ShloMosaic Idealize.SL.Sem Cert.ReferenceIdeal
open Cert.ReferenceIdeal.Facts₀ Cert.ReferenceIdeal.Facts

variable {F : FTy → Type} [FloatOps F]

/-- The windowed maximum along the third axis (window 51, padding 25 and 25, from the word of −inf). -/
def poolH (X : FVec F S16x80x128x128 .f32) : FVec F S16x80x128x128 .f32 :=
  Host.reduceWindow FloatOps.maximumf ![1, 1, 51, 1] ![1, 1, 1, 1] ![0, 0, 25, 0] ![0, 0, 25, 0] X
    (broadcastInDim S_ ![] bcast_S_S_ (constant S_ .f32 0xFF800000#32))
    reduceWindows_S16x80x128x128_S16x80x128x128_w1s1p0_0_w1s1p0_0_w51s1p25_25_w1s1p0_0 h_S_

/-- The windowed maximum along the fourth axis (window 51, padding 25 and 25, from the word of −inf). -/
def poolW (Y : FVec F S16x80x128x128 .f32) : FVec F S16x80x128x128 .f32 :=
  Host.reduceWindow FloatOps.maximumf ![1, 1, 1, 51] ![1, 1, 1, 1] ![0, 0, 0, 25] ![0, 0, 0, 25] Y
    (broadcastInDim S_ ![] bcast_S_S_ (constant S_ .f32 0xFF800000#32))
    reduceWindows_S16x80x128x128_S16x80x128x128_w1s1p0_0_w1s1p0_0_w1s1p0_0_w51s1p25_25 h_S_

/-- The reference's mask: an entry equals its pooled value, and that value exceeds the word of one half. -/
def refKeep (X : FVec F S16x80x128x128 .f32) : IVec S16x80x128x128 1 :=
  andi (cmpf .oeq X (poolW (poolH X)))
    (cmpf .ogt (poolW (poolH X)) (broadcastInDim S16x80x128x128 ![] bcast_S_S16x80x128x128 (constant S_ .f32 0x3F000000#32)))

end Cert.ReferenceIdeal.Hand

end
-- ==== Proof.KIKeep.lean ====
/-
  The kernel program's mask, on the host, is the reference's.

  After the region the kernel program reshapes the region's [1280, 128, 128] array of words back to
  [16, 80, 128, 128] and compares it with zero. The region's array is the mask of every image of the flat input,
  each bit widened to a word; a widened bit differs from zero exactly when the bit is one; image 80·a + c of the flat
  input is image (a, c) of the argument. So the comparison's result is the mask of every image of the argument —
  which is what the reference's own mask is, index by index.
-/
import proofs.«157353_j50216757624982_1_alg».proof.Proof.KIArray
import proofs.«157353_j50216757624982_1_alg».proof.Proof.LibFlatImages
import proofs.«157353_j50216757624982_1_alg».proof.Proof.RefKeep

set_option maxRecDepth 16384

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

/-- A bit widened to a 32-bit word differs from zero exactly when it is one. -/
theorem cmpi_ne_setWidth (b : BitVec 1) : IntOp.cmpi .ne (b.setWidth 32) 0#32 = b := by
  rcases BitVec.eq_zero_or_eq_one b with h | h <;> subst h <;> decide

/-- The kernel program's host-side mask, as a function of the argument: the mask words of the flattened argument,
    reshaped back and compared with zero. -/
def hostKeep (X : FVec Ideal S16x80x128x128 .f32) : IVec S16x80x128x128 1 :=
  cmpi .ne (shapeCast S16x80x128x128 (maskWords (shapeCast S1280x128x128 X shapeCasts_S16x80x128x128_S1280x128x128))
      shapeCasts_S1280x128x128_S16x80x128x128)
    (broadcastInDim S16x80x128x128 ![] bcast_S_S16x80x128x128 (constantI S_ 32 0#32))

/-- Index by index it is the mask bit of the pixel's own image. -/
theorem hostKeep_apply (X : FVec Ideal S16x80x128x128 .f32) (a : Fin 16) (c : Fin 80) (h w : Fin 128) :
    hostKeep X (ix4 a c h w) = Cert.Nms.keepBit (fun h' w' => X (ix4 a c h' w')) h w := by
  have hr : a.val * 80 + c.val < 1280 := by have := a.isLt; have := c.isLt; omega
  unfold hostKeep
  show IntOp.cmpi .ne (shapeCast S16x80x128x128 (maskWords (shapeCast S1280x128x128 X shapeCasts_S16x80x128x128_S1280x128x128))
      shapeCasts_S1280x128x128_S16x80x128x128 (ix4 a c h w)) 0#32 = _
  rw [Cert.LibFlatImages.shapeCast_split_apply (n := 1280) _ _ a c h w ⟨a.val * 80 + c.val, hr⟩ rfl, maskWords_ix3,
    cmpi_ne_setWidth]
  refine congrArg (fun f => Cert.Nms.keepBit f h w) ?_
  funext h' w'
  exact Cert.LibFlatImages.shapeCast_merge_apply (n := 1280) X _ a c h' w' ⟨a.val * 80 + c.val, hr⟩ rfl

/-- So it is the reference's mask, given the reference's mask read at an index (`href`). -/
theorem hostKeep_eq_refKeep
    (href : ∀ (X : FVec Ideal S16x80x128x128 .f32) (a : Fin 16) (c : Fin 80) (h w : Fin 128),
      Cert.ReferenceIdeal.Hand.refKeep (F := Ideal) X (ix4 a c h w) = Cert.Nms.keepBit (fun h' w' => X (ix4 a c h' w')) h w)
    (X : FVec Ideal S16x80x128x128 .f32) : hostKeep X = Cert.ReferenceIdeal.Hand.refKeep (F := Ideal) X := by
  funext (i : S16x80x128x128.Idx)
  obtain ⟨a, c, h, w, rfl⟩ : ∃ (a : Fin 16) (c : Fin 80) (h w : Fin 128), i = ix4 a c h w := ⟨i 0, i 1, i 2, i 3, eq_ix4 i⟩
  rw [hostKeep_apply, href]

end Cert.KernelIdeal.Hand

end
-- ==== Proof.LibHostFold.lean ====
/-
  A fold of host operations over a list cut in two is the fold over the second part of the fold over the first.
-/
import Idealize.ShloMosaic.Lib.StableHlo.Run

namespace Cert.LibHostFold

open Idealize.ShloMosaic Idealize.ShloMosaic.StableHlo

/-- Folding a list of host operations in two stretches. -/
theorem after_append {τ : Topo} {sig : RefSig} {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op ops ih => simp only [List.cons_append, after_cons, ih]

end Cert.LibHostFold
-- ==== Proof.KIRun.lean ====
/-
  The kernel program's run at the extended reals, with its result named.

  The frame run ends with the result buffer at the fold of the thirty-one stretches of host operations after the
  region, started from the region-entry contents with the region's two arrays at their final contents. The first
  stretch reshapes the output array back to [16, 80, 128, 128] and compares it with zero; the output array is the
  mask words of the flattened argument; so after the first stretch the mask buffer holds `hostKeep` of the argument,
  and the result is the fold of the remaining thirty stretches from there.
-/
import proofs.«157353_j50216757624982_1_alg».proof.Proof.KIFrame
import proofs.«157353_j50216757624982_1_alg».proof.Proof.KIKeep
import proofs.«157353_j50216757624982_1_alg».proof.Proof.LibHostFold

set_option maxRecDepth 65536

noncomputable section

namespace Cert.KernelIdeal.Hand

open Idealize.ShloMosaic Idealize.ShloMosaic.TcCoe Idealize.ShloMosaic.ValueIdx Idealize.ShloMosaic.StableHlo
open Idealize.SL Idealize.SL.Sem
open Cert.KernelIdeal Cert.KernelIdeal.Gen

variable (m : (ℓ : Loc nD τ sig) → Buf (Elt Ideal) ℓ) (ρ : Dev nD → PrngReg)

/-- The stored value read at an index: what the value proof of the body supplies. -/
abbrev BodyValue : Prop := ∀ (x0 : Vec Ideal S32x128x128 .f32) (b : Fin 32) (h w : Fin 128),
  nmsVal (F := Ideal) x0 (ix3 b h w) = (Cert.Nms.keepBit (fun h' w' => x0 (ix3 b h' w')) h w).setWidth 32

/-- What the host operations after the region start from on core `c`: the region-entry contents with the two
    arrays at their final contents. -/
abbrev exitVal (c : Dev nD) : Valuation τ sig (Elt Ideal) :=
  Pipeline.withArrays spec0 c (V0 m c) fun w => (dats m 0 c).arrAt w cfg0.N

/-- The region finds the flat input at the argument reshaped. -/
theorem V_main_v0 (c : Dev nD) :
    V m c main_v0 = shapeCast S1280x128x128 (m ((c : Thread nD τ).loc main_arg0)) shapeCasts_S16x80x128x128_S1280x128x128 := by
  show StableHlo.after (List.flatten [hostOps0]) (fun b => m (c, b)) (Proc.devRef .tc main_v0) = _
  simp only [hostOps0, List.flatten_cons, List.flatten_nil, List.append_nil]
  after_results
  rfl

/-- The output array, as the later lines find it, is the mask words of the flat input. -/
theorem exitVal_v1 (hval : BodyValue) (c : Dev nD) :
    exitVal m c (Proc.devRef .tc main_v1) = maskWords (V m c main_v0) :=
  (Pipeline.withArrays_arr spec0 launch0.win.arr_inj c (V0 m c) (fun w => (dats m 0 c).arrAt w cfg0.N) 1).trans
    (arr1_eq m (dats m 0 c) (after0_1 m c) hval)

/-- The first stretch after the region leaves the mask buffer at the reshaped array compared with zero. -/
theorem keep_of (W : Valuation τ sig (Elt Ideal)) :
    StableHlo.after hostOps1 W (Proc.devRef .tc main_v4)
      = cmpi .ne (shapeCast S16x80x128x128 (W (Proc.devRef .tc main_v1)) shapeCasts_S1280x128x128_S16x80x128x128)
          (broadcastInDim S16x80x128x128 ![] bcast_S_S16x80x128x128 (constantI S_ 32 0#32)) := by
  simp only [hostOps1]
  after_results
  rfl

/-- So, after the first stretch, the mask buffer holds `hostKeep` of the argument. -/
theorem keep_after (hval : BodyValue) (c : Dev nD) :
    StableHlo.after hostOps1 (exitVal m c) (Proc.devRef .tc main_v4) = hostKeep (m ((c : Thread nD τ).loc main_arg0)) := by
  rw [keep_of, exitVal_v1 m hval c, V_main_v0]
  rfl

/-- The result buffer's final contents, as the fold of the thirty stretches after the first. -/
theorem result_eq (c : Dev nD) :
    Pipeline.afterTail₀ cfgs (dats m) 0 (V0 m) tailStretches c main_v38
      = StableHlo.after (List.flatten [hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22, hostOps1_23, hostOps1_24, hostOps1_25, hostOps1_26, hostOps1_27, hostOps1_28, hostOps1_29, hostOps1_30])
          (StableHlo.after hostOps1 (exitVal m c)) (Proc.devRef .tc main_v38) := by
  unfold Pipeline.afterTail₀
  rw [show (tailStretches : List (List (HloOp τ sig (Elt Ideal)))).flatten
      = hostOps1 ++ List.flatten [hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22, hostOps1_23, hostOps1_24, hostOps1_25, hostOps1_26, hostOps1_27, hostOps1_28, hostOps1_29, hostOps1_30] from by
    simp only [tailStretches, List.flatten_cons, List.flatten_nil, List.append_nil, List.append_assoc],
    Cert.LibHostFold.after_append]

/-- THE RUN: every weakly fair execution terminates with the result buffer at `afterTail₀ …` and the argument kept. -/
theorem run_result : θ_run defs (onTc (τ := τ) (main (F := Ideal))) ⟨m, fun _ => 0, ρ⟩ (fun r => ∀ c : Dev nD,
    r.2.mem ((c.tc : Thread nD τ).loc main_v38) = Pipeline.afterTail₀ cfgs (dats m) 0 (V0 m) tailStretches c main_v38
    ∧ r.2.mem ((c.tc : Thread nD τ).loc main_arg0) = m ((c.tc : Thread nD τ).loc main_arg0)) :=
  post_result m ρ (dats m) (run_main m ρ)

end Cert.KernelIdeal.Hand

end
-- ==== Proof.KIVal1.lean ====
/-
  The kernel body's passes as lists of masked rotations.

  Every pass of the body has one of four forms: the running maximum is joined with a copy of a source block rotated
  by `a` along the second or the third axis, the entries that wrapped round replaced by −inf — those whose coordinate
  is below `a` for the small amounts, those whose coordinate is at least `a` for the amounts near the extent. This
  file names the four masked rotations and the fold of `maximumf` over a list of amounts, and states each group of
  the body's named values, read in the order the values are passed along, as such a fold. Every equation here is a
  definitional unfolding: the named values are chains of exactly these operations.
-/
import proofs.«157353_j50216757624982_1_alg».proof.Proof.KIBodyVal

noncomputable section

namespace Cert.KernelIdeal.Hand

open Idealize.ShloMosaic Idealize.SL.Sem Cert.KernelIdeal Cert.KernelIdeal.Gen

variable {F : FTy → Type} [FloatOps F]

/-- The source rotated by `a` along the second axis, −inf where the second coordinate is below `a`. -/
def mlo1 (io : IVec S32x128x128 32) (src : FVec F S32x128x128 .f32) (a : Nat) : FVec F S32x128x128 .f32 :=
  select (cmpi .slt io (broadcast S32x128x128 (BitVec.ofNat 32 a)))
    (broadcast S32x128x128 (Scalar.ofBits .f32 0xFF800000#32))
    (dynamicRotate 1 (BitVec.ofNat 32 a) none src rotates_S32x128x128_d1)

/-- The source rotated by `a` along the second axis, −inf where the second coordinate is at least `a`. -/
def mhi1 (io : IVec S32x128x128 32) (src : FVec F S32x128x128 .f32) (a : Nat) : FVec F S32x128x128 .f32 :=
  select (cmpi .sge io (broadcast S32x128x128 (BitVec.ofNat 32 a)))
    (broadcast S32x128x128 (Scalar.ofBits .f32 0xFF800000#32))
    (dynamicRotate 1 (BitVec.ofNat 32 a) none src rotates_S32x128x128_d1)

/-- The source rotated by `a` along the third axis, −inf where the third coordinate is below `a`. -/
def mlo2 (io : IVec S32x128x128 32) (src : FVec F S32x128x128 .f32) (a : Nat) : FVec F S32x128x128 .f32 :=
  select (cmpi .slt io (broadcast S32x128x128 (BitVec.ofNat 32 a)))
    (broadcast S32x128x128 (Scalar.ofBits .f32 0xFF800000#32))
    (dynamicRotate 2 (BitVec.ofNat 32 a) none src rotates_S32x128x128_d2)

/-- The source rotated by `a` along the third axis, −inf where the third coordinate is at least `a`. -/
def mhi2 (io : IVec S32x128x128 32) (src : FVec F S32x128x128 .f32) (a : Nat) : FVec F S32x128x128 .f32 :=
  select (cmpi .sge io (broadcast S32x128x128 (BitVec.ofNat 32 a)))
    (broadcast S32x128x128 (Scalar.ofBits .f32 0xFF800000#32))
    (dynamicRotate 2 (BitVec.ofNat 32 a) none src rotates_S32x128x128_d2)

/-- The running maximum joined in turn with `m a` for each amount `a` of the list. -/
def chain (m : Nat → FVec F S32x128x128 .f32) (l : List Nat) (acc : FVec F S32x128x128 .f32) : FVec F S32x128x128 .f32 :=
  l.foldl (fun r a => maximumf r (m a)) acc

/-- The iota along the second axis the first fifty passes compare with. -/
abbrev io1 : IVec S32x128x128 32 := iota .tc S32x128x128 32 [1] iota_S32x128x128_d1_w32

/-- The iota along the third axis the last fifty passes compare with. -/
abbrev io2 : IVec S32x128x128 32 := iota .tc S32x128x128 32 [2] iota_S32x128x128_d2_w32

/-! ## The passes along the second axis -/

/-- Amounts 25 to 14, from the loaded block. -/
theorem grp5 (v0 : Vec F S32x128x128 .f32) :
    k0_pay5 (k0_pay2 v0) io1 (k0_pay3 v0) (k0_pay4 v0) = chain (mlo1 io1 (k0_pay2 v0)) [25, 24, 23, 22, 21, 20, 19, 18, 17, 16, 15, 14] (k0_pay2 v0) := rfl

/-- Amounts 13 to 7. -/
theorem grp8 (v1 : FVec F S32x128x128 .f32) (v2 : IVec S32x128x128 32) (acc : FVec F S32x128x128 .f32) :
    k0_pay8 v1 v2 acc (k0_pay6 v1) (k0_pay7 v2) = chain (mlo1 v2 v1) [13, 12, 11, 10, 9, 8, 7] acc := rfl

/-- Amounts 6 to 1. -/
theorem grp10 (v1 : FVec F S32x128x128 .f32) (v2 : IVec S32x128x128 32) (acc : FVec F S32x128x128 .f32) :
    k0_pay10 v1 v2 acc (k0_pay9 v1) = chain (mlo1 v2 v1) [6, 5, 4, 3, 2, 1] acc := rfl

/-- Amounts 127 to 121. -/
theorem grp12 (v1 : FVec F S32x128x128 .f32) (v2 : IVec S32x128x128 32) (acc : FVec F S32x128x128 .f32) :
    k0_pay12 v1 v2 acc (k0_pay11 v1 v2) = chain (mhi1 v2 v1) [127, 126, 125, 124, 123, 122, 121] acc := rfl

/-- Amounts 120 to 114. -/
theorem grp15 (v1 : FVec F S32x128x128 .f32) (v2 : IVec S32x128x128 32) (acc : FVec F S32x128x128 .f32) :
    k0_pay15 v1 v2 acc (k0_pay13 v1) (k0_pay14 v2) = chain (mhi1 v2 v1) [120, 119, 118, 117, 116, 115, 114] acc := rfl

/-- Amounts 113 to 108. -/
theorem grp17 (v1 : FVec F S32x128x128 .f32) (v2 : IVec S32x128x128 32) (acc : FVec F S32x128x128 .f32) :
    k0_pay17 v1 v2 acc (k0_pay16 v1) = chain (mhi1 v2 v1) [113, 112, 111, 110, 109, 108] acc := rfl

/-- Amounts 107 to 103. -/
theorem grp19 (v1 : FVec F S32x128x128 .f32) (v2 : IVec S32x128x128 32) (acc : FVec F S32x128x128 .f32) :
    k0_pay19 v1 v2 acc (k0_pay18 v1 v2) = chain (mhi1 v2 v1) [107, 106, 105, 104, 103] acc := rfl

end Cert.KernelIdeal.Hand

end
-- ==== Proof.KIVal2.lean ====
/-
  The kernel body's passes along the third axis, and its last step, as lists of masked rotations.

  The last fifty passes repeat the first fifty along the third axis, their source the block the first fifty leave.
  Each group of the body's named values is again a fold of `maximumf` over a list of amounts, and the last named value
  ends with the two comparisons, their conjunction and its widening to 32 bits. Every equation here is a definitional
  unfolding.
-/
import proofs.«157353_j50216757624982_1_alg».proof.Proof.KIVal1

noncomputable section

namespace Cert.KernelIdeal.Hand

open Idealize.ShloMosaic Idealize.SL.Sem Cert.KernelIdeal Cert.KernelIdeal.Gen

variable {F : FTy → Type} [FloatOps F]

/-- The stored words from the loaded block `v1` and the pooled block `P`: "equal to the pooled value" and "the pooled
    value exceeds one half", conjoined and widened to 32 bits. -/
def keepVec (v1 P : FVec F S32x128x128 .f32) : IVec S32x128x128 32 :=
  extui 32 (andi (cmpf .oeq v1 P) (cmpf .ogt P (broadcast S32x128x128 (Scalar.ofBits .f32 0x3F000000#32)))) natLt_1_32

/-! ## The passes along the third axis -/

/-- Amounts 25 and 24, from the block the passes along the second axis leave. -/
theorem pay20_eq (v1 : FVec F S32x128x128 .f32) (v2 : IVec S32x128x128 32) (a b : FVec F S32x128x128 .f32) :
    k0_pay20 v1 v2 a b = chain (mlo2 io2 (k0_pay19 v1 v2 a b)) [25, 24] (k0_pay19 v1 v2 a b) := rfl

/-- The copy rotated by 23. -/
theorem pay21_eq (v1 : FVec F S32x128x128 .f32) (v2 : IVec S32x128x128 32) (a b : FVec F S32x128x128 .f32) :
    k0_pay21 v1 v2 a b = dynamicRotate 2 (BitVec.ofNat 32 23) none (k0_pay19 v1 v2 a b) rotates_S32x128x128_d2 := rfl

/-- Amounts 23 to 17. -/
theorem grp23 (y : FVec F S32x128x128 .f32) (io : IVec S32x128x128 32) (acc : FVec F S32x128x128 .f32) :
    k0_pay23 y io acc (dynamicRotate 2 (BitVec.ofNat 32 23) none y rotates_S32x128x128_d2) k0_pay22
      = chain (mlo2 io y) [23, 22, 21, 20, 19, 18, 17] acc := rfl

/-- Amounts 16 to 11. -/
theorem grp24 (y : FVec F S32x128x128 .f32) (io : IVec S32x128x128 32) (acc : FVec F S32x128x128 .f32) :
    k0_pay24 y io acc (BitVec.ofNat 32 16) = chain (mlo2 io y) [16, 15, 14, 13, 12, 11] acc := rfl

/-- Amounts 10 to 4. -/
theorem grp28 (y : FVec F S32x128x128 .f32) (io : IVec S32x128x128 32) (acc : FVec F S32x128x128 .f32) :
    k0_pay28 y io acc (k0_pay25 y) (k0_pay26 io) k0_pay27 = chain (mlo2 io y) [10, 9, 8, 7, 6, 5, 4] acc := rfl

/-- Amounts 3 to 1, then 127 to 124. -/
theorem grp31 (y : FVec F S32x128x128 .f32) (io : IVec S32x128x128 32) (acc : FVec F S32x128x128 .f32) :
    k0_pay31 y io acc (k0_pay29 y) k0_pay30 = chain (mhi2 io y) [127, 126, 125, 124] (chain (mlo2 io y) [3, 2, 1] acc) := rfl

/-- Amounts 123 to 118. -/
theorem grp32 (y : FVec F S32x128x128 .f32) (io : IVec S32x128x128 32) (acc : FVec F S32x128x128 .f32) :
    k0_pay32 y io acc (BitVec.ofNat 32 123) = chain (mhi2 io y) [123, 122, 121, 120, 119, 118] acc := rfl

/-- Amounts 117 to 111. -/
theorem grp36 (y : FVec F S32x128x128 .f32) (io : IVec S32x128x128 32) (acc : FVec F S32x128x128 .f32) :
    k0_pay36 y io acc (k0_pay33 y) (k0_pay34 io) k0_pay35 = chain (mhi2 io y) [117, 116, 115, 114, 113, 112, 111] acc := rfl

/-- Amounts 110 to 104. -/
theorem grp39 (y : FVec F S32x128x128 .f32) (io : IVec S32x128x128 32) (acc : FVec F S32x128x128 .f32) :
    k0_pay39 y io acc (k0_pay37 y) k0_pay38 = chain (mhi2 io y) [110, 109, 108, 107, 106, 105, 104] acc := rfl

/-- Amount 103, and the comparisons. -/
theorem grp1 (v1 y : FVec F S32x128x128 .f32) (io : IVec S32x128x128 32) (acc : FVec F S32x128x128 .f32) :
    k0_pay1 v1 y io acc (BitVec.ofNat 32 103) = keepVec v1 (chain (mhi2 io y) [103] acc) := rfl

/-! ## Joining the folds -/

/-- A fold continued by another over the same masked rotations is the fold over the two lists in turn. -/
theorem chain_chain (m : Nat → FVec F S32x128x128 .f32) (l l' : List Nat) (acc : FVec F S32x128x128 .f32) :
    chain m l' (chain m l acc) = chain m (l ++ l') acc := by
  unfold chain
  exact (List.foldl_append ..).symm

/-- THE BODY'S VALUE AS FOUR FOLDS: from the loaded block, amounts 25 to 1 then 127 to 103 along the second axis; from
    the block these leave, the same along the third axis; then the comparisons with the loaded block. -/
theorem nmsVal_eq_chain (v0 : Vec F S32x128x128 .f32) :
    nmsVal v0 =
      keepVec (k0_pay2 v0)
        (chain (mhi2 io2 (chain (mhi1 io1 (k0_pay2 v0)) [127, 126, 125, 124, 123, 122, 121, 120, 119, 118, 117, 116, 115, 114, 113, 112, 111, 110, 109, 108, 107, 106, 105, 104, 103] (chain (mlo1 io1 (k0_pay2 v0)) [25, 24, 23, 22, 21, 20, 19, 18, 17, 16, 15, 14, 13, 12, 11, 10, 9, 8, 7, 6, 5, 4, 3, 2, 1] (k0_pay2 v0))))
          [127, 126, 125, 124, 123, 122, 121, 120, 119, 118, 117, 116, 115, 114, 113, 112, 111, 110, 109, 108, 107, 106, 105, 104, 103]
          (chain (mlo2 io2 (chain (mhi1 io1 (k0_pay2 v0)) [127, 126, 125, 124, 123, 122, 121, 120, 119, 118, 117, 116, 115, 114, 113, 112, 111, 110, 109, 108, 107, 106, 105, 104, 103] (chain (mlo1 io1 (k0_pay2 v0)) [25, 24, 23, 22, 21, 20, 19, 18, 17, 16, 15, 14, 13, 12, 11, 10, 9, 8, 7, 6, 5, 4, 3, 2, 1] (k0_pay2 v0))))
            [25, 24, 23, 22, 21, 20, 19, 18, 17, 16, 15, 14, 13, 12, 11, 10, 9, 8, 7, 6, 5, 4, 3, 2, 1]
            (chain (mhi1 io1 (k0_pay2 v0)) [127, 126, 125, 124, 123, 122, 121, 120, 119, 118, 117, 116, 115, 114, 113, 112, 111, 110, 109, 108, 107, 106, 105, 104, 103] (chain (mlo1 io1 (k0_pay2 v0)) [25, 24, 23, 22, 21, 20, 19, 18, 17, 16, 15, 14, 13, 12, 11, 10, 9, 8, 7, 6, 5, 4, 3, 2, 1] (k0_pay2 v0))))) := by
  unfold nmsVal
  dsimp only
  rw [grp5 v0, grp8, grp10, grp12, grp15, grp17, grp19, pay20_eq, pay21_eq, grp19, grp23, grp24, grp28, grp31, grp32,
    grp36, grp39, grp1]
  simp only [chain_chain, List.cons_append, List.nil_append]

end Cert.KernelIdeal.Hand

end
-- ==== Proof.LibMaskedRotate.lean ====
/-
  A masked rotation of a rank-3 array, read at an index written by its coordinates.

  A rotation by `a` along one axis moves every entry `a` places up that axis, the last `a` entries wrapping round to
  the front. Masking the wrapped entries with a constant `z` — where the coordinate is below `a`, read off an iota
  along the same axis — leaves a SHIFT with padding: entry `q` of the result is entry `q − a` when `a ≤ q`, and `z`
  otherwise. Rotating by `a` and masking where the coordinate is at least `a` instead leaves the shift the other way
  by `n − a` (`n` the extent of the axis): entry `q` of the result is entry `q + (n − a)` when that is on the axis,
  and `z` otherwise. Both are stated for the middle axis and for the last axis of a rank-3 array, with the comparison
  of coordinate and amount made on 32-bit words (both numbers small enough to be read signed).
-/
import Idealize.ShloMosaic.Lib.ValueIdx
import Idealize.ShloMosaic.Lib.KernelVsHost

/-! # A masked rotation of a rank-3 array is a shift with padding, read at an index by coordinates -/

namespace Idealize.ShloMosaic.MaskedRotate

open Idealize.ShloMosaic Idealize.ShloMosaic.ValueIdx

/-! ## Words: comparing two small naturals as signed 32-bit words -/

/-- A natural below 2³¹, as a 32-bit word, reads signed as itself. -/
theorem toInt_ofNat_small (n : Nat) (h : n < 2 ^ 31) : (BitVec.ofNat 32 n).toInt = (n : Int) := by
  rw [BitVec.toInt_eq_toNat_cond, BitVec.toNat_ofNat]
  have : n % 2 ^ 32 = n := Nat.mod_eq_of_lt (by omega)
  rw [this]
  split <;> omega

/-- Signed "less than" of two small naturals as words is the naturals' order. -/
theorem cmpi_slt_ofNat (q a : Nat) (hq : q < 2 ^ 31) (ha : a < 2 ^ 31) :
    IntOp.cmpi .slt (BitVec.ofNat 32 q) (BitVec.ofNat 32 a) = if q < a then 1#1 else 0#1 := by
  unfold IntOp.cmpi
  simp only [BitVec.slt, toInt_ofNat_small q hq, toInt_ofNat_small a ha]
  by_cases h : q < a
  · simp [h]
  · simp [h]

/-- Signed "at least" of two small naturals as words is the naturals' order. -/
theorem cmpi_sge_ofNat (q a : Nat) (hq : q < 2 ^ 31) (ha : a < 2 ^ 31) :
    IntOp.cmpi .sge (BitVec.ofNat 32 q) (BitVec.ofNat 32 a) = if a ≤ q then 1#1 else 0#1 := by
  unfold IntOp.cmpi
  simp only [BitVec.sle, toInt_ofNat_small q hq, toInt_ofNat_small a ha]
  by_cases h : a ≤ q
  · simp [h]
  · simp [h]

/-! ## An iota and a rotation of a rank-3 array at an index written by coordinates -/

variable {α : Type} {n0 n1 n2 : Nat}

/-- An iota along the middle axis holds, at each index, that index's middle coordinate. -/
theorem iota_mid_apply (κ : Kind) (hi : (⟨3, ![n0, n1, n2]⟩ : Shape).Iotas κ 32 [1]) (p : Fin n0) (q : Fin n1)
    (r : Fin n2) : iota κ ⟨3, ![n0, n1, n2]⟩ 32 [1] hi (ix3 p q r) = BitVec.ofNat 32 q.val := by
  unfold iota
  simp
  rfl

/-- An iota along the last axis holds, at each index, that index's last coordinate. -/
theorem iota_last_apply (κ : Kind) (hi : (⟨3, ![n0, n1, n2]⟩ : Shape).Iotas κ 32 [2]) (p : Fin n0) (q : Fin n1)
    (r : Fin n2) : iota κ ⟨3, ![n0, n1, n2]⟩ 32 [2] hi (ix3 p q r) = BitVec.ofNat 32 r.val := by
  unfold iota
  simp
  rfl

/-- A rotation along the middle axis read at `(p, q, r)` is the operand at `(p, q', r)`, `q'` being `q` moved back by
    the amount, around the end. -/
theorem rotate_mid_apply (sb : BitVec 32) (x : (⟨3, ![n0, n1, n2]⟩ : Shape).Idx → α)
    (hr : (⟨3, ![n0, n1, n2]⟩ : Shape).Rotates 1 none) (p : Fin n0) (q : Fin n1) (r : Fin n2) (q' : Fin n1)
    (hq' : q'.val = (q.val + n1 - sb.toNat % n1) % n1) :
    dynamicRotate 1 sb none x hr (ix3 p q r) = x (ix3 p q' r) :=
  dynamicRotate_apply 1 sb x hr (ix3 p q r) (ix3 p q' r) (fun b => by
    match b with
    | ⟨0, _⟩ => simp
    | ⟨1, _⟩ => simpa using hq'
    | ⟨2, _⟩ => simp)

/-- A rotation along the last axis read at `(p, q, r)` is the operand at `(p, q, r')`, `r'` being `r` moved back by
    the amount, around the end. -/
theorem rotate_last_apply (sb : BitVec 32) (x : (⟨3, ![n0, n1, n2]⟩ : Shape).Idx → α)
    (hr : (⟨3, ![n0, n1, n2]⟩ : Shape).Rotates 2 none) (p : Fin n0) (q : Fin n1) (r : Fin n2) (r' : Fin n2)
    (hr' : r'.val = (r.val + n2 - sb.toNat % n2) % n2) :
    dynamicRotate 2 sb none x hr (ix3 p q r) = x (ix3 p q r') :=
  dynamicRotate_apply 2 sb x hr (ix3 p q r) (ix3 p q r') (fun b => by
    match b with
    | ⟨0, _⟩ => simp
    | ⟨1, _⟩ => simp
    | ⟨2, _⟩ => simpa using hr')

/-! ## The masked rotations -/

/-- A rotation by `a` along the middle axis, masked with `z` where the coordinate is BELOW `a`: the shift by `a`
    with padding `z` in front. -/
theorem maskLo_mid_apply (κ : Kind) (hi : (⟨3, ![n0, n1, n2]⟩ : Shape).Iotas κ 32 [1])
    (hr : (⟨3, ![n0, n1, n2]⟩ : Shape).Rotates 1 none) (hn : n1 < 2 ^ 31) (a : Nat) (ha : a ≤ n1)
    (z : α) (x : (⟨3, ![n0, n1, n2]⟩ : Shape).Idx → α) (p : Fin n0) (q : Fin n1) (r : Fin n2) :
    select (cmpi .slt (iota κ ⟨3, ![n0, n1, n2]⟩ 32 [1] hi) (broadcast ⟨3, ![n0, n1, n2]⟩ (BitVec.ofNat 32 a)))
        (broadcast ⟨3, ![n0, n1, n2]⟩ z) (dynamicRotate 1 (BitVec.ofNat 32 a) none x hr) (ix3 p q r)
      = if h : a ≤ q.val then x (ix3 p ⟨q.val - a, by omega⟩ r) else z := by
  have hc := q.isLt
  rw [select_apply]
  show Scalar.select (IntOp.cmpi .slt (iota κ ⟨3, ![n0, n1, n2]⟩ 32 [1] hi (ix3 p q r)) (BitVec.ofNat 32 a)) z _ = _
  rw [iota_mid_apply, cmpi_slt_ofNat q.val a (by omega) (by omega)]
  by_cases h : a ≤ q.val
  · rw [dif_pos h, if_neg (by omega), select_zero]
    refine rotate_mid_apply _ x hr p q r ⟨q.val - a, by omega⟩ ?_
    have ha' : (BitVec.ofNat 32 a).toNat = a := by rw [BitVec.toNat_ofNat]; exact Nat.mod_eq_of_lt (by omega)
    rw [ha']
    show q.val - a = (q.val + n1 - a % n1) % n1
    rcases Nat.lt_or_ge a n1 with h1 | h1
    · rw [Nat.mod_eq_of_lt h1]
      have : q.val + n1 - a = (q.val - a) + n1 := by omega
      rw [this, Nat.add_mod_right, Nat.mod_eq_of_lt (by omega)]
    · omega
  · rw [dif_neg h, if_pos (by omega), select_one]

/-- A rotation by `a` along the middle axis, masked with `z` where the coordinate is AT LEAST `a`: the shift the
    other way by the extent less `a`, with padding `z` behind. -/
theorem maskHi_mid_apply (κ : Kind) (hi : (⟨3, ![n0, n1, n2]⟩ : Shape).Iotas κ 32 [1])
    (hr : (⟨3, ![n0, n1, n2]⟩ : Shape).Rotates 1 none) (hn : n1 < 2 ^ 31) (a : Nat) (ha : a ≤ n1)
    (z : α) (x : (⟨3, ![n0, n1, n2]⟩ : Shape).Idx → α) (p : Fin n0) (q : Fin n1) (r : Fin n2) :
    select (cmpi .sge (iota κ ⟨3, ![n0, n1, n2]⟩ 32 [1] hi) (broadcast ⟨3, ![n0, n1, n2]⟩ (BitVec.ofNat 32 a)))
        (broadcast ⟨3, ![n0, n1, n2]⟩ z) (dynamicRotate 1 (BitVec.ofNat 32 a) none x hr) (ix3 p q r)
      = if h : q.val + (n1 - a) < n1 then x (ix3 p ⟨q.val + (n1 - a), h⟩ r) else z := by
  have hc := q.isLt
  rw [select_apply]
  show Scalar.select (IntOp.cmpi .sge (iota κ ⟨3, ![n0, n1, n2]⟩ 32 [1] hi (ix3 p q r)) (BitVec.ofNat 32 a)) z _ = _
  rw [iota_mid_apply, cmpi_sge_ofNat q.val a (by omega) (by omega)]
  by_cases h : q.val + (n1 - a) < n1
  · rw [dif_pos h, if_neg (by omega), select_zero]
    refine rotate_mid_apply _ x hr p q r ⟨q.val + (n1 - a), h⟩ ?_
    have ha' : (BitVec.ofNat 32 a).toNat = a := by rw [BitVec.toNat_ofNat]; exact Nat.mod_eq_of_lt (by omega)
    rw [ha']
    show q.val + (n1 - a) = (q.val + n1 - a % n1) % n1
    rcases Nat.lt_or_ge a n1 with h1 | h1
    · rw [Nat.mod_eq_of_lt h1, Nat.mod_eq_of_lt (by omega)]
      omega
    · have h2 : a = n1 := by omega
      subst h2
      rw [Nat.mod_self, Nat.sub_zero, Nat.add_mod_right, Nat.mod_eq_of_lt hc]
      omega
  · rw [dif_neg h, if_pos (by omega), select_one]

/-- A rotation by `a` along the last axis, masked with `z` where the coordinate is BELOW `a`: the shift by `a`
    with padding `z` in front. -/
theorem maskLo_last_apply (κ : Kind) (hi : (⟨3, ![n0, n1, n2]⟩ : Shape).Iotas κ 32 [2])
    (hr : (⟨3, ![n0, n1, n2]⟩ : Shape).Rotates 2 none) (hn : n2 < 2 ^ 31) (a : Nat) (ha : a ≤ n2)
    (z : α) (x : (⟨3, ![n0, n1, n2]⟩ : Shape).Idx → α) (p : Fin n0) (q : Fin n1) (r : Fin n2) :
    select (cmpi .slt (iota κ ⟨3, ![n0, n1, n2]⟩ 32 [2] hi) (broadcast ⟨3, ![n0, n1, n2]⟩ (BitVec.ofNat 32 a)))
        (broadcast ⟨3, ![n0, n1, n2]⟩ z) (dynamicRotate 2 (BitVec.ofNat 32 a) none x hr) (ix3 p q r)
      = if h : a ≤ r.val then x (ix3 p q ⟨r.val - a, by omega⟩) else z := by
  have hc := r.isLt
  rw [select_apply]
  show Scalar.select (IntOp.cmpi .slt (iota κ ⟨3, ![n0, n1, n2]⟩ 32 [2] hi (ix3 p q r)) (BitVec.ofNat 32 a)) z _ = _
  rw [iota_last_apply, cmpi_slt_ofNat r.val a (by omega) (by omega)]
  by_cases h : a ≤ r.val
  · rw [dif_pos h, if_neg (by omega), select_zero]
    refine rotate_last_apply _ x hr p q r ⟨r.val - a, by omega⟩ ?_
    have ha' : (BitVec.ofNat 32 a).toNat = a := by rw [BitVec.toNat_ofNat]; exact Nat.mod_eq_of_lt (by omega)
    rw [ha']
    show r.val - a = (r.val + n2 - a % n2) % n2
    rcases Nat.lt_or_ge a n2 with h1 | h1
    · rw [Nat.mod_eq_of_lt h1]
      have : r.val + n2 - a = (r.val - a) + n2 := by omega
      rw [this, Nat.add_mod_right, Nat.mod_eq_of_lt (by omega)]
    · omega
  · rw [dif_neg h, if_pos (by omega), select_one]

/-- A rotation by `a` along the last axis, masked with `z` where the coordinate is AT LEAST `a`: the shift the
    other way by the extent less `a`, with padding `z` behind. -/
theorem maskHi_last_apply (κ : Kind) (hi : (⟨3, ![n0, n1, n2]⟩ : Shape).Iotas κ 32 [2])
    (hr : (⟨3, ![n0, n1, n2]⟩ : Shape).Rotates 2 none) (hn : n2 < 2 ^ 31) (a : Nat) (ha : a ≤ n2)
    (z : α) (x : (⟨3, ![n0, n1, n2]⟩ : Shape).Idx → α) (p : Fin n0) (q : Fin n1) (r : Fin n2) :
    select (cmpi .sge (iota κ ⟨3, ![n0, n1, n2]⟩ 32 [2] hi) (broadcast ⟨3, ![n0, n1, n2]⟩ (BitVec.ofNat 32 a)))
        (broadcast ⟨3, ![n0, n1, n2]⟩ z) (dynamicRotate 2 (BitVec.ofNat 32 a) none x hr) (ix3 p q r)
      = if h : r.val + (n2 - a) < n2 then x (ix3 p q ⟨r.val + (n2 - a), h⟩) else z := by
  have hc := r.isLt
  rw [select_apply]
  show Scalar.select (IntOp.cmpi .sge (iota κ ⟨3, ![n0, n1, n2]⟩ 32 [2] hi (ix3 p q r)) (BitVec.ofNat 32 a)) z _ = _
  rw [iota_last_apply, cmpi_sge_ofNat r.val a (by omega) (by omega)]
  by_cases h : r.val + (n2 - a) < n2
  · rw [dif_pos h, if_neg (by omega), select_zero]
    refine rotate_last_apply _ x hr p q r ⟨r.val + (n2 - a), h⟩ ?_
    have ha' : (BitVec.ofNat 32 a).toNat = a := by rw [BitVec.toNat_ofNat]; exact Nat.mod_eq_of_lt (by omega)
    rw [ha']
    show r.val + (n2 - a) = (r.val + n2 - a % n2) % n2
    rcases Nat.lt_or_ge a n2 with h1 | h1
    · rw [Nat.mod_eq_of_lt h1, Nat.mod_eq_of_lt (by omega)]
      omega
    · have h2 : a = n2 := by omega
      subst h2
      rw [Nat.mod_self, Nat.sub_zero, Nat.add_mod_right, Nat.mod_eq_of_lt hc]
      omega
  · rw [dif_neg h, if_pos (by omega), select_one]

end Idealize.ShloMosaic.MaskedRotate
-- ==== Proof.LibFoldMax.lean ====
/-
  Left folds of `max` over a list, by their universal property.

  In a linear order, the left fold of `max` over the values `g x`, `x` running through a list, started from `a`, is the
  least upper bound of `a` and those values: it is below `z` exactly when `a` and every `g x` are. Two such folds
  with the same upper bounds are therefore equal, whatever the order and the multiplicity in which the two lists meet
  their values: `max` is associative, commutative and idempotent.
-/
import Idealize.ShloMosaic.PureOps.Ideal

/-! # Left folds of `max` over a list are least upper bounds -/

namespace Idealize.ShloMosaic.FoldMax

variable {ι κ β : Type} [LinearOrder β]

/-- The fold of `max` is below `z` exactly when its start and every value it meets are. -/
theorem foldl_max_le_iff (g : ι → β) (l : List ι) (a z : β) :
    l.foldl (fun r x => max r (g x)) a ≤ z ↔ a ≤ z ∧ ∀ x ∈ l, g x ≤ z := by
  induction l generalizing a with
  | nil => simp
  | cons y l ih =>
    rw [List.foldl_cons, ih, max_le_iff]
    simp only [List.mem_cons, forall_eq_or_imp]
    exact and_assoc

/-- Two folds of `max` with the same upper bounds are equal. -/
theorem foldl_max_eq_of_bounds (g : ι → β) (l : List ι) (a : β) (g' : κ → β) (l' : List κ) (a' : β)
    (h : ∀ z, (a ≤ z ∧ ∀ x ∈ l, g x ≤ z) ↔ (a' ≤ z ∧ ∀ y ∈ l', g' y ≤ z)) :
    l.foldl (fun r x => max r (g x)) a = l'.foldl (fun r y => max r (g' y)) a' :=
  eq_of_forall_ge_iff fun z => by rw [foldl_max_le_iff, foldl_max_le_iff]; exact h z

/-- A fold of `max` continued by another is the fold over the two lists in turn. -/
theorem foldl_max_foldl_max (g : ι → β) (l l' : List ι) (a : β) :
    l'.foldl (fun r x => max r (g x)) (l.foldl (fun r x => max r (g x)) a) = (l ++ l').foldl (fun r x => max r (g x)) a :=
  (List.foldl_append ..).symm

end Idealize.ShloMosaic.FoldMax
-- ==== Proof.KIVal3.lean ====
/-
  The masked rotations and their folds, read at an index: the sliding maximum.

  At the extended reals a fold of `maximumf` read at an index is the fold of `max` over the values read there, and
  each masked rotation of the body reads one position of the padded window around the index: amount `a ≤ 25`, masked
  below `a`, reads position `25 − a`; amount `a ≥ 103`, masked from `a` on, reads position `153 − a`. The fifty passes
  along one axis, from the block itself (position 25), thus meet every position 0, …, 50 of the window, and their
  maximum is the sliding maximum `Cert.Nms.slide` along that axis: both are the least upper bound of the same 51
  values, −inf being the least extended real.
-/
import proofs.«157353_j50216757624982_1_alg».proof.Proof.KIVal1
import proofs.«157353_j50216757624982_1_alg».proof.Proof.NmsSpec
import proofs.«157353_j50216757624982_1_alg».proof.Proof.LibMaskedRotate
import proofs.«157353_j50216757624982_1_alg».proof.Proof.LibFoldMax

noncomputable section

namespace Cert.KernelIdeal.Hand

open Idealize.ShloMosaic Idealize.SL.Sem Cert.KernelIdeal Cert.KernelIdeal.Gen

open Idealize.ShloMosaic.ValueIdx Idealize.ShloMosaic.MaskedRotate Idealize.ShloMosaic.FoldMax

/-- The f32 word of −inf denotes the least extended real. -/
theorem ninf_eq_bot : Cert.Nms.ninf = (⊥ : EReal) := by
  simp [Cert.Nms.ninf, Ideal.ofBits, Ideal.ieee]

/-- A fold of `maximumf` read at an index is the fold of `max` over the values there. -/
theorem chain_apply (m : Nat → FVec Ideal S32x128x128 .f32) (l : List Nat) (acc : FVec Ideal S32x128x128 .f32) (i : S32x128x128.Idx) :
    chain m l acc i = l.foldl (fun r a => max r (m a i)) (acc i) := by
  induction l generalizing acc with
  | nil => rfl
  | cons a l ih => exact ih (maximumf acc (m a))

/-! ## One masked rotation is one position of the padded window -/

/-- The copy rotated by `a ≤ 25` along the second axis and masked below `a` reads window position `25 − a` of the padded column. -/
theorem mlo1_apply (v : FVec Ideal S32x128x128 .f32) (a : Nat) (ha : a ≤ 25) (p : Fin 32) (q r : Fin 128) :
    mlo1 io1 v a (ix3 p q r) = Cert.Nms.padAt (fun q' => v (ix3 p q' r)) (q.val + (25 - a)) := by
  unfold mlo1
  refine (maskLo_mid_apply .tc iota_S32x128x128_d1_w32 rotates_S32x128x128_d1 (by norm_num) a (by omega) _ v p q r).trans ?_
  unfold Cert.Nms.padAt
  have hc := q.isLt
  by_cases h : a ≤ q.val
  · rw [dif_pos h, dif_pos ⟨by omega, by omega⟩]
    exact congrArg (fun t => v (ix3 p t r)) (Fin.ext (by show q.val - a = q.val + (25 - a) - 25; omega))
  · rw [dif_neg h, dif_neg (by omega)]
    rfl

/-- The copy rotated by `a`, `103 ≤ a ≤ 128`, along the second axis and masked from `a` on reads window position `153 − a` of the padded column. -/
theorem mhi1_apply (v : FVec Ideal S32x128x128 .f32) (a : Nat) (ha : 103 ≤ a ∧ a ≤ 128) (p : Fin 32) (q r : Fin 128) :
    mhi1 io1 v a (ix3 p q r) = Cert.Nms.padAt (fun q' => v (ix3 p q' r)) (q.val + (153 - a)) := by
  unfold mhi1
  refine (maskHi_mid_apply .tc iota_S32x128x128_d1_w32 rotates_S32x128x128_d1 (by norm_num) a (by omega) _ v p q r).trans ?_
  unfold Cert.Nms.padAt
  have hc := q.isLt
  by_cases h : q.val + (128 - a) < 128
  · rw [dif_pos h, dif_pos ⟨by omega, by omega⟩]
    exact congrArg (fun t => v (ix3 p t r)) (Fin.ext (by show q.val + (128 - a) = q.val + (153 - a) - 25; omega))
  · rw [dif_neg h, dif_neg (by omega)]
    rfl

/-- The copy rotated by `a ≤ 25` along the third axis and masked below `a` reads window position `25 − a` of the padded row. -/
theorem mlo2_apply (v : FVec Ideal S32x128x128 .f32) (a : Nat) (ha : a ≤ 25) (p : Fin 32) (q r : Fin 128) :
    mlo2 io2 v a (ix3 p q r) = Cert.Nms.padAt (fun r' => v (ix3 p q r')) (r.val + (25 - a)) := by
  unfold mlo2
  refine (maskLo_last_apply .tc iota_S32x128x128_d2_w32 rotates_S32x128x128_d2 (by norm_num) a (by omega) _ v p q r).trans ?_
  unfold Cert.Nms.padAt
  have hc := r.isLt
  by_cases h : a ≤ r.val
  · rw [dif_pos h, dif_pos ⟨by omega, by omega⟩]
    exact congrArg (fun t => v (ix3 p q t)) (Fin.ext (by show r.val - a = r.val + (25 - a) - 25; omega))
  · rw [dif_neg h, dif_neg (by omega)]
    rfl

/-- The copy rotated by `a`, `103 ≤ a ≤ 128`, along the third axis and masked from `a` on reads window position `153 − a` of the padded row. -/
theorem mhi2_apply (v : FVec Ideal S32x128x128 .f32) (a : Nat) (ha : 103 ≤ a ∧ a ≤ 128) (p : Fin 32) (q r : Fin 128) :
    mhi2 io2 v a (ix3 p q r) = Cert.Nms.padAt (fun r' => v (ix3 p q r')) (r.val + (153 - a)) := by
  unfold mhi2
  refine (maskHi_last_apply .tc iota_S32x128x128_d2_w32 rotates_S32x128x128_d2 (by norm_num) a (by omega) _ v p q r).trans ?_
  unfold Cert.Nms.padAt
  have hc := r.isLt
  by_cases h : r.val + (128 - a) < 128
  · rw [dif_pos h, dif_pos ⟨by omega, by omega⟩]
    exact congrArg (fun t => v (ix3 p q t)) (Fin.ext (by show r.val + (128 - a) = r.val + (153 - a) - 25; omega))
  · rw [dif_neg h, dif_neg (by omega)]
    rfl

/-- Window position 25 is the entry itself. -/
theorem padAt_center (f : Fin 128 → Ideal .f32) (i : Fin 128) : Cert.Nms.padAt f (i.val + 25) = f i := by
  unfold Cert.Nms.padAt
  have hi := i.isLt
  rw [dif_pos ⟨by omega, by omega⟩]
  exact congrArg f (Fin.ext (by show i.val + 25 - 25 = i.val; omega))

/-! ## The fifty passes meet the 51 window positions -/

/-- Every window position below 25 is `25 − a` for an amount `a` of the first list. -/
theorem mem_lo : ∀ n : Fin 51, n.val < 25 → 25 - n.val ∈ ([25, 24, 23, 22, 21, 20, 19, 18, 17, 16, 15, 14, 13, 12, 11, 10, 9, 8, 7, 6, 5, 4, 3, 2, 1] : List Nat) := by decide

/-- Every window position above 25 is `153 − a` for an amount `a` of the second list. -/
theorem mem_hi : ∀ n : Fin 51, 25 < n.val → 153 - n.val ∈ ([127, 126, 125, 124, 123, 122, 121, 120, 119, 118, 117, 116, 115, 114, 113, 112, 111, 110, 109, 108, 107, 106, 105, 104, 103] : List Nat) := by decide

/-- The amounts of the first list are at most 25. -/
theorem bounds_lo : ∀ a ∈ ([25, 24, 23, 22, 21, 20, 19, 18, 17, 16, 15, 14, 13, 12, 11, 10, 9, 8, 7, 6, 5, 4, 3, 2, 1] : List Nat), a ≤ 25 := by decide

/-- The amounts of the second list lie between 103 and 128. -/
theorem bounds_hi : ∀ a ∈ ([127, 126, 125, 124, 123, 122, 121, 120, 119, 118, 117, 116, 115, 114, 113, 112, 111, 110, 109, 108, 107, 106, 105, 104, 103] : List Nat), 103 ≤ a ∧ a ≤ 128 := by decide

/-- For any values `g` along the padded axis: the maximum of position 25, then positions `25 − a` for `a` from 25 down
    to 1, then positions `153 − a` for `a` from 127 down to 103, is the maximum over positions 0, …, 50 in order. -/
theorem window_fold (g : Nat → EReal) (i : Nat) :
    ([127, 126, 125, 124, 123, 122, 121, 120, 119, 118, 117, 116, 115, 114, 113, 112, 111, 110, 109, 108, 107, 106, 105, 104, 103] : List Nat).foldl (fun r a => max r (g (i + (153 - a))))
        (([25, 24, 23, 22, 21, 20, 19, 18, 17, 16, 15, 14, 13, 12, 11, 10, 9, 8, 7, 6, 5, 4, 3, 2, 1] : List Nat).foldl (fun r a => max r (g (i + (25 - a)))) (g (i + 25)))
      = (List.finRange 51).foldl (fun r n => max r (g (i + n.val))) ⊥ := by
  refine eq_of_forall_ge_iff fun z => ?_
  rw [foldl_max_le_iff, foldl_max_le_iff, foldl_max_le_iff]
  constructor
  · rintro ⟨⟨h25, hlo⟩, hhi⟩
    refine ⟨bot_le, fun n _ => ?_⟩
    have hn := n.isLt
    rcases Nat.lt_trichotomy n.val 25 with h | h | h
    · have := hlo (25 - n.val) (mem_lo n h)
      rwa [show 25 - (25 - n.val) = n.val by omega] at this
    · rw [h]; exact h25
    · have := hhi (153 - n.val) (mem_hi n h)
      rwa [show 153 - (153 - n.val) = n.val by omega] at this
  · rintro ⟨_, h⟩
    refine ⟨⟨h ⟨25, by omega⟩ (List.mem_finRange _), fun a _ => ?_⟩, fun a ha => ?_⟩
    · exact h ⟨25 - a, by omega⟩ (List.mem_finRange _)
    · have hb := bounds_hi a ha
      exact h ⟨153 - a, by omega⟩ (List.mem_finRange _)

/-! ## The fifty passes along one axis are the sliding maximum -/

/-- Along the second axis. -/
theorem axis1_apply (v : FVec Ideal S32x128x128 .f32) (p : Fin 32) (q r : Fin 128) :
    chain (mhi1 io1 v) [127, 126, 125, 124, 123, 122, 121, 120, 119, 118, 117, 116, 115, 114, 113, 112, 111, 110, 109, 108, 107, 106, 105, 104, 103] (chain (mlo1 io1 v) [25, 24, 23, 22, 21, 20, 19, 18, 17, 16, 15, 14, 13, 12, 11, 10, 9, 8, 7, 6, 5, 4, 3, 2, 1] v) (ix3 p q r)
      = Cert.Nms.slide (fun q' => v (ix3 p q' r)) q := by
  rw [chain_apply, chain_apply]
  rw [List.foldl_ext (fun s a => max s (mhi1 io1 v a (ix3 p q r)))
      (fun s a => max s (Cert.Nms.padAt (fun q' => v (ix3 p q' r)) (q.val + (153 - a)))) _
      (fun s a ha => by rw [mhi1_apply v a (bounds_hi a ha)])]
  rw [List.foldl_ext (fun s a => max s (mlo1 io1 v a (ix3 p q r)))
      (fun s a => max s (Cert.Nms.padAt (fun q' => v (ix3 p q' r)) (q.val + (25 - a)))) _
      (fun s a ha => by rw [mlo1_apply v a (bounds_lo a ha)])]
  rw [← padAt_center (fun q' => v (ix3 p q' r)) q]
  unfold Cert.Nms.slide
  rw [ninf_eq_bot]
  exact window_fold (Cert.Nms.padAt (fun q' => v (ix3 p q' r))) q.val

/-- Along the third axis. -/
theorem axis2_apply (v : FVec Ideal S32x128x128 .f32) (p : Fin 32) (q r : Fin 128) :
    chain (mhi2 io2 v) [127, 126, 125, 124, 123, 122, 121, 120, 119, 118, 117, 116, 115, 114, 113, 112, 111, 110, 109, 108, 107, 106, 105, 104, 103] (chain (mlo2 io2 v) [25, 24, 23, 22, 21, 20, 19, 18, 17, 16, 15, 14, 13, 12, 11, 10, 9, 8, 7, 6, 5, 4, 3, 2, 1] v) (ix3 p q r)
      = Cert.Nms.slide (fun r' => v (ix3 p q r')) r := by
  rw [chain_apply, chain_apply]
  rw [List.foldl_ext (fun s a => max s (mhi2 io2 v a (ix3 p q r)))
      (fun s a => max s (Cert.Nms.padAt (fun r' => v (ix3 p q r')) (r.val + (153 - a)))) _
      (fun s a ha => by rw [mhi2_apply v a (bounds_hi a ha)])]
  rw [List.foldl_ext (fun s a => max s (mlo2 io2 v a (ix3 p q r)))
      (fun s a => max s (Cert.Nms.padAt (fun r' => v (ix3 p q r')) (r.val + (25 - a)))) _
      (fun s a ha => by rw [mlo2_apply v a (bounds_lo a ha)])]
  rw [← padAt_center (fun r' => v (ix3 p q r')) r]
  unfold Cert.Nms.slide
  rw [ninf_eq_bot]
  exact window_fold (Cert.Nms.padAt (fun r' => v (ix3 p q r'))) r.val

end Cert.KernelIdeal.Hand

end
-- ==== Proof.KIValue.lean ====
/-
  The kernel body's value at an index, over the extended reals.

  The block the body stores is, word by word, the non-maximum-suppression mask bit of the pixel, widened to 32 bits:
  the fifty passes along the second axis leave the sliding maximum down that axis, the fifty along the third axis the
  sliding maximum of that along the third — the pooled image of `Cert.Nms.pooled`, one image per leading index — and the
  last step compares the loaded pixel and one half with it exactly as `Cert.Nms.keepBit` does.
-/
import proofs.«157353_j50216757624982_1_alg».proof.Proof.KIVal2
import proofs.«157353_j50216757624982_1_alg».proof.Proof.KIVal3
import Idealize.ShloMosaic.Lib.Pipeline.Value

noncomputable section

namespace Cert.KernelIdeal.Hand

open Idealize.ShloMosaic Idealize.SL.Sem Cert.KernelIdeal Cert.KernelIdeal.Gen

open Idealize.ShloMosaic.ValueIdx

/-- The loaded block, cast to its own shape, is itself. -/
theorem pay2_eq (v0 : Vec Ideal S32x128x128 .f32) : k0_pay2 (F := Ideal) v0 = v0 :=
  shapeCast_self v0 _

/-- The stored word at an index: the two comparisons at that index, conjoined and widened. -/
theorem keepVec_apply (v1 P : FVec Ideal S32x128x128 .f32) (i : S32x128x128.Idx) :
    keepVec v1 P i
      = (IntOp.andi (FloatOps.cmpf (F := Ideal) .oeq (v1 i) (P i))
          (FloatOps.cmpf (F := Ideal) .ogt (P i) Cert.Nms.half)).setWidth 32 := rfl

/-- THE BODY'S VALUE AT AN INDEX: the mask bit of pixel `(h, w)` of image `b` of the loaded block, widened to 32 bits. -/
theorem nmsVal_apply (x0 : Vec Ideal S32x128x128 .f32) (b : Fin 32) (h w : Fin 128) :
    nmsVal (F := Ideal) x0 (ValueIdx.ix3 b h w)
      = (Cert.Nms.keepBit (fun h' w' => x0 (ValueIdx.ix3 b h' w')) h w).setWidth 32 := by
  rw [nmsVal_eq_chain, pay2_eq]
  refine (keepVec_apply _ _ _).trans ?_
  rw [axis2_apply]
  have hY : (fun r' => chain (mhi1 io1 x0) [127, 126, 125, 124, 123, 122, 121, 120, 119, 118, 117, 116, 115, 114, 113, 112, 111, 110, 109, 108, 107, 106, 105, 104, 103] (chain (mlo1 io1 x0) [25, 24, 23, 22, 21, 20, 19, 18, 17, 16, 15, 14, 13, 12, 11, 10, 9, 8, 7, 6, 5, 4, 3, 2, 1] x0) (ix3 b h r'))
      = fun w' => Cert.Nms.slide (fun h' => x0 (ix3 b h' w')) h := funext fun w' => axis1_apply x0 b h w'
  rw [hY]
  rfl

end Cert.KernelIdeal.Hand

end
-- ==== Proof.RefOps1.lean ====
/-
  The reference's host operations as lists.

  The reference's @main is a straight line of host operations: eleven that compute the mask (two windowed maxima from
  −inf, two comparisons, their conjunction) and then the compaction of the mask into rows of indices — a running count
  of the mask, a scatter of ones at the counts, a second running count, four floor-divisions and remainders that take
  a flat position apart into its four coordinates, the selection of −1 past the number of kept entries, and the
  concatenation of the four columns. Fifteen of @main's statements are calls of module-local functions; a call runs
  the callee's body over the buffers of the call's record, so its operations stand here in the call's place, over
  those buffers, in the callee's order (a nested call likewise).

  `headOps` is the eleven operations of the mask. The operations after it are cut into thirty stretches
  `tailOps_1` … `tailOps_30`, alternately one call's operations and the operations of @main up to the next call.
  Each stretch comes with the two facts a run asks of it (its buffers are TensorCore references, it allocates nothing)
  and, for a call, with the equation between the call and the stretch run in order.
-/
import proofs.«157353_j50216757624982_1_alg».proof.Proof.RefKeep
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The reference's first eleven host operations: the two windowed maxima from −inf, the comparison of the argument
    with its pooled value, the comparison of the pooled value with one half, and their conjunction (the mask). -/
abbrev headOps : List (HloOp τ sig (Elt F)) :=
  [ StableHlo.nullary main_cst (constant S_ .f32 0xFF800000#32),
    StableHlo.unary main_cst main_v0 (broadcastInDim S_ ![] bcast_S_S_ : (⟨S_, .f32⟩ : BufTy).Contents (Elt F) → (⟨S_, .f32⟩ : BufTy).Contents (Elt F)),
    StableHlo.binary main_arg0 main_v0 main_v1 ((fun x v => Host.reduceWindow FloatOps.maximumf ![1, 1, 51, 1] ![1, 1, 1, 1] ![0, 0, 25, 0] ![0, 0, 25, 0] x v reduceWindows_S16x80x128x128_S16x80x128x128_w1s1p0_0_w1s1p0_0_w51s1p25_25_w1s1p0_0 h_S_) : (⟨S16x80x128x128, .f32⟩ : BufTy).Contents (Elt F) → (⟨S_, .f32⟩ : BufTy).Contents (Elt F) → (⟨S16x80x128x128, .f32⟩ : BufTy).Contents (Elt F)),
    StableHlo.nullary main_cst_0 (constant S_ .f32 0xFF800000#32),
    StableHlo.unary main_cst_0 main_v2 (broadcastInDim S_ ![] bcast_S_S_ : (⟨S_, .f32⟩ : BufTy).Contents (Elt F) → (⟨S_, .f32⟩ : BufTy).Contents (Elt F)),
    StableHlo.binary main_v1 main_v2 main_v3 ((fun x v => Host.reduceWindow FloatOps.maximumf ![1, 1, 1, 51] ![1, 1, 1, 1] ![0, 0, 0, 25] ![0, 0, 0, 25] x v reduceWindows_S16x80x128x128_S16x80x128x128_w1s1p0_0_w1s1p0_0_w1s1p0_0_w51s1p25_25 h_S_) : (⟨S16x80x128x128, .f32⟩ : BufTy).Contents (Elt F) → (⟨S_, .f32⟩ : BufTy).Contents (Elt F) → (⟨S16x80x128x128, .f32⟩ : BufTy).Contents (Elt F)),
    StableHlo.binary main_arg0 main_v3 main_v4 (cmpf .oeq : (⟨S16x80x128x128, .f32⟩ : BufTy).Contents (Elt F) → (⟨S16x80x128x128, .f32⟩ : BufTy).Contents (Elt F) → (⟨S16x80x128x128, .i1⟩ : BufTy).Contents (Elt F)),
    StableHlo.nullary main_cst_1 (constant S_ .f32 0x3F000000#32),
    StableHlo.unary main_cst_1 main_v5 (broadcastInDim S16x80x128x128 ![] bcast_S_S16x80x128x128 : (⟨S_, .f32⟩ : BufTy).Contents (Elt F) → (⟨S16x80x128x128, .f32⟩ : BufTy).Contents (Elt F)),
    StableHlo.binary main_v3 main_v5 main_v6 (cmpf .ogt : (⟨S16x80x128x128, .f32⟩ : BufTy).Contents (Elt F) → (⟨S16x80x128x128, .f32⟩ : BufTy).Contents (Elt F) → (⟨S16x80x128x128, .i1⟩ : BufTy).Contents (Elt F)),
    StableHlo.binary main_v4 main_v6 main_v7 (andi : (⟨S16x80x128x128, .i1⟩ : BufTy).Contents (Elt F) → (⟨S16x80x128x128, .i1⟩ : BufTy).Contents (Elt F) → (⟨S16x80x128x128, .i1⟩ : BufTy).Contents (Elt F)) ]
theorem headOps_sub : (headOps : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub .., nullary_bufs_sub .., unary_bufs_sub .., binary_bufs_sub .., binary_bufs_sub ..⟩
theorem headOps_fresh : (headOps : List (HloOp τ sig (Elt F))).Forall fun op => op.fresh = ∅ :=
  ⟨rfl, rfl, rfl, rfl, rfl, rfl, rfl, rfl, rfl, rfl, rfl⟩

/-- Stretch 1 of the operations after the mask: the 5 operations of @cumsum's body (nested calls inline) over the buffers of the call's record main_call0. -/
abbrev tailOps_1 : List (HloOp τ sig (Elt F)) :=
  [ StableHlo.TRef.reshape (.of main_v7 : StableHlo.TRef sig ⟨S16x80x128x128, .i1⟩) (.of main_call0_v0 : StableHlo.TRef sig ⟨S20971520, .i1⟩) rfl shapeCasts_S16x80x128x128_S20971520,
    StableHlo.TRef.unary (.of main_call0_v0 : StableHlo.TRef sig ⟨S20971520, .i1⟩) (.of main_call0_v1 : StableHlo.TRef sig ⟨S20971520, .i32⟩) (extui 32 · natLt_1_32),
    StableHlo.TRef.nullary (.of main_call0_call0_c : StableHlo.TRef sig ⟨S_, .i32⟩) (constantI S_ 32 0#32),
    StableHlo.TRef.unary (.of main_call0_call0_c : StableHlo.TRef sig ⟨S_, .i32⟩) (.of main_call0_call0_v0 : StableHlo.TRef sig ⟨S_, .i32⟩) (broadcastInDim S_ ![] bcast_S_S_),
    StableHlo.TRef.binary (.of main_call0_v1 : StableHlo.TRef sig ⟨S20971520, .i32⟩) (.of main_call0_call0_v0 : StableHlo.TRef sig ⟨S_, .i32⟩) (.of main_v8 : StableHlo.TRef sig ⟨S20971520, .i32⟩) (fun x v => Host.reduceWindow IntOp.addi ![20971520] ![1] ![20971519] ![0] x v reduceWindows_S20971520_S20971520_w20971520s1p20971519_0 h_S_) ]
theorem tailOps_1_sub : (tailOps_1 : List (HloOp τ sig (Elt F))).Forall fun op => op.bufs ⊆ tcRefs τ sig :=
  ⟨reshape_bufs_sub .., unary_bufs_sub .., nullary_bufs_sub .., unary_bufs_sub .., binary_bufs_sub ..⟩
theorem tailOps_1_fresh : (tailOps_1 : List (HloOp τ sig (Elt F))).Forall fun op => op.fresh = ∅ :=
  ⟨rfl, rfl, rfl, rfl, rfl⟩
/-- The call is that stretch run in order: the callee's definition unfolded at the record's fields. -/
theorem tailOps_1_eq : fn_cumsum.body (F := F) (.of main_v7) main_call0 = seq tailOps_1 := rfl

/-- Stretch 2 of the operations after the mask: 3 operations of @main between two calls. -/
abbrev tailOps_2 : List (HloOp τ sig (Elt F)) :=
  [ StableHlo.nullary main_c (constantI S_ 32 0#32),
    StableHlo.unary main_c main_v9 (broadcastInDim S16384 ![] bcast_S_S16384 : (⟨S_, .i32⟩ : BufTy).Contents (Elt F) → (⟨S16384, .i32⟩ : BufTy).Contents (Elt F)),
    StableHlo.nullary main_c_2 (constantI S_ 32 0#32) ]
theorem tailOps_2_sub : (tailOps_2 : List (HloOp τ sig (Elt F))).Forall fun op => op.bufs ⊆ tcRefs τ sig :=
  ⟨nullary_bufs_sub .., unary_bufs_sub .., nullary_bufs_sub ..⟩
theorem tailOps_2_fresh : (tailOps_2 : List (HloOp τ sig (Elt F))).Forall fun op => op.fresh = ∅ :=
  ⟨rfl, rfl, rfl⟩

/-- Stretch 3 of the operations after the mask: the 3 operations of @clip's body (nested calls inline) over the buffers of the call's record main_call1. -/
abbrev tailOps_3 : List (HloOp τ sig (Elt F)) :=
  [ StableHlo.TRef.unary (.of main_c_2 : StableHlo.TRef sig ⟨S_, .i32⟩) (.of main_call1_v0 : StableHlo.TRef sig ⟨S_, .i32⟩) id,
    StableHlo.TRef.unary (.of main_call1_v0 : StableHlo.TRef sig ⟨S_, .i32⟩) (.of main_call1_v1 : StableHlo.TRef sig ⟨S20971520, .i32⟩) (broadcastInDim S20971520 ![] bcast_S_S20971520),
    StableHlo.TRef.binary (.of main_call1_v1 : StableHlo.TRef sig ⟨S20971520, .i32⟩) (.of main_v8 : StableHlo.TRef sig ⟨S20971520, .i32⟩) (.of main_v10 : StableHlo.TRef sig ⟨S20971520, .i32⟩) maxsi ]
theorem tailOps_3_sub : (tailOps_3 : List (HloOp τ sig (Elt F))).Forall fun op => op.bufs ⊆ tcRefs τ sig :=
  ⟨unary_bufs_sub .., unary_bufs_sub .., binary_bufs_sub ..⟩
theorem tailOps_3_fresh : (tailOps_3 : List (HloOp τ sig (Elt F))).Forall fun op => op.fresh = ∅ :=
  ⟨rfl, rfl, rfl⟩
/-- The call is that stretch run in order: the callee's definition unfolded at the record's fields. -/
theorem tailOps_3_eq : fn_clip.body (F := F) (.of main_v8) (.of main_c_2) main_call1 = seq tailOps_3 := rfl

/-- Stretch 4 of the operations after the mask: 11 operations of @main between two calls. -/
abbrev tailOps_4 : List (HloOp τ sig (Elt F)) :=
  [ StableHlo.nullary main_c_3 (constantI S_ 32 0#32),
    StableHlo.unary main_c_3 main_v11 (broadcastInDim S20971520 ![] bcast_S_S20971520 : (⟨S_, .i32⟩ : BufTy).Contents (Elt F) → (⟨S20971520, .i32⟩ : BufTy).Contents (Elt F)),
    StableHlo.binary main_v10 main_v11 main_v12 (cmpi .slt : (⟨S20971520, .i32⟩ : BufTy).Contents (Elt F) → (⟨S20971520, .i32⟩ : BufTy).Contents (Elt F) → (⟨S20971520, .i1⟩ : BufTy).Contents (Elt F)),
    StableHlo.nullary main_c_4 (constantI S_ 32 16384#32),
    StableHlo.unary main_c_4 main_v13 (broadcastInDim S20971520 ![] bcast_S_S20971520 : (⟨S_, .i32⟩ : BufTy).Contents (Elt F) → (⟨S20971520, .i32⟩ : BufTy).Contents (Elt F)),
    StableHlo.binary main_v10 main_v13 main_v14 (addi : (⟨S20971520, .i32⟩ : BufTy).Contents (Elt F) → (⟨S20971520, .i32⟩ : BufTy).Contents (Elt F) → (⟨S20971520, .i32⟩ : BufTy).Contents (Elt F)),
    StableHlo.ternary main_v12 main_v14 main_v10 main_v15 (select : (⟨S20971520, .i1⟩ : BufTy).Contents (Elt F) → (⟨S20971520, .i32⟩ : BufTy).Contents (Elt F) → (⟨S20971520, .i32⟩ : BufTy).Contents (Elt F) → (⟨S20971520, .i32⟩ : BufTy).Contents (Elt F)),
    StableHlo.unary main_v15 main_v16 (broadcastInDim S20971520x1 ![0] bcast_S20971520_S20971520x1_0 : (⟨S20971520, .i32⟩ : BufTy).Contents (Elt F) → (⟨S20971520x1, .i32⟩ : BufTy).Contents (Elt F)),
    StableHlo.nullary main_c_5 (constantI S_ 32 1#32),
    StableHlo.unary main_c_5 main_v17 (broadcastInDim S20971520 ![] bcast_S_S20971520 : (⟨S_, .i32⟩ : BufTy).Contents (Elt F) → (⟨S20971520, .i32⟩ : BufTy).Contents (Elt F)),
    StableHlo.ternary main_v9 main_v16 main_v17 main_v18 ((fun x i u => Host.scatter scatter_S16384_S20971520x1_S20971520_n_0_0_1 IntOp.addi x i u) : (⟨S16384, .i32⟩ : BufTy).Contents (Elt F) → (⟨S20971520x1, .i32⟩ : BufTy).Contents (Elt F) → (⟨S20971520, .i32⟩ : BufTy).Contents (Elt F) → (⟨S16384, .i32⟩ : BufTy).Contents (Elt F)) ]
theorem tailOps_4_sub : (tailOps_4 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., unary_bufs_sub .., ternary_bufs_sub ..⟩
theorem tailOps_4_fresh : (tailOps_4 : List (HloOp τ sig (Elt F))).Forall fun op => op.fresh = ∅ :=
  ⟨rfl, rfl, rfl, rfl, rfl, rfl, rfl, rfl, rfl, rfl, rfl⟩

/-- Stretch 5 of the operations after the mask: the 3 operations of @cumsum_1's body (nested calls inline) over the buffers of the call's record main_call2. -/
abbrev tailOps_5 : List (HloOp τ sig (Elt F)) :=
  [ StableHlo.TRef.nullary (.of main_call2_call0_c : StableHlo.TRef sig ⟨S_, .i32⟩) (constantI S_ 32 0#32),
    StableHlo.TRef.unary (.of main_call2_call0_c : StableHlo.TRef sig ⟨S_, .i32⟩) (.of main_call2_call0_v0 : StableHlo.TRef sig ⟨S_, .i32⟩) (broadcastInDim S_ ![] bcast_S_S_),
    StableHlo.TRef.binary (.of main_v18 : StableHlo.TRef sig ⟨S16384, .i32⟩) (.of main_call2_call0_v0 : StableHlo.TRef sig ⟨S_, .i32⟩) (.of main_v19 : StableHlo.TRef sig ⟨S16384, .i32⟩) (fun x v => Host.reduceWindow IntOp.addi ![16384] ![1] ![16383] ![0] x v reduceWindows_S16384_S16384_w16384s1p16383_0 h_S_) ]
theorem tailOps_5_sub : (tailOps_5 : List (HloOp τ sig (Elt F))).Forall fun op => op.bufs ⊆ tcRefs τ sig :=
  ⟨nullary_bufs_sub .., unary_bufs_sub .., binary_bufs_sub ..⟩
theorem tailOps_5_fresh : (tailOps_5 : List (HloOp τ sig (Elt F))).Forall fun op => op.fresh = ∅ :=
  ⟨rfl, rfl, rfl⟩
/-- The call is that stretch run in order: the callee's definition unfolded at the record's fields. -/
theorem tailOps_5_eq : fn_cumsum_1.body (F := F) (.of main_v18) main_call2 = seq tailOps_5 := rfl

/-- Stretch 6 of the operations after the mask: 1 operation of @main between two calls. -/
abbrev tailOps_6 : List (HloOp τ sig (Elt F)) :=
  [ StableHlo.nullary main_c_6 (constantI S_ 32 1310720#32) ]
theorem tailOps_6_sub : (tailOps_6 : List (HloOp τ sig (Elt F))).Forall fun op => op.bufs ⊆ tcRefs τ sig :=
  nullary_bufs_sub ..
theorem tailOps_6_fresh : (tailOps_6 : List (HloOp τ sig (Elt F))).Forall fun op => op.fresh = ∅ :=
  rfl

/-- Stretch 7 of the operations after the mask: the 16 operations of @floor_divide's body (nested calls inline) over the buffers of the call's record main_call3. -/
abbrev tailOps_7 : List (HloOp τ sig (Elt F)) :=
  [ StableHlo.TRef.unary (.of main_c_6 : StableHlo.TRef sig ⟨S_, .i32⟩) (.of main_call3_v0 : StableHlo.TRef sig ⟨S16384, .i32⟩) (broadcastInDim S16384 ![] bcast_S_S16384),
    StableHlo.TRef.binary (.of main_v19 : StableHlo.TRef sig ⟨S16384, .i32⟩) (.of main_call3_v0 : StableHlo.TRef sig ⟨S16384, .i32⟩) (.of main_call3_v1 : StableHlo.TRef sig ⟨S16384, .i32⟩) Host.divsi,
    StableHlo.TRef.unary (.of main_v19 : StableHlo.TRef sig ⟨S16384, .i32⟩) (.of main_call3_v2 : StableHlo.TRef sig ⟨S16384, .i32⟩) signi,
    StableHlo.TRef.unary (.of main_c_6 : StableHlo.TRef sig ⟨S_, .i32⟩) (.of main_call3_v3 : StableHlo.TRef sig ⟨S_, .i32⟩) signi,
    StableHlo.TRef.unary (.of main_call3_v3 : StableHlo.TRef sig ⟨S_, .i32⟩) (.of main_call3_v4 : StableHlo.TRef sig ⟨S16384, .i32⟩) (broadcastInDim S16384 ![] bcast_S_S16384),
    StableHlo.TRef.binary (.of main_call3_v2 : StableHlo.TRef sig ⟨S16384, .i32⟩) (.of main_call3_v4 : StableHlo.TRef sig ⟨S16384, .i32⟩) (.of main_call3_v5 : StableHlo.TRef sig ⟨S16384, .i1⟩) (cmpi .ne),
    StableHlo.TRef.unary (.of main_c_6 : StableHlo.TRef sig ⟨S_, .i32⟩) (.of main_call3_v6 : StableHlo.TRef sig ⟨S16384, .i32⟩) (broadcastInDim S16384 ![] bcast_S_S16384),
    StableHlo.TRef.binary (.of main_v19 : StableHlo.TRef sig ⟨S16384, .i32⟩) (.of main_call3_v6 : StableHlo.TRef sig ⟨S16384, .i32⟩) (.of main_call3_v7 : StableHlo.TRef sig ⟨S16384, .i32⟩) Host.remsi,
    StableHlo.TRef.nullary (.of main_call3_c : StableHlo.TRef sig ⟨S_, .i32⟩) (constantI S_ 32 0#32),
    StableHlo.TRef.unary (.of main_call3_c : StableHlo.TRef sig ⟨S_, .i32⟩) (.of main_call3_v8 : StableHlo.TRef sig ⟨S16384, .i32⟩) (broadcastInDim S16384 ![] bcast_S_S16384),
    StableHlo.TRef.binary (.of main_call3_v7 : StableHlo.TRef sig ⟨S16384, .i32⟩) (.of main_call3_v8 : StableHlo.TRef sig ⟨S16384, .i32⟩) (.of main_call3_v9 : StableHlo.TRef sig ⟨S16384, .i1⟩) (cmpi .ne),
    StableHlo.TRef.binary (.of main_call3_v5 : StableHlo.TRef sig ⟨S16384, .i1⟩) (.of main_call3_v9 : StableHlo.TRef sig ⟨S16384, .i1⟩) (.of main_call3_v10 : StableHlo.TRef sig ⟨S16384, .i1⟩) andi,
    StableHlo.TRef.nullary (.of main_call3_c_0 : StableHlo.TRef sig ⟨S_, .i32⟩) (constantI S_ 32 1#32),
    StableHlo.TRef.unary (.of main_call3_c_0 : StableHlo.TRef sig ⟨S_, .i32⟩) (.of main_call3_v11 : StableHlo.TRef sig ⟨S16384, .i32⟩) (broadcastInDim S16384 ![] bcast_S_S16384),
    StableHlo.TRef.binary (.of main_call3_v1 : StableHlo.TRef sig ⟨S16384, .i32⟩) (.of main_call3_v11 : StableHlo.TRef sig ⟨S16384, .i32⟩) (.of main_call3_v12 : StableHlo.TRef sig ⟨S16384, .i32⟩) subi,
    StableHlo.TRef.ternary (.of main_call3_v10 : StableHlo.TRef sig ⟨S16384, .i1⟩) (.of main_call3_v12 : StableHlo.TRef sig ⟨S16384, .i32⟩) (.of main_call3_v1 : StableHlo.TRef sig ⟨S16384, .i32⟩) (.of main_v20 : StableHlo.TRef sig ⟨S16384, .i32⟩) select ]
theorem tailOps_7_sub : (tailOps_7 : List (HloOp τ sig (Elt F))).Forall fun op => op.bufs ⊆ tcRefs τ sig :=
  ⟨unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩
theorem tailOps_7_fresh : (tailOps_7 : List (HloOp τ sig (Elt F))).Forall fun op => op.fresh = ∅ :=
  ⟨rfl, rfl, rfl, rfl, rfl, rfl, rfl, rfl, rfl, rfl, rfl, rfl, rfl, rfl, rfl, rfl⟩
/-- The call is that stretch run in order: the callee's definition unfolded at the record's fields. -/
theorem tailOps_7_eq : fn_floor_divide.body (F := F) (.of main_v19) (.of main_c_6) main_call3 = seq tailOps_7 := rfl

/-- Stretch 8 of the operations after the mask: 1 operation of @main between two calls. -/
abbrev tailOps_8 : List (HloOp τ sig (Elt F)) :=
  [ StableHlo.nullary main_c_7 (constantI S_ 32 16#32) ]
theorem tailOps_8_sub : (tailOps_8 : List (HloOp τ sig (Elt F))).Forall fun op => op.bufs ⊆ tcRefs τ sig :=
  nullary_bufs_sub ..
theorem tailOps_8_fresh : (tailOps_8 : List (HloOp τ sig (Elt F))).Forall fun op => op.fresh = ∅ :=
  rfl

/-- Stretch 9 of the operations after the mask: the 21 operations of @remainder's body (nested calls inline) over the buffers of the call's record main_call4. -/
abbrev tailOps_9 : List (HloOp τ sig (Elt F)) :=
  [ StableHlo.TRef.unary (.of main_c_7 : StableHlo.TRef sig ⟨S_, .i32⟩) (.of main_call4_v0 : StableHlo.TRef sig ⟨S_, .i32⟩) id,
    StableHlo.TRef.nullary (.of main_call4_c : StableHlo.TRef sig ⟨S_, .i32⟩) (constantI S_ 32 0#32),
    StableHlo.TRef.binary (.of main_call4_v0 : StableHlo.TRef sig ⟨S_, .i32⟩) (.of main_call4_c : StableHlo.TRef sig ⟨S_, .i32⟩) (.of main_call4_v1 : StableHlo.TRef sig ⟨S_, .i1⟩) (cmpi .eq),
    StableHlo.TRef.nullary (.of main_call4_c_0 : StableHlo.TRef sig ⟨S_, .i32⟩) (constantI S_ 32 1#32),
    StableHlo.TRef.ternary (.of main_call4_v1 : StableHlo.TRef sig ⟨S_, .i1⟩) (.of main_call4_c_0 : StableHlo.TRef sig ⟨S_, .i32⟩) (.of main_call4_v0 : StableHlo.TRef sig ⟨S_, .i32⟩) (.of main_call4_v2 : StableHlo.TRef sig ⟨S_, .i32⟩) select,
    StableHlo.TRef.unary (.of main_call4_v2 : StableHlo.TRef sig ⟨S_, .i32⟩) (.of main_call4_v3 : StableHlo.TRef sig ⟨S16384, .i32⟩) (broadcastInDim S16384 ![] bcast_S_S16384),
    StableHlo.TRef.binary (.of main_v20 : StableHlo.TRef sig ⟨S16384, .i32⟩) (.of main_call4_v3 : StableHlo.TRef sig ⟨S16384, .i32⟩) (.of main_call4_v4 : StableHlo.TRef sig ⟨S16384, .i32⟩) Host.remsi,
    StableHlo.TRef.nullary (.of main_call4_c_1 : StableHlo.TRef sig ⟨S_, .i32⟩) (constantI S_ 32 0#32),
    StableHlo.TRef.unary (.of main_call4_c_1 : StableHlo.TRef sig ⟨S_, .i32⟩) (.of main_call4_v5 : StableHlo.TRef sig ⟨S16384, .i32⟩) (broadcastInDim S16384 ![] bcast_S_S16384),
    StableHlo.TRef.binary (.of main_call4_v4 : StableHlo.TRef sig ⟨S16384, .i32⟩) (.of main_call4_v5 : StableHlo.TRef sig ⟨S16384, .i32⟩) (.of main_call4_v6 : StableHlo.TRef sig ⟨S16384, .i1⟩) (cmpi .ne),
    StableHlo.TRef.nullary (.of main_call4_c_2 : StableHlo.TRef sig ⟨S_, .i32⟩) (constantI S_ 32 0#32),
    StableHlo.TRef.unary (.of main_call4_c_2 : StableHlo.TRef sig ⟨S_, .i32⟩) (.of main_call4_v7 : StableHlo.TRef sig ⟨S16384, .i32⟩) (broadcastInDim S16384 ![] bcast_S_S16384),
    StableHlo.TRef.binary (.of main_call4_v4 : StableHlo.TRef sig ⟨S16384, .i32⟩) (.of main_call4_v7 : StableHlo.TRef sig ⟨S16384, .i32⟩) (.of main_call4_v8 : StableHlo.TRef sig ⟨S16384, .i1⟩) (cmpi .slt),
    StableHlo.TRef.nullary (.of main_call4_c_3 : StableHlo.TRef sig ⟨S_, .i32⟩) (constantI S_ 32 0#32),
    StableHlo.TRef.binary (.of main_call4_v2 : StableHlo.TRef sig ⟨S_, .i32⟩) (.of main_call4_c_3 : StableHlo.TRef sig ⟨S_, .i32⟩) (.of main_call4_v9 : StableHlo.TRef sig ⟨S_, .i1⟩) (cmpi .slt),
    StableHlo.TRef.unary (.of main_call4_v9 : StableHlo.TRef sig ⟨S_, .i1⟩) (.of main_call4_v10 : StableHlo.TRef sig ⟨S16384, .i1⟩) (broadcastInDim S16384 ![] bcast_S_S16384),
    StableHlo.TRef.binary (.of main_call4_v8 : StableHlo.TRef sig ⟨S16384, .i1⟩) (.of main_call4_v10 : StableHlo.TRef sig ⟨S16384, .i1⟩) (.of main_call4_v11 : StableHlo.TRef sig ⟨S16384, .i1⟩) (cmpi .ne),
    StableHlo.TRef.binary (.of main_call4_v11 : StableHlo.TRef sig ⟨S16384, .i1⟩) (.of main_call4_v6 : StableHlo.TRef sig ⟨S16384, .i1⟩) (.of main_call4_v12 : StableHlo.TRef sig ⟨S16384, .i1⟩) andi,
    StableHlo.TRef.unary (.of main_call4_v2 : StableHlo.TRef sig ⟨S_, .i32⟩) (.of main_call4_v13 : StableHlo.TRef sig ⟨S16384, .i32⟩) (broadcastInDim S16384 ![] bcast_S_S16384),
    StableHlo.TRef.binary (.of main_call4_v4 : StableHlo.TRef sig ⟨S16384, .i32⟩) (.of main_call4_v13 : StableHlo.TRef sig ⟨S16384, .i32⟩) (.of main_call4_v14 : StableHlo.TRef sig ⟨S16384, .i32⟩) addi,
    StableHlo.TRef.ternary (.of main_call4_v12 : StableHlo.TRef sig ⟨S16384, .i1⟩) (.of main_call4_v14 : StableHlo.TRef sig ⟨S16384, .i32⟩) (.of main_call4_v4 : StableHlo.TRef sig ⟨S16384, .i32⟩) (.of main_v21 : StableHlo.TRef sig ⟨S16384, .i32⟩) select ]
theorem tailOps_9_sub : (tailOps_9 : List (HloOp τ sig (Elt F))).Forall fun op => op.bufs ⊆ tcRefs τ sig :=
  ⟨unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩
theorem tailOps_9_fresh : (tailOps_9 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩
/-- The call is that stretch run in order: the callee's definition unfolded at the record's fields. -/
theorem tailOps_9_eq : fn_remainder.body (F := F) (.of main_v20) (.of main_c_7) main_call4 = seq tailOps_9 := rfl

/-- Stretch 10 of the operations after the mask: 1 operation of @main between two calls. -/
abbrev tailOps_10 : List (HloOp τ sig (Elt F)) :=
  [ StableHlo.nullary main_c_8 (constantI S_ 32 16384#32) ]
theorem tailOps_10_sub : (tailOps_10 : List (HloOp τ sig (Elt F))).Forall fun op => op.bufs ⊆ tcRefs τ sig :=
  nullary_bufs_sub ..
theorem tailOps_10_fresh : (tailOps_10 : List (HloOp τ sig (Elt F))).Forall fun op => op.fresh = ∅ :=
  rfl

/-- Stretch 11 of the operations after the mask: the 16 operations of @floor_divide's body (nested calls inline) over the buffers of the call's record main_call5. -/
abbrev tailOps_11 : List (HloOp τ sig (Elt F)) :=
  [ StableHlo.TRef.unary (.of main_c_8 : StableHlo.TRef sig ⟨S_, .i32⟩) (.of main_call5_v0 : StableHlo.TRef sig ⟨S16384, .i32⟩) (broadcastInDim S16384 ![] bcast_S_S16384),
    StableHlo.TRef.binary (.of main_v19 : StableHlo.TRef sig ⟨S16384, .i32⟩) (.of main_call5_v0 : StableHlo.TRef sig ⟨S16384, .i32⟩) (.of main_call5_v1 : StableHlo.TRef sig ⟨S16384, .i32⟩) Host.divsi,
    StableHlo.TRef.unary (.of main_v19 : StableHlo.TRef sig ⟨S16384, .i32⟩) (.of main_call5_v2 : StableHlo.TRef sig ⟨S16384, .i32⟩) signi,
    StableHlo.TRef.unary (.of main_c_8 : StableHlo.TRef sig ⟨S_, .i32⟩) (.of main_call5_v3 : StableHlo.TRef sig ⟨S_, .i32⟩) signi,
    StableHlo.TRef.unary (.of main_call5_v3 : StableHlo.TRef sig ⟨S_, .i32⟩) (.of main_call5_v4 : StableHlo.TRef sig ⟨S16384, .i32⟩) (broadcastInDim S16384 ![] bcast_S_S16384),
    StableHlo.TRef.binary (.of main_call5_v2 : StableHlo.TRef sig ⟨S16384, .i32⟩) (.of main_call5_v4 : StableHlo.TRef sig ⟨S16384, .i32⟩) (.of main_call5_v5 : StableHlo.TRef sig ⟨S16384, .i1⟩) (cmpi .ne),
    StableHlo.TRef.unary (.of main_c_8 : StableHlo.TRef sig ⟨S_, .i32⟩) (.of main_call5_v6 : StableHlo.TRef sig ⟨S16384, .i32⟩) (broadcastInDim S16384 ![] bcast_S_S16384),
    StableHlo.TRef.binary (.of main_v19 : StableHlo.TRef sig ⟨S16384, .i32⟩) (.of main_call5_v6 : StableHlo.TRef sig ⟨S16384, .i32⟩) (.of main_call5_v7 : StableHlo.TRef sig ⟨S16384, .i32⟩) Host.remsi,
    StableHlo.TRef.nullary (.of main_call5_c : StableHlo.TRef sig ⟨S_, .i32⟩) (constantI S_ 32 0#32),
    StableHlo.TRef.unary (.of main_call5_c : StableHlo.TRef sig ⟨S_, .i32⟩) (.of main_call5_v8 : StableHlo.TRef sig ⟨S16384, .i32⟩) (broadcastInDim S16384 ![] bcast_S_S16384),
    StableHlo.TRef.binary (.of main_call5_v7 : StableHlo.TRef sig ⟨S16384, .i32⟩) (.of main_call5_v8 : StableHlo.TRef sig ⟨S16384, .i32⟩) (.of main_call5_v9 : StableHlo.TRef sig ⟨S16384, .i1⟩) (cmpi .ne),
    StableHlo.TRef.binary (.of main_call5_v5 : StableHlo.TRef sig ⟨S16384, .i1⟩) (.of main_call5_v9 : StableHlo.TRef sig ⟨S16384, .i1⟩) (.of main_call5_v10 : StableHlo.TRef sig ⟨S16384, .i1⟩) andi,
    StableHlo.TRef.nullary (.of main_call5_c_0 : StableHlo.TRef sig ⟨S_, .i32⟩) (constantI S_ 32 1#32),
    StableHlo.TRef.unary (.of main_call5_c_0 : StableHlo.TRef sig ⟨S_, .i32⟩) (.of main_call5_v11 : StableHlo.TRef sig ⟨S16384, .i32⟩) (broadcastInDim S16384 ![] bcast_S_S16384),
    StableHlo.TRef.binary (.of main_call5_v1 : StableHlo.TRef sig ⟨S16384, .i32⟩) (.of main_call5_v11 : StableHlo.TRef sig ⟨S16384, .i32⟩) (.of main_call5_v12 : StableHlo.TRef sig ⟨S16384, .i32⟩) subi,
    StableHlo.TRef.ternary (.of main_call5_v10 : StableHlo.TRef sig ⟨S16384, .i1⟩) (.of main_call5_v12 : StableHlo.TRef sig ⟨S16384, .i32⟩) (.of main_call5_v1 : StableHlo.TRef sig ⟨S16384, .i32⟩) (.of main_v22 : StableHlo.TRef sig ⟨S16384, .i32⟩) select ]
theorem tailOps_11_sub : (tailOps_11 : List (HloOp τ sig (Elt F))).Forall fun op => op.bufs ⊆ tcRefs τ sig :=
  ⟨unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩
theorem tailOps_11_fresh : (tailOps_11 : List (HloOp τ sig (Elt F))).Forall fun op => op.fresh = ∅ :=
  ⟨rfl, rfl, rfl, rfl, rfl, rfl, rfl, rfl, rfl, rfl, rfl, rfl, rfl, rfl, rfl, rfl⟩
/-- The call is that stretch run in order: the callee's definition unfolded at the record's fields. -/
theorem tailOps_11_eq : fn_floor_divide.body (F := F) (.of main_v19) (.of main_c_8) main_call5 = seq tailOps_11 := rfl

/-- Stretch 12 of the operations after the mask: 1 operation of @main between two calls. -/
abbrev tailOps_12 : List (HloOp τ sig (Elt F)) :=
  [ StableHlo.nullary main_c_9 (constantI S_ 32 80#32) ]
theorem tailOps_12_sub : (tailOps_12 : List (HloOp τ sig (Elt F))).Forall fun op => op.bufs ⊆ tcRefs τ sig :=
  nullary_bufs_sub ..
theorem tailOps_12_fresh : (tailOps_12 : List (HloOp τ sig (Elt F))).Forall fun op => op.fresh = ∅ :=
  rfl

/-- Stretch 13 of the operations after the mask: the 21 operations of @remainder's body (nested calls inline) over the buffers of the call's record main_call6. -/
abbrev tailOps_13 : List (HloOp τ sig (Elt F)) :=
  [ StableHlo.TRef.unary (.of main_c_9 : StableHlo.TRef sig ⟨S_, .i32⟩) (.of main_call6_v0 : StableHlo.TRef sig ⟨S_, .i32⟩) id,
    StableHlo.TRef.nullary (.of main_call6_c : StableHlo.TRef sig ⟨S_, .i32⟩) (constantI S_ 32 0#32),
    StableHlo.TRef.binary (.of main_call6_v0 : StableHlo.TRef sig ⟨S_, .i32⟩) (.of main_call6_c : StableHlo.TRef sig ⟨S_, .i32⟩) (.of main_call6_v1 : StableHlo.TRef sig ⟨S_, .i1⟩) (cmpi .eq),
    StableHlo.TRef.nullary (.of main_call6_c_0 : StableHlo.TRef sig ⟨S_, .i32⟩) (constantI S_ 32 1#32),
    StableHlo.TRef.ternary (.of main_call6_v1 : StableHlo.TRef sig ⟨S_, .i1⟩) (.of main_call6_c_0 : StableHlo.TRef sig ⟨S_, .i32⟩) (.of main_call6_v0 : StableHlo.TRef sig ⟨S_, .i32⟩) (.of main_call6_v2 : StableHlo.TRef sig ⟨S_, .i32⟩) select,
    StableHlo.TRef.unary (.of main_call6_v2 : StableHlo.TRef sig ⟨S_, .i32⟩) (.of main_call6_v3 : StableHlo.TRef sig ⟨S16384, .i32⟩) (broadcastInDim S16384 ![] bcast_S_S16384),
    StableHlo.TRef.binary (.of main_v22 : StableHlo.TRef sig ⟨S16384, .i32⟩) (.of main_call6_v3 : StableHlo.TRef sig ⟨S16384, .i32⟩) (.of main_call6_v4 : StableHlo.TRef sig ⟨S16384, .i32⟩) Host.remsi,
    StableHlo.TRef.nullary (.of main_call6_c_1 : StableHlo.TRef sig ⟨S_, .i32⟩) (constantI S_ 32 0#32),
    StableHlo.TRef.unary (.of main_call6_c_1 : StableHlo.TRef sig ⟨S_, .i32⟩) (.of main_call6_v5 : StableHlo.TRef sig ⟨S16384, .i32⟩) (broadcastInDim S16384 ![] bcast_S_S16384),
    StableHlo.TRef.binary (.of main_call6_v4 : StableHlo.TRef sig ⟨S16384, .i32⟩) (.of main_call6_v5 : StableHlo.TRef sig ⟨S16384, .i32⟩) (.of main_call6_v6 : StableHlo.TRef sig ⟨S16384, .i1⟩) (cmpi .ne),
    StableHlo.TRef.nullary (.of main_call6_c_2 : StableHlo.TRef sig ⟨S_, .i32⟩) (constantI S_ 32 0#32),
    StableHlo.TRef.unary (.of main_call6_c_2 : StableHlo.TRef sig ⟨S_, .i32⟩) (.of main_call6_v7 : StableHlo.TRef sig ⟨S16384, .i32⟩) (broadcastInDim S16384 ![] bcast_S_S16384),
    StableHlo.TRef.binary (.of main_call6_v4 : StableHlo.TRef sig ⟨S16384, .i32⟩) (.of main_call6_v7 : StableHlo.TRef sig ⟨S16384, .i32⟩) (.of main_call6_v8 : StableHlo.TRef sig ⟨S16384, .i1⟩) (cmpi .slt),
    StableHlo.TRef.nullary (.of main_call6_c_3 : StableHlo.TRef sig ⟨S_, .i32⟩) (constantI S_ 32 0#32),
    StableHlo.TRef.binary (.of main_call6_v2 : StableHlo.TRef sig ⟨S_, .i32⟩) (.of main_call6_c_3 : StableHlo.TRef sig ⟨S_, .i32⟩) (.of main_call6_v9 : StableHlo.TRef sig ⟨S_, .i1⟩) (cmpi .slt),
    StableHlo.TRef.unary (.of main_call6_v9 : StableHlo.TRef sig ⟨S_, .i1⟩) (.of main_call6_v10 : StableHlo.TRef sig ⟨S16384, .i1⟩) (broadcastInDim S16384 ![] bcast_S_S16384),
    StableHlo.TRef.binary (.of main_call6_v8 : StableHlo.TRef sig ⟨S16384, .i1⟩) (.of main_call6_v10 : StableHlo.TRef sig ⟨S16384, .i1⟩) (.of main_call6_v11 : StableHlo.TRef sig ⟨S16384, .i1⟩) (cmpi .ne),
    StableHlo.TRef.binary (.of main_call6_v11 : StableHlo.TRef sig ⟨S16384, .i1⟩) (.of main_call6_v6 : StableHlo.TRef sig ⟨S16384, .i1⟩) (.of main_call6_v12 : StableHlo.TRef sig ⟨S16384, .i1⟩) andi,
    StableHlo.TRef.unary (.of main_call6_v2 : StableHlo.TRef sig ⟨S_, .i32⟩) (.of main_call6_v13 : StableHlo.TRef sig ⟨S16384, .i32⟩) (broadcastInDim S16384 ![] bcast_S_S16384),
    StableHlo.TRef.binary (.of main_call6_v4 : StableHlo.TRef sig ⟨S16384, .i32⟩) (.of main_call6_v13 : StableHlo.TRef sig ⟨S16384, .i32⟩) (.of main_call6_v14 : StableHlo.TRef sig ⟨S16384, .i32⟩) addi,
    StableHlo.TRef.ternary (.of main_call6_v12 : StableHlo.TRef sig ⟨S16384, .i1⟩) (.of main_call6_v14 : StableHlo.TRef sig ⟨S16384, .i32⟩) (.of main_call6_v4 : StableHlo.TRef sig ⟨S16384, .i32⟩) (.of main_v23 : StableHlo.TRef sig ⟨S16384, .i32⟩) select ]
theorem tailOps_13_sub : (tailOps_13 : List (HloOp τ sig (Elt F))).Forall fun op => op.bufs ⊆ tcRefs τ sig :=
  ⟨unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩
theorem tailOps_13_fresh : (tailOps_13 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩
/-- The call is that stretch run in order: the callee's definition unfolded at the record's fields. -/
theorem tailOps_13_eq : fn_remainder.body (F := F) (.of main_v22) (.of main_c_9) main_call6 = seq tailOps_13 := rfl

/-- Stretch 14 of the operations after the mask: 1 operation of @main between two calls. -/
abbrev tailOps_14 : List (HloOp τ sig (Elt F)) :=
  [ StableHlo.nullary main_c_10 (constantI S_ 32 128#32) ]
theorem tailOps_14_sub : (tailOps_14 : List (HloOp τ sig (Elt F))).Forall fun op => op.bufs ⊆ tcRefs τ sig :=
  nullary_bufs_sub ..
theorem tailOps_14_fresh : (tailOps_14 : List (HloOp τ sig (Elt F))).Forall fun op => op.fresh = ∅ :=
  rfl

/-- Stretch 15 of the operations after the mask: the 16 operations of @floor_divide's body (nested calls inline) over the buffers of the call's record main_call7. -/
abbrev tailOps_15 : List (HloOp τ sig (Elt F)) :=
  [ StableHlo.TRef.unary (.of main_c_10 : StableHlo.TRef sig ⟨S_, .i32⟩) (.of main_call7_v0 : StableHlo.TRef sig ⟨S16384, .i32⟩) (broadcastInDim S16384 ![] bcast_S_S16384),
    StableHlo.TRef.binary (.of main_v19 : StableHlo.TRef sig ⟨S16384, .i32⟩) (.of main_call7_v0 : StableHlo.TRef sig ⟨S16384, .i32⟩) (.of main_call7_v1 : StableHlo.TRef sig ⟨S16384, .i32⟩) Host.divsi,
    StableHlo.TRef.unary (.of main_v19 : StableHlo.TRef sig ⟨S16384, .i32⟩) (.of main_call7_v2 : StableHlo.TRef sig ⟨S16384, .i32⟩) signi,
    StableHlo.TRef.unary (.of main_c_10 : StableHlo.TRef sig ⟨S_, .i32⟩) (.of main_call7_v3 : StableHlo.TRef sig ⟨S_, .i32⟩) signi,
    StableHlo.TRef.unary (.of main_call7_v3 : StableHlo.TRef sig ⟨S_, .i32⟩) (.of main_call7_v4 : StableHlo.TRef sig ⟨S16384, .i32⟩) (broadcastInDim S16384 ![] bcast_S_S16384),
    StableHlo.TRef.binary (.of main_call7_v2 : StableHlo.TRef sig ⟨S16384, .i32⟩) (.of main_call7_v4 : StableHlo.TRef sig ⟨S16384, .i32⟩) (.of main_call7_v5 : StableHlo.TRef sig ⟨S16384, .i1⟩) (cmpi .ne),
    StableHlo.TRef.unary (.of main_c_10 : StableHlo.TRef sig ⟨S_, .i32⟩) (.of main_call7_v6 : StableHlo.TRef sig ⟨S16384, .i32⟩) (broadcastInDim S16384 ![] bcast_S_S16384),
    StableHlo.TRef.binary (.of main_v19 : StableHlo.TRef sig ⟨S16384, .i32⟩) (.of main_call7_v6 : StableHlo.TRef sig ⟨S16384, .i32⟩) (.of main_call7_v7 : StableHlo.TRef sig ⟨S16384, .i32⟩) Host.remsi,
    StableHlo.TRef.nullary (.of main_call7_c : StableHlo.TRef sig ⟨S_, .i32⟩) (constantI S_ 32 0#32),
    StableHlo.TRef.unary (.of main_call7_c : StableHlo.TRef sig ⟨S_, .i32⟩) (.of main_call7_v8 : StableHlo.TRef sig ⟨S16384, .i32⟩) (broadcastInDim S16384 ![] bcast_S_S16384),
    StableHlo.TRef.binary (.of main_call7_v7 : StableHlo.TRef sig ⟨S16384, .i32⟩) (.of main_call7_v8 : StableHlo.TRef sig ⟨S16384, .i32⟩) (.of main_call7_v9 : StableHlo.TRef sig ⟨S16384, .i1⟩) (cmpi .ne),
    StableHlo.TRef.binary (.of main_call7_v5 : StableHlo.TRef sig ⟨S16384, .i1⟩) (.of main_call7_v9 : StableHlo.TRef sig ⟨S16384, .i1⟩) (.of main_call7_v10 : StableHlo.TRef sig ⟨S16384, .i1⟩) andi,
    StableHlo.TRef.nullary (.of main_call7_c_0 : StableHlo.TRef sig ⟨S_, .i32⟩) (constantI S_ 32 1#32),
    StableHlo.TRef.unary (.of main_call7_c_0 : StableHlo.TRef sig ⟨S_, .i32⟩) (.of main_call7_v11 : StableHlo.TRef sig ⟨S16384, .i32⟩) (broadcastInDim S16384 ![] bcast_S_S16384),
    StableHlo.TRef.binary (.of main_call7_v1 : StableHlo.TRef sig ⟨S16384, .i32⟩) (.of main_call7_v11 : StableHlo.TRef sig ⟨S16384, .i32⟩) (.of main_call7_v12 : StableHlo.TRef sig ⟨S16384, .i32⟩) subi,
    StableHlo.TRef.ternary (.of main_call7_v10 : StableHlo.TRef sig ⟨S16384, .i1⟩) (.of main_call7_v12 : StableHlo.TRef sig ⟨S16384, .i32⟩) (.of main_call7_v1 : StableHlo.TRef sig ⟨S16384, .i32⟩) (.of main_v24 : StableHlo.TRef sig ⟨S16384, .i32⟩) select ]
theorem tailOps_15_sub : (tailOps_15 : List (HloOp τ sig (Elt F))).Forall fun op => op.bufs ⊆ tcRefs τ sig :=
  ⟨unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩
theorem tailOps_15_fresh : (tailOps_15 : List (HloOp τ sig (Elt F))).Forall fun op => op.fresh = ∅ :=
  ⟨rfl, rfl, rfl, rfl, rfl, rfl, rfl, rfl, rfl, rfl, rfl, rfl, rfl, rfl, rfl, rfl⟩
/-- The call is that stretch run in order: the callee's definition unfolded at the record's fields. -/
theorem tailOps_15_eq : fn_floor_divide.body (F := F) (.of main_v19) (.of main_c_10) main_call7 = seq tailOps_15 := rfl

/-- Stretch 16 of the operations after the mask: 1 operation of @main between two calls. -/
abbrev tailOps_16 : List (HloOp τ sig (Elt F)) :=
  [ StableHlo.nullary main_c_11 (constantI S_ 32 128#32) ]
theorem tailOps_16_sub : (tailOps_16 : List (HloOp τ sig (Elt F))).Forall fun op => op.bufs ⊆ tcRefs τ sig :=
  nullary_bufs_sub ..
theorem tailOps_16_fresh : (tailOps_16 : List (HloOp τ sig (Elt F))).Forall fun op => op.fresh = ∅ :=
  rfl

/-- Stretch 17 of the operations after the mask: the 21 operations of @remainder's body (nested calls inline) over the buffers of the call's record main_call8. -/
abbrev tailOps_17 : List (HloOp τ sig (Elt F)) :=
  [ StableHlo.TRef.unary (.of main_c_11 : StableHlo.TRef sig ⟨S_, .i32⟩) (.of main_call8_v0 : StableHlo.TRef sig ⟨S_, .i32⟩) id,
    StableHlo.TRef.nullary (.of main_call8_c : StableHlo.TRef sig ⟨S_, .i32⟩) (constantI S_ 32 0#32),
    StableHlo.TRef.binary (.of main_call8_v0 : StableHlo.TRef sig ⟨S_, .i32⟩) (.of main_call8_c : StableHlo.TRef sig ⟨S_, .i32⟩) (.of main_call8_v1 : StableHlo.TRef sig ⟨S_, .i1⟩) (cmpi .eq),
    StableHlo.TRef.nullary (.of main_call8_c_0 : StableHlo.TRef sig ⟨S_, .i32⟩) (constantI S_ 32 1#32),
    StableHlo.TRef.ternary (.of main_call8_v1 : StableHlo.TRef sig ⟨S_, .i1⟩) (.of main_call8_c_0 : StableHlo.TRef sig ⟨S_, .i32⟩) (.of main_call8_v0 : StableHlo.TRef sig ⟨S_, .i32⟩) (.of main_call8_v2 : StableHlo.TRef sig ⟨S_, .i32⟩) select,
    StableHlo.TRef.unary (.of main_call8_v2 : StableHlo.TRef sig ⟨S_, .i32⟩) (.of main_call8_v3 : StableHlo.TRef sig ⟨S16384, .i32⟩) (broadcastInDim S16384 ![] bcast_S_S16384),
    StableHlo.TRef.binary (.of main_v24 : StableHlo.TRef sig ⟨S16384, .i32⟩) (.of main_call8_v3 : StableHlo.TRef sig ⟨S16384, .i32⟩) (.of main_call8_v4 : StableHlo.TRef sig ⟨S16384, .i32⟩) Host.remsi,
    StableHlo.TRef.nullary (.of main_call8_c_1 : StableHlo.TRef sig ⟨S_, .i32⟩) (constantI S_ 32 0#32),
    StableHlo.TRef.unary (.of main_call8_c_1 : StableHlo.TRef sig ⟨S_, .i32⟩) (.of main_call8_v5 : StableHlo.TRef sig ⟨S16384, .i32⟩) (broadcastInDim S16384 ![] bcast_S_S16384),
    StableHlo.TRef.binary (.of main_call8_v4 : StableHlo.TRef sig ⟨S16384, .i32⟩) (.of main_call8_v5 : StableHlo.TRef sig ⟨S16384, .i32⟩) (.of main_call8_v6 : StableHlo.TRef sig ⟨S16384, .i1⟩) (cmpi .ne),
    StableHlo.TRef.nullary (.of main_call8_c_2 : StableHlo.TRef sig ⟨S_, .i32⟩) (constantI S_ 32 0#32),
    StableHlo.TRef.unary (.of main_call8_c_2 : StableHlo.TRef sig ⟨S_, .i32⟩) (.of main_call8_v7 : StableHlo.TRef sig ⟨S16384, .i32⟩) (broadcastInDim S16384 ![] bcast_S_S16384),
    StableHlo.TRef.binary (.of main_call8_v4 : StableHlo.TRef sig ⟨S16384, .i32⟩) (.of main_call8_v7 : StableHlo.TRef sig ⟨S16384, .i32⟩) (.of main_call8_v8 : StableHlo.TRef sig ⟨S16384, .i1⟩) (cmpi .slt),
    StableHlo.TRef.nullary (.of main_call8_c_3 : StableHlo.TRef sig ⟨S_, .i32⟩) (constantI S_ 32 0#32),
    StableHlo.TRef.binary (.of main_call8_v2 : StableHlo.TRef sig ⟨S_, .i32⟩) (.of main_call8_c_3 : StableHlo.TRef sig ⟨S_, .i32⟩) (.of main_call8_v9 : StableHlo.TRef sig ⟨S_, .i1⟩) (cmpi .slt),
    StableHlo.TRef.unary (.of main_call8_v9 : StableHlo.TRef sig ⟨S_, .i1⟩) (.of main_call8_v10 : StableHlo.TRef sig ⟨S16384, .i1⟩) (broadcastInDim S16384 ![] bcast_S_S16384),
    StableHlo.TRef.binary (.of main_call8_v8 : StableHlo.TRef sig ⟨S16384, .i1⟩) (.of main_call8_v10 : StableHlo.TRef sig ⟨S16384, .i1⟩) (.of main_call8_v11 : StableHlo.TRef sig ⟨S16384, .i1⟩) (cmpi .ne),
    StableHlo.TRef.binary (.of main_call8_v11 : StableHlo.TRef sig ⟨S16384, .i1⟩) (.of main_call8_v6 : StableHlo.TRef sig ⟨S16384, .i1⟩) (.of main_call8_v12 : StableHlo.TRef sig ⟨S16384, .i1⟩) andi,
    StableHlo.TRef.unary (.of main_call8_v2 : StableHlo.TRef sig ⟨S_, .i32⟩) (.of main_call8_v13 : StableHlo.TRef sig ⟨S16384, .i32⟩) (broadcastInDim S16384 ![] bcast_S_S16384),
    StableHlo.TRef.binary (.of main_call8_v4 : StableHlo.TRef sig ⟨S16384, .i32⟩) (.of main_call8_v13 : StableHlo.TRef sig ⟨S16384, .i32⟩) (.of main_call8_v14 : StableHlo.TRef sig ⟨S16384, .i32⟩) addi,
    StableHlo.TRef.ternary (.of main_call8_v12 : StableHlo.TRef sig ⟨S16384, .i1⟩) (.of main_call8_v14 : StableHlo.TRef sig ⟨S16384, .i32⟩) (.of main_call8_v4 : StableHlo.TRef sig ⟨S16384, .i32⟩) (.of main_v25 : StableHlo.TRef sig ⟨S16384, .i32⟩) select ]
theorem tailOps_17_sub : (tailOps_17 : List (HloOp τ sig (Elt F))).Forall fun op => op.bufs ⊆ tcRefs τ sig :=
  ⟨unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩
theorem tailOps_17_fresh : (tailOps_17 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩
/-- The call is that stretch run in order: the callee's definition unfolded at the record's fields. -/
theorem tailOps_17_eq : fn_remainder.body (F := F) (.of main_v24) (.of main_c_11) main_call8 = seq tailOps_17 := rfl

/-- Stretch 18 of the operations after the mask: 1 operation of @main between two calls. -/
abbrev tailOps_18 : List (HloOp τ sig (Elt F)) :=
  [ StableHlo.nullary main_c_12 (constantI S_ 32 1#32) ]
theorem tailOps_18_sub : (tailOps_18 : List (HloOp τ sig (Elt F))).Forall fun op => op.bufs ⊆ tcRefs τ sig :=
  nullary_bufs_sub ..
theorem tailOps_18_fresh : (tailOps_18 : List (HloOp τ sig (Elt F))).Forall fun op => op.fresh = ∅ :=
  rfl

/-- Stretch 19 of the operations after the mask: the 16 operations of @floor_divide's body (nested calls inline) over the buffers of the call's record main_call9. -/
abbrev tailOps_19 : List (HloOp τ sig (Elt F)) :=
  [ StableHlo.TRef.unary (.of main_c_12 : StableHlo.TRef sig ⟨S_, .i32⟩) (.of main_call9_v0 : StableHlo.TRef sig ⟨S16384, .i32⟩) (broadcastInDim S16384 ![] bcast_S_S16384),
    StableHlo.TRef.binary (.of main_v19 : StableHlo.TRef sig ⟨S16384, .i32⟩) (.of main_call9_v0 : StableHlo.TRef sig ⟨S16384, .i32⟩) (.of main_call9_v1 : StableHlo.TRef sig ⟨S16384, .i32⟩) Host.divsi,
    StableHlo.TRef.unary (.of main_v19 : StableHlo.TRef sig ⟨S16384, .i32⟩) (.of main_call9_v2 : StableHlo.TRef sig ⟨S16384, .i32⟩) signi,
    StableHlo.TRef.unary (.of main_c_12 : StableHlo.TRef sig ⟨S_, .i32⟩) (.of main_call9_v3 : StableHlo.TRef sig ⟨S_, .i32⟩) signi,
    StableHlo.TRef.unary (.of main_call9_v3 : StableHlo.TRef sig ⟨S_, .i32⟩) (.of main_call9_v4 : StableHlo.TRef sig ⟨S16384, .i32⟩) (broadcastInDim S16384 ![] bcast_S_S16384),
    StableHlo.TRef.binary (.of main_call9_v2 : StableHlo.TRef sig ⟨S16384, .i32⟩) (.of main_call9_v4 : StableHlo.TRef sig ⟨S16384, .i32⟩) (.of main_call9_v5 : StableHlo.TRef sig ⟨S16384, .i1⟩) (cmpi .ne),
    StableHlo.TRef.unary (.of main_c_12 : StableHlo.TRef sig ⟨S_, .i32⟩) (.of main_call9_v6 : StableHlo.TRef sig ⟨S16384, .i32⟩) (broadcastInDim S16384 ![] bcast_S_S16384),
    StableHlo.TRef.binary (.of main_v19 : StableHlo.TRef sig ⟨S16384, .i32⟩) (.of main_call9_v6 : StableHlo.TRef sig ⟨S16384, .i32⟩) (.of main_call9_v7 : StableHlo.TRef sig ⟨S16384, .i32⟩) Host.remsi,
    StableHlo.TRef.nullary (.of main_call9_c : StableHlo.TRef sig ⟨S_, .i32⟩) (constantI S_ 32 0#32),
    StableHlo.TRef.unary (.of main_call9_c : StableHlo.TRef sig ⟨S_, .i32⟩) (.of main_call9_v8 : StableHlo.TRef sig ⟨S16384, .i32⟩) (broadcastInDim S16384 ![] bcast_S_S16384),
    StableHlo.TRef.binary (.of main_call9_v7 : StableHlo.TRef sig ⟨S16384, .i32⟩) (.of main_call9_v8 : StableHlo.TRef sig ⟨S16384, .i32⟩) (.of main_call9_v9 : StableHlo.TRef sig ⟨S16384, .i1⟩) (cmpi .ne),
    StableHlo.TRef.binary (.of main_call9_v5 : StableHlo.TRef sig ⟨S16384, .i1⟩) (.of main_call9_v9 : StableHlo.TRef sig ⟨S16384, .i1⟩) (.of main_call9_v10 : StableHlo.TRef sig ⟨S16384, .i1⟩) andi,
    StableHlo.TRef.nullary (.of main_call9_c_0 : StableHlo.TRef sig ⟨S_, .i32⟩) (constantI S_ 32 1#32),
    StableHlo.TRef.unary (.of main_call9_c_0 : StableHlo.TRef sig ⟨S_, .i32⟩) (.of main_call9_v11 : StableHlo.TRef sig ⟨S16384, .i32⟩) (broadcastInDim S16384 ![] bcast_S_S16384),
    StableHlo.TRef.binary (.of main_call9_v1 : StableHlo.TRef sig ⟨S16384, .i32⟩) (.of main_call9_v11 : StableHlo.TRef sig ⟨S16384, .i32⟩) (.of main_call9_v12 : StableHlo.TRef sig ⟨S16384, .i32⟩) subi,
    StableHlo.TRef.ternary (.of main_call9_v10 : StableHlo.TRef sig ⟨S16384, .i1⟩) (.of main_call9_v12 : StableHlo.TRef sig ⟨S16384, .i32⟩) (.of main_call9_v1 : StableHlo.TRef sig ⟨S16384, .i32⟩) (.of main_v26 : StableHlo.TRef sig ⟨S16384, .i32⟩) select ]
theorem tailOps_19_sub : (tailOps_19 : List (HloOp τ sig (Elt F))).Forall fun op => op.bufs ⊆ tcRefs τ sig :=
  ⟨unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩
theorem tailOps_19_fresh : (tailOps_19 : List (HloOp τ sig (Elt F))).Forall fun op => op.fresh = ∅ :=
  ⟨rfl, rfl, rfl, rfl, rfl, rfl, rfl, rfl, rfl, rfl, rfl, rfl, rfl, rfl, rfl, rfl⟩
/-- The call is that stretch run in order: the callee's definition unfolded at the record's fields. -/
theorem tailOps_19_eq : fn_floor_divide.body (F := F) (.of main_v19) (.of main_c_12) main_call9 = seq tailOps_19 := rfl

/-- Stretch 20 of the operations after the mask: 1 operation of @main between two calls. -/
abbrev tailOps_20 : List (HloOp τ sig (Elt F)) :=
  [ StableHlo.nullary main_c_13 (constantI S_ 32 128#32) ]
theorem tailOps_20_sub : (tailOps_20 : List (HloOp τ sig (Elt F))).Forall fun op => op.bufs ⊆ tcRefs τ sig :=
  nullary_bufs_sub ..
theorem tailOps_20_fresh : (tailOps_20 : List (HloOp τ sig (Elt F))).Forall fun op => op.fresh = ∅ :=
  rfl

/-- Stretch 21 of the operations after the mask: the 21 operations of @remainder's body (nested calls inline) over the buffers of the call's record main_call10. -/
abbrev tailOps_21 : List (HloOp τ sig (Elt F)) :=
  [ StableHlo.TRef.unary (.of main_c_13 : StableHlo.TRef sig ⟨S_, .i32⟩) (.of main_call10_v0 : StableHlo.TRef sig ⟨S_, .i32⟩) id,
    StableHlo.TRef.nullary (.of main_call10_c : StableHlo.TRef sig ⟨S_, .i32⟩) (constantI S_ 32 0#32),
    StableHlo.TRef.binary (.of main_call10_v0 : StableHlo.TRef sig ⟨S_, .i32⟩) (.of main_call10_c : StableHlo.TRef sig ⟨S_, .i32⟩) (.of main_call10_v1 : StableHlo.TRef sig ⟨S_, .i1⟩) (cmpi .eq),
    StableHlo.TRef.nullary (.of main_call10_c_0 : StableHlo.TRef sig ⟨S_, .i32⟩) (constantI S_ 32 1#32),
    StableHlo.TRef.ternary (.of main_call10_v1 : StableHlo.TRef sig ⟨S_, .i1⟩) (.of main_call10_c_0 : StableHlo.TRef sig ⟨S_, .i32⟩) (.of main_call10_v0 : StableHlo.TRef sig ⟨S_, .i32⟩) (.of main_call10_v2 : StableHlo.TRef sig ⟨S_, .i32⟩) select,
    StableHlo.TRef.unary (.of main_call10_v2 : StableHlo.TRef sig ⟨S_, .i32⟩) (.of main_call10_v3 : StableHlo.TRef sig ⟨S16384, .i32⟩) (broadcastInDim S16384 ![] bcast_S_S16384),
    StableHlo.TRef.binary (.of main_v26 : StableHlo.TRef sig ⟨S16384, .i32⟩) (.of main_call10_v3 : StableHlo.TRef sig ⟨S16384, .i32⟩) (.of main_call10_v4 : StableHlo.TRef sig ⟨S16384, .i32⟩) Host.remsi,
    StableHlo.TRef.nullary (.of main_call10_c_1 : StableHlo.TRef sig ⟨S_, .i32⟩) (constantI S_ 32 0#32),
    StableHlo.TRef.unary (.of main_call10_c_1 : StableHlo.TRef sig ⟨S_, .i32⟩) (.of main_call10_v5 : StableHlo.TRef sig ⟨S16384, .i32⟩) (broadcastInDim S16384 ![] bcast_S_S16384),
    StableHlo.TRef.binary (.of main_call10_v4 : StableHlo.TRef sig ⟨S16384, .i32⟩) (.of main_call10_v5 : StableHlo.TRef sig ⟨S16384, .i32⟩) (.of main_call10_v6 : StableHlo.TRef sig ⟨S16384, .i1⟩) (cmpi .ne),
    StableHlo.TRef.nullary (.of main_call10_c_2 : StableHlo.TRef sig ⟨S_, .i32⟩) (constantI S_ 32 0#32),
    StableHlo.TRef.unary (.of main_call10_c_2 : StableHlo.TRef sig ⟨S_, .i32⟩) (.of main_call10_v7 : StableHlo.TRef sig ⟨S16384, .i32⟩) (broadcastInDim S16384 ![] bcast_S_S16384),
    StableHlo.TRef.binary (.of main_call10_v4 : StableHlo.TRef sig ⟨S16384, .i32⟩) (.of main_call10_v7 : StableHlo.TRef sig ⟨S16384, .i32⟩) (.of main_call10_v8 : StableHlo.TRef sig ⟨S16384, .i1⟩) (cmpi .slt),
    StableHlo.TRef.nullary (.of main_call10_c_3 : StableHlo.TRef sig ⟨S_, .i32⟩) (constantI S_ 32 0#32),
    StableHlo.TRef.binary (.of main_call10_v2 : StableHlo.TRef sig ⟨S_, .i32⟩) (.of main_call10_c_3 : StableHlo.TRef sig ⟨S_, .i32⟩) (.of main_call10_v9 : StableHlo.TRef sig ⟨S_, .i1⟩) (cmpi .slt),
    StableHlo.TRef.unary (.of main_call10_v9 : StableHlo.TRef sig ⟨S_, .i1⟩) (.of main_call10_v10 : StableHlo.TRef sig ⟨S16384, .i1⟩) (broadcastInDim S16384 ![] bcast_S_S16384),
    StableHlo.TRef.binary (.of main_call10_v8 : StableHlo.TRef sig ⟨S16384, .i1⟩) (.of main_call10_v10 : StableHlo.TRef sig ⟨S16384, .i1⟩) (.of main_call10_v11 : StableHlo.TRef sig ⟨S16384, .i1⟩) (cmpi .ne),
    StableHlo.TRef.binary (.of main_call10_v11 : StableHlo.TRef sig ⟨S16384, .i1⟩) (.of main_call10_v6 : StableHlo.TRef sig ⟨S16384, .i1⟩) (.of main_call10_v12 : StableHlo.TRef sig ⟨S16384, .i1⟩) andi,
    StableHlo.TRef.unary (.of main_call10_v2 : StableHlo.TRef sig ⟨S_, .i32⟩) (.of main_call10_v13 : StableHlo.TRef sig ⟨S16384, .i32⟩) (broadcastInDim S16384 ![] bcast_S_S16384),
    StableHlo.TRef.binary (.of main_call10_v4 : StableHlo.TRef sig ⟨S16384, .i32⟩) (.of main_call10_v13 : StableHlo.TRef sig ⟨S16384, .i32⟩) (.of main_call10_v14 : StableHlo.TRef sig ⟨S16384, .i32⟩) addi,
    StableHlo.TRef.ternary (.of main_call10_v12 : StableHlo.TRef sig ⟨S16384, .i1⟩) (.of main_call10_v14 : StableHlo.TRef sig ⟨S16384, .i32⟩) (.of main_call10_v4 : StableHlo.TRef sig ⟨S16384, .i32⟩) (.of main_v27 : StableHlo.TRef sig ⟨S16384, .i32⟩) select ]
theorem tailOps_21_sub : (tailOps_21 : List (HloOp τ sig (Elt F))).Forall fun op => op.bufs ⊆ tcRefs τ sig :=
  ⟨unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩
theorem tailOps_21_fresh : (tailOps_21 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩
/-- The call is that stretch run in order: the callee's definition unfolded at the record's fields. -/
theorem tailOps_21_eq : fn_remainder.body (F := F) (.of main_v26) (.of main_c_13) main_call10 = seq tailOps_21 := rfl

/-- Stretch 22 of the operations after the mask: 7 operations of @main between two calls. -/
abbrev tailOps_22 : List (HloOp τ sig (Elt F)) :=
  [ StableHlo.nullary main_v28 (iotaInDim S16384 32 0),
    StableHlo.unary main_v7 main_v29 ((extui 32 · natLt_1_32) : (⟨S16x80x128x128, .i1⟩ : BufTy).Contents (Elt F) → (⟨S16x80x128x128, .i32⟩ : BufTy).Contents (Elt F)),
    StableHlo.nullary main_c_14 (constantI S_ 32 0#32),
    StableHlo.binary main_v29 main_c_14 main_v30 ((fun x v => Host.reduce IntOp.addi x v reducesTo_S16x80x128x128_S_d0_1_2_3 h_S_) : (⟨S16x80x128x128, .i32⟩ : BufTy).Contents (Elt F) → (⟨S_, .i32⟩ : BufTy).Contents (Elt F) → (⟨S_, .i32⟩ : BufTy).Contents (Elt F)),
    StableHlo.unary main_v30 main_v31 (broadcastInDim S16384 ![] bcast_S_S16384 : (⟨S_, .i32⟩ : BufTy).Contents (Elt F) → (⟨S16384, .i32⟩ : BufTy).Contents (Elt F)),
    StableHlo.binary main_v28 main_v31 main_v32 (cmpi .sge : (⟨S16384, .i32⟩ : BufTy).Contents (Elt F) → (⟨S16384, .i32⟩ : BufTy).Contents (Elt F) → (⟨S16384, .i1⟩ : BufTy).Contents (Elt F)),
    StableHlo.nullary main_c_15 (constantI S_ 32 4294967295#32) ]
theorem tailOps_22_sub : (tailOps_22 : List (HloOp τ sig (Elt F))).Forall fun op => op.bufs ⊆ tcRefs τ sig :=
  ⟨nullary_bufs_sub .., unary_bufs_sub .., nullary_bufs_sub .., binary_bufs_sub .., unary_bufs_sub .., binary_bufs_sub .., nullary_bufs_sub ..⟩
theorem tailOps_22_fresh : (tailOps_22 : List (HloOp τ sig (Elt F))).Forall fun op => op.fresh = ∅ :=
  ⟨rfl, rfl, rfl, rfl, rfl, rfl, rfl⟩

/-- Stretch 23 of the operations after the mask: the 3 operations of @_where_4's body (nested calls inline) over the buffers of the call's record main_call11. -/
abbrev tailOps_23 : List (HloOp τ sig (Elt F)) :=
  [ StableHlo.TRef.unary (.of main_c_15 : StableHlo.TRef sig ⟨S_, .i32⟩) (.of main_call11_v0 : StableHlo.TRef sig ⟨S_, .i32⟩) id,
    StableHlo.TRef.unary (.of main_call11_v0 : StableHlo.TRef sig ⟨S_, .i32⟩) (.of main_call11_v1 : StableHlo.TRef sig ⟨S16384, .i32⟩) (broadcastInDim S16384 ![] bcast_S_S16384),
    StableHlo.TRef.ternary (.of main_v32 : StableHlo.TRef sig ⟨S16384, .i1⟩) (.of main_call11_v1 : StableHlo.TRef sig ⟨S16384, .i32⟩) (.of main_v21 : StableHlo.TRef sig ⟨S16384, .i32⟩) (.of main_v33 : StableHlo.TRef sig ⟨S16384, .i32⟩) select ]
theorem tailOps_23_sub : (tailOps_23 : List (HloOp τ sig (Elt F))).Forall fun op => op.bufs ⊆ tcRefs τ sig :=
  ⟨unary_bufs_sub .., unary_bufs_sub .., ternary_bufs_sub ..⟩
theorem tailOps_23_fresh : (tailOps_23 : List (HloOp τ sig (Elt F))).Forall fun op => op.fresh = ∅ :=
  ⟨rfl, rfl, rfl⟩
/-- The call is that stretch run in order: the callee's definition unfolded at the record's fields. -/
theorem tailOps_23_eq : fn_where_4.body (F := F) (.of main_v32) (.of main_c_15) (.of main_v21) main_call11 = seq tailOps_23 := rfl

/-- Stretch 24 of the operations after the mask: 1 operation of @main between two calls. -/
abbrev tailOps_24 : List (HloOp τ sig (Elt F)) :=
  [ StableHlo.nullary main_c_16 (constantI S_ 32 4294967295#32) ]
theorem tailOps_24_sub : (tailOps_24 : List (HloOp τ sig (Elt F))).Forall fun op => op.bufs ⊆ tcRefs τ sig :=
  nullary_bufs_sub ..
theorem tailOps_24_fresh : (tailOps_24 : List (HloOp τ sig (Elt F))).Forall fun op => op.fresh = ∅ :=
  rfl

/-- Stretch 25 of the operations after the mask: the 3 operations of @_where_4's body (nested calls inline) over the buffers of the call's record main_call12. -/
abbrev tailOps_25 : List (HloOp τ sig (Elt F)) :=
  [ StableHlo.TRef.unary (.of main_c_16 : StableHlo.TRef sig ⟨S_, .i32⟩) (.of main_call12_v0 : StableHlo.TRef sig ⟨S_, .i32⟩) id,
    StableHlo.TRef.unary (.of main_call12_v0 : StableHlo.TRef sig ⟨S_, .i32⟩) (.of main_call12_v1 : StableHlo.TRef sig ⟨S16384, .i32⟩) (broadcastInDim S16384 ![] bcast_S_S16384),
    StableHlo.TRef.ternary (.of main_v32 : StableHlo.TRef sig ⟨S16384, .i1⟩) (.of main_call12_v1 : StableHlo.TRef sig ⟨S16384, .i32⟩) (.of main_v23 : StableHlo.TRef sig ⟨S16384, .i32⟩) (.of main_v34 : StableHlo.TRef sig ⟨S16384, .i32⟩) select ]
theorem tailOps_25_sub : (tailOps_25 : List (HloOp τ sig (Elt F))).Forall fun op => op.bufs ⊆ tcRefs τ sig :=
  ⟨unary_bufs_sub .., unary_bufs_sub .., ternary_bufs_sub ..⟩
theorem tailOps_25_fresh : (tailOps_25 : List (HloOp τ sig (Elt F))).Forall fun op => op.fresh = ∅ :=
  ⟨rfl, rfl, rfl⟩
/-- The call is that stretch run in order: the callee's definition unfolded at the record's fields. -/
theorem tailOps_25_eq : fn_where_4.body (F := F) (.of main_v32) (.of main_c_16) (.of main_v23) main_call12 = seq tailOps_25 := rfl

/-- Stretch 26 of the operations after the mask: 1 operation of @main between two calls. -/
abbrev tailOps_26 : List (HloOp τ sig (Elt F)) :=
  [ StableHlo.nullary main_c_17 (constantI S_ 32 4294967295#32) ]
theorem tailOps_26_sub : (tailOps_26 : List (HloOp τ sig (Elt F))).Forall fun op => op.bufs ⊆ tcRefs τ sig :=
  nullary_bufs_sub ..
theorem tailOps_26_fresh : (tailOps_26 : List (HloOp τ sig (Elt F))).Forall fun op => op.fresh = ∅ :=
  rfl

/-- Stretch 27 of the operations after the mask: the 3 operations of @_where_4's body (nested calls inline) over the buffers of the call's record main_call13. -/
abbrev tailOps_27 : List (HloOp τ sig (Elt F)) :=
  [ StableHlo.TRef.unary (.of main_c_17 : StableHlo.TRef sig ⟨S_, .i32⟩) (.of main_call13_v0 : StableHlo.TRef sig ⟨S_, .i32⟩) id,
    StableHlo.TRef.unary (.of main_call13_v0 : StableHlo.TRef sig ⟨S_, .i32⟩) (.of main_call13_v1 : StableHlo.TRef sig ⟨S16384, .i32⟩) (broadcastInDim S16384 ![] bcast_S_S16384),
    StableHlo.TRef.ternary (.of main_v32 : StableHlo.TRef sig ⟨S16384, .i1⟩) (.of main_call13_v1 : StableHlo.TRef sig ⟨S16384, .i32⟩) (.of main_v25 : StableHlo.TRef sig ⟨S16384, .i32⟩) (.of main_v35 : StableHlo.TRef sig ⟨S16384, .i32⟩) select ]
theorem tailOps_27_sub : (tailOps_27 : List (HloOp τ sig (Elt F))).Forall fun op => op.bufs ⊆ tcRefs τ sig :=
  ⟨unary_bufs_sub .., unary_bufs_sub .., ternary_bufs_sub ..⟩
theorem tailOps_27_fresh : (tailOps_27 : List (HloOp τ sig (Elt F))).Forall fun op => op.fresh = ∅ :=
  ⟨rfl, rfl, rfl⟩
/-- The call is that stretch run in order: the callee's definition unfolded at the record's fields. -/
theorem tailOps_27_eq : fn_where_4.body (F := F) (.of main_v32) (.of main_c_17) (.of main_v25) main_call13 = seq tailOps_27 := rfl

/-- Stretch 28 of the operations after the mask: 1 operation of @main between two calls. -/
abbrev tailOps_28 : List (HloOp τ sig (Elt F)) :=
  [ StableHlo.nullary main_c_18 (constantI S_ 32 4294967295#32) ]
theorem tailOps_28_sub : (tailOps_28 : List (HloOp τ sig (Elt F))).Forall fun op => op.bufs ⊆ tcRefs τ sig :=
  nullary_bufs_sub ..
theorem tailOps_28_fresh : (tailOps_28 : List (HloOp τ sig (Elt F))).Forall fun op => op.fresh = ∅ :=
  rfl

/-- Stretch 29 of the operations after the mask: the 3 operations of @_where_4's body (nested calls inline) over the buffers of the call's record main_call14. -/
abbrev tailOps_29 : List (HloOp τ sig (Elt F)) :=
  [ StableHlo.TRef.unary (.of main_c_18 : StableHlo.TRef sig ⟨S_, .i32⟩) (.of main_call14_v0 : StableHlo.TRef sig ⟨S_, .i32⟩) id,
    StableHlo.TRef.unary (.of main_call14_v0 : StableHlo.TRef sig ⟨S_, .i32⟩) (.of main_call14_v1 : StableHlo.TRef sig ⟨S16384, .i32⟩) (broadcastInDim S16384 ![] bcast_S_S16384),
    StableHlo.TRef.ternary (.of main_v32 : StableHlo.TRef sig ⟨S16384, .i1⟩) (.of main_call14_v1 : StableHlo.TRef sig ⟨S16384, .i32⟩) (.of main_v27 : StableHlo.TRef sig ⟨S16384, .i32⟩) (.of main_v36 : StableHlo.TRef sig ⟨S16384, .i32⟩) select ]
theorem tailOps_29_sub : (tailOps_29 : List (HloOp τ sig (Elt F))).Forall fun op => op.bufs ⊆ tcRefs τ sig :=
  ⟨unary_bufs_sub .., unary_bufs_sub .., ternary_bufs_sub ..⟩
theorem tailOps_29_fresh : (tailOps_29 : List (HloOp τ sig (Elt F))).Forall fun op => op.fresh = ∅ :=
  ⟨rfl, rfl, rfl⟩
/-- The call is that stretch run in order: the callee's definition unfolded at the record's fields. -/
theorem tailOps_29_eq : fn_where_4.body (F := F) (.of main_v32) (.of main_c_18) (.of main_v27) main_call14 = seq tailOps_29 := rfl

/-- Stretch 30 of the operations after the mask: 5 operations of @main between two calls. -/
abbrev tailOps_30 : List (HloOp τ sig (Elt F)) :=
  [ StableHlo.unary main_v33 main_v37 (broadcastInDim S16384x1 ![0] bcast_S16384_S16384x1_0 : (⟨S16384, .i32⟩ : BufTy).Contents (Elt F) → (⟨S16384x1, .i32⟩ : BufTy).Contents (Elt F)),
    StableHlo.unary main_v34 main_v38 (broadcastInDim S16384x1 ![0] bcast_S16384_S16384x1_0 : (⟨S16384, .i32⟩ : BufTy).Contents (Elt F) → (⟨S16384x1, .i32⟩ : BufTy).Contents (Elt F)),
    StableHlo.unary main_v35 main_v39 (broadcastInDim S16384x1 ![0] bcast_S16384_S16384x1_0 : (⟨S16384, .i32⟩ : BufTy).Contents (Elt F) → (⟨S16384x1, .i32⟩ : BufTy).Contents (Elt F)),
    StableHlo.unary main_v36 main_v40 (broadcastInDim S16384x1 ![0] bcast_S16384_S16384x1_0 : (⟨S16384, .i32⟩ : BufTy).Contents (Elt F) → (⟨S16384x1, .i32⟩ : BufTy).Contents (Elt F)),
    StableHlo.nary ![main_v37, main_v38, main_v39, main_v40] main_v41 (fun u => concatenate S16384x4 1 [⟨S16384x1, u 0⟩, ⟨S16384x1, u 1⟩, ⟨S16384x1, u 2⟩, ⟨S16384x1, u 3⟩] concatenates_S16384x1_S16384x1_S16384x1_S16384x1_S16384x4_d1) ]
theorem tailOps_30_sub : (tailOps_30 : List (HloOp τ sig (Elt F))).Forall fun op => op.bufs ⊆ tcRefs τ sig :=
  ⟨unary_bufs_sub .., unary_bufs_sub .., unary_bufs_sub .., unary_bufs_sub .., nary_bufs_sub ..⟩
theorem tailOps_30_fresh : (tailOps_30 : List (HloOp τ sig (Elt F))).Forall fun op => op.fresh = ∅ :=
  ⟨rfl, rfl, rfl, rfl, rfl⟩

end Cert.ReferenceIdeal.Hand

end
-- ==== Proof.RefRun.lean ====
/-
  The reference's run.

  The reference's @main is printed as two windows run in order; its statements are host operations and fifteen calls of
  module-local functions. Here @main is shown equal to one straight line: the eleven operations of the mask
  (`headOps`) followed by the operations after it (`tailOps`, the thirty stretches of the operation lists flattened in
  program order). Each window is its operations run in order — a statement is its operation, a call is its callee's
  body over the call's record, which is the call's stretch — and the two windows in order are the whole line
  (`main_eq`). A straight line over a signature that scopes nothing runs to its end from any memory with zero counters
  (`run`): every final state has each buffer at the fold of the operations' results over the launch contents.

  Three readings of that fold: after the first eleven operations the mask's buffer holds the reference's mask of the
  argument (`head_keep`), and neither the first eleven operations nor the later ones write the argument
  (`head_arg0`, `tail_arg0`). `after_tailOps` reads the fold over the later operations stretch by stretch.
-/
import proofs.«157353_j50216757624982_1_alg».proof.Proof.RefOps1

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The first two operations of the last stretch: the ones @main's first window ends with. -/
abbrev tailOps_30a : List (HloOp τ sig (Elt F)) :=
  [ StableHlo.unary main_v33 main_v37 (broadcastInDim S16384x1 ![0] bcast_S16384_S16384x1_0 : (⟨S16384, .i32⟩ : BufTy).Contents (Elt F) → (⟨S16384x1, .i32⟩ : BufTy).Contents (Elt F)),
    StableHlo.unary main_v34 main_v38 (broadcastInDim S16384x1 ![0] bcast_S16384_S16384x1_0 : (⟨S16384, .i32⟩ : BufTy).Contents (Elt F) → (⟨S16384x1, .i32⟩ : BufTy).Contents (Elt F)) ]

/-- The last three operations of the last stretch: @main's second window. -/
abbrev tailOps_30b : List (HloOp τ sig (Elt F)) :=
  [ StableHlo.unary main_v35 main_v39 (broadcastInDim S16384x1 ![0] bcast_S16384_S16384x1_0 : (⟨S16384, .i32⟩ : BufTy).Contents (Elt F) → (⟨S16384x1, .i32⟩ : BufTy).Contents (Elt F)),
    StableHlo.unary main_v36 main_v40 (broadcastInDim S16384x1 ![0] bcast_S16384_S16384x1_0 : (⟨S16384, .i32⟩ : BufTy).Contents (Elt F) → (⟨S16384x1, .i32⟩ : BufTy).Contents (Elt F)),
    StableHlo.nary ![main_v37, main_v38, main_v39, main_v40] main_v41 (fun u => concatenate S16384x4 1 [⟨S16384x1, u 0⟩, ⟨S16384x1, u 1⟩, ⟨S16384x1, u 2⟩, ⟨S16384x1, u 3⟩] concatenates_S16384x1_S16384x1_S16384x1_S16384x1_S16384x4_d1) ]

/-- The operations after the mask, stretch by stretch, in program order. -/
abbrev tailStretches : List (List (HloOp τ sig (Elt F))) :=
  [tailOps_1, tailOps_2, tailOps_3, tailOps_4, tailOps_5, tailOps_6, tailOps_7, tailOps_8, tailOps_9, tailOps_10, tailOps_11, tailOps_12, tailOps_13, tailOps_14, tailOps_15, tailOps_16, tailOps_17, tailOps_18, tailOps_19, tailOps_20, tailOps_21, tailOps_22, tailOps_23, tailOps_24, tailOps_25, tailOps_26, tailOps_27, tailOps_28, tailOps_29, tailOps_30]

/-- The operations after the mask, in program order. -/
abbrev tailOps : List (HloOp τ sig (Elt F)) := tailStretches.flatten

set_option maxRecDepth 65536 in
/-- @main's first window is the mask's operations and the first twenty-nine stretches and a bit, run in order: the
    window's statements are those operations one by one, and each call is its stretch (the callee unfolded). -/
theorem main_part0_eq (d : Dev nD) :
    main_part0 (F := F) d = seq (List.flatten [headOps, tailOps_1, tailOps_2, tailOps_3, tailOps_4, tailOps_5, tailOps_6, tailOps_7, tailOps_8, tailOps_9, tailOps_10, tailOps_11, tailOps_12, tailOps_13, tailOps_14, tailOps_15, tailOps_16, tailOps_17, tailOps_18, tailOps_19, tailOps_20, tailOps_21, tailOps_22, tailOps_23, tailOps_24, tailOps_25, tailOps_26, tailOps_27, tailOps_28, tailOps_29, tailOps_30a]) := rfl

/-- @main's second window is the last three operations. -/
theorem main_part1_eq (d : Dev nD) : main_part1 (F := F) d = seq tailOps_30b := rfl

/-- The whole line, regrouped at the boundary between @main's two windows. -/
theorem ops_split :
    (headOps ++ tailOps : List (HloOp τ sig (Elt F)))
      = List.flatten [headOps, tailOps_1, tailOps_2, tailOps_3, tailOps_4, tailOps_5, tailOps_6, tailOps_7, tailOps_8, tailOps_9, tailOps_10, tailOps_11, tailOps_12, tailOps_13, tailOps_14, tailOps_15, tailOps_16, tailOps_17, tailOps_18, tailOps_19, tailOps_20, tailOps_21, tailOps_22, tailOps_23, tailOps_24, tailOps_25, tailOps_26, tailOps_27, tailOps_28, tailOps_29, tailOps_30a] ++ tailOps_30b := by
  simp only [tailOps, tailStretches, List.flatten_cons, List.flatten_nil, List.append_nil, List.append_assoc]
  rfl

/-- @main is the mask's operations followed by the operations after it: its two windows in order. -/
theorem main_eq (d : Dev nD) : main (F := F) d = StableHlo.seq (headOps ++ tailOps) := by
  rw [ops_split, seq_append, ← main_part0_eq d, ← main_part1_eq d]
  rfl

theorem scopedRefs_eq : (Finset.univ.filter fun b : Ref sig .tc => b.isScoped) = ∅ := by decide
theorem scopedSems_eq : (Finset.univ.filter fun sm : SemLoc sig => sm.isScoped .tc) = ∅ := by decide

theorem tailStretches_sub :
    (tailStretches : List (List (HloOp τ sig (Elt F)))).Forall fun l => l.Forall fun op => op.bufs ⊆ tcRefs τ sig :=
  ⟨tailOps_1_sub, tailOps_2_sub, tailOps_3_sub, tailOps_4_sub, tailOps_5_sub, tailOps_6_sub, tailOps_7_sub, tailOps_8_sub, tailOps_9_sub, tailOps_10_sub, tailOps_11_sub, tailOps_12_sub, tailOps_13_sub, tailOps_14_sub, tailOps_15_sub, tailOps_16_sub, tailOps_17_sub, tailOps_18_sub, tailOps_19_sub, tailOps_20_sub, tailOps_21_sub, tailOps_22_sub, tailOps_23_sub, tailOps_24_sub, tailOps_25_sub, tailOps_26_sub, tailOps_27_sub, tailOps_28_sub, tailOps_29_sub, tailOps_30_sub⟩

theorem tailStretches_fresh :
    (tailStretches : List (List (HloOp τ sig (Elt F)))).Forall fun l => l.Forall fun op => op.fresh = ∅ :=
  ⟨tailOps_1_fresh, tailOps_2_fresh, tailOps_3_fresh, tailOps_4_fresh, tailOps_5_fresh, tailOps_6_fresh, tailOps_7_fresh, tailOps_8_fresh, tailOps_9_fresh, tailOps_10_fresh, tailOps_11_fresh, tailOps_12_fresh, tailOps_13_fresh, tailOps_14_fresh, tailOps_15_fresh, tailOps_16_fresh, tailOps_17_fresh, tailOps_18_fresh, tailOps_19_fresh, tailOps_20_fresh, tailOps_21_fresh, tailOps_22_fresh, tailOps_23_fresh, tailOps_24_fresh, tailOps_25_fresh, tailOps_26_fresh, tailOps_27_fresh, tailOps_28_fresh, tailOps_29_fresh, tailOps_30_fresh⟩

/-- A property of every operation of the mask's line and of every stretch holds of every operation of the whole line. -/
theorem forall_ops {p : HloOp τ sig (Elt F) → Prop} (hh : (headOps : List (HloOp τ sig (Elt F))).Forall p)
    (ht : (tailStretches : List (List (HloOp τ sig (Elt F)))).Forall fun l => l.Forall p) :
    ∀ op ∈ (headOps ++ tailOps : List (HloOp τ sig (Elt F))), p op := fun op h => by
  rcases List.mem_append.mp h with h | h
  · exact List.forall_iff_forall_mem.mp hh op h
  · obtain ⟨l, hl, hop⟩ := List.mem_flatten.mp h
    exact List.forall_iff_forall_mem.mp (List.forall_iff_forall_mem.mp ht l hl) op hop

theorem ops_sub : (headOps ++ tailOps : List (HloOp τ sig (Elt F))).Forall fun op => op.bufs ⊆ tcRefs τ sig :=
  List.forall_iff_forall_mem.mpr (forall_ops headOps_sub tailStretches_sub)

theorem ops_fresh : ∀ op ∈ (headOps ++ tailOps : List (HloOp τ sig (Elt F))), op.fresh = ∅ :=
  forall_ops headOps_fresh tailStretches_fresh

/-- From any memory with zero counters, every weakly fair execution of the reference terminates, and every final
    state has each TensorCore buffer at the fold of the operations' results over the device's launch contents. -/
theorem run (m : (ℓ : Loc nD τ sig) → Buf (Elt F) ℓ) (ρ : Dev nD → PrngReg) :
    θ_run (defs (F := F)) (onTc (τ := τ) (main (F := F))) ⟨m, fun _ => 0, ρ⟩
      (fun r => ∀ (d : Dev nD) (b : Ref sig .tc),
        r.2.mem ((d.tc : Thread nD τ).loc b)
          = StableHlo.after (headOps ++ tailOps) (fun b => m (d, b)) (Proc.devRef .tc b)) :=
  run_seq scopedRefs_eq scopedSems_eq defs main (fun _ => headOps ++ tailOps) main_eq (fun _ => ops_sub) m ρ
    (fun _ => ops_fresh)

/-- After the first eleven operations the mask's buffer holds the reference's mask of the argument. -/
theorem head_keep (V : Valuation τ sig (Elt F)) :
    StableHlo.after headOps V (Proc.devRef .tc main_v7) = refKeep (V (Proc.devRef .tc main_arg0)) := by
  after_results
  rfl

/-- The first eleven operations leave the argument as it was: none writes it. -/
theorem head_arg0 (V : Valuation τ sig (Elt F)) :
    StableHlo.after headOps V (Proc.devRef .tc main_arg0) = V (Proc.devRef .tc main_arg0) := by
  after_results

/-- A reference other than an operation's one result is not among the buffers the operation writes. -/
theorem nm_of_ne {r y : Ref sig .tc} (h : r ≠ y) :
    Proc.devRef (τ := τ) .tc r ∉ ({Proc.devRef .tc y} : Finset (DevRef τ sig)) :=
  fun hm => devRef_ne_of_ne h (Finset.mem_singleton.mp hm)

local macro "nm" : term => `(nm_of_ne (by decide))
theorem tailOps_1_arg0 : (tailOps_1 : List (HloOp τ sig (Elt F))).Forall fun op => Proc.devRef .tc main_arg0 ∉ op.writes :=
  ⟨nm, nm, nm, nm, nm⟩
theorem tailOps_2_arg0 : (tailOps_2 : List (HloOp τ sig (Elt F))).Forall fun op => Proc.devRef .tc main_arg0 ∉ op.writes :=
  ⟨nm, nm, nm⟩
theorem tailOps_3_arg0 : (tailOps_3 : List (HloOp τ sig (Elt F))).Forall fun op => Proc.devRef .tc main_arg0 ∉ op.writes :=
  ⟨nm, nm, nm⟩
theorem tailOps_4_arg0 : (tailOps_4 : List (HloOp τ sig (Elt F))).Forall fun op => Proc.devRef .tc main_arg0 ∉ op.writes :=
  ⟨nm, nm, nm, nm, nm, nm, nm, nm, nm, nm, nm⟩
theorem tailOps_5_arg0 : (tailOps_5 : List (HloOp τ sig (Elt F))).Forall fun op => Proc.devRef .tc main_arg0 ∉ op.writes :=
  ⟨nm, nm, nm⟩
theorem tailOps_6_arg0 : (tailOps_6 : List (HloOp τ sig (Elt F))).Forall fun op => Proc.devRef .tc main_arg0 ∉ op.writes :=
  nm
theorem tailOps_7_arg0 : (tailOps_7 : List (HloOp τ sig (Elt F))).Forall fun op => Proc.devRef .tc main_arg0 ∉ op.writes :=
  ⟨nm, nm, nm, nm, nm, nm, nm, nm, nm, nm, nm, nm, nm, nm, nm, nm⟩
theorem tailOps_8_arg0 : (tailOps_8 : List (HloOp τ sig (Elt F))).Forall fun op => Proc.devRef .tc main_arg0 ∉ op.writes :=
  nm
theorem tailOps_9_arg0 : (tailOps_9 : List (HloOp τ sig (Elt F))).Forall fun op => Proc.devRef .tc main_arg0 ∉ op.writes :=
  ⟨nm, nm, nm, nm, nm, nm, nm, nm, nm, nm, nm, nm, nm, nm, nm, nm, nm, nm, nm, nm, nm⟩
theorem tailOps_10_arg0 : (tailOps_10 : List (HloOp τ sig (Elt F))).Forall fun op => Proc.devRef .tc main_arg0 ∉ op.writes :=
  nm
theorem tailOps_11_arg0 : (tailOps_11 : List (HloOp τ sig (Elt F))).Forall fun op => Proc.devRef .tc main_arg0 ∉ op.writes :=
  ⟨nm, nm, nm, nm, nm, nm, nm, nm, nm, nm, nm, nm, nm, nm, nm, nm⟩
theorem tailOps_12_arg0 : (tailOps_12 : List (HloOp τ sig (Elt F))).Forall fun op => Proc.devRef .tc main_arg0 ∉ op.writes :=
  nm
theorem tailOps_13_arg0 : (tailOps_13 : List (HloOp τ sig (Elt F))).Forall fun op => Proc.devRef .tc main_arg0 ∉ op.writes :=
  ⟨nm, nm, nm, nm, nm, nm, nm, nm, nm, nm, nm, nm, nm, nm, nm, nm, nm, nm, nm, nm, nm⟩
theorem tailOps_14_arg0 : (tailOps_14 : List (HloOp τ sig (Elt F))).Forall fun op => Proc.devRef .tc main_arg0 ∉ op.writes :=
  nm
theorem tailOps_15_arg0 : (tailOps_15 : List (HloOp τ sig (Elt F))).Forall fun op => Proc.devRef .tc main_arg0 ∉ op.writes :=
  ⟨nm, nm, nm, nm, nm, nm, nm, nm, nm, nm, nm, nm, nm, nm, nm, nm⟩
theorem tailOps_16_arg0 : (tailOps_16 : List (HloOp τ sig (Elt F))).Forall fun op => Proc.devRef .tc main_arg0 ∉ op.writes :=
  nm
theorem tailOps_17_arg0 : (tailOps_17 : List (HloOp τ sig (Elt F))).Forall fun op => Proc.devRef .tc main_arg0 ∉ op.writes :=
  ⟨nm, nm, nm, nm, nm, nm, nm, nm, nm, nm, nm, nm, nm, nm, nm, nm, nm, nm, nm, nm, nm⟩
theorem tailOps_18_arg0 : (tailOps_18 : List (HloOp τ sig (Elt F))).Forall fun op => Proc.devRef .tc main_arg0 ∉ op.writes :=
  nm
theorem tailOps_19_arg0 : (tailOps_19 : List (HloOp τ sig (Elt F))).Forall fun op => Proc.devRef .tc main_arg0 ∉ op.writes :=
  ⟨nm, nm, nm, nm, nm, nm, nm, nm, nm, nm, nm, nm, nm, nm, nm, nm⟩
theorem tailOps_20_arg0 : (tailOps_20 : List (HloOp τ sig (Elt F))).Forall fun op => Proc.devRef .tc main_arg0 ∉ op.writes :=
  nm
theorem tailOps_21_arg0 : (tailOps_21 : List (HloOp τ sig (Elt F))).Forall fun op => Proc.devRef .tc main_arg0 ∉ op.writes :=
  ⟨nm, nm, nm, nm, nm, nm, nm, nm, nm, nm, nm, nm, nm, nm, nm, nm, nm, nm, nm, nm, nm⟩
theorem tailOps_22_arg0 : (tailOps_22 : List (HloOp τ sig (Elt F))).Forall fun op => Proc.devRef .tc main_arg0 ∉ op.writes :=
  ⟨nm, nm, nm, nm, nm, nm, nm⟩
theorem tailOps_23_arg0 : (tailOps_23 : List (HloOp τ sig (Elt F))).Forall fun op => Proc.devRef .tc main_arg0 ∉ op.writes :=
  ⟨nm, nm, nm⟩
theorem tailOps_24_arg0 : (tailOps_24 : List (HloOp τ sig (Elt F))).Forall fun op => Proc.devRef .tc main_arg0 ∉ op.writes :=
  nm
theorem tailOps_25_arg0 : (tailOps_25 : List (HloOp τ sig (Elt F))).Forall fun op => Proc.devRef .tc main_arg0 ∉ op.writes :=
  ⟨nm, nm, nm⟩
theorem tailOps_26_arg0 : (tailOps_26 : List (HloOp τ sig (Elt F))).Forall fun op => Proc.devRef .tc main_arg0 ∉ op.writes :=
  nm
theorem tailOps_27_arg0 : (tailOps_27 : List (HloOp τ sig (Elt F))).Forall fun op => Proc.devRef .tc main_arg0 ∉ op.writes :=
  ⟨nm, nm, nm⟩
theorem tailOps_28_arg0 : (tailOps_28 : List (HloOp τ sig (Elt F))).Forall fun op => Proc.devRef .tc main_arg0 ∉ op.writes :=
  nm
theorem tailOps_29_arg0 : (tailOps_29 : List (HloOp τ sig (Elt F))).Forall fun op => Proc.devRef .tc main_arg0 ∉ op.writes :=
  ⟨nm, nm, nm⟩
theorem tailOps_30_arg0 : (tailOps_30 : List (HloOp τ sig (Elt F))).Forall fun op => Proc.devRef .tc main_arg0 ∉ op.writes :=
  ⟨nm, nm, nm, nm, nm⟩

/-- The operations after the mask leave the argument as it was: none writes it. -/
theorem tail_arg0 (V : Valuation τ sig (Elt F)) :
    StableHlo.after tailOps V (Proc.devRef .tc main_arg0) = V (Proc.devRef .tc main_arg0) :=
  after_of_forall_not_mem tailOps V fun op h => by
    obtain ⟨l, hl, hop⟩ := List.mem_flatten.mp h
    exact List.forall_iff_forall_mem.mp (List.forall_iff_forall_mem.mp
      (show (tailStretches : List (List (HloOp τ sig (Elt F)))).Forall fun l => l.Forall fun op => Proc.devRef .tc main_arg0 ∉ op.writes from
        ⟨tailOps_1_arg0, tailOps_2_arg0, tailOps_3_arg0, tailOps_4_arg0, tailOps_5_arg0, tailOps_6_arg0, tailOps_7_arg0, tailOps_8_arg0, tailOps_9_arg0, tailOps_10_arg0, tailOps_11_arg0, tailOps_12_arg0, tailOps_13_arg0, tailOps_14_arg0, tailOps_15_arg0, tailOps_16_arg0, tailOps_17_arg0, tailOps_18_arg0, tailOps_19_arg0, tailOps_20_arg0, tailOps_21_arg0, tailOps_22_arg0, tailOps_23_arg0, tailOps_24_arg0, tailOps_25_arg0, tailOps_26_arg0, tailOps_27_arg0, tailOps_28_arg0, tailOps_29_arg0, tailOps_30_arg0⟩) l hl) op hop

/-- The fold over two lines one after the other is the second line's fold over the first's. -/
theorem after_app (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => rw [List.cons_append, after_cons, after_cons, ih]

/-- The fold over the operations after the mask, stretch by stretch. -/
theorem after_tailOps (V : Valuation τ sig (Elt F)) :
    StableHlo.after tailOps V
      = StableHlo.after tailOps_30 (StableHlo.after tailOps_29 (StableHlo.after tailOps_28 (StableHlo.after tailOps_27 (StableHlo.after tailOps_26 (StableHlo.after tailOps_25 (StableHlo.after tailOps_24 (StableHlo.after tailOps_23 (StableHlo.after tailOps_22 (StableHlo.after tailOps_21 (StableHlo.after tailOps_20 (StableHlo.after tailOps_19 (StableHlo.after tailOps_18 (StableHlo.after tailOps_17 (StableHlo.after tailOps_16 (StableHlo.after tailOps_15 (StableHlo.after tailOps_14 (StableHlo.after tailOps_13 (StableHlo.after tailOps_12 (StableHlo.after tailOps_11 (StableHlo.after tailOps_10 (StableHlo.after tailOps_9 (StableHlo.after tailOps_8 (StableHlo.after tailOps_7 (StableHlo.after tailOps_6 (StableHlo.after tailOps_5 (StableHlo.after tailOps_4 (StableHlo.after tailOps_3 (StableHlo.after tailOps_2 (StableHlo.after tailOps_1 (V)))))))))))))))))))))))))))))) := by
  simp only [tailOps, tailStretches, List.flatten_cons, List.flatten_nil, after_app, after_nil]

end Cert.ReferenceIdeal.Hand

end
-- ==== Proof.LibWindowFold.lean ====
/-
  A windowed reduction whose window extends along ONE axis of a rank-four array, read at an index.

  `Host.reduceWindow` folds a binary operation over the positions of the window in row-major order, reading the
  operand where the position falls inside it and the initial value where it falls in the padding. When the window
  has extent `k` on one axis and extent one on the three others, its `k` positions in row-major order are the
  offsets `0, …, k − 1` on that axis; with strides one and padding on that axis only, the fold at the index
  `(a, b, c, d)` runs over `n = 0, …, k − 1` and reads the operand at coordinate `c + n − lo` of the windowed axis
  when `lo ≤ c + n` and `c + n − lo` is on the axis, the initial value otherwise. The lemmas below say this for a
  window on the third axis and for a window on the fourth axis, for any extents, any operation and any element type.
-/
import Idealize.ShloMosaic.PureOps.Contract
import Idealize.ShloMosaic.Lib.ValueIdx

namespace Idealize.ShloMosaic.WindowFold

open Idealize.ShloMosaic Idealize.ShloMosaic.ValueIdx

/-- A fold over `List.finRange m` is the fold over `List.finRange n` when `m = n`, the positions cast along the
    equality. -/
theorem foldl_finRange_cast {α : Type} {m n : Nat} (h : m = n) (g : α → Fin m → α) (init : α) :
    (List.finRange m).foldl g init = (List.finRange n).foldl (fun r k => g r (k.cast h.symm)) init := by
  subst h; rfl

/-- The window shape `[1, 1, k, 1]` has `k` positions. -/
theorem numel_w2 (k : Nat) : (⟨4, ![1, 1, k, 1]⟩ : Shape).numel = k := by
  simp [Shape.numel, Fin.prod_univ_succ]

/-- The window shape `[1, 1, 1, k]` has `k` positions. -/
theorem numel_w3 (k : Nat) : (⟨4, ![1, 1, 1, k]⟩ : Shape).numel = k := by
  simp [Shape.numel, Fin.prod_univ_succ]

/-- Position `n` of the window shape `[1, 1, k, 1]` in row-major order: coordinate `n` on the third axis, zero on
    the three axes of extent one. -/
theorem rowMajor_symm_w2 (k : Nat) (n : Fin (⟨4, ![1, 1, k, 1]⟩ : Shape).numel) :
    (((⟨4, ![1, 1, k, 1]⟩ : Shape).rowMajor.symm n) (⟨0, by norm_num⟩ : Fin 4)).val = 0 ∧
    (((⟨4, ![1, 1, k, 1]⟩ : Shape).rowMajor.symm n) (⟨1, by norm_num⟩ : Fin 4)).val = 0 ∧
    (((⟨4, ![1, 1, k, 1]⟩ : Shape).rowMajor.symm n) (⟨2, by norm_num⟩ : Fin 4)).val = n.val ∧
    (((⟨4, ![1, 1, k, 1]⟩ : Shape).rowMajor.symm n) (⟨3, by norm_num⟩ : Fin 4)).val = 0 := by
  have h := Shape.rowMajor_val_four ((⟨4, ![1, 1, k, 1]⟩ : Shape).rowMajor.symm n)
  rw [Equiv.apply_symm_apply] at h
  have h0 := (((⟨4, ![1, 1, k, 1]⟩ : Shape).rowMajor.symm n) 0).isLt
  have h1 := (((⟨4, ![1, 1, k, 1]⟩ : Shape).rowMajor.symm n) 1).isLt
  have h3 := (((⟨4, ![1, 1, k, 1]⟩ : Shape).rowMajor.symm n) 3).isLt
  simp only [Matrix.cons_val_zero, Matrix.cons_val_one, Matrix.cons_val] at h h0 h1 h3
  rw [Nat.lt_one_iff] at h0 h1 h3
  rw [h0, h1, h3] at h
  simp only [Nat.zero_mul, Nat.zero_add, Nat.mul_one, Nat.add_zero] at h
  exact ⟨h0, h1, h.symm, h3⟩

/-- Position `n` of the window shape `[1, 1, 1, k]` in row-major order: coordinate `n` on the fourth axis, zero on
    the three axes of extent one. -/
theorem rowMajor_symm_w3 (k : Nat) (n : Fin (⟨4, ![1, 1, 1, k]⟩ : Shape).numel) :
    (((⟨4, ![1, 1, 1, k]⟩ : Shape).rowMajor.symm n) (⟨0, by norm_num⟩ : Fin 4)).val = 0 ∧
    (((⟨4, ![1, 1, 1, k]⟩ : Shape).rowMajor.symm n) (⟨1, by norm_num⟩ : Fin 4)).val = 0 ∧
    (((⟨4, ![1, 1, 1, k]⟩ : Shape).rowMajor.symm n) (⟨2, by norm_num⟩ : Fin 4)).val = 0 ∧
    (((⟨4, ![1, 1, 1, k]⟩ : Shape).rowMajor.symm n) (⟨3, by norm_num⟩ : Fin 4)).val = n.val := by
  have h := Shape.rowMajor_val_four ((⟨4, ![1, 1, 1, k]⟩ : Shape).rowMajor.symm n)
  rw [Equiv.apply_symm_apply] at h
  have h0 := (((⟨4, ![1, 1, 1, k]⟩ : Shape).rowMajor.symm n) 0).isLt
  have h1 := (((⟨4, ![1, 1, 1, k]⟩ : Shape).rowMajor.symm n) 1).isLt
  have h2 := (((⟨4, ![1, 1, 1, k]⟩ : Shape).rowMajor.symm n) 2).isLt
  simp only [Matrix.cons_val_zero, Matrix.cons_val_one, Matrix.cons_val] at h h0 h1 h2
  rw [Nat.lt_one_iff] at h0 h1 h2
  rw [h0, h1, h2] at h
  simp only [Nat.zero_mul, Nat.zero_add, Nat.mul_one, Nat.add_zero] at h
  exact ⟨h0, h1, h2, h.symm⟩

/-- One step of the fold, the window on the third axis: when the window position `q` is `n` on that axis and
    zero on the others, the test "inside the operand on every axis" is the test on the third axis alone, and the
    element read is the one at `(a, b, c + n − lo, d)`. -/
theorem step_axis2 {α : Type} {n0 n1 n2 n3 k lo : Nat} (x : (⟨4, ![n0, n1, n2, n3]⟩ : Shape).Idx → α) (v : α)
    (a : Fin n0) (b : Fin n1) (c : Fin n2) (d : Fin n3) (hr : 4 = 4)
    (q : (⟨4, ![1, 1, k, 1]⟩ : Shape).Idx) (n : Nat) (q0 : (q ⟨0, by norm_num⟩).val = 0) (q1 : (q ⟨1, by norm_num⟩).val = 0) (q2 : (q ⟨2, by norm_num⟩).val = n) (q3 : (q ⟨3, by norm_num⟩).val = 0)
    [inst : Decidable (∀ e : Fin 4, (![0, 0, lo, 0] : Fin 4 → Nat) e
        ≤ (ix4 a b c d (Fin.cast hr e)).val * (![1, 1, 1, 1] : Fin 4 → Nat) e + (q e).val ∧
      (ix4 a b c d (Fin.cast hr e)).val * (![1, 1, 1, 1] : Fin 4 → Nat) e + (q e).val
          - (![0, 0, lo, 0] : Fin 4 → Nat) e < (![n0, n1, n2, n3] : Fin 4 → Nat) e)] :
    (if hin : ∀ e : Fin 4, (![0, 0, lo, 0] : Fin 4 → Nat) e
        ≤ (ix4 a b c d (Fin.cast hr e)).val * (![1, 1, 1, 1] : Fin 4 → Nat) e + (q e).val ∧
      (ix4 a b c d (Fin.cast hr e)).val * (![1, 1, 1, 1] : Fin 4 → Nat) e + (q e).val
          - (![0, 0, lo, 0] : Fin 4 → Nat) e < (![n0, n1, n2, n3] : Fin 4 → Nat) e
      then x (fun e => ⟨(ix4 a b c d (Fin.cast hr e)).val * (![1, 1, 1, 1] : Fin 4 → Nat) e + (q e).val
          - (![0, 0, lo, 0] : Fin 4 → Nat) e, (hin e).2⟩) else v)
      = if hp : lo ≤ c.val + n ∧ c.val + n - lo < n2 then x (ix4 a b ⟨c.val + n - lo, hp.2⟩ d) else v := by
  by_cases hp : lo ≤ c.val + n ∧ c.val + n - lo < n2
  · rw [dif_pos hp]
    have hall : ∀ e : Fin 4, (![0, 0, lo, 0] : Fin 4 → Nat) e
        ≤ (ix4 a b c d (Fin.cast hr e)).val * (![1, 1, 1, 1] : Fin 4 → Nat) e + (q e).val ∧
      (ix4 a b c d (Fin.cast hr e)).val * (![1, 1, 1, 1] : Fin 4 → Nat) e + (q e).val
          - (![0, 0, lo, 0] : Fin 4 → Nat) e < (![n0, n1, n2, n3] : Fin 4 → Nat) e := by
      intro e
      match e with
      | ⟨0, _⟩ =>
        show 0 ≤ a.val * 1 + (q ⟨0, _⟩).val ∧ a.val * 1 + (q ⟨0, _⟩).val - 0 < n0
        rw [q0]; have := a.isLt; omega
      | ⟨1, _⟩ =>
        show 0 ≤ b.val * 1 + (q ⟨1, _⟩).val ∧ b.val * 1 + (q ⟨1, _⟩).val - 0 < n1
        rw [q1]; have := b.isLt; omega
      | ⟨2, _⟩ =>
        show lo ≤ c.val * 1 + (q ⟨2, _⟩).val ∧ c.val * 1 + (q ⟨2, _⟩).val - lo < n2
        rw [q2]; omega
      | ⟨3, _⟩ =>
        show 0 ≤ d.val * 1 + (q ⟨3, _⟩).val ∧ d.val * 1 + (q ⟨3, _⟩).val - 0 < n3
        rw [q3]; have := d.isLt; omega
    rw [dif_pos hall]
    congr 1
    funext e
    match e with
    | ⟨0, _⟩ =>
      refine Fin.ext ?_
      show a.val * 1 + (q ⟨0, _⟩).val - 0 = a.val
      rw [q0]; omega
    | ⟨1, _⟩ =>
      refine Fin.ext ?_
      show b.val * 1 + (q ⟨1, _⟩).val - 0 = b.val
      rw [q1]; omega
    | ⟨2, _⟩ =>
      refine Fin.ext ?_
      show c.val * 1 + (q ⟨2, _⟩).val - lo = c.val + n - lo
      rw [q2]; omega
    | ⟨3, _⟩ =>
      refine Fin.ext ?_
      show d.val * 1 + (q ⟨3, _⟩).val - 0 = d.val
      rw [q3]; omega
  · rw [dif_neg hp, dif_neg]
    intro hall
    apply hp
    have h2 := hall ⟨2, by norm_num⟩
    change lo ≤ c.val * 1 + (q ⟨2, _⟩).val ∧ c.val * 1 + (q ⟨2, _⟩).val - lo < n2 at h2
    rw [q2] at h2
    omega

/-- A reduction over a window of extent `k` on the third axis, strides one, padding `lo` and `hi` on that axis,
    read at `(a, b, c, d)`: the fold over `n = 0, …, k − 1` of the operand at `(a, b, c + n − lo, d)` where that is on
    the axis, of the initial value where it is not. -/
theorem reduceWindow_axis2_apply {α : Type} {n0 n1 n2 n3 k lo hi : Nat} {u : Shape} (f : α → α → α)
    (x : (⟨4, ![n0, n1, n2, n3]⟩ : Shape).Idx → α) (init : u.Idx → α)
    (h : (⟨4, ![n0, n1, n2, n3]⟩ : Shape).ReduceWindows ![1, 1, k, 1] ![1, 1, 1, 1] ![0, 0, lo, 0] ![0, 0, hi, 0]
      ⟨4, ![n0, n1, n2, n3]⟩)
    (hu : 0 < u.numel) (a : Fin n0) (b : Fin n1) (c : Fin n2) (d : Fin n3) :
    Host.reduceWindow f ![1, 1, k, 1] ![1, 1, 1, 1] ![0, 0, lo, 0] ![0, 0, hi, 0] x init h hu (ix4 a b c d)
      = (List.finRange k).foldl (fun r n => f r (if hp : lo ≤ c.val + n.val ∧ c.val + n.val - lo < n2
            then x (ix4 a b ⟨c.val + n.val - lo, hp.2⟩ d) else init (Shape.Idx.first hu)))
          (init (Shape.Idx.first hu)) := by
  unfold Host.reduceWindow
  simp only []
  rw [foldl_finRange_cast (numel_w2 k)]
  congr 1
  funext r n
  congr 1
  obtain ⟨q0, q1, q2, q3⟩ := rowMajor_symm_w2 k (Fin.cast (numel_w2 k).symm n)
  exact step_axis2 x (init (Shape.Idx.first hu)) a b c d h.1.symm _ n.val q0 q1 q2 q3

/-- One step of the fold, the window on the fourth axis: when the window position `q` is `n` on that axis and
    zero on the others, the test "inside the operand on every axis" is the test on the fourth axis alone, and the
    element read is the one at `(a, b, c, d + n − lo)`. -/
theorem step_axis3 {α : Type} {n0 n1 n2 n3 k lo : Nat} (x : (⟨4, ![n0, n1, n2, n3]⟩ : Shape).Idx → α) (v : α)
    (a : Fin n0) (b : Fin n1) (c : Fin n2) (d : Fin n3) (hr : 4 = 4)
    (q : (⟨4, ![1, 1, 1, k]⟩ : Shape).Idx) (n : Nat) (q0 : (q ⟨0, by norm_num⟩).val = 0) (q1 : (q ⟨1, by norm_num⟩).val = 0) (q2 : (q ⟨2, by norm_num⟩).val = 0) (q3 : (q ⟨3, by norm_num⟩).val = n)
    [inst : Decidable (∀ e : Fin 4, (![0, 0, 0, lo] : Fin 4 → Nat) e
        ≤ (ix4 a b c d (Fin.cast hr e)).val * (![1, 1, 1, 1] : Fin 4 → Nat) e + (q e).val ∧
      (ix4 a b c d (Fin.cast hr e)).val * (![1, 1, 1, 1] : Fin 4 → Nat) e + (q e).val
          - (![0, 0, 0, lo] : Fin 4 → Nat) e < (![n0, n1, n2, n3] : Fin 4 → Nat) e)] :
    (if hin : ∀ e : Fin 4, (![0, 0, 0, lo] : Fin 4 → Nat) e
        ≤ (ix4 a b c d (Fin.cast hr e)).val * (![1, 1, 1, 1] : Fin 4 → Nat) e + (q e).val ∧
      (ix4 a b c d (Fin.cast hr e)).val * (![1, 1, 1, 1] : Fin 4 → Nat) e + (q e).val
          - (![0, 0, 0, lo] : Fin 4 → Nat) e < (![n0, n1, n2, n3] : Fin 4 → Nat) e
      then x (fun e => ⟨(ix4 a b c d (Fin.cast hr e)).val * (![1, 1, 1, 1] : Fin 4 → Nat) e + (q e).val
          - (![0, 0, 0, lo] : Fin 4 → Nat) e, (hin e).2⟩) else v)
      = if hp : lo ≤ d.val + n ∧ d.val + n - lo < n3 then x (ix4 a b c ⟨d.val + n - lo, hp.2⟩) else v := by
  by_cases hp : lo ≤ d.val + n ∧ d.val + n - lo < n3
  · rw [dif_pos hp]
    have hall : ∀ e : Fin 4, (![0, 0, 0, lo] : Fin 4 → Nat) e
        ≤ (ix4 a b c d (Fin.cast hr e)).val * (![1, 1, 1, 1] : Fin 4 → Nat) e + (q e).val ∧
      (ix4 a b c d (Fin.cast hr e)).val * (![1, 1, 1, 1] : Fin 4 → Nat) e + (q e).val
          - (![0, 0, 0, lo] : Fin 4 → Nat) e < (![n0, n1, n2, n3] : Fin 4 → Nat) e := by
      intro e
      match e with
      | ⟨0, _⟩ =>
        show 0 ≤ a.val * 1 + (q ⟨0, _⟩).val ∧ a.val * 1 + (q ⟨0, _⟩).val - 0 < n0
        rw [q0]; have := a.isLt; omega
      | ⟨1, _⟩ =>
        show 0 ≤ b.val * 1 + (q ⟨1, _⟩).val ∧ b.val * 1 + (q ⟨1, _⟩).val - 0 < n1
        rw [q1]; have := b.isLt; omega
      | ⟨2, _⟩ =>
        show 0 ≤ c.val * 1 + (q ⟨2, _⟩).val ∧ c.val * 1 + (q ⟨2, _⟩).val - 0 < n2
        rw [q2]; have := c.isLt; omega
      | ⟨3, _⟩ =>
        show lo ≤ d.val * 1 + (q ⟨3, _⟩).val ∧ d.val * 1 + (q ⟨3, _⟩).val - lo < n3
        rw [q3]; omega
    rw [dif_pos hall]
    congr 1
    funext e
    match e with
    | ⟨0, _⟩ =>
      refine Fin.ext ?_
      show a.val * 1 + (q ⟨0, _⟩).val - 0 = a.val
      rw [q0]; omega
    | ⟨1, _⟩ =>
      refine Fin.ext ?_
      show b.val * 1 + (q ⟨1, _⟩).val - 0 = b.val
      rw [q1]; omega
    | ⟨2, _⟩ =>
      refine Fin.ext ?_
      show c.val * 1 + (q ⟨2, _⟩).val - 0 = c.val
      rw [q2]; omega
    | ⟨3, _⟩ =>
      refine Fin.ext ?_
      show d.val * 1 + (q ⟨3, _⟩).val - lo = d.val + n - lo
      rw [q3]; omega
  · rw [dif_neg hp, dif_neg]
    intro hall
    apply hp
    have h2 := hall ⟨3, by norm_num⟩
    change lo ≤ d.val * 1 + (q ⟨3, _⟩).val ∧ d.val * 1 + (q ⟨3, _⟩).val - lo < n3 at h2
    rw [q3] at h2
    omega

/-- A reduction over a window of extent `k` on the fourth axis, strides one, padding `lo` and `hi` on that axis,
    read at `(a, b, c, d)`: the fold over `n = 0, …, k − 1` of the operand at `(a, b, c, d + n − lo)` where that is on
    the axis, of the initial value where it is not. -/
theorem reduceWindow_axis3_apply {α : Type} {n0 n1 n2 n3 k lo hi : Nat} {u : Shape} (f : α → α → α)
    (x : (⟨4, ![n0, n1, n2, n3]⟩ : Shape).Idx → α) (init : u.Idx → α)
    (h : (⟨4, ![n0, n1, n2, n3]⟩ : Shape).ReduceWindows ![1, 1, 1, k] ![1, 1, 1, 1] ![0, 0, 0, lo] ![0, 0, 0, hi]
      ⟨4, ![n0, n1, n2, n3]⟩)
    (hu : 0 < u.numel) (a : Fin n0) (b : Fin n1) (c : Fin n2) (d : Fin n3) :
    Host.reduceWindow f ![1, 1, 1, k] ![1, 1, 1, 1] ![0, 0, 0, lo] ![0, 0, 0, hi] x init h hu (ix4 a b c d)
      = (List.finRange k).foldl (fun r n => f r (if hp : lo ≤ d.val + n.val ∧ d.val + n.val - lo < n3
            then x (ix4 a b c ⟨d.val + n.val - lo, hp.2⟩) else init (Shape.Idx.first hu)))
          (init (Shape.Idx.first hu)) := by
  unfold Host.reduceWindow
  simp only []
  rw [foldl_finRange_cast (numel_w3 k)]
  congr 1
  funext r n
  congr 1
  obtain ⟨q0, q1, q2, q3⟩ := rowMajor_symm_w3 k (Fin.cast (numel_w3 k).symm n)
  exact step_axis3 x (init (Shape.Idx.first hu)) a b c d h.1.symm _ n.val q0 q1 q2 q3

end Idealize.ShloMosaic.WindowFold
-- ==== Proof.RefValue.lean ====
/-
  The reference's mask at an index, over the extended reals.

  The reference pools its [16, 80, 128, 128] argument with two windowed maxima from −inf, a window of 51 padded by 25
  on each side along the third axis and then the same along the fourth, and keeps an entry when it equals its pooled
  value and that value exceeds one half. Read at the index `(a, c, h, w)`, each windowed maximum is the sliding
  maximum of radius 25 of the line through that index along the windowed axis: the fold of `max` from −inf over the
  51 window positions, each reading the entry 25 places back when it is on the axis and −inf when it is not. So the
  pooled value at `(a, c, h, w)` is the 51 × 51 pooled value of the image `(a, c, ·, ·)` at `(h, w)`, and the mask bit
  there is that image's mask bit at `(h, w)`.
-/
import proofs.«157353_j50216757624982_1_alg».proof.Proof.RefKeep
import proofs.«157353_j50216757624982_1_alg».proof.Proof.NmsSpec
import proofs.«157353_j50216757624982_1_alg».proof.Proof.LibWindowFold

noncomputable section

namespace Cert.ReferenceIdeal.Hand

open Idealize.ShloMosaic Idealize.ShloMosaic.ValueIdx Idealize.ShloMosaic.WindowFold Idealize.SL.Sem Cert.ReferenceIdeal
open Cert.ReferenceIdeal.Facts₀ Cert.ReferenceIdeal.Facts

/-- The windowed maximum along the third axis at `(a, c, h, w)`: the sliding maximum of the column
    `h' ↦ Y (a, c, h', w)` at `h`. -/
theorem poolH_apply (Y : FVec Ideal S16x80x128x128 .f32) (a : Fin 16) (c : Fin 80) (h w : Fin 128) :
    poolH (F := Ideal) Y (ValueIdx.ix4 a c h w) = Cert.Nms.slide (fun h' => Y (ValueIdx.ix4 a c h' w)) h := by
  unfold poolH
  rw [reduceWindow_axis2_apply]
  rfl

/-- The windowed maximum along the fourth axis at `(a, c, h, w)`: the sliding maximum of the row
    `w' ↦ Y (a, c, h, w')` at `w`. -/
theorem poolW_apply (Y : FVec Ideal S16x80x128x128 .f32) (a : Fin 16) (c : Fin 80) (h w : Fin 128) :
    poolW (F := Ideal) Y (ValueIdx.ix4 a c h w) = Cert.Nms.slide (fun w' => Y (ValueIdx.ix4 a c h w')) w := by
  unfold poolW
  rw [reduceWindow_axis3_apply]
  rfl

/-- The two windowed maxima in turn at `(a, c, h, w)`: the 51 × 51 pooled value of the image `(a, c, ·, ·)` at
    `(h, w)`. -/
theorem pool_apply (X : FVec Ideal S16x80x128x128 .f32) (a : Fin 16) (c : Fin 80) (h w : Fin 128) :
    poolW (F := Ideal) (poolH (F := Ideal) X) (ValueIdx.ix4 a c h w)
      = Cert.Nms.pooled (fun h' w' => X (ValueIdx.ix4 a c h' w')) h w := by
  rw [poolW_apply]
  unfold Cert.Nms.pooled
  congr 1
  funext w'
  exact poolH_apply X a c h w'

/-- THE REFERENCE'S MASK AT `(a, c, h, w)`: the mask bit of the image `(a, c, ·, ·)` at `(h, w)`. -/
theorem refKeep_apply (X : FVec Ideal S16x80x128x128 .f32) (a : Fin 16) (c : Fin 80) (h w : Fin 128) :
    refKeep (F := Ideal) X (ValueIdx.ix4 a c h w) = Cert.Nms.keepBit (fun h' w' => X (ValueIdx.ix4 a c h' w')) h w := by
  unfold refKeep Cert.Nms.keepBit
  show IntOp.andi
      (FloatOps.cmpf .oeq (X (ValueIdx.ix4 a c h w)) (poolW (F := Ideal) (poolH (F := Ideal) X) (ValueIdx.ix4 a c h w)))
      (FloatOps.cmpf .ogt (poolW (F := Ideal) (poolH (F := Ideal) X) (ValueIdx.ix4 a c h w)) Cert.Nms.half) = _
  rw [pool_apply]

end Cert.ReferenceIdeal.Hand

end
-- ==== Proof.TailCol0.lean ====
/-
  The compaction's first column, in the kernel program and in the reference.

  After the mask, both programs run the same lines: a running count of the mask, a scatter of ones at the running
  counts, a second running count, and the row-major coordinates of each hit by integer division and remainder, with
  −1 past the number of hits. The first coordinate's column is the same function of the mask in both programs:
  each program's lines are folded into that function of the mask buffer's contents, and the two functions are the
  same term.
-/
import proofs.«157353_j50216757624982_1_alg».proof.Proof.Gen.KernelIdeal.Launch
import proofs.«157353_j50216757624982_1_alg».proof.Proof.RefOps1
import Idealize.ShloMosaic.Lib.StableHlo.Run

set_option maxRecDepth 65536

noncomputable section

namespace Cert.Tail

open Idealize.ShloMosaic Idealize.ShloMosaic.TcCoe Idealize.SL.Sem Idealize.ShloMosaic.StableHlo

variable {F : FTy → Type} [FloatOps F]

set_option maxHeartbeats 16000000 in
/-- The first column before its final broadcast, from valuations that agree on the mask. -/
theorem col0 (WK : Valuation Cert.KernelIdeal.τ Cert.KernelIdeal.sig (Elt F))
    (WR : Valuation Cert.ReferenceIdeal.τ Cert.ReferenceIdeal.sig (Elt F))
    (k : (⟨Cert.KernelIdeal.S16x80x128x128, .i1⟩ : BufTy).Contents (Elt F))
    (hK : WK (Proc.devRef .tc Cert.KernelIdeal.main_v4) = k) (hR : WR (Proc.devRef .tc Cert.ReferenceIdeal.main_v7) = k) :
    (StableHlo.after (List.flatten [Cert.KernelIdeal.Gen.hostOps1_1, Cert.KernelIdeal.Gen.hostOps1_2, Cert.KernelIdeal.Gen.hostOps1_3, Cert.KernelIdeal.Gen.hostOps1_4, Cert.KernelIdeal.Gen.hostOps1_5, Cert.KernelIdeal.Gen.hostOps1_6, Cert.KernelIdeal.Gen.hostOps1_7, Cert.KernelIdeal.Gen.hostOps1_8, Cert.KernelIdeal.Gen.hostOps1_9, Cert.KernelIdeal.Gen.hostOps1_10, Cert.KernelIdeal.Gen.hostOps1_11, Cert.KernelIdeal.Gen.hostOps1_12, Cert.KernelIdeal.Gen.hostOps1_13, Cert.KernelIdeal.Gen.hostOps1_14, Cert.KernelIdeal.Gen.hostOps1_15, Cert.KernelIdeal.Gen.hostOps1_16, Cert.KernelIdeal.Gen.hostOps1_17, Cert.KernelIdeal.Gen.hostOps1_18, Cert.KernelIdeal.Gen.hostOps1_19, Cert.KernelIdeal.Gen.hostOps1_20, Cert.KernelIdeal.Gen.hostOps1_21, Cert.KernelIdeal.Gen.hostOps1_22, Cert.KernelIdeal.Gen.hostOps1_23, Cert.KernelIdeal.Gen.hostOps1_24, Cert.KernelIdeal.Gen.hostOps1_25, Cert.KernelIdeal.Gen.hostOps1_26, Cert.KernelIdeal.Gen.hostOps1_27, Cert.KernelIdeal.Gen.hostOps1_28, Cert.KernelIdeal.Gen.hostOps1_29]) WK (Proc.devRef .tc Cert.KernelIdeal.main_v30)
        : (⟨Cert.KernelIdeal.S16384, .i32⟩ : BufTy).Contents (Elt F))
      = StableHlo.after (List.flatten [Cert.ReferenceIdeal.Hand.tailOps_1, Cert.ReferenceIdeal.Hand.tailOps_2, Cert.ReferenceIdeal.Hand.tailOps_3, Cert.ReferenceIdeal.Hand.tailOps_4, Cert.ReferenceIdeal.Hand.tailOps_5, Cert.ReferenceIdeal.Hand.tailOps_6, Cert.ReferenceIdeal.Hand.tailOps_7, Cert.ReferenceIdeal.Hand.tailOps_8, Cert.ReferenceIdeal.Hand.tailOps_9, Cert.ReferenceIdeal.Hand.tailOps_10, Cert.ReferenceIdeal.Hand.tailOps_11, Cert.ReferenceIdeal.Hand.tailOps_12, Cert.ReferenceIdeal.Hand.tailOps_13, Cert.ReferenceIdeal.Hand.tailOps_14, Cert.ReferenceIdeal.Hand.tailOps_15, Cert.ReferenceIdeal.Hand.tailOps_16, Cert.ReferenceIdeal.Hand.tailOps_17, Cert.ReferenceIdeal.Hand.tailOps_18, Cert.ReferenceIdeal.Hand.tailOps_19, Cert.ReferenceIdeal.Hand.tailOps_20, Cert.ReferenceIdeal.Hand.tailOps_21, Cert.ReferenceIdeal.Hand.tailOps_22, Cert.ReferenceIdeal.Hand.tailOps_23, Cert.ReferenceIdeal.Hand.tailOps_24, Cert.ReferenceIdeal.Hand.tailOps_25, Cert.ReferenceIdeal.Hand.tailOps_26, Cert.ReferenceIdeal.Hand.tailOps_27, Cert.ReferenceIdeal.Hand.tailOps_28, Cert.ReferenceIdeal.Hand.tailOps_29]) WR (Proc.devRef .tc Cert.ReferenceIdeal.main_v33) := by
  simp only [Cert.KernelIdeal.Gen.hostOps1_1, Cert.KernelIdeal.Gen.hostOps1_2, Cert.KernelIdeal.Gen.hostOps1_3, Cert.KernelIdeal.Gen.hostOps1_4, Cert.KernelIdeal.Gen.hostOps1_5, Cert.KernelIdeal.Gen.hostOps1_6, Cert.KernelIdeal.Gen.hostOps1_7, Cert.KernelIdeal.Gen.hostOps1_8, Cert.KernelIdeal.Gen.hostOps1_9, Cert.KernelIdeal.Gen.hostOps1_10, Cert.KernelIdeal.Gen.hostOps1_11, Cert.KernelIdeal.Gen.hostOps1_12, Cert.KernelIdeal.Gen.hostOps1_13, Cert.KernelIdeal.Gen.hostOps1_14, Cert.KernelIdeal.Gen.hostOps1_15, Cert.KernelIdeal.Gen.hostOps1_16, Cert.KernelIdeal.Gen.hostOps1_17, Cert.KernelIdeal.Gen.hostOps1_18, Cert.KernelIdeal.Gen.hostOps1_19, Cert.KernelIdeal.Gen.hostOps1_20, Cert.KernelIdeal.Gen.hostOps1_21, Cert.KernelIdeal.Gen.hostOps1_22, Cert.KernelIdeal.Gen.hostOps1_23, Cert.KernelIdeal.Gen.hostOps1_24, Cert.KernelIdeal.Gen.hostOps1_25, Cert.KernelIdeal.Gen.hostOps1_26, Cert.KernelIdeal.Gen.hostOps1_27, Cert.KernelIdeal.Gen.hostOps1_28, Cert.KernelIdeal.Gen.hostOps1_29, Cert.ReferenceIdeal.Hand.tailOps_1, Cert.ReferenceIdeal.Hand.tailOps_2, Cert.ReferenceIdeal.Hand.tailOps_3, Cert.ReferenceIdeal.Hand.tailOps_4, Cert.ReferenceIdeal.Hand.tailOps_5, Cert.ReferenceIdeal.Hand.tailOps_6, Cert.ReferenceIdeal.Hand.tailOps_7, Cert.ReferenceIdeal.Hand.tailOps_8, Cert.ReferenceIdeal.Hand.tailOps_9, Cert.ReferenceIdeal.Hand.tailOps_10, Cert.ReferenceIdeal.Hand.tailOps_11, Cert.ReferenceIdeal.Hand.tailOps_12, Cert.ReferenceIdeal.Hand.tailOps_13, Cert.ReferenceIdeal.Hand.tailOps_14, Cert.ReferenceIdeal.Hand.tailOps_15, Cert.ReferenceIdeal.Hand.tailOps_16, Cert.ReferenceIdeal.Hand.tailOps_17, Cert.ReferenceIdeal.Hand.tailOps_18, Cert.ReferenceIdeal.Hand.tailOps_19, Cert.ReferenceIdeal.Hand.tailOps_20, Cert.ReferenceIdeal.Hand.tailOps_21, Cert.ReferenceIdeal.Hand.tailOps_22, Cert.ReferenceIdeal.Hand.tailOps_23, Cert.ReferenceIdeal.Hand.tailOps_24, Cert.ReferenceIdeal.Hand.tailOps_25, Cert.ReferenceIdeal.Hand.tailOps_26, Cert.ReferenceIdeal.Hand.tailOps_27, Cert.ReferenceIdeal.Hand.tailOps_28, Cert.ReferenceIdeal.Hand.tailOps_29,
    List.flatten_cons, List.flatten_nil, List.append_nil, List.cons_append, List.nil_append]
  simp only [TRef.nullary, TRef.unary, TRef.binary, TRef.ternary, TRef.quaternary, TRef.nary, TRef.reshape, TRef.of, TRef.toBuf,
    TRef.ofBuf, cast_eq]
  after_results_simp
  rw [hK, hR]
  rfl

end Cert.Tail

end
-- ==== Proof.TailCol1.lean ====
/-
  The compaction's second column, in the kernel program and in the reference.

  After the mask, both programs run the same lines: a running count of the mask, a scatter of ones at the running
  counts, a second running count, and the row-major coordinates of each hit by integer division and remainder, with
  −1 past the number of hits. The second coordinate's column is the same function of the mask in both programs:
  each program's lines are folded into that function of the mask buffer's contents, and the two functions are the
  same term.
-/
import proofs.«157353_j50216757624982_1_alg».proof.Proof.Gen.KernelIdeal.Launch
import proofs.«157353_j50216757624982_1_alg».proof.Proof.RefOps1
import Idealize.ShloMosaic.Lib.StableHlo.Run

set_option maxRecDepth 65536

noncomputable section

namespace Cert.Tail

open Idealize.ShloMosaic Idealize.ShloMosaic.TcCoe Idealize.SL.Sem Idealize.ShloMosaic.StableHlo

variable {F : FTy → Type} [FloatOps F]

set_option maxHeartbeats 16000000 in
/-- The second column before its final broadcast, from valuations that agree on the mask. -/
theorem col1 (WK : Valuation Cert.KernelIdeal.τ Cert.KernelIdeal.sig (Elt F))
    (WR : Valuation Cert.ReferenceIdeal.τ Cert.ReferenceIdeal.sig (Elt F))
    (k : (⟨Cert.KernelIdeal.S16x80x128x128, .i1⟩ : BufTy).Contents (Elt F))
    (hK : WK (Proc.devRef .tc Cert.KernelIdeal.main_v4) = k) (hR : WR (Proc.devRef .tc Cert.ReferenceIdeal.main_v7) = k) :
    (StableHlo.after (List.flatten [Cert.KernelIdeal.Gen.hostOps1_1, Cert.KernelIdeal.Gen.hostOps1_2, Cert.KernelIdeal.Gen.hostOps1_3, Cert.KernelIdeal.Gen.hostOps1_4, Cert.KernelIdeal.Gen.hostOps1_5, Cert.KernelIdeal.Gen.hostOps1_6, Cert.KernelIdeal.Gen.hostOps1_7, Cert.KernelIdeal.Gen.hostOps1_8, Cert.KernelIdeal.Gen.hostOps1_9, Cert.KernelIdeal.Gen.hostOps1_10, Cert.KernelIdeal.Gen.hostOps1_11, Cert.KernelIdeal.Gen.hostOps1_12, Cert.KernelIdeal.Gen.hostOps1_13, Cert.KernelIdeal.Gen.hostOps1_14, Cert.KernelIdeal.Gen.hostOps1_15, Cert.KernelIdeal.Gen.hostOps1_16, Cert.KernelIdeal.Gen.hostOps1_17, Cert.KernelIdeal.Gen.hostOps1_18, Cert.KernelIdeal.Gen.hostOps1_19, Cert.KernelIdeal.Gen.hostOps1_20, Cert.KernelIdeal.Gen.hostOps1_21, Cert.KernelIdeal.Gen.hostOps1_22, Cert.KernelIdeal.Gen.hostOps1_23, Cert.KernelIdeal.Gen.hostOps1_24, Cert.KernelIdeal.Gen.hostOps1_25, Cert.KernelIdeal.Gen.hostOps1_26, Cert.KernelIdeal.Gen.hostOps1_27, Cert.KernelIdeal.Gen.hostOps1_28, Cert.KernelIdeal.Gen.hostOps1_29]) WK (Proc.devRef .tc Cert.KernelIdeal.main_v31)
        : (⟨Cert.KernelIdeal.S16384, .i32⟩ : BufTy).Contents (Elt F))
      = StableHlo.after (List.flatten [Cert.ReferenceIdeal.Hand.tailOps_1, Cert.ReferenceIdeal.Hand.tailOps_2, Cert.ReferenceIdeal.Hand.tailOps_3, Cert.ReferenceIdeal.Hand.tailOps_4, Cert.ReferenceIdeal.Hand.tailOps_5, Cert.ReferenceIdeal.Hand.tailOps_6, Cert.ReferenceIdeal.Hand.tailOps_7, Cert.ReferenceIdeal.Hand.tailOps_8, Cert.ReferenceIdeal.Hand.tailOps_9, Cert.ReferenceIdeal.Hand.tailOps_10, Cert.ReferenceIdeal.Hand.tailOps_11, Cert.ReferenceIdeal.Hand.tailOps_12, Cert.ReferenceIdeal.Hand.tailOps_13, Cert.ReferenceIdeal.Hand.tailOps_14, Cert.ReferenceIdeal.Hand.tailOps_15, Cert.ReferenceIdeal.Hand.tailOps_16, Cert.ReferenceIdeal.Hand.tailOps_17, Cert.ReferenceIdeal.Hand.tailOps_18, Cert.ReferenceIdeal.Hand.tailOps_19, Cert.ReferenceIdeal.Hand.tailOps_20, Cert.ReferenceIdeal.Hand.tailOps_21, Cert.ReferenceIdeal.Hand.tailOps_22, Cert.ReferenceIdeal.Hand.tailOps_23, Cert.ReferenceIdeal.Hand.tailOps_24, Cert.ReferenceIdeal.Hand.tailOps_25, Cert.ReferenceIdeal.Hand.tailOps_26, Cert.ReferenceIdeal.Hand.tailOps_27, Cert.ReferenceIdeal.Hand.tailOps_28, Cert.ReferenceIdeal.Hand.tailOps_29]) WR (Proc.devRef .tc Cert.ReferenceIdeal.main_v34) := by
  simp only [Cert.KernelIdeal.Gen.hostOps1_1, Cert.KernelIdeal.Gen.hostOps1_2, Cert.KernelIdeal.Gen.hostOps1_3, Cert.KernelIdeal.Gen.hostOps1_4, Cert.KernelIdeal.Gen.hostOps1_5, Cert.KernelIdeal.Gen.hostOps1_6, Cert.KernelIdeal.Gen.hostOps1_7, Cert.KernelIdeal.Gen.hostOps1_8, Cert.KernelIdeal.Gen.hostOps1_9, Cert.KernelIdeal.Gen.hostOps1_10, Cert.KernelIdeal.Gen.hostOps1_11, Cert.KernelIdeal.Gen.hostOps1_12, Cert.KernelIdeal.Gen.hostOps1_13, Cert.KernelIdeal.Gen.hostOps1_14, Cert.KernelIdeal.Gen.hostOps1_15, Cert.KernelIdeal.Gen.hostOps1_16, Cert.KernelIdeal.Gen.hostOps1_17, Cert.KernelIdeal.Gen.hostOps1_18, Cert.KernelIdeal.Gen.hostOps1_19, Cert.KernelIdeal.Gen.hostOps1_20, Cert.KernelIdeal.Gen.hostOps1_21, Cert.KernelIdeal.Gen.hostOps1_22, Cert.KernelIdeal.Gen.hostOps1_23, Cert.KernelIdeal.Gen.hostOps1_24, Cert.KernelIdeal.Gen.hostOps1_25, Cert.KernelIdeal.Gen.hostOps1_26, Cert.KernelIdeal.Gen.hostOps1_27, Cert.KernelIdeal.Gen.hostOps1_28, Cert.KernelIdeal.Gen.hostOps1_29, Cert.ReferenceIdeal.Hand.tailOps_1, Cert.ReferenceIdeal.Hand.tailOps_2, Cert.ReferenceIdeal.Hand.tailOps_3, Cert.ReferenceIdeal.Hand.tailOps_4, Cert.ReferenceIdeal.Hand.tailOps_5, Cert.ReferenceIdeal.Hand.tailOps_6, Cert.ReferenceIdeal.Hand.tailOps_7, Cert.ReferenceIdeal.Hand.tailOps_8, Cert.ReferenceIdeal.Hand.tailOps_9, Cert.ReferenceIdeal.Hand.tailOps_10, Cert.ReferenceIdeal.Hand.tailOps_11, Cert.ReferenceIdeal.Hand.tailOps_12, Cert.ReferenceIdeal.Hand.tailOps_13, Cert.ReferenceIdeal.Hand.tailOps_14, Cert.ReferenceIdeal.Hand.tailOps_15, Cert.ReferenceIdeal.Hand.tailOps_16, Cert.ReferenceIdeal.Hand.tailOps_17, Cert.ReferenceIdeal.Hand.tailOps_18, Cert.ReferenceIdeal.Hand.tailOps_19, Cert.ReferenceIdeal.Hand.tailOps_20, Cert.ReferenceIdeal.Hand.tailOps_21, Cert.ReferenceIdeal.Hand.tailOps_22, Cert.ReferenceIdeal.Hand.tailOps_23, Cert.ReferenceIdeal.Hand.tailOps_24, Cert.ReferenceIdeal.Hand.tailOps_25, Cert.ReferenceIdeal.Hand.tailOps_26, Cert.ReferenceIdeal.Hand.tailOps_27, Cert.ReferenceIdeal.Hand.tailOps_28, Cert.ReferenceIdeal.Hand.tailOps_29,
    List.flatten_cons, List.flatten_nil, List.append_nil, List.cons_append, List.nil_append]
  simp only [TRef.nullary, TRef.unary, TRef.binary, TRef.ternary, TRef.quaternary, TRef.nary, TRef.reshape, TRef.of, TRef.toBuf,
    TRef.ofBuf, cast_eq]
  after_results_simp
  rw [hK, hR]
  rfl

end Cert.Tail

end
-- ==== Proof.TailCol2.lean ====
/-
  The compaction's third column, in the kernel program and in the reference.

  After the mask, both programs run the same lines: a running count of the mask, a scatter of ones at the running
  counts, a second running count, and the row-major coordinates of each hit by integer division and remainder, with
  −1 past the number of hits. The third coordinate's column is the same function of the mask in both programs:
  each program's lines are folded into that function of the mask buffer's contents, and the two functions are the
  same term.
-/
import proofs.«157353_j50216757624982_1_alg».proof.Proof.Gen.KernelIdeal.Launch
import proofs.«157353_j50216757624982_1_alg».proof.Proof.RefOps1
import Idealize.ShloMosaic.Lib.StableHlo.Run

set_option maxRecDepth 65536

noncomputable section

namespace Cert.Tail

open Idealize.ShloMosaic Idealize.ShloMosaic.TcCoe Idealize.SL.Sem Idealize.ShloMosaic.StableHlo

variable {F : FTy → Type} [FloatOps F]

set_option maxHeartbeats 16000000 in
/-- The third column before its final broadcast, from valuations that agree on the mask. -/
theorem col2 (WK : Valuation Cert.KernelIdeal.τ Cert.KernelIdeal.sig (Elt F))
    (WR : Valuation Cert.ReferenceIdeal.τ Cert.ReferenceIdeal.sig (Elt F))
    (k : (⟨Cert.KernelIdeal.S16x80x128x128, .i1⟩ : BufTy).Contents (Elt F))
    (hK : WK (Proc.devRef .tc Cert.KernelIdeal.main_v4) = k) (hR : WR (Proc.devRef .tc Cert.ReferenceIdeal.main_v7) = k) :
    (StableHlo.after (List.flatten [Cert.KernelIdeal.Gen.hostOps1_1, Cert.KernelIdeal.Gen.hostOps1_2, Cert.KernelIdeal.Gen.hostOps1_3, Cert.KernelIdeal.Gen.hostOps1_4, Cert.KernelIdeal.Gen.hostOps1_5, Cert.KernelIdeal.Gen.hostOps1_6, Cert.KernelIdeal.Gen.hostOps1_7, Cert.KernelIdeal.Gen.hostOps1_8, Cert.KernelIdeal.Gen.hostOps1_9, Cert.KernelIdeal.Gen.hostOps1_10, Cert.KernelIdeal.Gen.hostOps1_11, Cert.KernelIdeal.Gen.hostOps1_12, Cert.KernelIdeal.Gen.hostOps1_13, Cert.KernelIdeal.Gen.hostOps1_14, Cert.KernelIdeal.Gen.hostOps1_15, Cert.KernelIdeal.Gen.hostOps1_16, Cert.KernelIdeal.Gen.hostOps1_17, Cert.KernelIdeal.Gen.hostOps1_18, Cert.KernelIdeal.Gen.hostOps1_19, Cert.KernelIdeal.Gen.hostOps1_20, Cert.KernelIdeal.Gen.hostOps1_21, Cert.KernelIdeal.Gen.hostOps1_22, Cert.KernelIdeal.Gen.hostOps1_23, Cert.KernelIdeal.Gen.hostOps1_24, Cert.KernelIdeal.Gen.hostOps1_25, Cert.KernelIdeal.Gen.hostOps1_26, Cert.KernelIdeal.Gen.hostOps1_27, Cert.KernelIdeal.Gen.hostOps1_28, Cert.KernelIdeal.Gen.hostOps1_29]) WK (Proc.devRef .tc Cert.KernelIdeal.main_v32)
        : (⟨Cert.KernelIdeal.S16384, .i32⟩ : BufTy).Contents (Elt F))
      = StableHlo.after (List.flatten [Cert.ReferenceIdeal.Hand.tailOps_1, Cert.ReferenceIdeal.Hand.tailOps_2, Cert.ReferenceIdeal.Hand.tailOps_3, Cert.ReferenceIdeal.Hand.tailOps_4, Cert.ReferenceIdeal.Hand.tailOps_5, Cert.ReferenceIdeal.Hand.tailOps_6, Cert.ReferenceIdeal.Hand.tailOps_7, Cert.ReferenceIdeal.Hand.tailOps_8, Cert.ReferenceIdeal.Hand.tailOps_9, Cert.ReferenceIdeal.Hand.tailOps_10, Cert.ReferenceIdeal.Hand.tailOps_11, Cert.ReferenceIdeal.Hand.tailOps_12, Cert.ReferenceIdeal.Hand.tailOps_13, Cert.ReferenceIdeal.Hand.tailOps_14, Cert.ReferenceIdeal.Hand.tailOps_15, Cert.ReferenceIdeal.Hand.tailOps_16, Cert.ReferenceIdeal.Hand.tailOps_17, Cert.ReferenceIdeal.Hand.tailOps_18, Cert.ReferenceIdeal.Hand.tailOps_19, Cert.ReferenceIdeal.Hand.tailOps_20, Cert.ReferenceIdeal.Hand.tailOps_21, Cert.ReferenceIdeal.Hand.tailOps_22, Cert.ReferenceIdeal.Hand.tailOps_23, Cert.ReferenceIdeal.Hand.tailOps_24, Cert.ReferenceIdeal.Hand.tailOps_25, Cert.ReferenceIdeal.Hand.tailOps_26, Cert.ReferenceIdeal.Hand.tailOps_27, Cert.ReferenceIdeal.Hand.tailOps_28, Cert.ReferenceIdeal.Hand.tailOps_29]) WR (Proc.devRef .tc Cert.ReferenceIdeal.main_v35) := by
  simp only [Cert.KernelIdeal.Gen.hostOps1_1, Cert.KernelIdeal.Gen.hostOps1_2, Cert.KernelIdeal.Gen.hostOps1_3, Cert.KernelIdeal.Gen.hostOps1_4, Cert.KernelIdeal.Gen.hostOps1_5, Cert.KernelIdeal.Gen.hostOps1_6, Cert.KernelIdeal.Gen.hostOps1_7, Cert.KernelIdeal.Gen.hostOps1_8, Cert.KernelIdeal.Gen.hostOps1_9, Cert.KernelIdeal.Gen.hostOps1_10, Cert.KernelIdeal.Gen.hostOps1_11, Cert.KernelIdeal.Gen.hostOps1_12, Cert.KernelIdeal.Gen.hostOps1_13, Cert.KernelIdeal.Gen.hostOps1_14, Cert.KernelIdeal.Gen.hostOps1_15, Cert.KernelIdeal.Gen.hostOps1_16, Cert.KernelIdeal.Gen.hostOps1_17, Cert.KernelIdeal.Gen.hostOps1_18, Cert.KernelIdeal.Gen.hostOps1_19, Cert.KernelIdeal.Gen.hostOps1_20, Cert.KernelIdeal.Gen.hostOps1_21, Cert.KernelIdeal.Gen.hostOps1_22, Cert.KernelIdeal.Gen.hostOps1_23, Cert.KernelIdeal.Gen.hostOps1_24, Cert.KernelIdeal.Gen.hostOps1_25, Cert.KernelIdeal.Gen.hostOps1_26, Cert.KernelIdeal.Gen.hostOps1_27, Cert.KernelIdeal.Gen.hostOps1_28, Cert.KernelIdeal.Gen.hostOps1_29, Cert.ReferenceIdeal.Hand.tailOps_1, Cert.ReferenceIdeal.Hand.tailOps_2, Cert.ReferenceIdeal.Hand.tailOps_3, Cert.ReferenceIdeal.Hand.tailOps_4, Cert.ReferenceIdeal.Hand.tailOps_5, Cert.ReferenceIdeal.Hand.tailOps_6, Cert.ReferenceIdeal.Hand.tailOps_7, Cert.ReferenceIdeal.Hand.tailOps_8, Cert.ReferenceIdeal.Hand.tailOps_9, Cert.ReferenceIdeal.Hand.tailOps_10, Cert.ReferenceIdeal.Hand.tailOps_11, Cert.ReferenceIdeal.Hand.tailOps_12, Cert.ReferenceIdeal.Hand.tailOps_13, Cert.ReferenceIdeal.Hand.tailOps_14, Cert.ReferenceIdeal.Hand.tailOps_15, Cert.ReferenceIdeal.Hand.tailOps_16, Cert.ReferenceIdeal.Hand.tailOps_17, Cert.ReferenceIdeal.Hand.tailOps_18, Cert.ReferenceIdeal.Hand.tailOps_19, Cert.ReferenceIdeal.Hand.tailOps_20, Cert.ReferenceIdeal.Hand.tailOps_21, Cert.ReferenceIdeal.Hand.tailOps_22, Cert.ReferenceIdeal.Hand.tailOps_23, Cert.ReferenceIdeal.Hand.tailOps_24, Cert.ReferenceIdeal.Hand.tailOps_25, Cert.ReferenceIdeal.Hand.tailOps_26, Cert.ReferenceIdeal.Hand.tailOps_27, Cert.ReferenceIdeal.Hand.tailOps_28, Cert.ReferenceIdeal.Hand.tailOps_29,
    List.flatten_cons, List.flatten_nil, List.append_nil, List.cons_append, List.nil_append]
  simp only [TRef.nullary, TRef.unary, TRef.binary, TRef.ternary, TRef.quaternary, TRef.nary, TRef.reshape, TRef.of, TRef.toBuf,
    TRef.ofBuf, cast_eq]
  after_results_simp
  rw [hK, hR]
  rfl

end Cert.Tail

end
-- ==== Proof.TailCol3.lean ====
/-
  The compaction's fourth column, in the kernel program and in the reference.

  After the mask, both programs run the same lines: a running count of the mask, a scatter of ones at the running
  counts, a second running count, and the row-major coordinates of each hit by integer division and remainder, with
  −1 past the number of hits. The fourth coordinate's column is the same function of the mask in both programs:
  each program's lines are folded into that function of the mask buffer's contents, and the two functions are the
  same term.
-/
import proofs.«157353_j50216757624982_1_alg».proof.Proof.Gen.KernelIdeal.Launch
import proofs.«157353_j50216757624982_1_alg».proof.Proof.RefOps1
import Idealize.ShloMosaic.Lib.StableHlo.Run

set_option maxRecDepth 65536

noncomputable section

namespace Cert.Tail

open Idealize.ShloMosaic Idealize.ShloMosaic.TcCoe Idealize.SL.Sem Idealize.ShloMosaic.StableHlo

variable {F : FTy → Type} [FloatOps F]

set_option maxHeartbeats 16000000 in
/-- The fourth column before its final broadcast, from valuations that agree on the mask. -/
theorem col3 (WK : Valuation Cert.KernelIdeal.τ Cert.KernelIdeal.sig (Elt F))
    (WR : Valuation Cert.ReferenceIdeal.τ Cert.ReferenceIdeal.sig (Elt F))
    (k : (⟨Cert.KernelIdeal.S16x80x128x128, .i1⟩ : BufTy).Contents (Elt F))
    (hK : WK (Proc.devRef .tc Cert.KernelIdeal.main_v4) = k) (hR : WR (Proc.devRef .tc Cert.ReferenceIdeal.main_v7) = k) :
    (StableHlo.after (List.flatten [Cert.KernelIdeal.Gen.hostOps1_1, Cert.KernelIdeal.Gen.hostOps1_2, Cert.KernelIdeal.Gen.hostOps1_3, Cert.KernelIdeal.Gen.hostOps1_4, Cert.KernelIdeal.Gen.hostOps1_5, Cert.KernelIdeal.Gen.hostOps1_6, Cert.KernelIdeal.Gen.hostOps1_7, Cert.KernelIdeal.Gen.hostOps1_8, Cert.KernelIdeal.Gen.hostOps1_9, Cert.KernelIdeal.Gen.hostOps1_10, Cert.KernelIdeal.Gen.hostOps1_11, Cert.KernelIdeal.Gen.hostOps1_12, Cert.KernelIdeal.Gen.hostOps1_13, Cert.KernelIdeal.Gen.hostOps1_14, Cert.KernelIdeal.Gen.hostOps1_15, Cert.KernelIdeal.Gen.hostOps1_16, Cert.KernelIdeal.Gen.hostOps1_17, Cert.KernelIdeal.Gen.hostOps1_18, Cert.KernelIdeal.Gen.hostOps1_19, Cert.KernelIdeal.Gen.hostOps1_20, Cert.KernelIdeal.Gen.hostOps1_21, Cert.KernelIdeal.Gen.hostOps1_22, Cert.KernelIdeal.Gen.hostOps1_23, Cert.KernelIdeal.Gen.hostOps1_24, Cert.KernelIdeal.Gen.hostOps1_25, Cert.KernelIdeal.Gen.hostOps1_26, Cert.KernelIdeal.Gen.hostOps1_27, Cert.KernelIdeal.Gen.hostOps1_28, Cert.KernelIdeal.Gen.hostOps1_29]) WK (Proc.devRef .tc Cert.KernelIdeal.main_v33)
        : (⟨Cert.KernelIdeal.S16384, .i32⟩ : BufTy).Contents (Elt F))
      = StableHlo.after (List.flatten [Cert.ReferenceIdeal.Hand.tailOps_1, Cert.ReferenceIdeal.Hand.tailOps_2, Cert.ReferenceIdeal.Hand.tailOps_3, Cert.ReferenceIdeal.Hand.tailOps_4, Cert.ReferenceIdeal.Hand.tailOps_5, Cert.ReferenceIdeal.Hand.tailOps_6, Cert.ReferenceIdeal.Hand.tailOps_7, Cert.ReferenceIdeal.Hand.tailOps_8, Cert.ReferenceIdeal.Hand.tailOps_9, Cert.ReferenceIdeal.Hand.tailOps_10, Cert.ReferenceIdeal.Hand.tailOps_11, Cert.ReferenceIdeal.Hand.tailOps_12, Cert.ReferenceIdeal.Hand.tailOps_13, Cert.ReferenceIdeal.Hand.tailOps_14, Cert.ReferenceIdeal.Hand.tailOps_15, Cert.ReferenceIdeal.Hand.tailOps_16, Cert.ReferenceIdeal.Hand.tailOps_17, Cert.ReferenceIdeal.Hand.tailOps_18, Cert.ReferenceIdeal.Hand.tailOps_19, Cert.ReferenceIdeal.Hand.tailOps_20, Cert.ReferenceIdeal.Hand.tailOps_21, Cert.ReferenceIdeal.Hand.tailOps_22, Cert.ReferenceIdeal.Hand.tailOps_23, Cert.ReferenceIdeal.Hand.tailOps_24, Cert.ReferenceIdeal.Hand.tailOps_25, Cert.ReferenceIdeal.Hand.tailOps_26, Cert.ReferenceIdeal.Hand.tailOps_27, Cert.ReferenceIdeal.Hand.tailOps_28, Cert.ReferenceIdeal.Hand.tailOps_29]) WR (Proc.devRef .tc Cert.ReferenceIdeal.main_v36) := by
  simp only [Cert.KernelIdeal.Gen.hostOps1_1, Cert.KernelIdeal.Gen.hostOps1_2, Cert.KernelIdeal.Gen.hostOps1_3, Cert.KernelIdeal.Gen.hostOps1_4, Cert.KernelIdeal.Gen.hostOps1_5, Cert.KernelIdeal.Gen.hostOps1_6, Cert.KernelIdeal.Gen.hostOps1_7, Cert.KernelIdeal.Gen.hostOps1_8, Cert.KernelIdeal.Gen.hostOps1_9, Cert.KernelIdeal.Gen.hostOps1_10, Cert.KernelIdeal.Gen.hostOps1_11, Cert.KernelIdeal.Gen.hostOps1_12, Cert.KernelIdeal.Gen.hostOps1_13, Cert.KernelIdeal.Gen.hostOps1_14, Cert.KernelIdeal.Gen.hostOps1_15, Cert.KernelIdeal.Gen.hostOps1_16, Cert.KernelIdeal.Gen.hostOps1_17, Cert.KernelIdeal.Gen.hostOps1_18, Cert.KernelIdeal.Gen.hostOps1_19, Cert.KernelIdeal.Gen.hostOps1_20, Cert.KernelIdeal.Gen.hostOps1_21, Cert.KernelIdeal.Gen.hostOps1_22, Cert.KernelIdeal.Gen.hostOps1_23, Cert.KernelIdeal.Gen.hostOps1_24, Cert.KernelIdeal.Gen.hostOps1_25, Cert.KernelIdeal.Gen.hostOps1_26, Cert.KernelIdeal.Gen.hostOps1_27, Cert.KernelIdeal.Gen.hostOps1_28, Cert.KernelIdeal.Gen.hostOps1_29, Cert.ReferenceIdeal.Hand.tailOps_1, Cert.ReferenceIdeal.Hand.tailOps_2, Cert.ReferenceIdeal.Hand.tailOps_3, Cert.ReferenceIdeal.Hand.tailOps_4, Cert.ReferenceIdeal.Hand.tailOps_5, Cert.ReferenceIdeal.Hand.tailOps_6, Cert.ReferenceIdeal.Hand.tailOps_7, Cert.ReferenceIdeal.Hand.tailOps_8, Cert.ReferenceIdeal.Hand.tailOps_9, Cert.ReferenceIdeal.Hand.tailOps_10, Cert.ReferenceIdeal.Hand.tailOps_11, Cert.ReferenceIdeal.Hand.tailOps_12, Cert.ReferenceIdeal.Hand.tailOps_13, Cert.ReferenceIdeal.Hand.tailOps_14, Cert.ReferenceIdeal.Hand.tailOps_15, Cert.ReferenceIdeal.Hand.tailOps_16, Cert.ReferenceIdeal.Hand.tailOps_17, Cert.ReferenceIdeal.Hand.tailOps_18, Cert.ReferenceIdeal.Hand.tailOps_19, Cert.ReferenceIdeal.Hand.tailOps_20, Cert.ReferenceIdeal.Hand.tailOps_21, Cert.ReferenceIdeal.Hand.tailOps_22, Cert.ReferenceIdeal.Hand.tailOps_23, Cert.ReferenceIdeal.Hand.tailOps_24, Cert.ReferenceIdeal.Hand.tailOps_25, Cert.ReferenceIdeal.Hand.tailOps_26, Cert.ReferenceIdeal.Hand.tailOps_27, Cert.ReferenceIdeal.Hand.tailOps_28, Cert.ReferenceIdeal.Hand.tailOps_29,
    List.flatten_cons, List.flatten_nil, List.append_nil, List.cons_append, List.nil_append]
  simp only [TRef.nullary, TRef.unary, TRef.binary, TRef.ternary, TRef.quaternary, TRef.nary, TRef.reshape, TRef.of, TRef.toBuf,
    TRef.ofBuf, cast_eq]
  after_results_simp
  rw [hK, hR]
  rfl

end Cert.Tail

end
-- ==== Proof.TailBridge.lean ====
/-
  The compaction after the mask, in the kernel program and in the reference, gives the same rows.

  Both programs end with the same lines: four columns of coordinates, each a function of the mask alone, broadcast to
  [16384, 1] and joined into the [16384, 4] result. The four columns agree program to program when the mask buffers
  hold the same contents; the last five lines (four broadcasts and the join) are read off directly; so the results
  agree.
-/
import proofs.«157353_j50216757624982_1_alg».proof.Proof.TailCol0
import proofs.«157353_j50216757624982_1_alg».proof.Proof.TailCol1
import proofs.«157353_j50216757624982_1_alg».proof.Proof.TailCol2
import proofs.«157353_j50216757624982_1_alg».proof.Proof.TailCol3
import proofs.«157353_j50216757624982_1_alg».proof.Proof.LibHostFold

set_option maxRecDepth 65536

noncomputable section

namespace Cert.Tail

open Idealize.ShloMosaic Idealize.ShloMosaic.TcCoe Idealize.SL.Sem Idealize.ShloMosaic.StableHlo

variable {F : FTy → Type} [FloatOps F]

section Join
open Cert.KernelIdeal Cert.KernelIdeal.Facts₀ Cert.KernelIdeal.Facts

/-- Four columns broadcast to [16384, 1] and joined along the second axis. -/
def join (a b c d : (⟨S16384, .i32⟩ : BufTy).Contents (Elt F)) : (⟨S16384x4, .i32⟩ : BufTy).Contents (Elt F) :=
  concatenate S16384x4 1 [⟨S16384x1, broadcastInDim S16384x1 ![0] bcast_S16384_S16384x1_0 a⟩,
    ⟨S16384x1, broadcastInDim S16384x1 ![0] bcast_S16384_S16384x1_0 b⟩,
    ⟨S16384x1, broadcastInDim S16384x1 ![0] bcast_S16384_S16384x1_0 c⟩,
    ⟨S16384x1, broadcastInDim S16384x1 ![0] bcast_S16384_S16384x1_0 d⟩]
    concatenates_S16384x1_S16384x1_S16384x1_S16384x1_S16384x4_d1

end Join

/-- The kernel program's last five lines. -/
theorem lastK (W : Valuation Cert.KernelIdeal.τ Cert.KernelIdeal.sig (Elt F)) :
    StableHlo.after Cert.KernelIdeal.Gen.hostOps1_30 W (Proc.devRef .tc Cert.KernelIdeal.main_v38)
      = join (W (Proc.devRef .tc Cert.KernelIdeal.main_v30)) (W (Proc.devRef .tc Cert.KernelIdeal.main_v31))
          (W (Proc.devRef .tc Cert.KernelIdeal.main_v32)) (W (Proc.devRef .tc Cert.KernelIdeal.main_v33)) := rfl

/-- The reference's last five lines. -/
theorem lastR (W : Valuation Cert.ReferenceIdeal.τ Cert.ReferenceIdeal.sig (Elt F)) :
    StableHlo.after Cert.ReferenceIdeal.Hand.tailOps_30 W (Proc.devRef .tc Cert.ReferenceIdeal.main_v41)
      = join (W (Proc.devRef .tc Cert.ReferenceIdeal.main_v33)) (W (Proc.devRef .tc Cert.ReferenceIdeal.main_v34))
          (W (Proc.devRef .tc Cert.ReferenceIdeal.main_v35)) (W (Proc.devRef .tc Cert.ReferenceIdeal.main_v36)) := rfl

/-- THE TWO COMPACTIONS AGREE from valuations that hold the same mask. -/
theorem tail_agree (WK : Valuation Cert.KernelIdeal.τ Cert.KernelIdeal.sig (Elt F))
    (WR : Valuation Cert.ReferenceIdeal.τ Cert.ReferenceIdeal.sig (Elt F))
    (k : (⟨Cert.KernelIdeal.S16x80x128x128, .i1⟩ : BufTy).Contents (Elt F))
    (hK : WK (Proc.devRef .tc Cert.KernelIdeal.main_v4) = k) (hR : WR (Proc.devRef .tc Cert.ReferenceIdeal.main_v7) = k) :
    (StableHlo.after (List.flatten [Cert.KernelIdeal.Gen.hostOps1_1, Cert.KernelIdeal.Gen.hostOps1_2, Cert.KernelIdeal.Gen.hostOps1_3, Cert.KernelIdeal.Gen.hostOps1_4, Cert.KernelIdeal.Gen.hostOps1_5, Cert.KernelIdeal.Gen.hostOps1_6, Cert.KernelIdeal.Gen.hostOps1_7, Cert.KernelIdeal.Gen.hostOps1_8, Cert.KernelIdeal.Gen.hostOps1_9, Cert.KernelIdeal.Gen.hostOps1_10, Cert.KernelIdeal.Gen.hostOps1_11, Cert.KernelIdeal.Gen.hostOps1_12, Cert.KernelIdeal.Gen.hostOps1_13, Cert.KernelIdeal.Gen.hostOps1_14, Cert.KernelIdeal.Gen.hostOps1_15, Cert.KernelIdeal.Gen.hostOps1_16, Cert.KernelIdeal.Gen.hostOps1_17, Cert.KernelIdeal.Gen.hostOps1_18, Cert.KernelIdeal.Gen.hostOps1_19, Cert.KernelIdeal.Gen.hostOps1_20, Cert.KernelIdeal.Gen.hostOps1_21, Cert.KernelIdeal.Gen.hostOps1_22, Cert.KernelIdeal.Gen.hostOps1_23, Cert.KernelIdeal.Gen.hostOps1_24, Cert.KernelIdeal.Gen.hostOps1_25, Cert.KernelIdeal.Gen.hostOps1_26, Cert.KernelIdeal.Gen.hostOps1_27, Cert.KernelIdeal.Gen.hostOps1_28, Cert.KernelIdeal.Gen.hostOps1_29, Cert.KernelIdeal.Gen.hostOps1_30]) WK (Proc.devRef .tc Cert.KernelIdeal.main_v38)
        : (⟨Cert.KernelIdeal.S16384x4, .i32⟩ : BufTy).Contents (Elt F))
      = StableHlo.after (List.flatten [Cert.ReferenceIdeal.Hand.tailOps_1, Cert.ReferenceIdeal.Hand.tailOps_2, Cert.ReferenceIdeal.Hand.tailOps_3, Cert.ReferenceIdeal.Hand.tailOps_4, Cert.ReferenceIdeal.Hand.tailOps_5, Cert.ReferenceIdeal.Hand.tailOps_6, Cert.ReferenceIdeal.Hand.tailOps_7, Cert.ReferenceIdeal.Hand.tailOps_8, Cert.ReferenceIdeal.Hand.tailOps_9, Cert.ReferenceIdeal.Hand.tailOps_10, Cert.ReferenceIdeal.Hand.tailOps_11, Cert.ReferenceIdeal.Hand.tailOps_12, Cert.ReferenceIdeal.Hand.tailOps_13, Cert.ReferenceIdeal.Hand.tailOps_14, Cert.ReferenceIdeal.Hand.tailOps_15, Cert.ReferenceIdeal.Hand.tailOps_16, Cert.ReferenceIdeal.Hand.tailOps_17, Cert.ReferenceIdeal.Hand.tailOps_18, Cert.ReferenceIdeal.Hand.tailOps_19, Cert.ReferenceIdeal.Hand.tailOps_20, Cert.ReferenceIdeal.Hand.tailOps_21, Cert.ReferenceIdeal.Hand.tailOps_22, Cert.ReferenceIdeal.Hand.tailOps_23, Cert.ReferenceIdeal.Hand.tailOps_24, Cert.ReferenceIdeal.Hand.tailOps_25, Cert.ReferenceIdeal.Hand.tailOps_26, Cert.ReferenceIdeal.Hand.tailOps_27, Cert.ReferenceIdeal.Hand.tailOps_28, Cert.ReferenceIdeal.Hand.tailOps_29, Cert.ReferenceIdeal.Hand.tailOps_30]) WR (Proc.devRef .tc Cert.ReferenceIdeal.main_v41) := by
  have eK : List.flatten [Cert.KernelIdeal.Gen.hostOps1_1, Cert.KernelIdeal.Gen.hostOps1_2, Cert.KernelIdeal.Gen.hostOps1_3, Cert.KernelIdeal.Gen.hostOps1_4, Cert.KernelIdeal.Gen.hostOps1_5, Cert.KernelIdeal.Gen.hostOps1_6, Cert.KernelIdeal.Gen.hostOps1_7, Cert.KernelIdeal.Gen.hostOps1_8, Cert.KernelIdeal.Gen.hostOps1_9, Cert.KernelIdeal.Gen.hostOps1_10, Cert.KernelIdeal.Gen.hostOps1_11, Cert.KernelIdeal.Gen.hostOps1_12, Cert.KernelIdeal.Gen.hostOps1_13, Cert.KernelIdeal.Gen.hostOps1_14, Cert.KernelIdeal.Gen.hostOps1_15, Cert.KernelIdeal.Gen.hostOps1_16, Cert.KernelIdeal.Gen.hostOps1_17, Cert.KernelIdeal.Gen.hostOps1_18, Cert.KernelIdeal.Gen.hostOps1_19, Cert.KernelIdeal.Gen.hostOps1_20, Cert.KernelIdeal.Gen.hostOps1_21, Cert.KernelIdeal.Gen.hostOps1_22, Cert.KernelIdeal.Gen.hostOps1_23, Cert.KernelIdeal.Gen.hostOps1_24, Cert.KernelIdeal.Gen.hostOps1_25, Cert.KernelIdeal.Gen.hostOps1_26, Cert.KernelIdeal.Gen.hostOps1_27, Cert.KernelIdeal.Gen.hostOps1_28, Cert.KernelIdeal.Gen.hostOps1_29, Cert.KernelIdeal.Gen.hostOps1_30]
      = List.flatten [Cert.KernelIdeal.Gen.hostOps1_1, Cert.KernelIdeal.Gen.hostOps1_2, Cert.KernelIdeal.Gen.hostOps1_3, Cert.KernelIdeal.Gen.hostOps1_4, Cert.KernelIdeal.Gen.hostOps1_5, Cert.KernelIdeal.Gen.hostOps1_6, Cert.KernelIdeal.Gen.hostOps1_7, Cert.KernelIdeal.Gen.hostOps1_8, Cert.KernelIdeal.Gen.hostOps1_9, Cert.KernelIdeal.Gen.hostOps1_10, Cert.KernelIdeal.Gen.hostOps1_11, Cert.KernelIdeal.Gen.hostOps1_12, Cert.KernelIdeal.Gen.hostOps1_13, Cert.KernelIdeal.Gen.hostOps1_14, Cert.KernelIdeal.Gen.hostOps1_15, Cert.KernelIdeal.Gen.hostOps1_16, Cert.KernelIdeal.Gen.hostOps1_17, Cert.KernelIdeal.Gen.hostOps1_18, Cert.KernelIdeal.Gen.hostOps1_19, Cert.KernelIdeal.Gen.hostOps1_20, Cert.KernelIdeal.Gen.hostOps1_21, Cert.KernelIdeal.Gen.hostOps1_22, Cert.KernelIdeal.Gen.hostOps1_23, Cert.KernelIdeal.Gen.hostOps1_24, Cert.KernelIdeal.Gen.hostOps1_25, Cert.KernelIdeal.Gen.hostOps1_26, Cert.KernelIdeal.Gen.hostOps1_27, Cert.KernelIdeal.Gen.hostOps1_28, Cert.KernelIdeal.Gen.hostOps1_29] ++ (Cert.KernelIdeal.Gen.hostOps1_30 : List (HloOp Cert.KernelIdeal.τ Cert.KernelIdeal.sig (Elt F))) := by
    simp only [List.flatten_cons, List.flatten_nil, List.append_nil, List.append_assoc]
  have eR : List.flatten [Cert.ReferenceIdeal.Hand.tailOps_1, Cert.ReferenceIdeal.Hand.tailOps_2, Cert.ReferenceIdeal.Hand.tailOps_3, Cert.ReferenceIdeal.Hand.tailOps_4, Cert.ReferenceIdeal.Hand.tailOps_5, Cert.ReferenceIdeal.Hand.tailOps_6, Cert.ReferenceIdeal.Hand.tailOps_7, Cert.ReferenceIdeal.Hand.tailOps_8, Cert.ReferenceIdeal.Hand.tailOps_9, Cert.ReferenceIdeal.Hand.tailOps_10, Cert.ReferenceIdeal.Hand.tailOps_11, Cert.ReferenceIdeal.Hand.tailOps_12, Cert.ReferenceIdeal.Hand.tailOps_13, Cert.ReferenceIdeal.Hand.tailOps_14, Cert.ReferenceIdeal.Hand.tailOps_15, Cert.ReferenceIdeal.Hand.tailOps_16, Cert.ReferenceIdeal.Hand.tailOps_17, Cert.ReferenceIdeal.Hand.tailOps_18, Cert.ReferenceIdeal.Hand.tailOps_19, Cert.ReferenceIdeal.Hand.tailOps_20, Cert.ReferenceIdeal.Hand.tailOps_21, Cert.ReferenceIdeal.Hand.tailOps_22, Cert.ReferenceIdeal.Hand.tailOps_23, Cert.ReferenceIdeal.Hand.tailOps_24, Cert.ReferenceIdeal.Hand.tailOps_25, Cert.ReferenceIdeal.Hand.tailOps_26, Cert.ReferenceIdeal.Hand.tailOps_27, Cert.ReferenceIdeal.Hand.tailOps_28, Cert.ReferenceIdeal.Hand.tailOps_29, Cert.ReferenceIdeal.Hand.tailOps_30]
      = List.flatten [Cert.ReferenceIdeal.Hand.tailOps_1, Cert.ReferenceIdeal.Hand.tailOps_2, Cert.ReferenceIdeal.Hand.tailOps_3, Cert.ReferenceIdeal.Hand.tailOps_4, Cert.ReferenceIdeal.Hand.tailOps_5, Cert.ReferenceIdeal.Hand.tailOps_6, Cert.ReferenceIdeal.Hand.tailOps_7, Cert.ReferenceIdeal.Hand.tailOps_8, Cert.ReferenceIdeal.Hand.tailOps_9, Cert.ReferenceIdeal.Hand.tailOps_10, Cert.ReferenceIdeal.Hand.tailOps_11, Cert.ReferenceIdeal.Hand.tailOps_12, Cert.ReferenceIdeal.Hand.tailOps_13, Cert.ReferenceIdeal.Hand.tailOps_14, Cert.ReferenceIdeal.Hand.tailOps_15, Cert.ReferenceIdeal.Hand.tailOps_16, Cert.ReferenceIdeal.Hand.tailOps_17, Cert.ReferenceIdeal.Hand.tailOps_18, Cert.ReferenceIdeal.Hand.tailOps_19, Cert.ReferenceIdeal.Hand.tailOps_20, Cert.ReferenceIdeal.Hand.tailOps_21, Cert.ReferenceIdeal.Hand.tailOps_22, Cert.ReferenceIdeal.Hand.tailOps_23, Cert.ReferenceIdeal.Hand.tailOps_24, Cert.ReferenceIdeal.Hand.tailOps_25, Cert.ReferenceIdeal.Hand.tailOps_26, Cert.ReferenceIdeal.Hand.tailOps_27, Cert.ReferenceIdeal.Hand.tailOps_28, Cert.ReferenceIdeal.Hand.tailOps_29] ++ (Cert.ReferenceIdeal.Hand.tailOps_30 : List (HloOp Cert.ReferenceIdeal.τ Cert.ReferenceIdeal.sig (Elt F))) := by
    simp only [List.flatten_cons, List.flatten_nil, List.append_nil, List.append_assoc]
  rw [eK, eR, Cert.LibHostFold.after_append, Cert.LibHostFold.after_append, lastK, lastR, col0 WK WR k hK hR, col1 WK WR k hK hR, col2 WK WR k hK hR,
    col3 WK WR k hK hR]

end Cert.Tail

end
-- ==== Proof.lean ====
/-
  Non-maximum suppression: a Pallas kernel against its jnp reference, over the extended reals.

  Both programs take x : f32[16, 80, 128, 128], pool every 128 × 128 image with a 51 × 51 window padded by −inf,
  keep the pixels that equal their pooled value where it exceeds one half, and list the first 16384 kept positions
  as rows of four coordinates (−1 beyond the number of hits). The kernel pools by fifty masked rotations folded by
  maximum along each image axis, on blocks of 32 images of the argument flattened to [1280, 128, 128], and stores
  the mask as 32-bit words; its host program reshapes the words back and compares them with zero. The reference
  pools by two windowed maxima. Both arrangements compute the same sliding maxima (a maximum is associative,
  commutative and idempotent, and −inf is its identity), so the two masks agree index by index; the compaction that
  follows is the same function of the mask in both programs.

  The three frames: each program terminates without fault and leaves its argument as it found it. The word-level
  kernel and its idealization are one text read at two instances, so one frame proof, generic in the instance,
  serves both; the reference is a straight line of host operations. No operation was rewritten by the
  idealization, so nothing is owed for it.
-/
import proofs.«157353_j50216757624982_1_alg».proof.Defs
import proofs.«157353_j50216757624982_1_alg».proof.Proof.Gen.Kernel
import proofs.«157353_j50216757624982_1_alg».proof.Proof.Gen.KernelIdeal
import proofs.«157353_j50216757624982_1_alg».proof.Proof.Gen.ReferenceIdeal
import proofs.«157353_j50216757624982_1_alg».proof.Proof.Gen.Pre_finite_inputs
import proofs.«157353_j50216757624982_1_alg».proof.Proof.KFrame
import proofs.«157353_j50216757624982_1_alg».proof.Proof.KIRun
import proofs.«157353_j50216757624982_1_alg».proof.Proof.KIValue
import proofs.«157353_j50216757624982_1_alg».proof.Proof.RefRun
import proofs.«157353_j50216757624982_1_alg».proof.Proof.RefValue
import proofs.«157353_j50216757624982_1_alg».proof.Proof.TailBridge

set_option maxRecDepth 65536

noncomputable section

namespace Cert.Proof

open Idealize.ShloMosaic Idealize.ShloMosaic.TcCoe Idealize.SL.Sem Idealize.ShloMosaic.StableHlo

/-- The word-level kernel program's frame. -/
theorem frame_k : Cert.frame_Kernel := fun m ρ _ => Cert.Kernel.Hand.frame m ρ

/-- The idealized kernel program's frame. -/
theorem frame_ki : Cert.frame_KernelIdeal := fun m ρ _ => Cert.KernelIdeal.Hand.frame m ρ

/-- No host operation of the reference writes its argument. -/
theorem ref_kept (M : Valuation Cert.ReferenceIdeal.τ Cert.ReferenceIdeal.sig (Elt Ideal)) :
    StableHlo.after (Cert.ReferenceIdeal.Hand.headOps ++ Cert.ReferenceIdeal.Hand.tailOps) M (Proc.devRef .tc Cert.ReferenceIdeal.main_arg0)
      = M (Proc.devRef .tc Cert.ReferenceIdeal.main_arg0) := by
  rw [Cert.LibHostFold.after_append, Cert.ReferenceIdeal.Hand.tail_arg0, Cert.ReferenceIdeal.Hand.head_arg0]

/-- The reference's frame: its run, read at the argument. -/
theorem frame_ri : Cert.frame_ReferenceIdeal := fun m ρ _ =>
  (θ_run Cert.ReferenceIdeal.defs _ _).mono (fun _ h c => (h c Cert.ReferenceIdeal.main_arg0).trans (ref_kept _))
    (Cert.ReferenceIdeal.Hand.run (F := Ideal) m ρ)

/-- The idealization rewrote no operation. -/
theorem preserves : Cert.preserves_Kernel_KernelIdeal := trivial

/-- The body's stored value at an index, and the reference's mask at an index, both as the specification's mask bit. -/
theorem body_value : Cert.KernelIdeal.Hand.BodyValue := Cert.KernelIdeal.Hand.nmsVal_apply

/-- Both programs end with the same rows. -/
theorem algebraic : Cert.algebraic_KernelIdeal_ReferenceIdeal := by
  intro m ρ m' ρ' _ hagree
  refine ⟨fun c => Pipeline.afterTail₀ Cert.KernelIdeal.cfgs (Cert.KernelIdeal.Hand.dats m) 0 (Cert.KernelIdeal.Hand.V0 m)
      Cert.KernelIdeal.Hand.tailStretches c Cert.KernelIdeal.main_v38, Cert.KernelIdeal.Hand.run_result m ρ, ?_⟩
  refine (θ_run Cert.ReferenceIdeal.defs _ _).mono (fun _ h c => ⟨(h c Cert.ReferenceIdeal.main_v41).trans ?_,
    (h c Cert.ReferenceIdeal.main_arg0).trans (ref_kept _)⟩) (Cert.ReferenceIdeal.Hand.run (F := Ideal) m' ρ')
  beta_reduce
  rw [Cert.KernelIdeal.Hand.result_eq, Cert.LibHostFold.after_append]
  refine (Cert.Tail.tail_agree _ _ (Cert.KernelIdeal.Hand.hostKeep (m ((c : Thread Cert.KernelIdeal.nD Cert.KernelIdeal.τ).loc Cert.KernelIdeal.main_arg0)))
    (Cert.KernelIdeal.Hand.keep_after m body_value c) ?_).symm
  rw [Cert.ReferenceIdeal.Hand.head_keep, Cert.KernelIdeal.Hand.hostKeep_eq_refKeep Cert.ReferenceIdeal.Hand.refKeep_apply]
  exact congrArg _ (hagree c)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
